-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 512]⟩ ⟨2, ![1024, 512]⟩ (Layout.meshBlock [2, 2, 4] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S512x512 : Shape := ⟨2, ![512, 512]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel

variable [Facts]

def fn {F : FTy → Type} [FloatOps F] (main_arg0 : FVec F S512x512 .f32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  main_v3
-- ==== Pre_finite_inputs_ReferenceIdeal.lean ====
abbrev S1024x512 : Shape := ⟨2, ![1024, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel

variable [Facts]

def fn {F : FTy → Type} [FloatOps F] (main_arg0 : FVec F S1024x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  main_v3
-- ==== Kernel.lean ====
abbrev S512x512 : Shape := ⟨2, ![512, 512]⟩
abbrev S1024x512 : Shape := ⟨2, ![1024, 512]⟩
abbrev S16x16x512 : Shape := ⟨3, ![16, 16, 512]⟩
abbrev S_ : Shape := ⟨0, ![]⟩
abbrev S16 : Shape := ⟨1, ![16]⟩
abbrev S1 : Shape := ⟨1, ![1]⟩
abbrev S1x16x512 : Shape := ⟨3, ![1, 16, 512]⟩
abbrev S16x512 : Shape := ⟨2, ![16, 512]⟩

abbrev nBuf : Space → Nat
  | .hbm => 2
  | .vmem => 2
  | .smem => 0
  | _ => 0

abbrev bufTy : (tb : Table) → Fin (tcTables nBuf tb) → BufTy
  | .hbm, ⟨0, _⟩ => ⟨S512x512, .f32⟩
  | .hbm, ⟨1, _⟩ => ⟨S1024x512, .f32⟩
  | .local _ .vmem, ⟨0, _⟩ => ⟨S512x512, .f32⟩
  | .local _ .vmem, ⟨1, _⟩ => ⟨S16x16x512, .f32⟩
  | _, _ => ⟨S512x512, .f32⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  { ofTc nBuf bufTy 1 67 bufScoped semScoped dmaSemScoped tileCredit tileCredit_eq_zero tileCredit_pos with
    barrierSem := RefSig.barrierTable [(0, 0)]
    barrierSem_unscoped := RefSig.barrierTable_unscoped [(0, 0)] semScoped rfl }

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_off1 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32 : BitVec 32 := 512#32
  let v11 : BitVec 32 := Scalar.muli v2 c512_i32
  let c0_i32 : BitVec 32 := 0#32
  ![v11.toNat, 0]
def k0_dev1 (d0 : Dev nD) : Nat :=
  let c0_i32_6 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_5 : BitVec 32 := 8#32
  let v14 : BitVec 32 := Scalar.muli v9 c8_i32_5
  let v15 : BitVec 32 := Scalar.addi c0_i32_6 v14
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_7 : BitVec 32 := 4#32
  let v16 : BitVec 32 := Scalar.muli v5 c4_i32_7
  let v17 : BitVec 32 := Scalar.addi v15 v16
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v18 : BitVec 32 := Scalar.muli v8 c1_i32_8
  let v19 : BitVec 32 := Scalar.addi v17 v18
  v19.toNat
def k0_dev2 (d0 : Dev nD) : Nat :=
  let c0_i32_11 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_10 : BitVec 32 := 8#32
  let v20 : BitVec 32 := Scalar.muli v2 c8_i32_10
  let v21 : BitVec 32 := Scalar.addi c0_i32_11 v20
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_12 : BitVec 32 := 4#32
  let v22 : BitVec 32 := Scalar.muli v10 c4_i32_12
  let v23 : BitVec 32 := Scalar.addi v21 v22
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_13 : BitVec 32 := 1#32
  let v24 : BitVec 32 := Scalar.muli v8 c1_i32_13
  let v25 : BitVec 32 := Scalar.addi v23 v24
  v25.toNat
def k0_off2 (d0 : Dev nD) (c0_i32_15 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c256_i32 : BitVec 32 := 256#32
  let v26 : BitVec 32 := Scalar.muli v5 c256_i32
  let v27 : BitVec 32 := Scalar.addi v26 c0_i32_15
  let c0_i32_25 : BitVec 32 := 0#32
  ![v27.toNat, 0]
def k0_dev3 (d0 : Dev nD) : Nat :=
  let c0_i32_20 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_19 : BitVec 32 := 8#32
  let v28 : BitVec 32 := Scalar.muli v9 c8_i32_19
  let v29 : BitVec 32 := Scalar.addi c0_i32_20 v28
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_21 : BitVec 32 := 4#32
  let v30 : BitVec 32 := Scalar.muli v5 c4_i32_21
  let v31 : BitVec 32 := Scalar.addi v29 v30
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_22 : BitVec 32 := 1#32
  let v32 : BitVec 32 := Scalar.muli v8 c1_i32_22
  let v33 : BitVec 32 := Scalar.addi v31 v32
  v33.toNat
def k0_dev4 (d0 : Dev nD) : Nat :=
  let c0_i32_31 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_30 : BitVec 32 := 8#32
  let v43 : BitVec 32 := Scalar.muli v9 c8_i32_30
  let v44 : BitVec 32 := Scalar.addi c0_i32_31 v43
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_32 : BitVec 32 := 4#32
  let v45 : BitVec 32 := Scalar.muli v5 c4_i32_32
  let v46 : BitVec 32 := Scalar.addi v44 v45
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_33 : BitVec 32 := 1#32
  let v47 : BitVec 32 := Scalar.muli v8 c1_i32_33
  let v48 : BitVec 32 := Scalar.addi v46 v47
  v48.toNat
def k0_dev5 (d0 : Dev nD) : Nat :=
  let c0_i32_42 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_41 : BitVec 32 := 8#32
  let v58 : BitVec 32 := Scalar.muli v9 c8_i32_41
  let v59 : BitVec 32 := Scalar.addi c0_i32_42 v58
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_43 : BitVec 32 := 4#32
  let v60 : BitVec 32 := Scalar.muli v5 c4_i32_43
  let v61 : BitVec 32 := Scalar.addi v59 v60
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_44 : BitVec 32 := 1#32
  let v62 : BitVec 32 := Scalar.muli v8 c1_i32_44
  let v63 : BitVec 32 := Scalar.addi v61 v62
  v63.toNat
def k0_dev6 (d0 : Dev nD) : Nat :=
  let c0_i32_52 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_51 : BitVec 32 := 8#32
  let v73 : BitVec 32 := Scalar.muli v9 c8_i32_51
  let v74 : BitVec 32 := Scalar.addi c0_i32_52 v73
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_53 : BitVec 32 := 4#32
  let v75 : BitVec 32 := Scalar.muli v5 c4_i32_53
  let v76 : BitVec 32 := Scalar.addi v74 v75
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_54 : BitVec 32 := 1#32
  let v77 : BitVec 32 := Scalar.muli v8 c1_i32_54
  let v78 : BitVec 32 := Scalar.addi v76 v77
  v78.toNat
def k0_dev7 (d0 : Dev nD) : Nat :=
  let c0_i32_63 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_62 : BitVec 32 := 8#32
  let v88 : BitVec 32 := Scalar.muli v9 c8_i32_62
  let v89 : BitVec 32 := Scalar.addi c0_i32_63 v88
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_64 : BitVec 32 := 4#32
  let v90 : BitVec 32 := Scalar.muli v5 c4_i32_64
  let v91 : BitVec 32 := Scalar.addi v89 v90
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_65 : BitVec 32 := 1#32
  let v92 : BitVec 32 := Scalar.muli v8 c1_i32_65
  let v93 : BitVec 32 := Scalar.addi v91 v92
  v93.toNat
def k0_dev8 (d0 : Dev nD) : Nat :=
  let c0_i32_73 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_72 : BitVec 32 := 8#32
  let v103 : BitVec 32 := Scalar.muli v9 c8_i32_72
  let v104 : BitVec 32 := Scalar.addi c0_i32_73 v103
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_74 : BitVec 32 := 4#32
  let v105 : BitVec 32 := Scalar.muli v5 c4_i32_74
  let v106 : BitVec 32 := Scalar.addi v104 v105
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_75 : BitVec 32 := 1#32
  let v107 : BitVec 32 := Scalar.muli v8 c1_i32_75
  let v108 : BitVec 32 := Scalar.addi v106 v107
  v108.toNat
def k0_dev9 (d0 : Dev nD) : Nat :=
  let c0_i32_83 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_82 : BitVec 32 := 8#32
  let v118 : BitVec 32 := Scalar.muli v9 c8_i32_82
  let v119 : BitVec 32 := Scalar.addi c0_i32_83 v118
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_84 : BitVec 32 := 4#32
  let v120 : BitVec 32 := Scalar.muli v5 c4_i32_84
  let v121 : BitVec 32 := Scalar.addi v119 v120
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_85 : BitVec 32 := 1#32
  let v122 : BitVec 32 := Scalar.muli v8 c1_i32_85
  let v123 : BitVec 32 := Scalar.addi v121 v122
  v123.toNat
def k0_dev10 (d0 : Dev nD) : Nat :=
  let c0_i32_93 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_92 : BitVec 32 := 8#32
  let v133 : BitVec 32 := Scalar.muli v9 c8_i32_92
  let v134 : BitVec 32 := Scalar.addi c0_i32_93 v133
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_94 : BitVec 32 := 4#32
  let v135 : BitVec 32 := Scalar.muli v5 c4_i32_94
  let v136 : BitVec 32 := Scalar.addi v134 v135
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_95 : BitVec 32 := 1#32
  let v137 : BitVec 32 := Scalar.muli v8 c1_i32_95
  let v138 : BitVec 32 := Scalar.addi v136 v137
  v138.toNat
def k0_dev11 (d0 : Dev nD) : Nat :=
  let c0_i32_104 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_103 : BitVec 32 := 8#32
  let v148 : BitVec 32 := Scalar.muli v9 c8_i32_103
  let v149 : BitVec 32 := Scalar.addi c0_i32_104 v148
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_105 : BitVec 32 := 4#32
  let v150 : BitVec 32 := Scalar.muli v5 c4_i32_105
  let v151 : BitVec 32 := Scalar.addi v149 v150
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_106 : BitVec 32 := 1#32
  let v152 : BitVec 32 := Scalar.muli v8 c1_i32_106
  let v153 : BitVec 32 := Scalar.addi v151 v152
  v153.toNat
def k0_dev12 (d0 : Dev nD) : Nat :=
  let c0_i32_114 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_113 : BitVec 32 := 8#32
  let v163 : BitVec 32 := Scalar.muli v9 c8_i32_113
  let v164 : BitVec 32 := Scalar.addi c0_i32_114 v163
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_115 : BitVec 32 := 4#32
  let v165 : BitVec 32 := Scalar.muli v5 c4_i32_115
  let v166 : BitVec 32 := Scalar.addi v164 v165
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_116 : BitVec 32 := 1#32
  let v167 : BitVec 32 := Scalar.muli v8 c1_i32_116
  let v168 : BitVec 32 := Scalar.addi v166 v167
  v168.toNat
def k0_dev13 (d0 : Dev nD) : Nat :=
  let c0_i32_124 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_123 : BitVec 32 := 8#32
  let v178 : BitVec 32 := Scalar.muli v9 c8_i32_123
  let v179 : BitVec 32 := Scalar.addi c0_i32_124 v178
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_125 : BitVec 32 := 4#32
  let v180 : BitVec 32 := Scalar.muli v5 c4_i32_125
  let v181 : BitVec 32 := Scalar.addi v179 v180
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_126 : BitVec 32 := 1#32
  let v182 : BitVec 32 := Scalar.muli v8 c1_i32_126
  let v183 : BitVec 32 := Scalar.addi v181 v182
  v183.toNat
def k0_dev14 (d0 : Dev nD) : Nat :=
  let c0_i32_134 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_133 : BitVec 32 := 8#32
  let v193 : BitVec 32 := Scalar.muli v9 c8_i32_133
  let v194 : BitVec 32 := Scalar.addi c0_i32_134 v193
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_135 : BitVec 32 := 4#32
  let v195 : BitVec 32 := Scalar.muli v5 c4_i32_135
  let v196 : BitVec 32 := Scalar.addi v194 v195
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_136 : BitVec 32 := 1#32
  let v197 : BitVec 32 := Scalar.muli v8 c1_i32_136
  let v198 : BitVec 32 := Scalar.addi v196 v197
  v198.toNat
def k0_dev15 (d0 : Dev nD) : Nat :=
  let c0_i32_144 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_143 : BitVec 32 := 8#32
  let v208 : BitVec 32 := Scalar.muli v9 c8_i32_143
  let v209 : BitVec 32 := Scalar.addi c0_i32_144 v208
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_145 : BitVec 32 := 4#32
  let v210 : BitVec 32 := Scalar.muli v5 c4_i32_145
  let v211 : BitVec 32 := Scalar.addi v209 v210
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_146 : BitVec 32 := 1#32
  let v212 : BitVec 32 := Scalar.muli v8 c1_i32_146
  let v213 : BitVec 32 := Scalar.addi v211 v212
  v213.toNat
def k0_dev16 (d0 : Dev nD) : Nat :=
  let c0_i32_154 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_153 : BitVec 32 := 8#32
  let v223 : BitVec 32 := Scalar.muli v9 c8_i32_153
  let v224 : BitVec 32 := Scalar.addi c0_i32_154 v223
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_155 : BitVec 32 := 4#32
  let v225 : BitVec 32 := Scalar.muli v5 c4_i32_155
  let v226 : BitVec 32 := Scalar.addi v224 v225
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_156 : BitVec 32 := 1#32
  let v227 : BitVec 32 := Scalar.muli v8 c1_i32_156
  let v228 : BitVec 32 := Scalar.addi v226 v227
  v228.toNat
def k0_dev17 (d0 : Dev nD) : Nat :=
  let c0_i32_164 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_163 : BitVec 32 := 8#32
  let v238 : BitVec 32 := Scalar.muli v9 c8_i32_163
  let v239 : BitVec 32 := Scalar.addi c0_i32_164 v238
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_165 : BitVec 32 := 4#32
  let v240 : BitVec 32 := Scalar.muli v5 c4_i32_165
  let v241 : BitVec 32 := Scalar.addi v239 v240
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_166 : BitVec 32 := 1#32
  let v242 : BitVec 32 := Scalar.muli v8 c1_i32_166
  let v243 : BitVec 32 := Scalar.addi v241 v242
  v243.toNat
def k0_dev18 (d0 : Dev nD) : Nat :=
  let c0_i32_174 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_173 : BitVec 32 := 8#32
  let v253 : BitVec 32 := Scalar.muli v9 c8_i32_173
  let v254 : BitVec 32 := Scalar.addi c0_i32_174 v253
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_175 : BitVec 32 := 4#32
  let v255 : BitVec 32 := Scalar.muli v5 c4_i32_175
  let v256 : BitVec 32 := Scalar.addi v254 v255
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_176 : BitVec 32 := 1#32
  let v257 : BitVec 32 := Scalar.muli v8 c1_i32_176
  let v258 : BitVec 32 := Scalar.addi v256 v257
  v258.toNat
def k0_off3 (d0 : Dev nD) (c0_i32_193 : BitVec 32) : Fin 2 → Nat :=
  let c1_i32_190 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v277 : BitVec 32 := Scalar.subi c1_i32_190 v2
  let c512_i32_191 : BitVec 32 := 512#32
  let v278 : BitVec 32 := Scalar.muli v277 c512_i32_191
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c256_i32_192 : BitVec 32 := 256#32
  let v279 : BitVec 32 := Scalar.muli v5 c256_i32_192
  let v280 : BitVec 32 := Scalar.addi v278 v279
  let v281 : BitVec 32 := Scalar.addi v280 c0_i32_193
  let c0_i32_201 : BitVec 32 := 0#32
  ![v281.toNat, 0]
def k0_dev19 (d0 : Dev nD) : Nat :=
  let c0_i32_198 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_197 : BitVec 32 := 8#32
  let v282 : BitVec 32 := Scalar.muli v2 c8_i32_197
  let v283 : BitVec 32 := Scalar.addi c0_i32_198 v282
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_199 : BitVec 32 := 4#32
  let v284 : BitVec 32 := Scalar.muli v10 c4_i32_199
  let v285 : BitVec 32 := Scalar.addi v283 v284
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_200 : BitVec 32 := 1#32
  let v286 : BitVec 32 := Scalar.muli v8 c1_i32_200
  let v287 : BitVec 32 := Scalar.addi v285 v286
  v287.toNat
def k0_dev20 (d0 : Dev nD) : Nat :=
  let c0_i32_226 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_225 : BitVec 32 := 8#32
  let v314 : BitVec 32 := Scalar.muli v2 c8_i32_225
  let v315 : BitVec 32 := Scalar.addi c0_i32_226 v314
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_227 : BitVec 32 := 4#32
  let v316 : BitVec 32 := Scalar.muli v10 c4_i32_227
  let v317 : BitVec 32 := Scalar.addi v315 v316
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_228 : BitVec 32 := 1#32
  let v318 : BitVec 32 := Scalar.muli v8 c1_i32_228
  let v319 : BitVec 32 := Scalar.addi v317 v318
  v319.toNat
def k0_dev21 (d0 : Dev nD) : Nat :=
  let c0_i32_254 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_253 : BitVec 32 := 8#32
  let v346 : BitVec 32 := Scalar.muli v2 c8_i32_253
  let v347 : BitVec 32 := Scalar.addi c0_i32_254 v346
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_255 : BitVec 32 := 4#32
  let v348 : BitVec 32 := Scalar.muli v10 c4_i32_255
  let v349 : BitVec 32 := Scalar.addi v347 v348
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_256 : BitVec 32 := 1#32
  let v350 : BitVec 32 := Scalar.muli v8 c1_i32_256
  let v351 : BitVec 32 := Scalar.addi v349 v350
  v351.toNat
def k0_dev22 (d0 : Dev nD) : Nat :=
  let c0_i32_282 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_281 : BitVec 32 := 8#32
  let v378 : BitVec 32 := Scalar.muli v2 c8_i32_281
  let v379 : BitVec 32 := Scalar.addi c0_i32_282 v378
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_283 : BitVec 32 := 4#32
  let v380 : BitVec 32 := Scalar.muli v10 c4_i32_283
  let v381 : BitVec 32 := Scalar.addi v379 v380
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_284 : BitVec 32 := 1#32
  let v382 : BitVec 32 := Scalar.muli v8 c1_i32_284
  let v383 : BitVec 32 := Scalar.addi v381 v382
  v383.toNat
def k0_dev23 (d0 : Dev nD) : Nat :=
  let c0_i32_310 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_309 : BitVec 32 := 8#32
  let v410 : BitVec 32 := Scalar.muli v2 c8_i32_309
  let v411 : BitVec 32 := Scalar.addi c0_i32_310 v410
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_311 : BitVec 32 := 4#32
  let v412 : BitVec 32 := Scalar.muli v10 c4_i32_311
  let v413 : BitVec 32 := Scalar.addi v411 v412
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_312 : BitVec 32 := 1#32
  let v414 : BitVec 32 := Scalar.muli v8 c1_i32_312
  let v415 : BitVec 32 := Scalar.addi v413 v414
  v415.toNat
def k0_dev24 (d0 : Dev nD) : Nat :=
  let c0_i32_338 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_337 : BitVec 32 := 8#32
  let v442 : BitVec 32 := Scalar.muli v2 c8_i32_337
  let v443 : BitVec 32 := Scalar.addi c0_i32_338 v442
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_339 : BitVec 32 := 4#32
  let v444 : BitVec 32 := Scalar.muli v10 c4_i32_339
  let v445 : BitVec 32 := Scalar.addi v443 v444
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_340 : BitVec 32 := 1#32
  let v446 : BitVec 32 := Scalar.muli v8 c1_i32_340
  let v447 : BitVec 32 := Scalar.addi v445 v446
  v447.toNat
def k0_dev25 (d0 : Dev nD) : Nat :=
  let c0_i32_366 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_365 : BitVec 32 := 8#32
  let v474 : BitVec 32 := Scalar.muli v2 c8_i32_365
  let v475 : BitVec 32 := Scalar.addi c0_i32_366 v474
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_367 : BitVec 32 := 4#32
  let v476 : BitVec 32 := Scalar.muli v10 c4_i32_367
  let v477 : BitVec 32 := Scalar.addi v475 v476
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_368 : BitVec 32 := 1#32
  let v478 : BitVec 32 := Scalar.muli v8 c1_i32_368
  let v479 : BitVec 32 := Scalar.addi v477 v478
  v479.toNat
def k0_dev26 (d0 : Dev nD) : Nat :=
  let c0_i32_394 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_393 : BitVec 32 := 8#32
  let v506 : BitVec 32 := Scalar.muli v2 c8_i32_393
  let v507 : BitVec 32 := Scalar.addi c0_i32_394 v506
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_395 : BitVec 32 := 4#32
  let v508 : BitVec 32 := Scalar.muli v10 c4_i32_395
  let v509 : BitVec 32 := Scalar.addi v507 v508
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_396 : BitVec 32 := 1#32
  let v510 : BitVec 32 := Scalar.muli v8 c1_i32_396
  let v511 : BitVec 32 := Scalar.addi v509 v510
  v511.toNat
def k0_dev27 (d0 : Dev nD) : Nat :=
  let c0_i32_422 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_421 : BitVec 32 := 8#32
  let v538 : BitVec 32 := Scalar.muli v2 c8_i32_421
  let v539 : BitVec 32 := Scalar.addi c0_i32_422 v538
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_423 : BitVec 32 := 4#32
  let v540 : BitVec 32 := Scalar.muli v10 c4_i32_423
  let v541 : BitVec 32 := Scalar.addi v539 v540
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_424 : BitVec 32 := 1#32
  let v542 : BitVec 32 := Scalar.muli v8 c1_i32_424
  let v543 : BitVec 32 := Scalar.addi v541 v542
  v543.toNat
def k0_dev28 (d0 : Dev nD) : Nat :=
  let c0_i32_450 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_449 : BitVec 32 := 8#32
  let v570 : BitVec 32 := Scalar.muli v2 c8_i32_449
  let v571 : BitVec 32 := Scalar.addi c0_i32_450 v570
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_451 : BitVec 32 := 4#32
  let v572 : BitVec 32 := Scalar.muli v10 c4_i32_451
  let v573 : BitVec 32 := Scalar.addi v571 v572
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_452 : BitVec 32 := 1#32
  let v574 : BitVec 32 := Scalar.muli v8 c1_i32_452
  let v575 : BitVec 32 := Scalar.addi v573 v574
  v575.toNat
def k0_dev29 (d0 : Dev nD) : Nat :=
  let c0_i32_478 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_477 : BitVec 32 := 8#32
  let v602 : BitVec 32 := Scalar.muli v2 c8_i32_477
  let v603 : BitVec 32 := Scalar.addi c0_i32_478 v602
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_479 : BitVec 32 := 4#32
  let v604 : BitVec 32 := Scalar.muli v10 c4_i32_479
  let v605 : BitVec 32 := Scalar.addi v603 v604
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_480 : BitVec 32 := 1#32
  let v606 : BitVec 32 := Scalar.muli v8 c1_i32_480
  let v607 : BitVec 32 := Scalar.addi v605 v606
  v607.toNat
def k0_dev30 (d0 : Dev nD) : Nat :=
  let c0_i32_506 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_505 : BitVec 32 := 8#32
  let v634 : BitVec 32 := Scalar.muli v2 c8_i32_505
  let v635 : BitVec 32 := Scalar.addi c0_i32_506 v634
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_507 : BitVec 32 := 4#32
  let v636 : BitVec 32 := Scalar.muli v10 c4_i32_507
  let v637 : BitVec 32 := Scalar.addi v635 v636
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_508 : BitVec 32 := 1#32
  let v638 : BitVec 32 := Scalar.muli v8 c1_i32_508
  let v639 : BitVec 32 := Scalar.addi v637 v638
  v639.toNat
def k0_dev31 (d0 : Dev nD) : Nat :=
  let c0_i32_534 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_533 : BitVec 32 := 8#32
  let v666 : BitVec 32 := Scalar.muli v2 c8_i32_533
  let v667 : BitVec 32 := Scalar.addi c0_i32_534 v666
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_535 : BitVec 32 := 4#32
  let v668 : BitVec 32 := Scalar.muli v10 c4_i32_535
  let v669 : BitVec 32 := Scalar.addi v667 v668
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_536 : BitVec 32 := 1#32
  let v670 : BitVec 32 := Scalar.muli v8 c1_i32_536
  let v671 : BitVec 32 := Scalar.addi v669 v670
  v671.toNat
def k0_dev32 (d0 : Dev nD) : Nat :=
  let c0_i32_562 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_561 : BitVec 32 := 8#32
  let v698 : BitVec 32 := Scalar.muli v2 c8_i32_561
  let v699 : BitVec 32 := Scalar.addi c0_i32_562 v698
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_563 : BitVec 32 := 4#32
  let v700 : BitVec 32 := Scalar.muli v10 c4_i32_563
  let v701 : BitVec 32 := Scalar.addi v699 v700
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_564 : BitVec 32 := 1#32
  let v702 : BitVec 32 := Scalar.muli v8 c1_i32_564
  let v703 : BitVec 32 := Scalar.addi v701 v702
  v703.toNat
def k0_dev33 (d0 : Dev nD) : Nat :=
  let c0_i32_590 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_589 : BitVec 32 := 8#32
  let v730 : BitVec 32 := Scalar.muli v2 c8_i32_589
  let v731 : BitVec 32 := Scalar.addi c0_i32_590 v730
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_591 : BitVec 32 := 4#32
  let v732 : BitVec 32 := Scalar.muli v10 c4_i32_591
  let v733 : BitVec 32 := Scalar.addi v731 v732
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_592 : BitVec 32 := 1#32
  let v734 : BitVec 32 := Scalar.muli v8 c1_i32_592
  let v735 : BitVec 32 := Scalar.addi v733 v734
  v735.toNat
def k0_dev34 (d0 : Dev nD) : Nat :=
  let c0_i32_618 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_617 : BitVec 32 := 8#32
  let v762 : BitVec 32 := Scalar.muli v2 c8_i32_617
  let v763 : BitVec 32 := Scalar.addi c0_i32_618 v762
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_619 : BitVec 32 := 4#32
  let v764 : BitVec 32 := Scalar.muli v10 c4_i32_619
  let v765 : BitVec 32 := Scalar.addi v763 v764
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_620 : BitVec 32 := 1#32
  let v766 : BitVec 32 := Scalar.muli v8 c1_i32_620
  let v767 : BitVec 32 := Scalar.addi v765 v766
  v767.toNat
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

class Facts₀ : Prop where
  hamt_1 : (1#32 : BitVec 32).msb = false
  hamt_2 : (2#32 : BitVec 32).msb = false
  inb_S16_S1_0 : ∀ a, (![0] : Fin 1 → Nat) a + S1.size a ≤ S16.size a
  squeezes_S1_S_ : S1.Squeezes S_
  inb_S16x16x512_S1x16x512_0_0_0 : ∀ a, (![0, 0, 0] : Fin 3 → Nat) a + S1x16x512.size a ≤ S16x16x512.size a
  squeezes_S1x16x512_S16x512 : S1x16x512.Squeezes S16x512
  inb_S16_S1_1 : ∀ a, (![1] : Fin 1 → Nat) a + S1.size a ≤ S16.size a
  inb_S16x16x512_S1x16x512_1_0_0 : ∀ a, (![1, 0, 0] : Fin 3 → Nat) a + S1x16x512.size a ≤ S16x16x512.size a
  inb_S16_S1_2 : ∀ a, (![2] : Fin 1 → Nat) a + S1.size a ≤ S16.size a
  inb_S16x16x512_S1x16x512_2_0_0 : ∀ a, (![2, 0, 0] : Fin 3 → Nat) a + S1x16x512.size a ≤ S16x16x512.size a
  inb_S16_S1_3 : ∀ a, (![3] : Fin 1 → Nat) a + S1.size a ≤ S16.size a
  inb_S16x16x512_S1x16x512_3_0_0 : ∀ a, (![3, 0, 0] : Fin 3 → Nat) a + S1x16x512.size a ≤ S16x16x512.size a
  inb_S16_S1_4 : ∀ a, (![4] : Fin 1 → Nat) a + S1.size a ≤ S16.size a
  inb_S16x16x512_S1x16x512_4_0_0 : ∀ a, (![4, 0, 0] : Fin 3 → Nat) a + S1x16x512.size a ≤ S16x16x512.size a
  inb_S16_S1_5 : ∀ a, (![5] : Fin 1 → Nat) a + S1.size a ≤ S16.size a
  inb_S16x16x512_S1x16x512_5_0_0 : ∀ a, (![5, 0, 0] : Fin 3 → Nat) a + S1x16x512.size a ≤ S16x16x512.size a
  inb_S16_S1_6 : ∀ a, (![6] : Fin 1 → Nat) a + S1.size a ≤ S16.size a
  inb_S16x16x512_S1x16x512_6_0_0 : ∀ a, (![6, 0, 0] : Fin 3 → Nat) a + S1x16x512.size a ≤ S16x16x512.size a
  inb_S16_S1_7 : ∀ a, (![7] : Fin 1 → Nat) a + S1.size a ≤ S16.size a
  inb_S16x16x512_S1x16x512_7_0_0 : ∀ a, (![7, 0, 0] : Fin 3 → Nat) a + S1x16x512.size a ≤ S16x16x512.size a
  inb_S16_S1_8 : ∀ a, (![8] : Fin 1 → Nat) a + S1.size a ≤ S16.size a
  inb_S16x16x512_S1x16x512_8_0_0 : ∀ a, (![8, 0, 0] : Fin 3 → Nat) a + S1x16x512.size a ≤ S16x16x512.size a
  inb_S16_S1_9 : ∀ a, (![9] : Fin 1 → Nat) a + S1.size a ≤ S16.size a
  inb_S16x16x512_S1x16x512_9_0_0 : ∀ a, (![9, 0, 0] : Fin 3 → Nat) a + S1x16x512.size a ≤ S16x16x512.size a
  inb_S16_S1_10 : ∀ a, (![10] : Fin 1 → Nat) a + S1.size a ≤ S16.size a
  inb_S16x16x512_S1x16x512_10_0_0 : ∀ a, (![10, 0, 0] : Fin 3 → Nat) a + S1x16x512.size a ≤ S16x16x512.size a
  inb_S16_S1_11 : ∀ a, (![11] : Fin 1 → Nat) a + S1.size a ≤ S16.size a
  inb_S16x16x512_S1x16x512_11_0_0 : ∀ a, (![11, 0, 0] : Fin 3 → Nat) a + S1x16x512.size a ≤ S16x16x512.size a
  inb_S16_S1_12 : ∀ a, (![12] : Fin 1 → Nat) a + S1.size a ≤ S16.size a
  inb_S16x16x512_S1x16x512_12_0_0 : ∀ a, (![12, 0, 0] : Fin 3 → Nat) a + S1x16x512.size a ≤ S16x16x512.size a
  inb_S16_S1_13 : ∀ a, (![13] : Fin 1 → Nat) a + S1.size a ≤ S16.size a
  inb_S16x16x512_S1x16x512_13_0_0 : ∀ a, (![13, 0, 0] : Fin 3 → Nat) a + S1x16x512.size a ≤ S16x16x512.size a
  inb_S16_S1_14 : ∀ a, (![14] : Fin 1 → Nat) a + S1.size a ≤ S16.size a
  inb_S16x16x512_S1x16x512_14_0_0 : ∀ a, (![14, 0, 0] : Fin 3 → Nat) a + S1x16x512.size a ≤ S16x16x512.size a
  inb_S16_S1_15 : ∀ a, (![15] : Fin 1 → Nat) a + S1.size a ≤ S16.size a
  inb_S16x16x512_S1x16x512_15_0_0 : ∀ a, (![15, 0, 0] : Fin 3 → Nat) a + S1x16x512.size a ≤ S16x16x512.size a
  hcc0_scratch1 : 1 + S_.numel ≤ 67
  hcc0_scratch2 : 2 + S_.numel ≤ 67
  hcc0_scratch3 : 3 + S16.numel ≤ 67
  hcc0_scratch4 : 19 + S16.numel ≤ 67
  hcc0_scratch5 : 35 + S16.numel ≤ 67
  hcc0_scratch6 : 51 + S16.numel ≤ 67
  k0_off1_inb : ∀ d0 : Dev nD, ∀ a, (k0_off1 d0) a + S512x512.size a ≤ S1024x512.size a
  k0_dev1_lt : ∀ d0 : Dev nD, (k0_dev1 d0) < nD
  k0_dev2_lt : ∀ d0 : Dev nD, (k0_dev2 d0) < nD
  k0_off2_inb : ∀ d0 : Dev nD, ∀ (r : Fin 16), ∀ a, (k0_off2 d0 (BitVec.ofNat 32 (16 * r.val))) a + S16x512.size a ≤ S512x512.size a
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_off3_inb : ∀ d0 : Dev nD, ∀ (r : Fin 16), ∀ a, (k0_off3 d0 (BitVec.ofNat 32 (16 * r.val))) a + S16x512.size a ≤ S1024x512.size a
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  hstage0_0 : ∀ j, (stage0_0 j).IsWhole

variable [Facts₀]

abbrev cc0_scratch1 : DmaSems sig S_ := SemArray.consecutive 1 S_ hcc0_scratch1
abbrev cc0_scratch2 : DmaSems sig S_ := SemArray.consecutive 2 S_ hcc0_scratch2
abbrev cc0_scratch3 : DmaSems sig S16 := SemArray.consecutive 3 S16 hcc0_scratch3
abbrev cc0_scratch4 : DmaSems sig S16 := SemArray.consecutive 19 S16 hcc0_scratch4
abbrev cc0_scratch5 : DmaSems sig S16 := SemArray.consecutive 35 S16 hcc0_scratch5
abbrev cc0_scratch6 : DmaSems sig S16 := SemArray.consecutive 51 S16 hcc0_scratch6

abbrev win0_0 : Pipeline.Window sig grid0 :=
  Pipeline.Window.whole (Memref.whole main_arg0) false false (stage0_0 0) (sem0_0 0) (Memref.isWhole_whole _) (hstage0_0 0)

abbrev win0 : Fin 1 → Pipeline.Window sig grid0 := fun | 0 => win0_0 | ⟨_ + 1, h⟩ => absurd h (Nat.not_lt.2 (Nat.le_add_left _ _))
abbrev spec0 : Fin 1 → Pipeline.WinSpec sig grid0.rank := fun w => (win0 w).toWinSpec

class Facts : Prop extends Facts₀ where

variable [Facts]
-- ==== ReferenceIdeal.lean ====
abbrev S1024x512 : Shape := ⟨2, ![1024, 512]⟩

abbrev nBuf : Space → Nat
  | .hbm => 1
  | .vmem => 0
  | .smem => 0
  | _ => 0

abbrev bufTy : (tb : Table) → Fin (tcTables nBuf tb) → BufTy
  | .hbm, ⟨0, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]

class Facts₀ : Prop where

variable [Facts₀]

class Facts : Prop extends Facts₀ where

variable [Facts]
-- ==== Proof.KernelMesh.lean ====
/-
  The mesh of the all-gather and what it computes.

  The sixteen devices are numbered row-major over the mesh axes (x, y, z) of sizes (2, 2, 4): device
  `c` sits at x = c / 8, y = (c / 4) % 2, z = c % 4. The kernel talks to two neighbours only: the
  device across the x axis (`xp`: x flipped) and the device across the y axis (`yp`: y flipped).
  Both maps are involutions, they commute, and neither has a fixed point.

  Every device holds a block of 512 rows and ends with an array of 1024 rows: rows [512·x, 512·x + 512)
  are its own block; of the other block, the half of 256 rows numbered by its own y comes from its
  x-neighbour's block, the other half from the block of the x-neighbour of its y-neighbour, forwarded by
  the y-neighbour. `srcDev c r` names the device whose block row `r` of `c`'s result is read from,
  `gathered` the resulting array as a function of the memory before the run.
-/
import proofs.«900340_g7700000000000341_dist_ag_v7x_xyz2x2x4_x_m512_n512_f32_1_alg».proof.Proof.Gen.Kernel
import Idealize.ShloMosaic.Lib.ValueIdx

noncomputable section

namespace Cert.Kernel.AG

open Cert.Kernel Cert.Kernel.Gen
open Idealize.ShloMosaic Idealize.ShloMosaic.TcCoe Idealize.SL.Sem

/-! ## The two neighbours -/

/-- The device across the x axis: x flipped, y and z kept. -/
def xp (c : Dev nD) : Dev nD :=
  ⟨(4 * ((c.val / 4) % 2) + (c.val % 4) + 8) - 8 * (c.val / 8), by have h : c.val < 16 := c.isLt; show _ < 16; omega⟩
/-- The device across the y axis: y flipped, x and z kept. -/
def yp (c : Dev nD) : Dev nD :=
  ⟨(8 * (c.val / 8) + (c.val % 4) + 4) - 4 * ((c.val / 4) % 2), by have h : c.val < 16 := c.isLt; show _ < 16; omega⟩

theorem xp_xp (c : Dev nD) : xp (xp c) = c := by revert c; decide
theorem yp_yp (c : Dev nD) : yp (yp c) = c := by revert c; decide
theorem xp_yp (c : Dev nD) : xp (yp c) = yp (xp c) := by revert c; decide
theorem xp_ne (c : Dev nD) : xp c ≠ c := by revert c; decide
theorem yp_ne (c : Dev nD) : yp c ≠ c := by revert c; decide
theorem xp_ne_yp (c : Dev nD) : xp c ≠ yp c := by revert c; decide
theorem xp_inj {a b : Dev nD} (h : xp a = xp b) : a = b := by rw [← xp_xp a, h, xp_xp]
theorem yp_inj {a b : Dev nD} (h : yp a = yp b) : a = b := by rw [← yp_yp a, h, yp_yp]

def xEquiv : Dev nD ≃ Dev nD := ⟨xp, xp, xp_xp, xp_xp⟩
def yEquiv : Dev nD ≃ Dev nD := ⟨yp, yp, yp_yp, yp_yp⟩

/-- The x, y coordinates of a device and of its neighbours. -/
theorem xp_x (c : Dev nD) : (xp c).val / 8 = 1 - c.val / 8 := by revert c; decide
theorem xp_y (c : Dev nD) : ((xp c).val / 4) % 2 = (c.val / 4) % 2 := by revert c; decide
theorem xp_z (c : Dev nD) : (xp c).val % 4 = c.val % 4 := by revert c; decide
theorem yp_x (c : Dev nD) : (yp c).val / 8 = c.val / 8 := by revert c; decide
theorem yp_y (c : Dev nD) : ((yp c).val / 4) % 2 = 1 - (c.val / 4) % 2 := by revert c; decide
theorem yp_z (c : Dev nD) : (yp c).val % 4 = c.val % 4 := by revert c; decide

/-! ## The printed device chains are these neighbours -/

theorem dev1_eq (c : Dev nD) : (⟨k0_dev1 c, k0_dev1_lt c⟩ : Dev nD) = xp c := Fin.ext (k0_dev1_eq c)
theorem dev3_eq (c : Dev nD) : (⟨k0_dev3 c, k0_dev3_lt c⟩ : Dev nD) = xp c := Fin.ext (k0_dev3_eq c)
theorem dev4_eq (c : Dev nD) : (⟨k0_dev4 c, k0_dev4_lt c⟩ : Dev nD) = xp c := Fin.ext (k0_dev4_eq c)
theorem dev5_eq (c : Dev nD) : (⟨k0_dev5 c, k0_dev5_lt c⟩ : Dev nD) = xp c := Fin.ext (k0_dev5_eq c)
theorem dev6_eq (c : Dev nD) : (⟨k0_dev6 c, k0_dev6_lt c⟩ : Dev nD) = xp c := Fin.ext (k0_dev6_eq c)
theorem dev7_eq (c : Dev nD) : (⟨k0_dev7 c, k0_dev7_lt c⟩ : Dev nD) = xp c := Fin.ext (k0_dev7_eq c)
theorem dev8_eq (c : Dev nD) : (⟨k0_dev8 c, k0_dev8_lt c⟩ : Dev nD) = xp c := Fin.ext (k0_dev8_eq c)
theorem dev9_eq (c : Dev nD) : (⟨k0_dev9 c, k0_dev9_lt c⟩ : Dev nD) = xp c := Fin.ext (k0_dev9_eq c)
theorem dev10_eq (c : Dev nD) : (⟨k0_dev10 c, k0_dev10_lt c⟩ : Dev nD) = xp c := Fin.ext (k0_dev10_eq c)
theorem dev11_eq (c : Dev nD) : (⟨k0_dev11 c, k0_dev11_lt c⟩ : Dev nD) = xp c := Fin.ext (k0_dev11_eq c)
theorem dev12_eq (c : Dev nD) : (⟨k0_dev12 c, k0_dev12_lt c⟩ : Dev nD) = xp c := Fin.ext (k0_dev12_eq c)
theorem dev13_eq (c : Dev nD) : (⟨k0_dev13 c, k0_dev13_lt c⟩ : Dev nD) = xp c := Fin.ext (k0_dev13_eq c)
theorem dev14_eq (c : Dev nD) : (⟨k0_dev14 c, k0_dev14_lt c⟩ : Dev nD) = xp c := Fin.ext (k0_dev14_eq c)
theorem dev15_eq (c : Dev nD) : (⟨k0_dev15 c, k0_dev15_lt c⟩ : Dev nD) = xp c := Fin.ext (k0_dev15_eq c)
theorem dev16_eq (c : Dev nD) : (⟨k0_dev16 c, k0_dev16_lt c⟩ : Dev nD) = xp c := Fin.ext (k0_dev16_eq c)
theorem dev17_eq (c : Dev nD) : (⟨k0_dev17 c, k0_dev17_lt c⟩ : Dev nD) = xp c := Fin.ext (k0_dev17_eq c)
theorem dev18_eq (c : Dev nD) : (⟨k0_dev18 c, k0_dev18_lt c⟩ : Dev nD) = xp c := Fin.ext (k0_dev18_eq c)
theorem dev2_eq (c : Dev nD) : (⟨k0_dev2 c, k0_dev2_lt c⟩ : Dev nD) = yp c := Fin.ext (k0_dev2_eq c)
theorem dev19_eq (c : Dev nD) : (⟨k0_dev19 c, k0_dev19_lt c⟩ : Dev nD) = yp c := Fin.ext (k0_dev19_eq c)
theorem dev20_eq (c : Dev nD) : (⟨k0_dev20 c, k0_dev20_lt c⟩ : Dev nD) = yp c := Fin.ext (k0_dev20_eq c)
theorem dev21_eq (c : Dev nD) : (⟨k0_dev21 c, k0_dev21_lt c⟩ : Dev nD) = yp c := Fin.ext (k0_dev21_eq c)
theorem dev22_eq (c : Dev nD) : (⟨k0_dev22 c, k0_dev22_lt c⟩ : Dev nD) = yp c := Fin.ext (k0_dev22_eq c)
theorem dev23_eq (c : Dev nD) : (⟨k0_dev23 c, k0_dev23_lt c⟩ : Dev nD) = yp c := Fin.ext (k0_dev23_eq c)
theorem dev24_eq (c : Dev nD) : (⟨k0_dev24 c, k0_dev24_lt c⟩ : Dev nD) = yp c := Fin.ext (k0_dev24_eq c)
theorem dev25_eq (c : Dev nD) : (⟨k0_dev25 c, k0_dev25_lt c⟩ : Dev nD) = yp c := Fin.ext (k0_dev25_eq c)
theorem dev26_eq (c : Dev nD) : (⟨k0_dev26 c, k0_dev26_lt c⟩ : Dev nD) = yp c := Fin.ext (k0_dev26_eq c)
theorem dev27_eq (c : Dev nD) : (⟨k0_dev27 c, k0_dev27_lt c⟩ : Dev nD) = yp c := Fin.ext (k0_dev27_eq c)
theorem dev28_eq (c : Dev nD) : (⟨k0_dev28 c, k0_dev28_lt c⟩ : Dev nD) = yp c := Fin.ext (k0_dev28_eq c)
theorem dev29_eq (c : Dev nD) : (⟨k0_dev29 c, k0_dev29_lt c⟩ : Dev nD) = yp c := Fin.ext (k0_dev29_eq c)
theorem dev30_eq (c : Dev nD) : (⟨k0_dev30 c, k0_dev30_lt c⟩ : Dev nD) = yp c := Fin.ext (k0_dev30_eq c)
theorem dev31_eq (c : Dev nD) : (⟨k0_dev31 c, k0_dev31_lt c⟩ : Dev nD) = yp c := Fin.ext (k0_dev31_eq c)
theorem dev32_eq (c : Dev nD) : (⟨k0_dev32 c, k0_dev32_lt c⟩ : Dev nD) = yp c := Fin.ext (k0_dev32_eq c)
theorem dev33_eq (c : Dev nD) : (⟨k0_dev33 c, k0_dev33_lt c⟩ : Dev nD) = yp c := Fin.ext (k0_dev33_eq c)
theorem dev34_eq (c : Dev nD) : (⟨k0_dev34 c, k0_dev34_lt c⟩ : Dev nD) = yp c := Fin.ext (k0_dev34_eq c)

/-! ## What the kernel computes -/

variable {F : FTy → Type}

/-- The device whose block row `r` of device `c`'s result is read from: `c` itself for the rows of its own
    block; for the other block the device with the other x, the y that numbers the half the row is in, and `c`'s z. -/
def srcDev (c : Dev nD) (r : Fin 1024) : Dev nD :=
  if r.val / 512 = c.val / 8 then c
  else ⟨8 * (r.val / 512) + 4 * ((r.val % 512) / 256) + c.val % 4, by have hr : r.val < 1024 := r.isLt; have hc : c.val < 16 := c.isLt; show _ < 16; omega⟩

/-- Device `c`'s result array after the run, as a function of the memory `m` before it: row `r` is row
    `r % 512` of the block `srcDev c r` held. -/
def gathered (m : (ℓ : Loc nD τ sig) → Buf (Elt F) ℓ) (c : Dev nD) : Buf (Elt F) ((c.tc : Thread nD τ).loc main_v1) :=
  fun i => m ((srcDev c (i 0)).tc.loc main_arg0) (ValueIdx.ix2 (⟨(i 0).val % 512, Nat.mod_lt _ (by decide)⟩ : Fin 512) (i 1))

/-- The run with the strongest post used anywhere: every device's result array is the gathered one and its
    argument array is unchanged. -/
def RunStmt (F : FTy → Type) [FloatOps F] : Prop :=
  ∀ (m : (ℓ : Loc nD τ sig) → Buf (Elt F) ℓ) (ρ : Dev nD → PrngReg),
    θ_run (defs (F := F)) (onTc (τ := τ) (main (F := F))) ⟨m, fun _ => 0, ρ⟩ (fun r => ∀ c : Dev nD,
      r.2.mem ((c.tc : Thread nD τ).loc main_v1) = gathered m c
      ∧ r.2.mem ((c.tc : Thread nD τ).loc main_arg0) = m ((c.tc : Thread nD τ).loc main_arg0))

end Cert.Kernel.AG

end
-- ==== Proof.KernelIdealMesh.lean ====
/-
  The mesh of the all-gather and what it computes.

  The sixteen devices are numbered row-major over the mesh axes (x, y, z) of sizes (2, 2, 4): device
  `c` sits at x = c / 8, y = (c / 4) % 2, z = c % 4. The kernel talks to two neighbours only: the
  device across the x axis (`xp`: x flipped) and the device across the y axis (`yp`: y flipped).
  Both maps are involutions, they commute, and neither has a fixed point.

  Every device holds a block of 512 rows and ends with an array of 1024 rows: rows [512·x, 512·x + 512)
  are its own block; of the other block, the half of 256 rows numbered by its own y comes from its
  x-neighbour's block, the other half from the block of the x-neighbour of its y-neighbour, forwarded by
  the y-neighbour. `srcDev c r` names the device whose block row `r` of `c`'s result is read from,
  `gathered` the resulting array as a function of the memory before the run.
-/
import proofs.«900340_g7700000000000341_dist_ag_v7x_xyz2x2x4_x_m512_n512_f32_1_alg».proof.Proof.Gen.KernelIdeal
import Idealize.ShloMosaic.Lib.ValueIdx

noncomputable section

namespace Cert.KernelIdeal.AG

open Cert.KernelIdeal Cert.KernelIdeal.Gen
open Idealize.ShloMosaic Idealize.ShloMosaic.TcCoe Idealize.SL.Sem

/-! ## The two neighbours -/

/-- The device across the x axis: x flipped, y and z kept. -/
def xp (c : Dev nD) : Dev nD :=
  ⟨(4 * ((c.val / 4) % 2) + (c.val % 4) + 8) - 8 * (c.val / 8), by have h : c.val < 16 := c.isLt; show _ < 16; omega⟩
/-- The device across the y axis: y flipped, x and z kept. -/
def yp (c : Dev nD) : Dev nD :=
  ⟨(8 * (c.val / 8) + (c.val % 4) + 4) - 4 * ((c.val / 4) % 2), by have h : c.val < 16 := c.isLt; show _ < 16; omega⟩

theorem xp_xp (c : Dev nD) : xp (xp c) = c := by revert c; decide
theorem yp_yp (c : Dev nD) : yp (yp c) = c := by revert c; decide
theorem xp_yp (c : Dev nD) : xp (yp c) = yp (xp c) := by revert c; decide
theorem xp_ne (c : Dev nD) : xp c ≠ c := by revert c; decide
theorem yp_ne (c : Dev nD) : yp c ≠ c := by revert c; decide
theorem xp_ne_yp (c : Dev nD) : xp c ≠ yp c := by revert c; decide
theorem xp_inj {a b : Dev nD} (h : xp a = xp b) : a = b := by rw [← xp_xp a, h, xp_xp]
theorem yp_inj {a b : Dev nD} (h : yp a = yp b) : a = b := by rw [← yp_yp a, h, yp_yp]

def xEquiv : Dev nD ≃ Dev nD := ⟨xp, xp, xp_xp, xp_xp⟩
def yEquiv : Dev nD ≃ Dev nD := ⟨yp, yp, yp_yp, yp_yp⟩

/-- The x, y coordinates of a device and of its neighbours. -/
theorem xp_x (c : Dev nD) : (xp c).val / 8 = 1 - c.val / 8 := by revert c; decide
theorem xp_y (c : Dev nD) : ((xp c).val / 4) % 2 = (c.val / 4) % 2 := by revert c; decide
theorem xp_z (c : Dev nD) : (xp c).val % 4 = c.val % 4 := by revert c; decide
theorem yp_x (c : Dev nD) : (yp c).val / 8 = c.val / 8 := by revert c; decide
theorem yp_y (c : Dev nD) : ((yp c).val / 4) % 2 = 1 - (c.val / 4) % 2 := by revert c; decide
theorem yp_z (c : Dev nD) : (yp c).val % 4 = c.val % 4 := by revert c; decide

/-! ## The printed device chains are these neighbours -/

theorem dev1_eq (c : Dev nD) : (⟨k0_dev1 c, k0_dev1_lt c⟩ : Dev nD) = xp c := Fin.ext (k0_dev1_eq c)
theorem dev3_eq (c : Dev nD) : (⟨k0_dev3 c, k0_dev3_lt c⟩ : Dev nD) = xp c := Fin.ext (k0_dev3_eq c)
theorem dev4_eq (c : Dev nD) : (⟨k0_dev4 c, k0_dev4_lt c⟩ : Dev nD) = xp c := Fin.ext (k0_dev4_eq c)
theorem dev5_eq (c : Dev nD) : (⟨k0_dev5 c, k0_dev5_lt c⟩ : Dev nD) = xp c := Fin.ext (k0_dev5_eq c)
theorem dev6_eq (c : Dev nD) : (⟨k0_dev6 c, k0_dev6_lt c⟩ : Dev nD) = xp c := Fin.ext (k0_dev6_eq c)
theorem dev7_eq (c : Dev nD) : (⟨k0_dev7 c, k0_dev7_lt c⟩ : Dev nD) = xp c := Fin.ext (k0_dev7_eq c)
theorem dev8_eq (c : Dev nD) : (⟨k0_dev8 c, k0_dev8_lt c⟩ : Dev nD) = xp c := Fin.ext (k0_dev8_eq c)
theorem dev9_eq (c : Dev nD) : (⟨k0_dev9 c, k0_dev9_lt c⟩ : Dev nD) = xp c := Fin.ext (k0_dev9_eq c)
theorem dev10_eq (c : Dev nD) : (⟨k0_dev10 c, k0_dev10_lt c⟩ : Dev nD) = xp c := Fin.ext (k0_dev10_eq c)
theorem dev11_eq (c : Dev nD) : (⟨k0_dev11 c, k0_dev11_lt c⟩ : Dev nD) = xp c := Fin.ext (k0_dev11_eq c)
theorem dev12_eq (c : Dev nD) : (⟨k0_dev12 c, k0_dev12_lt c⟩ : Dev nD) = xp c := Fin.ext (k0_dev12_eq c)
theorem dev13_eq (c : Dev nD) : (⟨k0_dev13 c, k0_dev13_lt c⟩ : Dev nD) = xp c := Fin.ext (k0_dev13_eq c)
theorem dev14_eq (c : Dev nD) : (⟨k0_dev14 c, k0_dev14_lt c⟩ : Dev nD) = xp c := Fin.ext (k0_dev14_eq c)
theorem dev15_eq (c : Dev nD) : (⟨k0_dev15 c, k0_dev15_lt c⟩ : Dev nD) = xp c := Fin.ext (k0_dev15_eq c)
theorem dev16_eq (c : Dev nD) : (⟨k0_dev16 c, k0_dev16_lt c⟩ : Dev nD) = xp c := Fin.ext (k0_dev16_eq c)
theorem dev17_eq (c : Dev nD) : (⟨k0_dev17 c, k0_dev17_lt c⟩ : Dev nD) = xp c := Fin.ext (k0_dev17_eq c)
theorem dev18_eq (c : Dev nD) : (⟨k0_dev18 c, k0_dev18_lt c⟩ : Dev nD) = xp c := Fin.ext (k0_dev18_eq c)
theorem dev2_eq (c : Dev nD) : (⟨k0_dev2 c, k0_dev2_lt c⟩ : Dev nD) = yp c := Fin.ext (k0_dev2_eq c)
theorem dev19_eq (c : Dev nD) : (⟨k0_dev19 c, k0_dev19_lt c⟩ : Dev nD) = yp c := Fin.ext (k0_dev19_eq c)
theorem dev20_eq (c : Dev nD) : (⟨k0_dev20 c, k0_dev20_lt c⟩ : Dev nD) = yp c := Fin.ext (k0_dev20_eq c)
theorem dev21_eq (c : Dev nD) : (⟨k0_dev21 c, k0_dev21_lt c⟩ : Dev nD) = yp c := Fin.ext (k0_dev21_eq c)
theorem dev22_eq (c : Dev nD) : (⟨k0_dev22 c, k0_dev22_lt c⟩ : Dev nD) = yp c := Fin.ext (k0_dev22_eq c)
theorem dev23_eq (c : Dev nD) : (⟨k0_dev23 c, k0_dev23_lt c⟩ : Dev nD) = yp c := Fin.ext (k0_dev23_eq c)
theorem dev24_eq (c : Dev nD) : (⟨k0_dev24 c, k0_dev24_lt c⟩ : Dev nD) = yp c := Fin.ext (k0_dev24_eq c)
theorem dev25_eq (c : Dev nD) : (⟨k0_dev25 c, k0_dev25_lt c⟩ : Dev nD) = yp c := Fin.ext (k0_dev25_eq c)
theorem dev26_eq (c : Dev nD) : (⟨k0_dev26 c, k0_dev26_lt c⟩ : Dev nD) = yp c := Fin.ext (k0_dev26_eq c)
theorem dev27_eq (c : Dev nD) : (⟨k0_dev27 c, k0_dev27_lt c⟩ : Dev nD) = yp c := Fin.ext (k0_dev27_eq c)
theorem dev28_eq (c : Dev nD) : (⟨k0_dev28 c, k0_dev28_lt c⟩ : Dev nD) = yp c := Fin.ext (k0_dev28_eq c)
theorem dev29_eq (c : Dev nD) : (⟨k0_dev29 c, k0_dev29_lt c⟩ : Dev nD) = yp c := Fin.ext (k0_dev29_eq c)
theorem dev30_eq (c : Dev nD) : (⟨k0_dev30 c, k0_dev30_lt c⟩ : Dev nD) = yp c := Fin.ext (k0_dev30_eq c)
theorem dev31_eq (c : Dev nD) : (⟨k0_dev31 c, k0_dev31_lt c⟩ : Dev nD) = yp c := Fin.ext (k0_dev31_eq c)
theorem dev32_eq (c : Dev nD) : (⟨k0_dev32 c, k0_dev32_lt c⟩ : Dev nD) = yp c := Fin.ext (k0_dev32_eq c)
theorem dev33_eq (c : Dev nD) : (⟨k0_dev33 c, k0_dev33_lt c⟩ : Dev nD) = yp c := Fin.ext (k0_dev33_eq c)
theorem dev34_eq (c : Dev nD) : (⟨k0_dev34 c, k0_dev34_lt c⟩ : Dev nD) = yp c := Fin.ext (k0_dev34_eq c)

/-! ## What the kernel computes -/

variable {F : FTy → Type}

/-- The device whose block row `r` of device `c`'s result is read from: `c` itself for the rows of its own
    block; for the other block the device with the other x, the y that numbers the half the row is in, and `c`'s z. -/
def srcDev (c : Dev nD) (r : Fin 1024) : Dev nD :=
  if r.val / 512 = c.val / 8 then c
  else ⟨8 * (r.val / 512) + 4 * ((r.val % 512) / 256) + c.val % 4, by have hr : r.val < 1024 := r.isLt; have hc : c.val < 16 := c.isLt; show _ < 16; omega⟩

/-- Device `c`'s result array after the run, as a function of the memory `m` before it: row `r` is row
    `r % 512` of the block `srcDev c r` held. -/
def gathered (m : (ℓ : Loc nD τ sig) → Buf (Elt F) ℓ) (c : Dev nD) : Buf (Elt F) ((c.tc : Thread nD τ).loc main_v1) :=
  fun i => m ((srcDev c (i 0)).tc.loc main_arg0) (ValueIdx.ix2 (⟨(i 0).val % 512, Nat.mod_lt _ (by decide)⟩ : Fin 512) (i 1))

/-- The run with the strongest post used anywhere: every device's result array is the gathered one and its
    argument array is unchanged. -/
def RunStmt (F : FTy → Type) [FloatOps F] : Prop :=
  ∀ (m : (ℓ : Loc nD τ sig) → Buf (Elt F) ℓ) (ρ : Dev nD → PrngReg),
    θ_run (defs (F := F)) (onTc (τ := τ) (main (F := F))) ⟨m, fun _ => 0, ρ⟩ (fun r => ∀ c : Dev nD,
      r.2.mem ((c.tc : Thread nD τ).loc main_v1) = gathered m c
      ∧ r.2.mem ((c.tc : Thread nD τ).loc main_arg0) = m ((c.tc : Thread nD τ).loc main_arg0))

end Cert.KernelIdeal.AG

end
-- ==== Proof.Claims.lean ====
/-
  The claims of the all-gather, assembled from the two runs of the kernel.

  The whole array has 1024 rows of 512 columns. The mesh has sixteen devices, numbered row-major over axes
  (x, y, z) of sizes (2, 2, 4), so device `c` has x = c / 8. The array is cut along its rows by the x axis
  alone: a device holds rows [512·x, 512·x + 512) of the whole array as its block of 512 rows, whatever its y
  and z. The kernel's run leaves on device `c` the array whose row `r` is row `r % 512` of the block held
  by the device `srcDev c r`, and that device has x = r / 512. Row `r % 512` of the block with x = r / 512
  is row 512·(r / 512) + r % 512 = r of the whole array: every device ends with the whole array, which is
  what the reference, a program of one device that returns its argument untouched, ends with too.

  The reference's @main performs no operation: it is the empty line of host operations, whose run ends at
  once in the memory it started from.
-/
import proofs.«900340_g7700000000000341_dist_ag_v7x_xyz2x2x4_x_m512_n512_f32_1_alg».proof.Defs
import proofs.«900340_g7700000000000341_dist_ag_v7x_xyz2x2x4_x_m512_n512_f32_1_alg».proof.Proof.Gen.Kernel
import proofs.«900340_g7700000000000341_dist_ag_v7x_xyz2x2x4_x_m512_n512_f32_1_alg».proof.Proof.Gen.KernelIdeal
import proofs.«900340_g7700000000000341_dist_ag_v7x_xyz2x2x4_x_m512_n512_f32_1_alg».proof.Proof.Gen.ReferenceIdeal
import proofs.«900340_g7700000000000341_dist_ag_v7x_xyz2x2x4_x_m512_n512_f32_1_alg».proof.Proof.Gen.Pre_finite_inputs_Kernel
import proofs.«900340_g7700000000000341_dist_ag_v7x_xyz2x2x4_x_m512_n512_f32_1_alg».proof.Proof.Gen.Pre_finite_inputs_ReferenceIdeal
import proofs.«900340_g7700000000000341_dist_ag_v7x_xyz2x2x4_x_m512_n512_f32_1_alg».proof.Proof.KernelMesh
import proofs.«900340_g7700000000000341_dist_ag_v7x_xyz2x2x4_x_m512_n512_f32_1_alg».proof.Proof.KernelIdealMesh
import Idealize.ShloMosaic.Lib.Layout
import Idealize.ShloMosaic.Lib.ValueIdx
import Idealize.ShloMosaic.Lib.StableHlo.Run

noncomputable section

namespace Cert.Proof.Claims

open Idealize.ShloMosaic Idealize.ShloMosaic.TcCoe Idealize.ShloMosaic.StableHlo Idealize.SL.Sem

/-! ## The reference: a program that does nothing -/

section Reference
open Cert.ReferenceIdeal

variable {F : FTy → Type} [FloatOps F]

/-- From any memory with zero counters every weakly fair execution of the reference terminates, and every
    buffer ends holding what it held at the start: @main is the empty line of operations. -/
theorem ref_run [Cert.ReferenceIdeal.Facts] (m : (ℓ : Loc nD τ sig) → Buf (Elt F) ℓ) (ρ : Dev nD → PrngReg) :
    θ_run (defs (F := F)) (onTc (τ := τ) (main (F := F))) ⟨m, fun _ => 0, ρ⟩ fun r => ∀ (d : Dev nD) (b : Ref sig .tc),
      r.2.mem ((d.tc : Thread nD τ).loc b) = m ((d.tc : Thread nD τ).loc b) :=
  run_seq (by decide) (by decide) defs main (fun _ => []) (fun _ => rfl) (fun _ => trivial) m ρ

end Reference

/-! ## Where the rows of the whole array are found -/

section Gather
open Cert.KernelIdeal Cert.KernelIdeal.AG

/-- The device a row is read from holds the block the row lies in: its x coordinate is the row's block. -/
theorem srcDev_x (c : Dev nD) (r : Fin 1024) : (srcDev c r).val / 8 = r.val / 512 := by
  have hc : c.val < 16 := c.isLt
  have hr : r.val < 1024 := r.isLt
  unfold srcDev
  split
  · next h => exact h.symm
  · show (8 * (r.val / 512) + 4 * ((r.val % 512) / 256) + c.val % 4) / 8 = r.val / 512
    omega

/-- The block a device holds along the rows is numbered by its x coordinate alone; the columns are not cut. -/
theorem meshBlock_rows (c : Dev nD) :
    ((Layout.meshBlock [2, 2, 4] ![[0], []] c) 0).val = (c.val / 8) % 2 := by
  simp [Layout.meshBlock_val, Layout.meshLin, Layout.meshCoord, Layout.cutSize]

theorem meshBlock_cols (c : Dev nD) :
    ((Layout.meshBlock [2, 2, 4] ![[0], []] c) 1).val = 0 := by
  simp [Layout.meshBlock_val, Layout.meshLin]

/-- Every device's gathered array is the whole array, when every device's block is its block of the whole
    array: row `r` of the gathered array is row `r % 512` of the block of a device whose x is `r / 512`, which
    is row `512 · (r / 512) + r % 512 = r` of the whole array. -/
theorem gathered_eq_whole
    (m : (ℓ : Loc nD τ sig) → Buf (Elt Ideal) ℓ)
    (v : (⟨2, ![1024, 512]⟩ : Shape).Idx → Elt Ideal .f32)
    (hb : ∀ c : Dev nD, m ((c.tc : Thread nD τ).loc main_arg0)
      = Layout.blockN ⟨2, ![512, 512]⟩ ⟨2, ![1024, 512]⟩ (Layout.meshBlock [2, 2, 4] ![[0], []] c) v)
    (c : Dev nD) : gathered m c = v := by
  funext i
  unfold gathered
  rw [hb (srcDev c (i 0)), Layout.blockN_apply]
  congr 1
  funext b
  apply Fin.ext
  rw [Layout.TilesN.idx_val]
  have hi0 : (i 0).val < 1024 := (i 0).isLt
  match b with
  | ⟨0, _⟩ =>
    show ((Layout.meshBlock [2, 2, 4] ![[0], []] (srcDev c (i 0))) 0).val * 512 + (i 0).val % 512 = (i 0).val
    have hs : (srcDev c (i 0)).val / 8 = (i 0).val / 512 := srcDev_x c (i 0)
    rw [meshBlock_rows]
    omega
  | ⟨1, _⟩ =>
    show ((Layout.meshBlock [2, 2, 4] ![[0], []] (srcDev c (i 0))) 1).val * 512 + (i 1).val = (i 1).val
    rw [meshBlock_cols]
    omega

end Gather

/-! ## The claims -/

/-- The five claims, from the two runs of the kernel (at the machine's floats and at the ideal ones): the
    kernel's frames are its runs with the value forgotten; the reference's frame and its half of the value
    claim are the run of the empty program; the kernel's half of the value claim is its ideal run, the
    gathered array being the whole array `v0`, the reference's own argument. The precondition is not used:
    the kernel only moves data. -/
theorem claim_of_runs (hK : Cert.Kernel.AG.RunStmt Bits) (hKI : Cert.KernelIdeal.AG.RunStmt Ideal) : Cert.Claim :=
  ⟨Cert.Kernel.Gen.facts, Cert.KernelIdeal.Gen.facts, Cert.ReferenceIdeal.Gen.facts,
    Cert.Pre_finite_inputs_Kernel.Gen.facts, Cert.Pre_finite_inputs_ReferenceIdeal.Gen.facts,
    fun m g _ => (θ_run _ _ _).mono (fun _ h c => (h c).2) (hK m g),
    fun m g _ => (θ_run _ _ _).mono (fun _ h c => (h c).2) (hKI m g),
    fun m g _ => (θ_run _ _ _).mono (fun _ h c => h c Cert.ReferenceIdeal.main_arg0) (ref_run m g),
    trivial,
    fun m g m' g' _ hb =>
      ⟨m' (((0 : Dev Cert.ReferenceIdeal.nD).tc : Thread Cert.ReferenceIdeal.nD Cert.ReferenceIdeal.τ).loc Cert.ReferenceIdeal.main_arg0),
        (θ_run _ _ _).mono (fun _ h c => ⟨(h c).1.trans (gathered_eq_whole m _ hb c), (h c).2⟩) (hKI m g),
        (θ_run _ _ _).mono (fun _ h => ⟨h 0 Cert.ReferenceIdeal.main_arg0, h 0 Cert.ReferenceIdeal.main_arg0⟩) (ref_run m' g')⟩⟩

end Cert.Proof.Claims

end
-- ==== Proof.KernelCells.lean ====
/-
  The semaphore cells and the views of the all-gather, named once.

  Per device: the barrier semaphore; one semaphore for the copy of the device's own block into its rows of
  the result; one shared by the sixteen local copies out of the receive buffer; and four arrays of sixteen,
  indexed by the chunk `k` of sixteen rows: departures and arrivals of the chunks sent across x, departures
  and arrivals of the chunks forwarded across y. The sixty-seven DMA semaphores of a core lie in one pool; a
  cell's place in the pool (`*_val`) is what tells the kinds apart.

  The views: the device's rows of the result (`ownDst`), chunk `k` of the half of its block that crosses x
  (`xsrc`), slot `k` of the receive buffer (`rbuf`), and the rows of the result chunk `k` is written to,
  here and on the y-neighbour (`dstV`).
-/
import proofs.«900340_g7700000000000341_dist_ag_v7x_xyz2x2x4_x_m512_n512_f32_1_alg».proof.Proof.KernelMesh
import proofs.«900340_g7700000000000341_dist_ag_v7x_xyz2x2x4_x_m512_n512_f32_1_alg».proof.Proof.Gen.Kernel.Launch
import Idealize.ShloMosaic.Lib.Pipeline.Launch
import Idealize.ShloMosaic.Lib.Pipeline.Kit
import Idealize.ShloMosaic.Lib.Tactic

set_option maxRecDepth 16384

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the rounds of this protocol (duties named by `Fin 16`) -/

abbrev UB : Type := URounds (GSem nD τ sig) (Fin 16)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The semaphores -/

theorem inb16 (k : Fin 16) : ∀ a, (![k.val] : Fin 1 → Nat) a + S1.size a ≤ S16.size a := by
  intro a; have := k.isLt; fin_cases a; show k.val + 1 ≤ 16; omega

/-- Entry `k` of an array of sixteen DMA semaphores, as the program names it: the slice at `k`, squeezed. -/
def semAt (A : DmaSems sig S16) (k : Fin 16) : DmaSem sig :=
  ((A.slice (Rect.unit (s := S16) ![k.val] S1.size (inb16 k))).squeeze S_ squeezes_S1_S_).sem

abbrev barS : Sem sig := (SemArray.scalar (sig.barrier 0 rfl) : Sems sig S_).sem
abbrev ownS : DmaSem sig := (cc0_scratch1 : DmaSems sig S_).sem
abbrev locS : DmaSem sig := (cc0_scratch2 : DmaSems sig S_).sem
/-- Departure and arrival of chunk `k` across x; departure and arrival of chunk `k` across y. -/
abbrev sxS (k : Fin 16) : DmaSem sig := semAt cc0_scratch3 k
abbrev rxS (k : Fin 16) : DmaSem sig := semAt cc0_scratch4 k
abbrev syS (k : Fin 16) : DmaSem sig := semAt cc0_scratch5 k
abbrev ryS (k : Fin 16) : DmaSem sig := semAt cc0_scratch6 k

theorem ownS_val : (ownS : DmaSem sig).val = 1 := by decide
theorem locS_val : (locS : DmaSem sig).val = 2 := by decide
theorem sxS_val : ∀ k : Fin 16, (sxS k).val = 3 + k.val := by decide
theorem rxS_val : ∀ k : Fin 16, (rxS k).val = 19 + k.val := by decide
theorem syS_val : ∀ k : Fin 16, (syS k).val = 35 + k.val := by decide
theorem ryS_val : ∀ k : Fin 16, (ryS k).val = 51 + k.val := by decide

abbrev barCell (c : Dev nD) : GSem nD τ sig := ((c : Thread nD τ), .reg barS)
abbrev ownCell (c : Dev nD) : GSem nD τ sig := ((c : Thread nD τ), .dma ownS)
abbrev locCell (c : Dev nD) : GSem nD τ sig := ((c : Thread nD τ), .dma locS)
abbrev sxCell (c : Dev nD) (k : Fin 16) : GSem nD τ sig := ((c : Thread nD τ), .dma (sxS k))
abbrev rxCell (c : Dev nD) (k : Fin 16) : GSem nD τ sig := ((c : Thread nD τ), .dma (rxS k))
abbrev syCell (c : Dev nD) (k : Fin 16) : GSem nD τ sig := ((c : Thread nD τ), .dma (syS k))
abbrev ryCell (c : Dev nD) (k : Fin 16) : GSem nD τ sig := ((c : Thread nD τ), .dma (ryS k))

/-! ## The views -/

abbrev xM : Memref sig .tc .vmem S512x512 .f32 := Memref.whole cc0_stg0_0
abbrev oM : Memref sig .tc .hbm S1024x512 .f32 := Memref.whole main_v1
abbrev rM : Memref sig .tc .vmem S16x16x512 .f32 := Memref.whole cc0_scratch0

theorem inbR (k : Fin 16) : ∀ a, (![k.val, 0, 0] : Fin 3 → Nat) a + S1x16x512.size a ≤ S16x16x512.size a := by
  intro a; have := k.isLt
  fin_cases a
  · show k.val + 1 ≤ 16; omega
  · show 0 + 16 ≤ 16; omega
  · show 0 + 512 ≤ 512; omega

/-- The device's own rows of the result. -/
def ownDst (c : Dev nD) : Memref sig .tc .hbm S512x512 .f32 :=
  oM.slice (Rect.unit (s := S1024x512) (k0_off1 c) S512x512.size (k0_off1_inb c)) (fun _ => rfl)
/-- Chunk `k` of the half of the device's block that crosses x. -/
def xsrc (c : Dev nD) (k : Fin 16) : Memref sig .tc .vmem S16x512 .f32 :=
  xM.slice (Rect.unit (s := S512x512) (k0_off2 c (BitVec.ofNat 32 (16 * k.val))) S16x512.size (k0_off2_inb c k)) (fun _ => rfl)
/-- Slot `k` of the receive buffer. -/
def rbuf (k : Fin 16) : Memref sig .tc .vmem S16x512 .f32 :=
  (rM.slice (Rect.unit (s := S16x16x512) ![k.val, 0, 0] S1x16x512.size (inbR k)) (fun _ => rfl)).squeeze S16x512 squeezes_S1x16x512_S16x512
/-- The rows of the result chunk `k` received by `c` is written to, on `c` and on its y-neighbour. -/
def dstV (c : Dev nD) (k : Fin 16) : Memref sig .tc .hbm S16x512 .f32 :=
  oM.slice (Rect.unit (s := S1024x512) (k0_off3 c (BitVec.ofNat 32 (16 * k.val))) S16x512.size (k0_off3_inb c k)) (fun _ => rfl)

/-- What a transfer of sixteen rows, and of a whole block, credits a DMA semaphore. -/
abbrev N16 : ℕ := (rbuf 0).view.dmaCredit
abbrev Nown : ℕ := (ownDst 0).view.dmaCredit
theorem N16_pos : 0 < N16 := View.dmaCredit_pos _ (by decide)
theorem Nown_pos : 0 < Nown := View.dmaCredit_pos _ (by decide)
theorem rbuf_credit (k : Fin 16) : (rbuf k).view.dmaCredit = N16 := rfl
theorem dstV_credit (c : Dev nD) (k : Fin 16) : (dstV c k).view.dmaCredit = N16 := rfl
theorem ownDst_credit (c : Dev nD) : (ownDst c).view.dmaCredit = Nown := rfl

end Cert.Kernel.AG

end
-- ==== Proof.KernelContents.lean ====
/-
  What the buffers hold.

  `xstg`: a device's block of the argument, as its staging buffer holds it during the kernel. `rcont`: the
  receive buffer once all sixteen chunks have arrived: slot `k`, row `r` holds row 256·y + 16·k + r of the
  x-neighbour's block (y the device's own y coordinate, which the x-neighbour shares). The result array's
  contents are `gathered` (defined with the mesh).
-/
import proofs.«900340_g7700000000000341_dist_ag_v7x_xyz2x2x4_x_m512_n512_f32_1_alg».proof.Proof.KernelCells
import Idealize.ShloMosaic.Lib.ValueIdx

set_option maxRecDepth 16384

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Device `c`'s block of the argument, as staged. -/
def xstg (c : Dev nD) : (cc0_stg0_0 : Ref sig .tc).ty.Contents (Elt F) :=
  (win0_0.blk t0_0).view.read (Elt F) (m ((c : Thread nD τ).loc main_arg0))

/-- Device `c`'s receive buffer after every chunk has arrived. -/
def rcont (c : Dev nD) : (cc0_scratch0 : Ref sig .tc).ty.Contents (Elt F) :=
  fun j => xstg m (xp c) (ValueIdx.ix2
    (⟨256 * ((c.val / 4) % 2) + 16 * (j 0).val + (j 1).val, by
      have h0 : (j 0).val < 16 := (j 0).isLt
      have h1 : (j 1).val < 16 := (j 1).isLt
      omega⟩ : Fin 512) (j 2))

end Cert.Kernel.AG

end
-- ==== Proof.KernelSched.lean ====
/-
  The protocol as a schedule of rounds.

  Every cell has one round. A barrier cell has two duties of one unit: duty 0 is the x-neighbour's signal
  and hands over that neighbour's receive buffer, slot by slot, with the fact that each of its arrival cells
  across x is at round 0; duty 1 is the y-neighbour's signal and hands over, chunk by chunk, the rows of the
  y-neighbour's result this device will write, with the same fact for its arrival cells across y. That is
  what a device needs before it may address a neighbour.

  The copy of the own block pays one duty: the device's rows of the result, now holding its block, and the
  staging buffer's left half share. The sixteen local copies out of the receive buffer pay the sixteen
  duties of one shared cell: each the rows it wrote and the left half share of its slot. A chunk sent across
  x pays the sender's departure cell (the right half share of the chunk of the staging buffer) and the
  receiver's arrival cell (the slot, holding the chunk). A chunk forwarded across y pays the forwarder's
  departure cell (the right half share of the slot) and the receiver's arrival cell (the rows written).
  Every piece is stated at ONE contents function per buffer, so the pieces join by an equation.
-/
import proofs.«900340_g7700000000000341_dist_ag_v7x_xyz2x2x4_x_m512_n512_f32_1_alg».proof.Proof.KernelContents

set_option maxRecDepth 16384

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

local notation "𝕄" => MT nD τ sig Unit (Elt F) ℕ UU ℕ

/-! ## Payloads -/

/-- Handed to `c` by its x-neighbour's signal: that neighbour's receive buffer, slot by slot, and that its
    arrival cells across x are at round 0. -/
def barPayX (c : Dev nD) : sProp 𝕄 :=
  iprop((bigSep Finset.univ fun k : Fin 16 =>
      iprop(∃ f : Buf (Elt F) ((rbuf k).view.loc ((xp c : Dev nD) : Thread nD τ)),
        ((rbuf k).view.loc ((xp c : Dev nD) : Thread nD τ)) ↦[(rbuf k).view.set]{fullShare} f))
    ∗ bigSep Finset.univ fun k : Fin 16 => reached ER (rxCell (xp c) k) 0)

/-- Handed to `c` by its y-neighbour's signal: the rows of that neighbour's result `c` will write, chunk by
    chunk, and that its arrival cells across y are at round 0. -/
def barPayY (c : Dev nD) : sProp 𝕄 :=
  iprop((bigSep Finset.univ fun k : Fin 16 =>
      iprop(∃ f : Buf (Elt F) ((dstV c k).view.loc ((yp c : Dev nD) : Thread nD τ)),
        ((dstV c k).view.loc ((yp c : Dev nD) : Thread nD τ)) ↦[(dstV c k).view.set]{fullShare} f))
    ∗ bigSep Finset.univ fun k : Fin 16 => reached ER (ryCell (yp c) k) 0)

def ownPay (c : Dev nD) : sProp 𝕄 :=
  iprop((((ownDst c).view.loc (c : Thread nD τ)) ↦[(ownDst c).view.set]{fullShare} gathered m c)
    ∗ (((xM : Memref sig .tc .vmem S512x512 .f32).view.loc (c : Thread nD τ)) ↦[(xM : Memref sig .tc .vmem S512x512 .f32).view.set]{fullShare.left} xstg m c))
def locPay (c : Dev nD) (k : Fin 16) : sProp 𝕄 :=
  iprop((((dstV c k).view.loc (c : Thread nD τ)) ↦[(dstV c k).view.set]{fullShare} gathered m c)
    ∗ (((rbuf k).view.loc (c : Thread nD τ)) ↦[(rbuf k).view.set]{fullShare.left} rcont m c))
def sxPay (c : Dev nD) (k : Fin 16) : sProp 𝕄 :=
  ((xsrc c k).view.loc (c : Thread nD τ)) ↦[(xsrc c k).view.set]{fullShare.right} xstg m c
def rxPay (c : Dev nD) (k : Fin 16) : sProp 𝕄 :=
  ((rbuf k).view.loc (c : Thread nD τ)) ↦[(rbuf k).view.set]{fullShare} rcont m c
def syPay (c : Dev nD) (k : Fin 16) : sProp 𝕄 :=
  ((rbuf k).view.loc (c : Thread nD τ)) ↦[(rbuf k).view.set]{fullShare.right} rcont m c
def ryPay (c : Dev nD) (k : Fin 16) : sProp 𝕄 :=
  ((dstV (yp c) k).view.loc (c : Thread nD τ)) ↦[(dstV (yp c) k).view.set]{fullShare} gathered m c

/-! ## The kinds of cells, by their place in the pool -/

inductive Kind
  | bar | own | loc | sx (k : Fin 16) | rx (k : Fin 16) | sy (k : Fin 16) | ry (k : Fin 16) | other
  deriving DecidableEq

def kindOfDma (q : DmaSem sig) : Kind :=
  if q.val = 1 then .own else if q.val = 2 then .loc
  else if h : 3 ≤ q.val ∧ q.val < 19 then .sx ⟨q.val - 3, by omega⟩
  else if h : 19 ≤ q.val ∧ q.val < 35 then .rx ⟨q.val - 19, by omega⟩
  else if h : 35 ≤ q.val ∧ q.val < 51 then .sy ⟨q.val - 35, by omega⟩
  else if h : 51 ≤ q.val ∧ q.val < 67 then .ry ⟨q.val - 51, by omega⟩
  else .other

def kindOf : SemLoc sig → Kind
  | .reg _ => .bar
  | .dma q => kindOfDma q

theorem kindOf_bar : kindOf (.reg barS) = .bar := rfl
theorem kindOf_own : kindOf (.dma ownS) = .own := by decide
theorem kindOf_loc : kindOf (.dma locS) = .loc := by decide
theorem kindOf_sx : ∀ k : Fin 16, kindOf (.dma (sxS k)) = .sx k := by decide
theorem kindOf_rx : ∀ k : Fin 16, kindOf (.dma (rxS k)) = .rx k := by decide
theorem kindOf_sy : ∀ k : Fin 16, kindOf (.dma (syS k)) = .sy k := by decide
theorem kindOf_ry : ∀ k : Fin 16, kindOf (.dma (ryS k)) = .ry k := by decide

def dutiesK : Kind → Finset (Fin 16)
  | .bar => {0, 1} | .loc => Finset.univ | .other => ∅ | _ => {0}
def amountK : Kind → ℕ
  | .bar => 1 | .own => Nown | _ => N16
def payloadK (c : Dev nD) : Kind → Fin 16 → sProp 𝕄
  | .bar, d => if d = 0 then barPayX c else barPayY c
  | .own, _ => ownPay m c
  | .loc, d => locPay m c d
  | .sx k, _ => sxPay m c k
  | .rx k, _ => rxPay m c k
  | .sy k, _ => syPay m c k
  | .ry k, _ => ryPay m c k
  | .other, _ => iprop(emp)

theorem amountK_pos (κ : Kind) : 0 < amountK κ := by
  cases κ <;> first | exact Nat.one_pos | exact Nown_pos | exact N16_pos

/-! ## The schedule -/

def agRd : Rounds.Schedule (GSem nD τ sig) (Fin 16) 𝕄 where
  duties g r := if r = 0 ∧ g.1.2 = .tc then dutiesK (kindOf g.2) else ∅
  unitless _ := False
  amount g _ _ := amountK (kindOf g.2)
  payload g _ d := payloadK m g.1.1 (kindOf g.2) d
  amount_pos g _ _ _ := amountK_pos _

instance agRd_payload_storable (g : GSem nD τ sig) (r : ℕ) (d : Fin 16) :
    BI.Storable (upEmb : UEmb _ 𝕄) ((agRd (F := F) m).payload g r d) := by
  show BI.Storable upEmb (payloadK m g.1.1 (kindOf g.2) d)
  cases kindOf g.2
  · show BI.Storable upEmb (if d = 0 then barPayX g.1.1 else barPayY g.1.1)
    by_cases h : d = 0
    · rw [if_pos h]; unfold barPayX rbuf; infer_instance
    · rw [if_neg h]; unfold barPayY dstV; infer_instance
  · unfold payloadK ownPay ownDst; infer_instance
  · unfold payloadK locPay dstV rbuf; infer_instance
  · unfold payloadK sxPay xsrc; infer_instance
  · unfold payloadK rxPay rbuf; infer_instance
  · unfold payloadK syPay rbuf; infer_instance
  · unfold payloadK ryPay dstV; infer_instance
  · unfold payloadK; infer_instance

section Tables
variable (c : Dev nD) (k : Fin 16)

omit [FloatOps F] in
theorem duties_later (g : GSem nD τ sig) : ∀ r, 1 ≤ r → (agRd (F := F) m).duties g r = ∅ :=
  fun r hr => by dsimp only [agRd]; rw [if_neg fun h => by omega]

omit [FloatOps F] in
theorem duties_bar : (agRd (F := F) m).duties (barCell c) 0 = {0, 1} := by dsimp only [agRd]; rw [if_pos ⟨rfl, rfl⟩]; rfl
omit [FloatOps F] in
theorem duties_own : (agRd (F := F) m).duties (ownCell c) 0 = {0} := by dsimp only [agRd]; rw [if_pos ⟨rfl, rfl⟩, kindOf_own]; rfl
omit [FloatOps F] in
theorem duties_loc : (agRd (F := F) m).duties (locCell c) 0 = Finset.univ := by dsimp only [agRd]; rw [if_pos ⟨rfl, rfl⟩, kindOf_loc]; rfl
omit [FloatOps F] in
theorem duties_sx : (agRd (F := F) m).duties (sxCell c k) 0 = {0} := by dsimp only [agRd]; rw [if_pos ⟨rfl, rfl⟩, kindOf_sx]; rfl
omit [FloatOps F] in
theorem duties_rx : (agRd (F := F) m).duties (rxCell c k) 0 = {0} := by dsimp only [agRd]; rw [if_pos ⟨rfl, rfl⟩, kindOf_rx]; rfl
omit [FloatOps F] in
theorem duties_sy : (agRd (F := F) m).duties (syCell c k) 0 = {0} := by dsimp only [agRd]; rw [if_pos ⟨rfl, rfl⟩, kindOf_sy]; rfl
omit [FloatOps F] in
theorem duties_ry : (agRd (F := F) m).duties (ryCell c k) 0 = {0} := by dsimp only [agRd]; rw [if_pos ⟨rfl, rfl⟩, kindOf_ry]; rfl

omit [FloatOps F] in
theorem amount_bar (d : Fin 16) : (agRd (F := F) m).amount (barCell c) 0 d = 1 := rfl
omit [FloatOps F] in
theorem amount_own (d : Fin 16) : (agRd (F := F) m).amount (ownCell c) 0 d = Nown := by dsimp only [agRd]; rw [kindOf_own]; rfl
omit [FloatOps F] in
theorem amount_loc (d : Fin 16) : (agRd (F := F) m).amount (locCell c) 0 d = N16 := by dsimp only [agRd]; rw [kindOf_loc]; rfl
omit [FloatOps F] in
theorem amount_sx (d : Fin 16) : (agRd (F := F) m).amount (sxCell c k) 0 d = N16 := by dsimp only [agRd]; rw [kindOf_sx]; rfl
omit [FloatOps F] in
theorem amount_rx (d : Fin 16) : (agRd (F := F) m).amount (rxCell c k) 0 d = N16 := by dsimp only [agRd]; rw [kindOf_rx]; rfl
omit [FloatOps F] in
theorem amount_sy (d : Fin 16) : (agRd (F := F) m).amount (syCell c k) 0 d = N16 := by dsimp only [agRd]; rw [kindOf_sy]; rfl
omit [FloatOps F] in
theorem amount_ry (d : Fin 16) : (agRd (F := F) m).amount (ryCell c k) 0 d = N16 := by dsimp only [agRd]; rw [kindOf_ry]; rfl

omit [FloatOps F] in
theorem expect_bar : (agRd (F := F) m).expect (barCell c) 0 = 2 := by
  unfold Schedule.expect Schedule.amountOf
  rw [duties_bar, Finset.sum_congr rfl fun d _ => amount_bar m c d]; rfl
omit [FloatOps F] in
theorem expect_own : (agRd (F := F) m).expect (ownCell c) 0 = Nown := by
  unfold Schedule.expect Schedule.amountOf; rw [duties_own, Finset.sum_singleton, amount_own]
omit [FloatOps F] in
theorem expect_loc : (agRd (F := F) m).expect (locCell c) 0 = 16 * N16 := by
  unfold Schedule.expect Schedule.amountOf
  rw [duties_loc, Finset.sum_congr rfl fun d _ => amount_loc m c d, Finset.sum_const, Finset.card_univ, Fintype.card_fin, smul_eq_mul]
omit [FloatOps F] in
theorem expect_sx : (agRd (F := F) m).expect (sxCell c k) 0 = N16 := by
  unfold Schedule.expect Schedule.amountOf; rw [duties_sx, Finset.sum_singleton, amount_sx]
omit [FloatOps F] in
theorem expect_rx : (agRd (F := F) m).expect (rxCell c k) 0 = N16 := by
  unfold Schedule.expect Schedule.amountOf; rw [duties_rx, Finset.sum_singleton, amount_rx]
omit [FloatOps F] in
theorem expect_sy : (agRd (F := F) m).expect (syCell c k) 0 = N16 := by
  unfold Schedule.expect Schedule.amountOf; rw [duties_sy, Finset.sum_singleton, amount_sy]
omit [FloatOps F] in
theorem expect_ry : (agRd (F := F) m).expect (ryCell c k) 0 = N16 := by
  unfold Schedule.expect Schedule.amountOf; rw [duties_ry, Finset.sum_singleton, amount_ry]

omit [FloatOps F] in
theorem payload_bar0 : (agRd (F := F) m).payload (barCell c) 0 0 = barPayX c := rfl
omit [FloatOps F] in
theorem payload_bar1 : (agRd (F := F) m).payload (barCell c) 0 1 = barPayY c := rfl
omit [FloatOps F] in
theorem payload_own (d : Fin 16) : (agRd (F := F) m).payload (ownCell c) 0 d = ownPay m c := by dsimp only [agRd]; rw [kindOf_own]; rfl
omit [FloatOps F] in
theorem payload_loc (d : Fin 16) : (agRd (F := F) m).payload (locCell c) 0 d = locPay m c d := by dsimp only [agRd]; rw [kindOf_loc]; rfl
omit [FloatOps F] in
theorem payload_sx (d : Fin 16) : (agRd (F := F) m).payload (sxCell c k) 0 d = sxPay m c k := by dsimp only [agRd]; rw [kindOf_sx]; rfl
omit [FloatOps F] in
theorem payload_rx (d : Fin 16) : (agRd (F := F) m).payload (rxCell c k) 0 d = rxPay m c k := by dsimp only [agRd]; rw [kindOf_rx]; rfl
omit [FloatOps F] in
theorem payload_sy (d : Fin 16) : (agRd (F := F) m).payload (syCell c k) 0 d = syPay m c k := by dsimp only [agRd]; rw [kindOf_sy]; rfl
omit [FloatOps F] in
theorem payload_ry (d : Fin 16) : (agRd (F := F) m).payload (ryCell c k) 0 d = ryPay m c k := by dsimp only [agRd]; rw [kindOf_ry]; rfl

end Tables

end Cert.Kernel.AG

end
-- ==== Proof.KernelState.lean ====
/-
  What a device holds when the kernel starts and what it gives back.

  Progress through the sixteen chunks is counted by `n`: `fromK n` are the chunks still to do, `belowK n`
  those done. What a device owes at launch is a sum over chunks — an arrival on its x-neighbour's cell for every
  chunk it sends, an arrival on its y-neighbour's cell for every chunk it forwards — plus one unit on each
  neighbour's barrier cell; each transfer peels its summand. Waiting is allowed on a cell below everything still
  owed: barrier cells sit at level 1, arrivals across x at 2, arrivals across y at 3, everything a device pays
  itself at 0; a device waits on its barrier owing only arrivals, on an arrival across x owing only arrivals
  across y, and on everything else owing nothing.
-/
import proofs.«900340_g7700000000000341_dist_ag_v7x_xyz2x2x4_x_m512_n512_f32_1_alg».proof.Proof.KernelSched

set_option maxRecDepth 16384

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

local notation "𝕄" => MT nD τ sig Unit (Elt F) ℕ UU ℕ

/-! ## Chunks still to do, chunks done -/

def fromK (n : ℕ) : Finset (Fin 16) := Finset.univ.filter fun j => n ≤ j.val
def belowK (n : ℕ) : Finset (Fin 16) := Finset.univ.filter fun j => j.val < n

theorem mem_fromK {n : ℕ} {j : Fin 16} : j ∈ fromK n ↔ n ≤ j.val := by simp [fromK]
theorem mem_belowK {n : ℕ} {j : Fin 16} : j ∈ belowK n ↔ j.val < n := by simp [belowK]
theorem fromK_zero : fromK 0 = Finset.univ := by ext j; simp [mem_fromK]
theorem fromK_16 : fromK 16 = ∅ := by ext j; have := j.isLt; simp [mem_fromK]
theorem belowK_zero : belowK 0 = ∅ := by ext j; simp [mem_belowK]
theorem belowK_16 : belowK 16 = Finset.univ := by ext j; have := j.isLt; simp [mem_belowK]
theorem not_mem_fromK_succ (k : Fin 16) : k ∉ fromK (k.val + 1) := by rw [mem_fromK]; omega
theorem not_mem_belowK (k : Fin 16) : k ∉ belowK k.val := by rw [mem_belowK]; omega
theorem fromK_eq_insert (k : Fin 16) : fromK k.val = insert k (fromK (k.val + 1)) := by
  ext j; rw [Finset.mem_insert, mem_fromK, mem_fromK, Fin.ext_iff]; omega
theorem belowK_succ (k : Fin 16) : belowK (k.val + 1) = insert k (belowK k.val) := by
  ext j; rw [Finset.mem_insert, mem_belowK, mem_belowK, Fin.ext_iff]; omega

omit [FloatOps F] in
theorem bigSep_fromK (k : Fin 16) (Φ : Fin 16 → sProp 𝕄) :
    bigSep (fromK k.val) Φ = iprop(Φ k ∗ bigSep (fromK (k.val + 1)) Φ) := by
  rw [fromK_eq_insert, bigSep_insert (not_mem_fromK_succ k)]; rfl
omit [FloatOps F] in
theorem bigSep_belowK_succ (k : Fin 16) (Φ : Fin 16 → sProp 𝕄) :
    bigSep (belowK (k.val + 1)) Φ = iprop(Φ k ∗ bigSep (belowK k.val) Φ) := by
  rw [belowK_succ, bigSep_insert (not_mem_belowK k)]; rfl

/-! ## What a device owes -/

/-- The arrivals across x still owed when chunks `n …` are to be sent; across y likewise. -/
def oweX (c : Dev nD) (n : ℕ) : CellTallies nD τ sig Unit := ∑ j ∈ fromK n, tallyAt (rxCell (xp c) j) () N16
def oweY (c : Dev nD) (n : ℕ) : CellTallies nD τ sig Unit := ∑ j ∈ fromK n, tallyAt (ryCell (yp c) j) () N16

theorem oweX_step (c : Dev nD) (k : Fin 16) : oweX c k.val = oweX c (k.val + 1) + tallyAt (rxCell (xp c) k) () N16 := by
  unfold oweX; rw [fromK_eq_insert, Finset.sum_insert (not_mem_fromK_succ k), add_comm]
theorem oweY_step (c : Dev nD) (k : Fin 16) : oweY c k.val = oweY c (k.val + 1) + tallyAt (ryCell (yp c) k) () N16 := by
  unfold oweY; rw [fromK_eq_insert, Finset.sum_insert (not_mem_fromK_succ k), add_comm]
theorem oweX_16 (c : Dev nD) : oweX c 16 = 0 := by unfold oweX; rw [fromK_16, Finset.sum_empty]
theorem oweY_16 (c : Dev nD) : oweY c 16 = 0 := by unfold oweY; rw [fromK_16, Finset.sum_empty]

/-- After both barrier signals; at launch. -/
def O₁ (c : Dev nD) : CellTallies nD τ sig Unit := oweY c 0 + oweX c 0
def O₀ (c : Dev nD) : CellTallies nD τ sig Unit := O₁ c + tallyAt (barCell (yp c)) () 1 + tallyAt (barCell (xp c)) () 1

/-! ## Levels -/

def L (g : GSem nD τ sig) : Finset Unit := if g.1.2 = .tc then {()} else ∅
def lvK : Kind → ℕ
  | .bar => 1 | .rx _ => 2 | .ry _ => 3 | _ => 0
def lv (g : GSem nD τ sig) (_ : Unit) : ℕ := lvK (kindOf g.2)

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_rx (c : Dev nD) (k : Fin 16) : lv (rxCell c k) () = 2 := by unfold lv; rw [kindOf_rx]; rfl
theorem lv_ry (c : Dev nD) (k : Fin 16) : lv (ryCell c k) () = 3 := by unfold lv; rw [kindOf_ry]; rfl

/-! ## The ghost state a device starts from -/

section Ghost
variable (K : GSem nD τ sig → ℕ) (c : Dev nD)

/-- The invariants of the cells `c` touches: its own, its neighbours' barrier cells, the arrival cells it pays. -/
def invs : sProp 𝕄 :=
  iprop(cellInv ER (agRd m) (K (barCell c)) (barCell c) ∗ cellInv ER (agRd m) (K (barCell (xp c))) (barCell (xp c))
    ∗ cellInv ER (agRd m) (K (barCell (yp c))) (barCell (yp c))
    ∗ cellInv ER (agRd m) (K (ownCell c)) (ownCell c) ∗ cellInv ER (agRd m) (K (locCell c)) (locCell c)
    ∗ bigSep Finset.univ fun k : Fin 16 =>
        iprop(cellInv ER (agRd m) (K (sxCell c k)) (sxCell c k) ∗ cellInv ER (agRd m) (K (rxCell c k)) (rxCell c k)
          ∗ cellInv ER (agRd m) (K (syCell c k)) (syCell c k) ∗ cellInv ER (agRd m) (K (ryCell c k)) (ryCell c k)
          ∗ cellInv ER (agRd m) (K (rxCell (xp c) k)) (rxCell (xp c) k) ∗ cellInv ER (agRd m) (K (ryCell (yp c) k)) (ryCell (yp c) k)))

/-- Round 0 reached: of the neighbours' barrier cells (for the two signals) and of `c`'s own cells. -/
def reach0 : sProp 𝕄 :=
  iprop(reached ER (barCell (xp c)) 0 ∗ reached ER (barCell (yp c)) 0 ∗ reached ER (ownCell c) 0 ∗ reached ER (locCell c) 0
    ∗ bigSep Finset.univ fun k : Fin 16 =>
        iprop(reached ER (sxCell c k) 0 ∗ reached ER (rxCell c k) 0 ∗ reached ER (syCell c k) 0 ∗ reached ER (ryCell c k) 0))

/-- `c`'s positions on its own cells. -/
def positions : sProp 𝕄 :=
  iprop(atPos ER (barCell c) 0 ∅ 0 ∗ atPos ER (ownCell c) 0 ∅ 0 ∗ atPos ER (locCell c) 0 ∅ 0
    ∗ bigSep Finset.univ fun k : Fin 16 =>
        iprop(atPos ER (sxCell c k) 0 ∅ 0 ∗ atPos ER (rxCell c k) 0 ∅ 0 ∗ atPos ER (syCell c k) 0 ∅ 0 ∗ atPos ER (ryCell c k) 0 ∅ 0))

/-- The tokens of the duties `c` pays. -/
def payToks : sProp 𝕄 :=
  iprop(dutyTok ER (barCell (xp c)) 0 0 ∗ dutyTok ER (barCell (yp c)) 0 1 ∗ dutyTok ER (ownCell c) 0 0
    ∗ bigSep Finset.univ fun k : Fin 16 =>
        iprop(dutyTok ER (locCell c) 0 k ∗ dutyTok ER (sxCell c k) 0 0 ∗ dutyTok ER (syCell c k) 0 0
          ∗ dutyTok ER (rxCell (xp c) k) 0 0 ∗ dutyTok ER (ryCell (yp c) k) 0 0))

def ghost : sProp 𝕄 := iprop(invs m K c ∗ reach0 c ∗ positions c ∗ payToks c)

instance invs_persistent : BI.Persistent (invs m K c) := by unfold invs; infer_instance
instance reach0_persistent : BI.Persistent (reach0 (F := F) c) := by unfold reach0; infer_instance

end Ghost

/-- What device `c`'s body starts from besides its staged block and its scratch: the ghost state at some names, the
    credit dealt at launch for what the others owe its cells, the level facts, and its result array as launched. -/
def start (c : Dev nD) : sProp 𝕄 :=
  iprop((∃ K, ghost m K c) ∗ cred (tallyAt (barCell c) () 2)
    ∗ (bigSep Finset.univ fun k : Fin 16 => cred (tallyAt (rxCell c k) () N16))
    ∗ (bigSep Finset.univ fun k : Fin 16 => cred (tallyAt (ryCell c k) () N16))
    ∗ levAts L lv
    ∗ (((c : Thread nD τ).loc main_v1) ↦{fullShare} m ((c : Thread nD τ).loc main_v1)))

def Φ₀ (c : Dev nD) : sProp 𝕄 :=
  iprop(start m c ∗ ∃ f : Buf (Elt F) ((c : Thread nD τ).loc cc0_scratch0), ((c : Thread nD τ).loc cc0_scratch0) ↦{fullShare} f)

/-- After the kernel: the receive buffer full, the result array gathered, the kernel's own semaphores at zero. -/
def Φ₁ (c : Dev nD) : sProp 𝕄 :=
  iprop((((c : Thread nD τ).loc cc0_scratch0) ↦{fullShare} rcont m c)
    ∗ (((c : Thread nD τ).loc main_v1) ↦{fullShare} gathered m c)
    ∗ semVal (ownCell c) 0 ∗ semVal (locCell c) 0
    ∗ bigSep Finset.univ fun k : Fin 16 => iprop(semVal (sxCell c k) 0 ∗ semVal (rxCell c k) 0 ∗ semVal (syCell c k) 0 ∗ semVal (ryCell c k) 0))

/-- The pipeline's proof data: one point; the staged block is left as found; what is owed goes from `O₀` to nothing. -/
def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨_ + 1, h⟩ => absurd h (Nat.not_lt.2 (Nat.le_add_left _ _))
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.Kernel.AG

end
-- ==== Proof.KernelLevels.lean ====
/-
  Where what a device owes sits, and the evidence its waits present.

  A sum of one-cell tallies is positive only at one of its cells: what is owed across x sits on arrival cells
  across x of the x-neighbour (level 2), what is owed across y on arrival cells across y of the y-neighbour
  (level 3), the two barrier units on the neighbours' barrier cells (level 1). So a barrier wait (level 1)
  is below everything owed once the two signals are out, a wait for an arrival across x (level 2) is below
  what is owed across y, and a wait at level 0 is below everything.
-/
import proofs.«900340_g7700000000000341_dist_ag_v7x_xyz2x2x4_x_m512_n512_f32_1_alg».proof.Proof.KernelState

set_option maxRecDepth 16384

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem oweX_pos {c : Dev nD} {n : ℕ} {g : GSem nD τ sig} {u : Unit} (h : 0 < oweX c n g u) : ∃ j : Fin 16, g = rxCell (xp c) j := by
  unfold oweX at h
  obtain ⟨j, -, hj⟩ := Pipeline.sum_pos_exists h
  exact ⟨j, (Pipeline.tallyAt_pos hj).1⟩
theorem oweY_pos {c : Dev nD} {n : ℕ} {g : GSem nD τ sig} {u : Unit} (h : 0 < oweY c n g u) : ∃ j : Fin 16, g = ryCell (yp c) j := by
  unfold oweY at h
  obtain ⟨j, -, hj⟩ := Pipeline.sum_pos_exists h
  exact ⟨j, (Pipeline.tallyAt_pos hj).1⟩

/-- Everything owed after the two signals sits on an arrival cell, at level 2 or 3. -/
theorem O₁_pos {c : Dev nD} {g : GSem nD τ sig} {u : Unit} (h : 0 < O₁ c g u) : u ∈ L g ∧ 2 ≤ lv g u := by
  unfold O₁ at h
  rcases Pipeline.add_pos_cases h with h | h
  · obtain ⟨j, rfl⟩ := oweY_pos h
    exact ⟨by rw [L_tc]; exact Finset.mem_singleton_self _, by rw [lv_ry]; decide⟩
  · obtain ⟨j, rfl⟩ := oweX_pos h
    exact ⟨by rw [L_tc]; exact Finset.mem_singleton_self _, by rw [lv_rx]⟩

/-- Everything owed at launch sits at level 1 or above. -/
theorem O₀_pos {c : Dev nD} {g : GSem nD τ sig} {u : Unit} (h : 0 < O₀ c g u) : u ∈ L g ∧ 1 ≤ lv g u := by
  unfold O₀ at h
  rcases Pipeline.add_pos_cases h with h | h
  · rcases Pipeline.add_pos_cases h with h | h
    · have := O₁_pos h; exact ⟨this.1, by omega⟩
    · obtain ⟨rfl, -⟩ := Pipeline.tallyAt_pos h
      exact ⟨by rw [L_tc]; exact Finset.mem_singleton_self _, by rw [lv_bar]⟩
  · obtain ⟨rfl, -⟩ := Pipeline.tallyAt_pos h
    exact ⟨by rw [L_tc]; exact Finset.mem_singleton_self _, by rw [lv_bar]⟩

omit [FloatOps F] in
/-- The barrier wait, the two signals out. -/
theorem mayWait_bar (c : Dev nD) : (levAts L lv : sProp 𝕄) ⊢ MayWait (c : Thread nD τ) (.reg barS) () (O₁ c) :=
  Pipeline.mayWait_of_levAts (by rw [L_tc]; exact Finset.mem_singleton_self _) fun g u hg => by
    have := O₁_pos hg
    exact ⟨this.1, by rw [show lv ((c : Thread nD τ), SemLoc.reg barS) () = 1 from rfl]; omega⟩

omit [FloatOps F] in
/-- The wait for chunk `k`'s arrival across x, owing arrivals across y only. -/
theorem mayWait_rx (c : Dev nD) (k : Fin 16) (n : ℕ) : (levAts L lv : sProp 𝕄) ⊢ MayWait (c : Thread nD τ) (.dma (rxS k)) () (oweY c n) :=
  Pipeline.mayWait_of_levAts (by rw [L_tc]; exact Finset.mem_singleton_self _) fun g u hg => by
    obtain ⟨j, rfl⟩ := oweY_pos hg
    exact ⟨by rw [L_tc]; exact Finset.mem_singleton_self _, by rw [show lv ((c : Thread nD τ), SemLoc.dma (rxS k)) () = 2 from lv_rx c k, lv_ry]; decide⟩

omit [FloatOps F] in
/-- A wait at level 0 — the pipeline's staging cell, or any cell a device pays itself — owing what is owed at launch. -/
theorem mayWait_low (c : Dev nD) (sm : SemLoc sig) (h0 : lv ((c : Thread nD τ), sm) () = 0) :
    (levAts L lv : sProp 𝕄) ⊢ MayWait (c : Thread nD τ) sm () (O₀ c) :=
  Pipeline.mayWait_of_levAts (by rw [L_tc]; exact Finset.mem_singleton_self _) fun g u hg => by
    have := O₀_pos hg
    exact ⟨this.1, by rw [h0]; omega⟩

end Cert.Kernel.AG

end
-- ==== Proof.KernelValues.lean ====
/-
  Where the transfers of the all-gather put their elements.

  A transfer writes, at the element of the destination view with local index `y`, the element of the source
  view with the same local index. Every view here is a block of consecutive rows of a whole buffer (for the
  receive buffer, one of its sixteen slots), so both elements are found by adding the block's first row to
  `y`'s row. The four statements say that what lands is what the final contents hold there: the device's own
  block lands on its own rows of the result; chunk `k` of the half that crosses x lands in slot `k` of the
  x-neighbour's receive buffer; and slot `k` of a receive buffer lands on the rows of the result, here and on
  the y-neighbour, that the gathered array reads from the x-neighbour's block.
-/
import proofs.«900340_g7700000000000341_dist_ag_v7x_xyz2x2x4_x_m512_n512_f32_1_alg».proof.Proof.KernelContents
import Idealize.ShloMosaic.Lib.Pipeline.Value
import Idealize.ShloMosaic.Lib.ValueLayout

set_option maxRecDepth 16384

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

variable (m : (ℓ : Loc nD τ sig) → Buf (Elt F) ℓ)

local notation "𝕄" => MT nD τ sig Unit (Elt F) ℕ UU ℕ

/-! ## The staged block -/

/-- The staged block is the device's block of the argument: the window's one block is the whole array. -/
theorem xstg_eq (c : Dev nD) : xstg m c = m ((c : Thread nD τ).loc main_arg0) := by
  unfold xstg
  exact Memref.read_access_unit_zero (Elt F) main_arg0 (funext fun a => Nat.zero_mul _) _ _

/-! ## Where a view's element with local index (a, b) sits in its buffer -/

/-- Row `a` of the device's own rows of the result is row 512·x + a. -/
theorem ownDst_emb (c : Dev nD) (a b : Fin 512) (d : Fin 2) :
    ((ownDst c).view.emb (ix2 a b) d).val = (![512 * (c.val / 8) + a.val, b.val] : Fin 2 → Nat) d := by
  show k0_off1 c d + 1 * (ix2 a b d).val = _
  rw [k0_off1_eq]
  match d with
  | ⟨0, _⟩ => show 512 * (c.val / 8) + 1 * a.val = 512 * (c.val / 8) + a.val; omega
  | ⟨1, _⟩ => show 0 + 1 * b.val = b.val; omega

/-- Row `a` of chunk `k` of the half that crosses x is row 256·y + 16·k + a of the block. -/
theorem xsrc_emb (c : Dev nD) (k : Fin 16) (a : Fin 16) (b : Fin 512) (d : Fin 2) :
    ((xsrc c k).view.emb (ix2 a b) d).val = (![256 * ((c.val / 4) % 2) + 16 * k.val + a.val, b.val] : Fin 2 → Nat) d := by
  show k0_off2 c (BitVec.ofNat 32 (16 * k.val)) d + 1 * (ix2 a b d).val = _
  rw [k0_off2_eq]
  match d with
  | ⟨0, _⟩ => show 256 * ((c.val / 4) % 2) + 16 * k.val + 1 * a.val = 256 * ((c.val / 4) % 2) + 16 * k.val + a.val; omega
  | ⟨1, _⟩ => show 0 + 1 * b.val = b.val; omega

/-- Row `a` of the rows chunk `k` is written to is row 512·(1 − x) + 256·y + 16·k + a of the result. -/
theorem dstV_emb (c : Dev nD) (k : Fin 16) (a : Fin 16) (b : Fin 512) (d : Fin 2) :
    ((dstV c k).view.emb (ix2 a b) d).val
      = (![(256 * ((c.val / 4) % 2) + 16 * k.val + 512) - 512 * (c.val / 8) + a.val, b.val] : Fin 2 → Nat) d := by
  show k0_off3 c (BitVec.ofNat 32 (16 * k.val)) d + 1 * (ix2 a b d).val = _
  rw [k0_off3_eq]
  match d with
  | ⟨0, _⟩ =>
    show (256 * ((c.val / 4) % 2) + 16 * k.val + 512) - 512 * (c.val / 8) + 1 * a.val
      = (256 * ((c.val / 4) % 2) + 16 * k.val + 512) - 512 * (c.val / 8) + a.val
    omega
  | ⟨1, _⟩ => show 0 + 1 * b.val = b.val; omega

/-- Row `a` of slot `k` of the receive buffer is its element (k, a, ·). -/
theorem rbuf_emb (k : Fin 16) (a : Fin 16) (b : Fin 512) (d : Fin 3) :
    ((rbuf k).view.emb (ix2 a b) d).val = (![k.val, a.val, b.val] : Fin 3 → Nat) d := by
  have e : (rbuf k).view.emb (ix2 a b)
      = (Rect.unit (s := S16x16x512) ![k.val, 0, 0] S1x16x512.size (inbR k)).emb
          (Shape.reshapeEquiv squeezes_S1x16x512_S16x512.numel_eq (ix2 a b)) := rfl
  rw [e, reshapeEquiv_ix2_1ab]
  match d with
  | ⟨0, _⟩ => show k.val + 1 * 0 = k.val; omega
  | ⟨1, _⟩ => show 0 + 1 * a.val = a.val; omega
  | ⟨2, _⟩ => show 0 + 1 * b.val = b.val; omega

/-! ## The devices the rows are read from -/

/-- A row of a device's own block is read from the device itself. -/
theorem srcDev_own (c : Dev nD) (r : Fin 1024) (a : Nat) (ha : a < 512) (hr : r.val = 512 * (c.val / 8) + a) :
    srcDev c r = c := by
  have hc : c.val < 16 := c.isLt
  unfold srcDev
  rw [if_pos (by omega)]

/-- A row of the other block, numbered 256·y + 16·k + a in that block, is read from the x-neighbour of the device
    `c` whose y is that y, on any device `d` with `c`'s x and z. -/
theorem srcDev_far (c d : Dev nD) (r : Fin 1024) (k a : Nat) (hk : k < 16) (ha : a < 16)
    (hx : d.val / 8 = c.val / 8) (hz : d.val % 4 = c.val % 4)
    (hr : r.val = (256 * ((c.val / 4) % 2) + 16 * k + 512) - 512 * (c.val / 8) + a) :
    srcDev d r = xp c := by
  have hc : c.val < 16 := c.isLt
  have hd : d.val < 16 := d.isLt
  unfold srcDev
  rw [if_neg (by omega)]
  apply Fin.ext
  show 8 * (r.val / 512) + 4 * ((r.val % 512) / 256) + d.val % 4 = (4 * ((c.val / 4) % 2) + (c.val % 4) + 8) - 8 * (c.val / 8)
  omega

/-! ## What lands where -/

theorem x_lands (c : Dev nD) (k : Fin 16) (fd : Buf (Elt F) ((rbuf k).view.loc ((xp c : Dev nD) : Thread nD τ))) :
    ∀ j ∈ (rbuf k).view.set, (rbuf k).view.write (Elt F) fd ((xsrc c k).view.read (Elt F) (xstg m c)) Finset.univ j = rcont m (xp c) j := by
  intro j hj
  obtain ⟨y, rfl⟩ := View.exists_emb_of_mem_set _ hj
  refine (View.write_emb_of_mem _ _ (Finset.mem_univ y)).trans ?_
  show xstg m c ((xsrc c k).view.emb y) = rcont m (xp c) ((rbuf k).view.emb y)
  obtain ⟨a, b, rfl⟩ : ∃ a b, y = ix2 a b := ⟨y 0, y 1, eq_ix2 y⟩
  unfold rcont
  rw [xp_xp]
  congr 1
  funext d
  apply Fin.ext
  match d with
  | ⟨0, _⟩ =>
    show ((xsrc c k).view.emb (ix2 a b) (0 : Fin 2)).val
      = 256 * (((xp c).val / 4) % 2) + 16 * ((rbuf k).view.emb (ix2 a b) (0 : Fin 3)).val + ((rbuf k).view.emb (ix2 a b) (1 : Fin 3)).val
    rw [xsrc_emb, rbuf_emb, rbuf_emb, xp_y]
    rfl
  | ⟨1, _⟩ =>
    show ((xsrc c k).view.emb (ix2 a b) (1 : Fin 2)).val = ((rbuf k).view.emb (ix2 a b) (2 : Fin 3)).val
    rw [xsrc_emb, rbuf_emb]
    rfl

/-- The gathered array at an index whose row is read from device `s`. -/
theorem gathered_of_src (d s : Dev nD) (j : S1024x512.Idx) (h : srcDev d (j 0) = s) :
    gathered m d j = m ((s : Thread nD τ).loc main_arg0) (ix2 (⟨(j 0).val % 512, Nat.mod_lt _ (by decide)⟩ : Fin 512) (j 1)) := by
  subst h; rfl

/-- Row `a` of slot `k` of `c`'s receive buffer holds row 256·y + 16·k + a of the x-neighbour's block, which is the row
    the gathered array of any device with `c`'s x and z reads at row 512·(1 − x) + 256·y + 16·k + a. -/
theorem far_value (c d : Dev nD) (k : Fin 16) (a : Fin 16) (b : Fin 512) (hx : d.val / 8 = c.val / 8) (hz : d.val % 4 = c.val % 4) :
    rcont m c ((rbuf k).view.emb (ix2 a b)) = gathered m d ((dstV c k).view.emb (ix2 a b)) := by
  have ha : a.val < 16 := a.isLt
  have hk : k.val < 16 := k.isLt
  have hc : c.val < 16 := c.isLt
  have e0 := dstV_emb c k a b 0
  have hs : srcDev d ((dstV c k).view.emb (ix2 a b) (0 : Fin 2)) = xp c := srcDev_far c d _ k.val a.val hk ha hx hz e0
  rw [gathered_of_src m d (xp c) _ hs]
  unfold rcont
  rw [xstg_eq]
  congr 1
  funext e
  apply Fin.ext
  match e with
  | ⟨0, _⟩ =>
    show 256 * ((c.val / 4) % 2) + 16 * ((rbuf k).view.emb (ix2 a b) (0 : Fin 3)).val + ((rbuf k).view.emb (ix2 a b) (1 : Fin 3)).val
      = ((dstV c k).view.emb (ix2 a b) (0 : Fin 2)).val % 512
    rw [rbuf_emb, rbuf_emb, e0]
    show 256 * ((c.val / 4) % 2) + 16 * k.val + a.val = ((256 * ((c.val / 4) % 2) + 16 * k.val + 512) - 512 * (c.val / 8) + a.val) % 512
    omega
  | ⟨1, _⟩ =>
    show ((rbuf k).view.emb (ix2 a b) (2 : Fin 3)).val = ((dstV c k).view.emb (ix2 a b) (1 : Fin 2)).val
    rw [rbuf_emb, dstV_emb]
    rfl

theorem loc_lands (c : Dev nD) (k : Fin 16) (fd : Buf (Elt F) ((dstV c k).view.loc (c : Thread nD τ))) :
    ∀ i ∈ (dstV c k).view.set, (dstV c k).view.write (Elt F) fd ((rbuf k).view.read (Elt F) (rcont m c)) Finset.univ i = gathered m c i := by
  intro i hi
  obtain ⟨y, rfl⟩ := View.exists_emb_of_mem_set _ hi
  refine (View.write_emb_of_mem _ _ (Finset.mem_univ y)).trans ?_
  show rcont m c ((rbuf k).view.emb y) = gathered m c ((dstV c k).view.emb y)
  obtain ⟨a, b, rfl⟩ : ∃ a b, y = ix2 a b := ⟨y 0, y 1, eq_ix2 y⟩
  exact far_value m c c k a b rfl rfl

theorem y_lands (c : Dev nD) (k : Fin 16) (fd : Buf (Elt F) ((dstV c k).view.loc ((yp c : Dev nD) : Thread nD τ))) :
    ∀ i ∈ (dstV c k).view.set, (dstV c k).view.write (Elt F) fd ((rbuf k).view.read (Elt F) (rcont m c)) Finset.univ i = gathered m (yp c) i := by
  intro i hi
  obtain ⟨y, rfl⟩ := View.exists_emb_of_mem_set _ hi
  refine (View.write_emb_of_mem _ _ (Finset.mem_univ y)).trans ?_
  show rcont m c ((rbuf k).view.emb y) = gathered m (yp c) ((dstV c k).view.emb y)
  obtain ⟨a, b, rfl⟩ : ∃ a b, y = ix2 a b := ⟨y 0, y 1, eq_ix2 y⟩
  exact far_value m c (yp c) k a b (yp_x c) (yp_z c)

theorem own_lands (c : Dev nD) (fd : Buf (Elt F) ((ownDst c).view.loc (c : Thread nD τ))) :
    ∀ i ∈ (ownDst c).view.set, (ownDst c).view.write (Elt F) fd ((xM : Memref sig .tc .vmem S512x512 .f32).view.read (Elt F) (xstg m c)) Finset.univ i = gathered m c i := by
  intro i hi
  obtain ⟨y, rfl⟩ := View.exists_emb_of_mem_set _ hi
  refine (View.write_emb_of_mem _ _ (Finset.mem_univ y)).trans ?_
  show xstg m c y = gathered m c ((ownDst c).view.emb y)
  obtain ⟨a, b, rfl⟩ : ∃ a b, y = ix2 a b := ⟨y 0, y 1, eq_ix2 y⟩
  have ha : a.val < 512 := a.isLt
  have e0 := ownDst_emb c a b 0
  have hs : srcDev c ((ownDst c).view.emb (ix2 a b) (0 : Fin 2)) = c := srcDev_own c _ a.val ha e0
  rw [gathered_of_src m c c _ hs, xstg_eq]
  congr 1
  funext e
  apply Fin.ext
  match e with
  | ⟨0, _⟩ =>
    show a.val = ((ownDst c).view.emb (ix2 a b) (0 : Fin 2)).val % 512
    rw [e0]
    show a.val = (512 * (c.val / 8) + a.val) % 512
    omega
  | ⟨1, _⟩ =>
    show b.val = ((ownDst c).view.emb (ix2 a b) (1 : Fin 2)).val
    rw [ownDst_emb]
    rfl

/-! ## Which elements a view covers -/

/-- Slot `k` of the receive buffer covers the elements whose first coordinate is `k`. -/
theorem mem_rbuf (k : Fin 16) (i : S16x16x512.Idx) : i ∈ (rbuf k).view.set ↔ (i 0).val = k.val := by
  have e : (rbuf k).view.set = (Rect.unit (s := S16x16x512) ![k.val, 0, 0] S1x16x512.size (inbR k)).set :=
    (View.set_reshape _ _).trans (View.set_slice_whole cc0_scratch0 _)
  refine (Finset.ext_iff.mp e i).trans (Rect.mem_set_unit.trans ?_)
  have h1 : (i 1).val < 16 := (i 1).isLt
  have h2 : (i 2).val < 512 := (i 2).isLt
  constructor
  · intro h
    have h' : k.val ≤ (i 0).val ∧ (i 0).val < k.val + 1 := h 0
    omega
  · intro h a
    match a with
    | ⟨0, _⟩ => show k.val ≤ (i 0).val ∧ (i 0).val < k.val + 1; omega
    | ⟨1, _⟩ => show 0 ≤ (i 1).val ∧ (i 1).val < 0 + 16; omega
    | ⟨2, _⟩ => show 0 ≤ (i 2).val ∧ (i 2).val < 0 + 512; omega

/-- A block of `n` rows from row `L` of an array of two axes covers the elements whose row is in [L, L + n). -/
theorem mem_rows {R C n : Nat} {off : Fin 2 → Nat} {inb : ∀ a, off a + (![n, C] : Fin 2 → Nat) a ≤ (⟨2, ![R, C]⟩ : Shape).size a}
    (L : Nat) (ho : off = ![L, 0]) (i : (⟨2, ![R, C]⟩ : Shape).Idx) :
    i ∈ (Rect.unit (s := ⟨2, ![R, C]⟩) off ![n, C] inb).set ↔ L ≤ (i 0).val ∧ (i 0).val < L + n := by
  subst ho
  rw [Rect.mem_set_unit]
  have h1 : (i 1).val < C := (i 1).isLt
  constructor
  · intro h; exact h 0
  · intro h a
    match a with
    | ⟨0, _⟩ => exact h
    | ⟨1, _⟩ => show 0 ≤ (i 1).val ∧ (i 1).val < 0 + C; omega

theorem mem_ownDst (c : Dev nD) (i : S1024x512.Idx) :
    i ∈ (ownDst c).view.set ↔ 512 * (c.val / 8) ≤ (i 0).val ∧ (i 0).val < 512 * (c.val / 8) + 512 := by
  have e : (ownDst c).view.set = (Rect.unit (s := S1024x512) (k0_off1 c) S512x512.size (k0_off1_inb c)).set :=
    View.set_slice_whole main_v1 _
  exact (Finset.ext_iff.mp e i).trans (mem_rows _ (k0_off1_eq c) i)

theorem mem_dstV (c : Dev nD) (k : Fin 16) (i : S1024x512.Idx) :
    i ∈ (dstV c k).view.set ↔ (256 * ((c.val / 4) % 2) + 16 * k.val + 512) - 512 * (c.val / 8) ≤ (i 0).val
      ∧ (i 0).val < (256 * ((c.val / 4) % 2) + 16 * k.val + 512) - 512 * (c.val / 8) + 16 := by
  have e : (dstV c k).view.set = (Rect.unit (s := S1024x512) (k0_off3 c (BitVec.ofNat 32 (16 * k.val))) S16x512.size (k0_off3_inb c k)).set :=
    View.set_slice_whole main_v1 _
  exact (Finset.ext_iff.mp e i).trans (mem_rows _ (k0_off3_eq c k) i)

theorem mem_xsrc (c : Dev nD) (k : Fin 16) (i : S512x512.Idx) :
    i ∈ (xsrc c k).view.set ↔ 256 * ((c.val / 4) % 2) + 16 * k.val ≤ (i 0).val
      ∧ (i 0).val < 256 * ((c.val / 4) % 2) + 16 * k.val + 16 := by
  have e : (xsrc c k).view.set = (Rect.unit (s := S512x512) (k0_off2 c (BitVec.ofNat 32 (16 * k.val))) S16x512.size (k0_off2_inb c k)).set :=
    View.set_slice_whole cc0_stg0_0 _
  exact (Finset.ext_iff.mp e i).trans (mem_rows _ (k0_off2_eq c k) i)

/-! ## The buffers, cut into the views the transfers name -/

/-- The receive buffer is its sixteen slots. -/
theorem rM_pieces (d : Dev nD) (q : PosShare TreeShare) (f : Buf (Elt F) ((rM : Memref sig .tc .vmem S16x16x512 .f32).view.loc (d : Thread nD τ))) :
    (((rM : Memref sig .tc .vmem S16x16x512 .f32).view.loc (d : Thread nD τ)) ↦[(rM : Memref sig .tc .vmem S16x16x512 .f32).view.set]{q} f : sProp 𝕄)
      = bigSep Finset.univ fun k : Fin 16 => (((rbuf k).view.loc (d : Thread nD τ)) ↦[(rbuf k).view.set]{q} f : sProp 𝕄) := by
  have hU : (rM : Memref sig .tc .vmem S16x16x512 .f32).view.set
      = Finset.univ.biUnion fun k : Fin 16 => ((rbuf k).view.set : Finset S16x16x512.Idx) := by
    ext i
    refine ⟨fun _ => Finset.mem_biUnion.mpr ⟨i 0, Finset.mem_univ _, (mem_rbuf _ i).mpr rfl⟩, fun _ => ?_⟩
    exact (Finset.ext_iff.mp (View.set_whole cc0_scratch0) i).mpr (Finset.mem_univ _)
  have hd : ∀ k ∈ (Finset.univ : Finset (Fin 16)), ∀ k' ∈ (Finset.univ : Finset (Fin 16)), k ≠ k' →
      Disjoint ((rbuf k).view.set : Finset S16x16x512.Idx) ((rbuf k').view.set : Finset S16x16x512.Idx) := by
    intro k _ k' _ hne
    refine Finset.disjoint_left.mpr fun i hi hi' => hne (Fin.ext ?_)
    exact ((mem_rbuf k i).mp hi).symm.trans ((mem_rbuf k' i).mp hi')
  have key := pointsTo_biUnion (ℓ := (rM : Memref sig .tc .vmem S16x16x512 .f32).view.loc (d : Thread nD τ)) (q := q) (f := f)
    (Ix := Unit) (Name := ℕ) (U := UU) (Lvl := ℕ)
    Finset.univ (fun k : Fin 16 => ((rbuf k).view.set : Finset S16x16x512.Idx)) hd
  rw [← hU] at key
  exact key

/-- Two holders of disjoint element sets of one buffer, as an equation. -/
theorem pointsTo_union_eq {ℓ : Loc nD τ sig} {I J : Finset (Idx ℓ)} {q : PosShare TreeShare} {f : Buf (Elt F) ℓ} (h : Disjoint I J) :
    (ℓ ↦[I ∪ J]{q} f : sProp 𝕄) = iprop((ℓ ↦[I]{q} f) ∗ ℓ ↦[J]{q} f) :=
  BI.equiv_iff.mp ⟨(pointsTo_union h).1, (pointsTo_union h).2⟩

/-- Carving a subset out of a holder's elements, as an equation. -/
theorem pointsTo_split_subset_eq {ℓ : Loc nD τ sig} {I S : Finset (Idx ℓ)} {q : PosShare TreeShare} {f : Buf (Elt F) ℓ} (h : I ⊆ S) :
    (ℓ ↦[S]{q} f : sProp 𝕄) = iprop((ℓ ↦[I]{q} f) ∗ ℓ ↦[S \ I]{q} f) :=
  BI.equiv_iff.mp ⟨(pointsTo_split_subset h).1, (pointsTo_split_subset h).2⟩

/-- The chunks of the half that crosses x lie apart. -/
theorem xsrc_disjoint (d : Dev nD) : ∀ k ∈ (Finset.univ : Finset (Fin 16)), ∀ k' ∈ (Finset.univ : Finset (Fin 16)), k ≠ k' →
    Disjoint ((xsrc d k).view.set : Finset S512x512.Idx) ((xsrc d k').view.set : Finset S512x512.Idx) := by
  intro k _ k' _ hne
  refine Finset.disjoint_left.mpr fun i hi hi' => hne (Fin.ext ?_)
  have h1 := (mem_xsrc d k i).mp hi
  have h2 := (mem_xsrc d k' i).mp hi'
  omega

/-- The staging buffer is the sixteen chunks that cross x and the rest. -/
theorem xM_pieces (d : Dev nD) (q : PosShare TreeShare) (f : Buf (Elt F) ((xM : Memref sig .tc .vmem S512x512 .f32).view.loc (d : Thread nD τ))) :
    (((xM : Memref sig .tc .vmem S512x512 .f32).view.loc (d : Thread nD τ)) ↦[(xM : Memref sig .tc .vmem S512x512 .f32).view.set]{q} f : sProp 𝕄)
      = iprop((bigSep Finset.univ fun k : Fin 16 => (((xsrc d k).view.loc (d : Thread nD τ)) ↦[(xsrc d k).view.set]{q} f))
          ∗ (((xM : Memref sig .tc .vmem S512x512 .f32).view.loc (d : Thread nD τ)) ↦[(xM : Memref sig .tc .vmem S512x512 .f32).view.set \ Finset.univ.biUnion (fun k : Fin 16 => (xsrc d k).view.set)]{q} f)) := by
  have hsub : (Finset.univ.biUnion fun k : Fin 16 => ((xsrc d k).view.set : Finset S512x512.Idx))
      ⊆ (xM : Memref sig .tc .vmem S512x512 .f32).view.set :=
    fun i _ => (Finset.ext_iff.mp (View.set_whole cc0_stg0_0) i).mpr (Finset.mem_univ _)
  have h1 := pointsTo_split_subset_eq (F := F) (ℓ := (xM : Memref sig .tc .vmem S512x512 .f32).view.loc (d : Thread nD τ)) (q := q) (f := f) hsub
  have h2 := pointsTo_biUnion (ℓ := (xM : Memref sig .tc .vmem S512x512 .f32).view.loc (d : Thread nD τ)) (q := q) (f := f)
    (Ix := Unit) (Name := ℕ) (U := UU) (Lvl := ℕ)
    Finset.univ (fun k : Fin 16 => ((xsrc d k).view.set : Finset S512x512.Idx)) (xsrc_disjoint d)
  rw [h2] at h1
  exact h1

/-- The rows the chunks received by one device are written to lie apart. -/
theorem dstV_disjoint (c : Dev nD) : ∀ k ∈ (Finset.univ : Finset (Fin 16)), ∀ k' ∈ (Finset.univ : Finset (Fin 16)), k ≠ k' →
    Disjoint ((dstV c k).view.set : Finset S1024x512.Idx) ((dstV c k').view.set : Finset S1024x512.Idx) := by
  intro k _ k' _ hne
  have hc : c.val < 16 := c.isLt
  refine Finset.disjoint_left.mpr fun i hi hi' => hne (Fin.ext ?_)
  have h1 := (mem_dstV c k i).mp hi
  have h2 := (mem_dstV c k' i).mp hi'
  omega

/-- The near half of the other block: the rows the device's own sixteen chunks are written to. -/
abbrev nearRows (d : Dev nD) : Finset S1024x512.Idx :=
  Finset.univ.biUnion fun k : Fin 16 => ((dstV d k).view.set : Finset S1024x512.Idx)

/-- A row is in the near half when it lies in the 256 rows from row 512·(1 − x) + 256·y. -/
theorem mem_nearRows (d : Dev nD) (i : S1024x512.Idx) :
    i ∈ nearRows d ↔ (256 * ((d.val / 4) % 2) + 512) - 512 * (d.val / 8) ≤ (i 0).val
      ∧ (i 0).val < (256 * ((d.val / 4) % 2) + 512) - 512 * (d.val / 8) + 256 := by
  have hd : d.val < 16 := d.isLt
  have hi : (i 0).val < 1024 := (i 0).isLt
  constructor
  · intro h
    obtain ⟨k, -, hk⟩ := Finset.mem_biUnion.mp h
    have h1 := (mem_dstV d k i).mp hk
    have hk16 : k.val < 16 := k.isLt
    omega
  · intro h
    have hk : ((i 0).val % 256) / 16 < 16 := by omega
    have hm : i ∈ ((dstV d ⟨((i 0).val % 256) / 16, hk⟩).view.set : Finset S1024x512.Idx) :=
      (mem_dstV d ⟨((i 0).val % 256) / 16, hk⟩ i).mpr (by dsimp only; omega)
    exact Finset.mem_biUnion.mpr ⟨⟨((i 0).val % 256) / 16, hk⟩, Finset.mem_univ _, hm⟩

/-- The device's own rows, the near half and the far half (the y-neighbour's near half) are all the rows; -/
theorem out_cover (d : Dev nD) :
    ((oM : Memref sig .tc .hbm S1024x512 .f32).view.set : Finset S1024x512.Idx)
      = ((ownDst d).view.set : Finset S1024x512.Idx) ∪ (nearRows d ∪ nearRows (yp d)) := by
  have hd : d.val < 16 := d.isLt
  have hyx := yp_x d
  have hyy := yp_y d
  ext i
  refine ⟨fun _ => ?_, fun _ => (Finset.ext_iff.mp (View.set_whole main_v1) i).mpr (Finset.mem_univ _)⟩
  have hi : (i 0).val < 1024 := (i 0).isLt
  by_cases h1 : (i 0).val / 512 = d.val / 8
  · exact Finset.mem_union_left _ ((mem_ownDst d i).mpr (by omega))
  · refine Finset.mem_union_right _ ?_
    by_cases h2 : ((i 0).val % 512) / 256 = (d.val / 4) % 2
    · exact Finset.mem_union_left _ ((mem_nearRows d i).mpr (by omega))
    · refine Finset.mem_union_right _ ((mem_nearRows (yp d) i).mpr ?_)
      rw [hyx, hyy]
      omega

/-- and no two of the three meet. -/
theorem own_disjoint (d : Dev nD) :
    Disjoint ((ownDst d).view.set : Finset S1024x512.Idx) (nearRows d ∪ nearRows (yp d)) := by
  have hd : d.val < 16 := d.isLt
  have hyx := yp_x d
  have hyy := yp_y d
  refine Finset.disjoint_left.mpr fun i hA hBC => ?_
  have h0 := (mem_ownDst d i).mp hA
  rcases Finset.mem_union.mp hBC with hB | hC
  · have h1 := (mem_nearRows d i).mp hB
    omega
  · have h1 := (mem_nearRows (yp d) i).mp hC
    rw [hyx, hyy] at h1
    omega

theorem near_far_disjoint (d : Dev nD) : Disjoint (nearRows d) (nearRows (yp d)) := by
  have hd : d.val < 16 := d.isLt
  have hyx := yp_x d
  have hyy := yp_y d
  refine Finset.disjoint_left.mpr fun i hB hC => ?_
  have h1 := (mem_nearRows d i).mp hB
  have h2 := (mem_nearRows (yp d) i).mp hC
  rw [hyx, hyy] at h2
  omega

/-- The result array is the device's own rows, the sixteen chunks of the near half of the other block, and the
    sixteen chunks of the far half, which are the rows the y-neighbour's chunks are written to. -/
theorem out_pieces (d : Dev nD) (f : Buf (Elt F) ((oM : Memref sig .tc .hbm S1024x512 .f32).view.loc (d : Thread nD τ))) :
    (((oM : Memref sig .tc .hbm S1024x512 .f32).view.loc (d : Thread nD τ)) ↦[(oM : Memref sig .tc .hbm S1024x512 .f32).view.set]{fullShare} f : sProp 𝕄)
      = iprop((((ownDst d).view.loc (d : Thread nD τ)) ↦[(ownDst d).view.set]{fullShare} f)
          ∗ (bigSep Finset.univ fun k : Fin 16 => (((dstV d k).view.loc (d : Thread nD τ)) ↦[(dstV d k).view.set]{fullShare} f))
          ∗ (bigSep Finset.univ fun k : Fin 16 => (((dstV (yp d) k).view.loc (d : Thread nD τ)) ↦[(dstV (yp d) k).view.set]{fullShare} f))) := by
  have k1 := pointsTo_union_eq (F := F) (ℓ := (oM : Memref sig .tc .hbm S1024x512 .f32).view.loc (d : Thread nD τ))
    (I := ((ownDst d).view.set : Finset S1024x512.Idx)) (J := nearRows d ∪ nearRows (yp d)) (q := fullShare) (f := f) (own_disjoint d)
  have k2 := pointsTo_union_eq (F := F) (ℓ := (oM : Memref sig .tc .hbm S1024x512 .f32).view.loc (d : Thread nD τ))
    (I := nearRows d) (J := nearRows (yp d)) (q := fullShare) (f := f) (near_far_disjoint d)
  have k3 := pointsTo_biUnion (ℓ := (oM : Memref sig .tc .hbm S1024x512 .f32).view.loc (d : Thread nD τ)) (q := fullShare) (f := f)
    (Ix := Unit) (Name := ℕ) (U := UU) (Lvl := ℕ) Finset.univ (fun k : Fin 16 => ((dstV d k).view.set : Finset S1024x512.Idx)) (dstV_disjoint d)
  have k4 := pointsTo_biUnion (ℓ := (oM : Memref sig .tc .hbm S1024x512 .f32).view.loc (d : Thread nD τ)) (q := fullShare) (f := f)
    (Ix := Unit) (Name := ℕ) (U := UU) (Lvl := ℕ) Finset.univ (fun k : Fin 16 => ((dstV (yp d) k).view.set : Finset S1024x512.Idx)) (dstV_disjoint (yp d))
  have k0 := congrArg (fun I : Finset S1024x512.Idx =>
    (((oM : Memref sig .tc .hbm S1024x512 .f32).view.loc (d : Thread nD τ)) ↦[I]{fullShare} f : sProp 𝕄)) (out_cover d)
  exact k0.trans (k1.trans (congrArg (fun P : sProp 𝕄 =>
    iprop((((oM : Memref sig .tc .hbm S1024x512 .f32).view.loc (d : Thread nD τ)) ↦[((ownDst d).view.set : Finset S1024x512.Idx)]{fullShare} f) ∗ P))
    (k2.trans (congrArg₂ (fun P Q : sProp 𝕄 => iprop(P ∗ Q)) k3 k4))))

end Cert.Kernel.AG

end
-- ==== Proof.KernelSteps.lean ====
/-
  One step of one device, once per kind of statement, at a symbolic device `c` and chunk `k`.

  Each lemma is the rounds rule of its statement read at this protocol's cells: which duty the statement
  pays, with which token, what it hands the cell's owner (by the value lemmas: what lands is the piece of the
  one contents function the payload names), and what it peels off what the device owes.
-/
import proofs.«900340_g7700000000000341_dist_ag_v7x_xyz2x2x4_x_m512_n512_f32_1_alg».proof.Proof.KernelLevels
import proofs.«900340_g7700000000000341_dist_ag_v7x_xyz2x2x4_x_m512_n512_f32_1_alg».proof.Proof.KernelValues

set_option maxRecDepth 16384

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (K : GSem nD τ sig → ℕ)

local notation "𝕄" => MT nD τ sig Unit (Elt F) ℕ UU ℕ

/-! ## What a finished round hands over -/

omit [FloatOps F] in
theorem rest_bar (c : Dev nD) :
    bigSep ((agRd (F := F) m).duties (barCell c) 0 \ ∅) (fun d => (agRd (F := F) m).payload (barCell c) 0 d) = iprop(barPayX c ∗ barPayY c) := by
  rw [Finset.sdiff_empty, duties_bar, bigSep_insert (by decide : (0 : Fin 16) ∉ ({1} : Finset (Fin 16))), bigSep_singleton, payload_bar0, payload_bar1]
  rfl

omit [FloatOps F] in
theorem rest_single {g : GSem nD τ sig} {P : sProp 𝕄} (hd : (agRd (F := F) m).duties g 0 = {0}) (hp : (agRd (F := F) m).payload g 0 0 = P) :
    bigSep ((agRd (F := F) m).duties g 0 \ ∅) (fun d => (agRd (F := F) m).payload g 0 d) = P := by
  rw [Finset.sdiff_empty, hd, bigSep_singleton, hp]

/-! ## Transfers -/

/-- Chunk `k` sent across x: pays the sender's departure cell with the right half of the chunk of its block, and the
    receiver's arrival cell with slot `k` of its receive buffer holding the chunk. -/
theorem step_xr (c n : Dev nD) (hn : n = xp c) (k : Fin 16)
    {hsc : ((rbuf k : Memref sig .tc .vmem S16x512 .f32) : Memref sig (Dev.tc n : Thread nD τ).2.kind .vmem S16x512 .f32).view.ref.isScScratch = false}
    {hsrc : (xsrc c k).view.WordExact} {hdst : (rbuf k).view.WordExact}
    {hsem : DmaTarget.Typed .vmem (.dma (rxS k)) (.remote (Dev.tc n : Thread nD τ) (rbuf k) (.dma (sxS k)) hsc)}
    {α : Type} {Q : α → sProp 𝕄} {cont : PUnit → Prog (TpuEff nD τ sig (Elt F) Λ₀ .tc) α}
    (fn : Buf (Elt F) ((rbuf k).view.loc ((xp c : Dev nD) : Thread nD τ))) (O : CellTallies nD τ sig Unit) (W : Waits sig Unit) :
    iprop(cellInv ER (agRd m) (K (sxCell c k)) (sxCell c k) ∗ cellInv ER (agRd m) (K (rxCell (xp c) k)) (rxCell (xp c) k)
        ∗ (((xsrc c k).view.loc (c : Thread nD τ)) ↦[(xsrc c k).view.set]{fullShare.right} xstg m c)
        ∗ (((rbuf k).view.loc ((xp c : Dev nD) : Thread nD τ)) ↦[(rbuf k).view.set]{fullShare} fn)
        ∗ owes (c : Thread nD τ) (O + tallyAt (rxCell (xp c) k) () N16) W
        ∗ dutyTok ER (sxCell c k) 0 0 ∗ reached ER (sxCell c k) 0
        ∗ dutyTok ER (rxCell (xp c) k) 0 0 ∗ reached ER (rxCell (xp c) k) 0)
      ⊢ iprop(((cred (tallyAt (sxCell c k) () N16) ∗ owes (c : Thread nD τ) O W) -∗ wp frame (wpE (defs₀ (F := F)) 𝒱₀ (c : Thread nD τ) none) Set.univ (cont ⟨⟩) Q)
          -∗ wp frame (wpE (defs₀ (F := F)) 𝒱₀ (c : Thread nD τ) none) Set.univ
              (.op (.enqueueDma (xsrc c k) (.remote (Dev.tc n : Thread nD τ) (rbuf k) (.dma (sxS k)) hsc) (.dma (rxS k)) hsrc hdst hsem) cont) Q) := by
  subst hn
  exact Rounds.wp_send_pointsTo 𝒱₀ ER (agRd m) (c : Thread nD τ) none (κ₁ := K (sxCell c k)) (κ₂ := K (rxCell (xp c) k))
    (r₁ := 0) (r₂ := 0) (d₁ := 0) (d₂ := 0) (src := xsrc c k) (dst := rbuf k) (q := fullShare.right) (fs := xstg m c) (fd := fn)
    (c' := ((xp c : Dev nD) : Thread nD τ))
    (by rw [duties_sx]; exact Finset.mem_singleton_self _) (by rw [duties_rx]; exact Finset.mem_singleton_self _)
    () () N16 rfl (amount_sx m c k 0) (amount_rx m (xp c) k 0) O rfl (W := W)
    (by rw [payload_sx]; exact BI.Entails.refl _)
    (by rw [payload_rx]; unfold rxPay; rw [pointsTo_congr (x_lands m c k fn)])

omit [FloatOps F] in
theorem ryPay_yp (c : Dev nD) (k : Fin 16) :
    ryPay m (yp c) k = ((((dstV c k).view.loc ((yp c : Dev nD) : Thread nD τ)) ↦[(dstV c k).view.set]{fullShare} gathered m (yp c)) : sProp 𝕄) := by
  unfold ryPay; rw [yp_yp]

/-- Chunk `k` forwarded across y: pays the forwarder's departure cell with the right half of slot `k`, and the receiver's
    arrival cell with the rows of its result the chunk is written to. -/
theorem step_f (c n : Dev nD) (hn : n = yp c) (k : Fin 16)
    {hsc : ((dstV c k : Memref sig .tc .hbm S16x512 .f32) : Memref sig (Dev.tc n : Thread nD τ).2.kind .hbm S16x512 .f32).view.ref.isScScratch = false}
    {hsrc : (rbuf k).view.WordExact} {hdst : (dstV c k).view.WordExact}
    {hsem : DmaTarget.Typed .vmem (.dma (ryS k)) (.remote (Dev.tc n : Thread nD τ) (dstV c k) (.dma (syS k)) hsc)}
    {α : Type} {Q : α → sProp 𝕄} {cont : PUnit → Prog (TpuEff nD τ sig (Elt F) Λ₀ .tc) α}
    (fd : Buf (Elt F) ((dstV c k).view.loc ((yp c : Dev nD) : Thread nD τ))) (O : CellTallies nD τ sig Unit) (W : Waits sig Unit) :
    iprop(cellInv ER (agRd m) (K (syCell c k)) (syCell c k) ∗ cellInv ER (agRd m) (K (ryCell (yp c) k)) (ryCell (yp c) k)
        ∗ (((rbuf k).view.loc (c : Thread nD τ)) ↦[(rbuf k).view.set]{fullShare.right} rcont m c)
        ∗ (((dstV c k).view.loc ((yp c : Dev nD) : Thread nD τ)) ↦[(dstV c k).view.set]{fullShare} fd)
        ∗ owes (c : Thread nD τ) (O + tallyAt (ryCell (yp c) k) () N16) W
        ∗ dutyTok ER (syCell c k) 0 0 ∗ reached ER (syCell c k) 0
        ∗ dutyTok ER (ryCell (yp c) k) 0 0 ∗ reached ER (ryCell (yp c) k) 0)
      ⊢ iprop(((cred (tallyAt (syCell c k) () N16) ∗ owes (c : Thread nD τ) O W) -∗ wp frame (wpE (defs₀ (F := F)) 𝒱₀ (c : Thread nD τ) none) Set.univ (cont ⟨⟩) Q)
          -∗ wp frame (wpE (defs₀ (F := F)) 𝒱₀ (c : Thread nD τ) none) Set.univ
              (.op (.enqueueDma (rbuf k) (.remote (Dev.tc n : Thread nD τ) (dstV c k) (.dma (syS k)) hsc) (.dma (ryS k)) hsrc hdst hsem) cont) Q) := by
  subst hn
  exact Rounds.wp_send_pointsTo 𝒱₀ ER (agRd m) (c : Thread nD τ) none (κ₁ := K (syCell c k)) (κ₂ := K (ryCell (yp c) k))
    (r₁ := 0) (r₂ := 0) (d₁ := 0) (d₂ := 0) (src := rbuf k) (dst := dstV c k) (q := fullShare.right) (fs := rcont m c) (fd := fd)
    (c' := ((yp c : Dev nD) : Thread nD τ))
    (by rw [duties_sy]; exact Finset.mem_singleton_self _) (by rw [duties_ry]; exact Finset.mem_singleton_self _)
    () () N16 rfl (amount_sy m c k 0) (amount_ry m (yp c) k 0) O rfl (W := W)
    (by rw [payload_sy]; exact BI.Entails.refl _)
    (by rw [payload_ry, ryPay_yp, pointsTo_congr (y_lands m c k fd)])

/-- The local copy of slot `k` into the device's own result: pays duty `k` of the shared cell with the rows written and the
    left half of the slot. -/
theorem step_l (c : Dev nD) (k : Fin 16)
    {hsrc : (rbuf k).view.WordExact} {hdst : (dstV c k).view.WordExact}
    {hsem : DmaTarget.Typed (nD := nD) (τ := τ) (p := .tc) .vmem (.dma locS) (.here (dstV c k))}
    {α : Type} {Q : α → sProp 𝕄} {cont : PUnit → Prog (TpuEff nD τ sig (Elt F) Λ₀ .tc) α}
    (fd : Buf (Elt F) ((dstV c k).view.loc (c : Thread nD τ))) :
    iprop(cellInv ER (agRd m) (K (locCell c)) (locCell c)
        ∗ (((rbuf k).view.loc (c : Thread nD τ)) ↦[(rbuf k).view.set]{fullShare.left} rcont m c)
        ∗ (((dstV c k).view.loc (c : Thread nD τ)) ↦[(dstV c k).view.set]{fullShare} fd)
        ∗ dutyTok ER (locCell c) 0 k ∗ reached ER (locCell c) 0)
      ⊢ iprop((cred (tallyAt (locCell c) () N16) -∗ wp frame (wpE (defs₀ (F := F)) 𝒱₀ (c : Thread nD τ) none) Set.univ (cont ⟨⟩) Q)
          -∗ wp frame (wpE (defs₀ (F := F)) 𝒱₀ (c : Thread nD τ) none) Set.univ
              (.op (.enqueueDma (rbuf k) (.here (dstV c k)) (.dma locS) hsrc hdst hsem) cont) Q) :=
  Rounds.wp_copy_pointsTo 𝒱₀ ER (agRd m) (c : Thread nD τ) none (κ := K (locCell c)) (r := 0) (d := k)
    (src := rbuf k) (dst := dstV c k) (q := fullShare.left) (fs := rcont m c) (fd := fd)
    (by rw [duties_loc]; exact Finset.mem_univ _) () N16 rfl (amount_loc m c k)
    (by rw [payload_loc]; unfold locPay; rw [pointsTo_congr (loc_lands m c k fd)])

/-- The copy of the device's own block into its rows of the result. -/
theorem step_own (c : Dev nD)
    {hsrc : (xM : Memref sig .tc .vmem S512x512 .f32).view.WordExact} {hdst : (ownDst c).view.WordExact}
    {hsem : DmaTarget.Typed (nD := nD) (τ := τ) (p := .tc) .vmem (.dma ownS) (.here (ownDst c))}
    {α : Type} {Q : α → sProp 𝕄} {cont : PUnit → Prog (TpuEff nD τ sig (Elt F) Λ₀ .tc) α}
    (fd : Buf (Elt F) ((ownDst c).view.loc (c : Thread nD τ))) :
    iprop(cellInv ER (agRd m) (K (ownCell c)) (ownCell c)
        ∗ (((xM : Memref sig .tc .vmem S512x512 .f32).view.loc (c : Thread nD τ)) ↦[(xM : Memref sig .tc .vmem S512x512 .f32).view.set]{fullShare.left} xstg m c)
        ∗ (((ownDst c).view.loc (c : Thread nD τ)) ↦[(ownDst c).view.set]{fullShare} fd)
        ∗ dutyTok ER (ownCell c) 0 0 ∗ reached ER (ownCell c) 0)
      ⊢ iprop((cred (tallyAt (ownCell c) () Nown) -∗ wp frame (wpE (defs₀ (F := F)) 𝒱₀ (c : Thread nD τ) none) Set.univ (cont ⟨⟩) Q)
          -∗ wp frame (wpE (defs₀ (F := F)) 𝒱₀ (c : Thread nD τ) none) Set.univ
              (.op (.enqueueDma (xM : Memref sig .tc .vmem S512x512 .f32) (.here (ownDst c)) (.dma ownS) hsrc hdst hsem) cont) Q) :=
  Rounds.wp_copy_pointsTo 𝒱₀ ER (agRd m) (c : Thread nD τ) none (κ := K (ownCell c)) (r := 0) (d := 0)
    (src := (xM : Memref sig .tc .vmem S512x512 .f32)) (dst := ownDst c) (q := fullShare.left) (fs := xstg m c) (fd := fd)
    (by rw [duties_own]; exact Finset.mem_singleton_self _) () Nown rfl (amount_own m c 0)
    (by rw [payload_own]; unfold ownPay; rw [pointsTo_congr (own_lands m c fd)])

/-! ## Signals -/

/-- The signal to the x-neighbour's barrier cell: its duty 0, with this device's receive buffer and arrival facts. -/
theorem step_sigX (c n : Dev nD) (hn : n = xp c) {k' : ℕ} (hk : k' = 1)
    {α : Type} {Q : α → sProp 𝕄} {cont : PUnit → Prog (TpuEff nD τ sig (Elt F) Λ₀ .tc) α}
    (O : CellTallies nD τ sig Unit) (W : Waits sig Unit) :
    iprop(cellInv ER (agRd m) (K (barCell (xp c))) (barCell (xp c)) ∗ owes (c : Thread nD τ) (O + tallyAt (barCell (xp c)) () 1) W
        ∗ dutyTok ER (barCell (xp c)) 0 0 ∗ barPayX (F := F) (xp c) ∗ reached ER (barCell (xp c)) 0)
      ⊢ iprop((owes (c : Thread nD τ) O W -∗ wp frame (wpE (defs₀ (F := F)) 𝒱₀ (c : Thread nD τ) none) Set.univ (cont ⟨⟩) Q)
          -∗ wp frame (wpE (defs₀ (F := F)) 𝒱₀ (c : Thread nD τ) none) Set.univ (.op (.semSignal ((n, Proc.tc) : Thread nD τ) barS k') cont) Q) := by
  subst hn; subst hk
  exact Rounds.wp_signal 𝒱₀ ER (agRd m) (c : Thread nD τ) none (dst := ((xp c : Dev nD) : Thread nD τ)) (κ := K (barCell (xp c)))
    (r := 0) (d := 0) (by rw [duties_bar]; decide) (amount_bar m (xp c) 0) () O rfl

/-- The signal to the y-neighbour's barrier cell: its duty 1, with the rows of this device's result the neighbour will write. -/
theorem step_sigY (c n : Dev nD) (hn : n = yp c) {k' : ℕ} (hk : k' = 1)
    {α : Type} {Q : α → sProp 𝕄} {cont : PUnit → Prog (TpuEff nD τ sig (Elt F) Λ₀ .tc) α}
    (O : CellTallies nD τ sig Unit) (W : Waits sig Unit) :
    iprop(cellInv ER (agRd m) (K (barCell (yp c))) (barCell (yp c)) ∗ owes (c : Thread nD τ) (O + tallyAt (barCell (yp c)) () 1) W
        ∗ dutyTok ER (barCell (yp c)) 0 1 ∗ barPayY (F := F) (yp c) ∗ reached ER (barCell (yp c)) 0)
      ⊢ iprop((owes (c : Thread nD τ) O W -∗ wp frame (wpE (defs₀ (F := F)) 𝒱₀ (c : Thread nD τ) none) Set.univ (cont ⟨⟩) Q)
          -∗ wp frame (wpE (defs₀ (F := F)) 𝒱₀ (c : Thread nD τ) none) Set.univ (.op (.semSignal ((n, Proc.tc) : Thread nD τ) barS k') cont) Q) := by
  subst hn; subst hk
  exact Rounds.wp_signal 𝒱₀ ER (agRd m) (c : Thread nD τ) none (dst := ((yp c : Dev nD) : Thread nD τ)) (κ := K (barCell (yp c)))
    (r := 0) (d := 1) (by rw [duties_bar]; decide) (amount_bar m (yp c) 1) () O rfl

/-! ## Waits -/

/-- The barrier wait: both neighbours' payloads. -/
theorem step_waitBar (c : Dev nD) {k' : ℕ} (hk : k' = 2)
    {α : Type} {Q : α → sProp 𝕄} {cont : PUnit → Prog (TpuEff nD τ sig (Elt F) Λ₀ .tc) α} (W : Waits sig Unit) :
    iprop(cellInv ER (agRd m) (K (barCell c)) (barCell c) ∗ cred (tallyAt (barCell c) () 2) ∗ owes (c : Thread nD τ) (O₁ c) W
        ∗ levAts L lv ∗ atPos ER (barCell c) 0 ∅ 0)
      ⊢ iprop(((owes (c : Thread nD τ) (O₁ c) (insert (SemLoc.reg barS, ()) W) ∗ atPos ER (barCell c) 1 ∅ 0 ∗ barPayX (F := F) c ∗ barPayY (F := F) c)
            -∗ wp frame (wpE (defs₀ (F := F)) 𝒱₀ (c : Thread nD τ) none) Set.univ (cont ⟨⟩) Q)
          -∗ wp frame (wpE (defs₀ (F := F)) 𝒱₀ (c : Thread nD τ) none) Set.univ (.op (.semWait barS k') cont) Q) := by
  subst hk
  iintro ⟨#HI, Hc, HO, #Hlev, Hat⟩ Hk
  iapply (Rounds.wp_wait_rest_token 𝒱₀ ER (agRd m) (c : Thread nD τ) none (κ := K (barCell c))
      (wpE_semWait_eq 𝒱₀ (c : Thread nD τ) none Set.univ) (Set.mem_univ _) () (O := O₁ c) (W := W) (R := 0) (m := 0) (T := ∅)
      (by rw [expect_bar])) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  ihave Hp := (Entails.of_eq (rest_bar m c)) $$ Hpay
  icases Hp with ⟨HX, HY⟩
  iapply Hk
  isplitl [HO]; · iexact HO
  isplitl [Hat]; · iexact Hat
  isplitl [HX]; · iexact HX
  iexact HY

/-- A wait for the whole of a one-duty round on one of the device's own DMA cells, while it owes `O` above that cell. -/
theorem step_wait (c : Dev nD) (q : DmaSem sig) (N : ℕ) (P : sProp 𝕄) (O : CellTallies nD τ sig Unit)
    (hmw : (levAts L lv : sProp 𝕄) ⊢ MayWait (c : Thread nD τ) (.dma q) () O)
    (hduty : (agRd (F := F) m).duties ((c : Thread nD τ), .dma q) 0 = {0}) (hamt : (agRd (F := F) m).amount ((c : Thread nD τ), .dma q) 0 0 = N)
    (hpay : (agRd (F := F) m).payload ((c : Thread nD τ), .dma q) 0 0 = P)
    {sp sp' : Space} {s s' : Shape} {e e' : EltTy} {src : Memref sig .tc sp' s' e'} {κ' : Idealize.ShloMosaic.Kind} {dst : Memref sig κ' sp s e}
    {hsrc : src.view.WordExact} {hdst : dst.view.WordExact} (hd : dst.view.dmaCredit = N)
    {α : Type} {Q : α → sProp 𝕄} {cont : PUnit → Prog (TpuEff nD τ sig (Elt F) Λ₀ .tc) α} (W : Waits sig Unit) :
    iprop(cellInv ER (agRd m) (K ((c : Thread nD τ), .dma q)) ((c : Thread nD τ), .dma q) ∗ cred (tallyAt ((c : Thread nD τ), .dma q) () N)
        ∗ owes (c : Thread nD τ) O W ∗ levAts L lv ∗ atPos ER ((c : Thread nD τ), .dma q) 0 ∅ 0)
      ⊢ iprop(((owes (c : Thread nD τ) O (insert (SemLoc.dma q, ()) W) ∗ atPos ER ((c : Thread nD τ), .dma q) 1 ∅ 0
              ∗ reached ER ((c : Thread nD τ), .dma q) 1 ∗ P)
            -∗ wp frame (wpE (defs₀ (F := F)) 𝒱₀ (c : Thread nD τ) none) Set.univ (cont ⟨⟩) Q)
          -∗ wp frame (wpE (defs₀ (F := F)) 𝒱₀ (c : Thread nD τ) none) Set.univ (.op (.waitDma2 q src dst hsrc hdst) cont) Q) := by
  subst hd
  iintro ⟨#HI, Hc, HO, #Hlev, Hat⟩ Hk
  iapply (Rounds.wp_wait_rest_token 𝒱₀ ER (agRd m) (c : Thread nD τ) none (κ := K ((c : Thread nD τ), .dma q))
      (wpE_waitDma2_eq 𝒱₀ (c : Thread nD τ) none Set.univ) (Set.mem_univ _) () (O := O) (W := W) (R := 0) (m := 0) (T := ∅)
      (by unfold Schedule.expect Schedule.amountOf; rw [hduty, Finset.sum_singleton, hamt, Nat.zero_add])) $$ [Hc HO Hat]
  · isplitr; · iexact HI
    isplitl [Hc]; · iexact Hc
    isplitl [HO]; · iexact HO
    isplitr; · iapply hmw; iexact Hlev
    iexact Hat
  iintro ⟨HO, Hat, #Hr, Hpay⟩
  ihave Hp := (Entails.of_eq (rest_single m hduty hpay)) $$ Hpay
  iapply Hk
  isplitl [HO]; · iexact HO
  isplitl [Hat]; · iexact Hat
  isplitr; · iexact Hr
  iexact Hp

omit [FloatOps F] in
/-- Owing nothing, any wait is allowed. -/
theorem mayWait_none (c : Dev nD) (sm : SemLoc sig) : (levAts L lv : sProp 𝕄) ⊢ MayWait (c : Thread nD τ) sm () 0 := by
  rw [MayWait_zero]; iintro -; iempintro

end Cert.Kernel.AG

end
-- ==== Proof.KernelPhaseDefs.lean ====
/-
  The state of one device between statements, indexed by how many chunks a phase has handled.

  Phase A sends the sixteen chunks across x; phase B, per chunk: waits for its arrival, forwards it across y and
  copies it into the device's own result; phase C, per chunk: waits for the two departures, the arrival across y
  and a sixteen-row share of the shared local-copy cell (only the sixteenth such wait ends that cell's round and
  hands over the sixteen payloads). `elem` is what a phase still holds for a chunk to do, `done` what it holds
  for a chunk done.
-/
import proofs.«900340_g7700000000000341_dist_ag_v7x_xyz2x2x4_x_m512_n512_f32_1_alg».proof.Proof.KernelSteps

set_option maxRecDepth 16384

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

local notation "𝕄" => MT nD τ sig Unit (Elt F) ℕ UU ℕ

/-- The neighbours' arrival cells at round 0: what the barrier payloads bring. -/
def RX (c : Dev nD) : sProp 𝕄 := bigSep Finset.univ fun k : Fin 16 => reached ER (rxCell (xp c) k) 0
def RY (c : Dev nD) : sProp 𝕄 := bigSep Finset.univ fun k : Fin 16 => reached ER (ryCell (yp c) k) 0

instance RX_persistent (c : Dev nD) : BI.Persistent (RX (F := F) c) := by unfold RX; infer_instance
instance RY_persistent (c : Dev nD) : BI.Persistent (RY (F := F) c) := by unfold RY; infer_instance

/-! ## Phase A -/

def elemA (c : Dev nD) (k : Fin 16) : sProp 𝕄 :=
  iprop(dutyTok ER (sxCell c k) 0 0 ∗ dutyTok ER (rxCell (xp c) k) 0 0
    ∗ (((xsrc c k).view.loc (c : Thread nD τ)) ↦[(xsrc c k).view.set]{fullShare.right} xstg m c)
    ∗ ∃ f : Buf (Elt F) ((rbuf k).view.loc ((xp c : Dev nD) : Thread nD τ)),
        ((rbuf k).view.loc ((xp c : Dev nD) : Thread nD τ)) ↦[(rbuf k).view.set]{fullShare} f)
def doneA (c : Dev nD) (k : Fin 16) : sProp 𝕄 := cred (tallyAt (sxCell c k) () N16)
def XA (c : Dev nD) (n : ℕ) (W : Waits sig Unit) : sProp 𝕄 :=
  iprop(owes (c : Thread nD τ) (oweY c 0 + oweX c n) W ∗ bigSep (fromK n) (elemA m c) ∗ bigSep (belowK n) (doneA (F := F) c))

/-! ## Phase B -/

def farP (c : Dev nD) (k : Fin 16) : sProp 𝕄 :=
  iprop(∃ f : Buf (Elt F) ((dstV c k).view.loc ((yp c : Dev nD) : Thread nD τ)),
    ((dstV c k).view.loc ((yp c : Dev nD) : Thread nD τ)) ↦[(dstV c k).view.set]{fullShare} f)
def nearP (c : Dev nD) (k : Fin 16) : sProp 𝕄 :=
  iprop(∃ f : Buf (Elt F) ((dstV c k).view.loc (c : Thread nD τ)),
    ((dstV c k).view.loc (c : Thread nD τ)) ↦[(dstV c k).view.set]{fullShare} f)

def elemB (c : Dev nD) (k : Fin 16) : sProp 𝕄 :=
  iprop(atPos ER (rxCell c k) 0 ∅ 0 ∗ cred (tallyAt (rxCell c k) () N16)
    ∗ dutyTok ER (syCell c k) 0 0 ∗ dutyTok ER (ryCell (yp c) k) 0 0 ∗ dutyTok ER (locCell c) 0 k
    ∗ farP (F := F) c k ∗ nearP (F := F) c k)
def doneB (c : Dev nD) (k : Fin 16) : sProp 𝕄 :=
  iprop(atPos ER (rxCell c k) 1 ∅ 0 ∗ cred (tallyAt (syCell c k) () N16) ∗ cred (tallyAt (locCell c) () N16))
/-- The chunks after `k` still to do and the chunks before `k` done. -/
def tailB (c : Dev nD) (k : Fin 16) : sProp 𝕄 :=
  iprop(bigSep (fromK (k.val + 1)) (elemB (F := F) c) ∗ bigSep (belowK k.val) (doneB (F := F) c))
def XB (c : Dev nD) (n : ℕ) : sProp 𝕄 :=
  iprop((∃ W, owes (c : Thread nD τ) (oweY c n) W) ∗ bigSep (fromK n) (elemB (F := F) c) ∗ bigSep (belowK n) (doneB (F := F) c))
/-- Chunk `k` has arrived: slot `k` is held whole. -/
def XB1 (c : Dev nD) (k : Fin 16) : sProp 𝕄 :=
  iprop((∃ W, owes (c : Thread nD τ) (oweY c k.val) W)
    ∗ (atPos ER (rxCell c k) 1 ∅ 0 ∗ rxPay m c k
        ∗ dutyTok ER (syCell c k) 0 0 ∗ dutyTok ER (ryCell (yp c) k) 0 0 ∗ dutyTok ER (locCell c) 0 k
        ∗ farP (F := F) c k ∗ nearP (F := F) c k)
    ∗ tailB (F := F) c k)
/-- Chunk `k` is on its way across y: the left half of slot `k` is still held. -/
def XB2 (c : Dev nD) (k : Fin 16) : sProp 𝕄 :=
  iprop((∃ W, owes (c : Thread nD τ) (oweY c (k.val + 1)) W)
    ∗ (atPos ER (rxCell c k) 1 ∅ 0 ∗ cred (tallyAt (syCell c k) () N16)
        ∗ (((rbuf k).view.loc (c : Thread nD τ)) ↦[(rbuf k).view.set]{fullShare.left} rcont m c)
        ∗ dutyTok ER (locCell c) 0 k ∗ nearP (F := F) c k)
    ∗ tailB (F := F) c k)

/-! ## Phase C -/

def elemC (c : Dev nD) (k : Fin 16) : sProp 𝕄 :=
  iprop(atPos ER (sxCell c k) 0 ∅ 0 ∗ cred (tallyAt (sxCell c k) () N16)
    ∗ atPos ER (syCell c k) 0 ∅ 0 ∗ cred (tallyAt (syCell c k) () N16)
    ∗ atPos ER (ryCell c k) 0 ∅ 0 ∗ cred (tallyAt (ryCell c k) () N16)
    ∗ cred (tallyAt (locCell c) () N16))
def doneC (c : Dev nD) (k : Fin 16) : sProp 𝕄 :=
  iprop(atPos ER (sxCell c k) 1 ∅ 0 ∗ sxPay m c k ∗ atPos ER (syCell c k) 1 ∅ 0 ∗ syPay m c k
    ∗ atPos ER (ryCell c k) 1 ∅ 0 ∗ ryPay m c k)
/-- The shared local-copy cell after `n` of its sixteen waits: `n` sixteen-row shares consumed, the payloads of the
    copies known to have landed taken. -/
def locSt (c : Dev nD) (n : ℕ) : sProp 𝕄 :=
  iprop(∃ T : Finset (Fin 16), atPos ER (locCell c) 0 T (n * N16) ∗ bigSep T (locPay m c))
def tailC (c : Dev nD) (k : Fin 16) : sProp 𝕄 :=
  iprop(bigSep (fromK (k.val + 1)) (elemC (F := F) c) ∗ bigSep (belowK k.val) (doneC m c))
def XC (c : Dev nD) (n : ℕ) : sProp 𝕄 :=
  iprop((∃ W, owes (c : Thread nD τ) 0 W) ∗ bigSep (fromK n) (elemC (F := F) c) ∗ bigSep (belowK n) (doneC m c) ∗ locSt m c n)
/-- Within chunk `k` of phase C: after the wait on the departure across x; after the one on the departure across y; after
    the one on the arrival across y. -/
def XC1 (c : Dev nD) (k : Fin 16) : sProp 𝕄 :=
  iprop((∃ W, owes (c : Thread nD τ) 0 W)
    ∗ (atPos ER (sxCell c k) 1 ∅ 0 ∗ sxPay m c k
        ∗ atPos ER (syCell c k) 0 ∅ 0 ∗ cred (tallyAt (syCell c k) () N16)
        ∗ atPos ER (ryCell c k) 0 ∅ 0 ∗ cred (tallyAt (ryCell c k) () N16) ∗ cred (tallyAt (locCell c) () N16))
    ∗ tailC m c k ∗ locSt m c k.val)
def XC2 (c : Dev nD) (k : Fin 16) : sProp 𝕄 :=
  iprop((∃ W, owes (c : Thread nD τ) 0 W)
    ∗ (atPos ER (sxCell c k) 1 ∅ 0 ∗ sxPay m c k ∗ atPos ER (syCell c k) 1 ∅ 0 ∗ syPay m c k
        ∗ atPos ER (ryCell c k) 0 ∅ 0 ∗ cred (tallyAt (ryCell c k) () N16) ∗ cred (tallyAt (locCell c) () N16))
    ∗ tailC m c k ∗ locSt m c k.val)
def XC3 (c : Dev nD) (k : Fin 16) : sProp 𝕄 :=
  iprop((∃ W, owes (c : Thread nD τ) 0 W)
    ∗ (doneC m c k ∗ cred (tallyAt (locCell c) () N16))
    ∗ tailC m c k ∗ locSt m c k.val)
/-- After the sixteenth wait on the shared cell: its round over, all sixteen payloads. -/
def XCend (c : Dev nD) : sProp 𝕄 :=
  iprop((∃ W, owes (c : Thread nD τ) 0 W) ∗ bigSep Finset.univ (doneC m c)
    ∗ atPos ER (locCell c) 1 ∅ 0 ∗ bigSep Finset.univ (locPay m c))

end Cert.Kernel.AG

end
-- ==== Proof.KernelPhases.lean ====
/-
  Phases A and B of one device, a chunk at a time, and the hand-overs between phases.

  Each step takes the phase's state at chunk `k`, peels chunk `k` off the chunks still to do, applies the statement's
  rule, and files what the rule returns with the chunks done.
-/
import proofs.«900340_g7700000000000341_dist_ag_v7x_xyz2x2x4_x_m512_n512_f32_1_alg».proof.Proof.KernelPhaseDefs

set_option maxRecDepth 16384

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (K : GSem nD τ sig → ℕ)

local notation "𝕄" => MT nD τ sig Unit (Elt F) ℕ UU ℕ

/-! ## The cells' invariants and round-0 facts, chunk by chunk -/

/-- The six invariants of chunk `k`, and the four round-0 facts. -/
def invK (c : Dev nD) (k : Fin 16) : sProp 𝕄 :=
  iprop(cellInv ER (agRd m) (K (sxCell c k)) (sxCell c k) ∗ cellInv ER (agRd m) (K (rxCell c k)) (rxCell c k)
      ∗ cellInv ER (agRd m) (K (syCell c k)) (syCell c k) ∗ cellInv ER (agRd m) (K (ryCell c k)) (ryCell c k)
      ∗ cellInv ER (agRd m) (K (rxCell (xp c) k)) (rxCell (xp c) k) ∗ cellInv ER (agRd m) (K (ryCell (yp c) k)) (ryCell (yp c) k))
def reachK (c : Dev nD) (k : Fin 16) : sProp 𝕄 :=
  iprop(reached ER (sxCell c k) 0 ∗ reached ER (rxCell c k) 0 ∗ reached ER (syCell c k) 0 ∗ reached ER (ryCell c k) 0)

theorem invs_all (c : Dev nD) : invs m K c ⊢ bigSep Finset.univ (invK m K c) := by
  unfold invs
  iintro ⟨-, -, -, -, -, H⟩
  iexact H

theorem invs_k (c : Dev nD) (k : Fin 16) : invs m K c ⊢ invK m K c k :=
  (invs_all m K c).trans (bigSep_elim (Finset.mem_univ k))

omit [FloatOps F] in
theorem RX_k (c : Dev nD) (k : Fin 16) : RX (F := F) c ⊢ reached ER (rxCell (xp c) k) 0 := by
  unfold RX; exact bigSep_elim (Finset.mem_univ k)
omit [FloatOps F] in
theorem RY_k (c : Dev nD) (k : Fin 16) : RY (F := F) c ⊢ reached ER (ryCell (yp c) k) 0 := by
  unfold RY; exact bigSep_elim (Finset.mem_univ k)

omit [FloatOps F] in
theorem reach_all (c : Dev nD) : reach0 (F := F) c ⊢ bigSep Finset.univ (reachK (F := F) c) := by
  unfold reach0
  iintro ⟨-, -, -, -, H⟩
  iexact H

omit [FloatOps F] in
theorem reach_k (c : Dev nD) (k : Fin 16) : reach0 (F := F) c ⊢ reachK (F := F) c k :=
  (reach_all c).trans (bigSep_elim (Finset.mem_univ k))

omit [FloatOps F] in
theorem ex_intro {α : Type} (Φ : α → sProp 𝕄) (a : α) : Φ a ⊢ iprop(∃ x, Φ x) := by
  iintro H; iexists a; iexact H
omit [FloatOps F] in
theorem reachK_rx (c : Dev nD) (k : Fin 16) : reachK (F := F) c k ⊢ reached ER (rxCell c k) 0 := by
  unfold reachK; iintro ⟨-, H, -⟩; iexact H
omit [FloatOps F] in
theorem reachK_ry (c : Dev nD) (k : Fin 16) : reachK (F := F) c k ⊢ reached ER (ryCell c k) 0 := by
  unfold reachK; iintro ⟨-, -, -, H⟩; iexact H

/-! ## Families merged and split -/

omit [FloatOps F] in
theorem merge4 (s : Finset (Fin 16)) (A B C D : Fin 16 → sProp 𝕄) :
    bigSep s (fun k => iprop(A k ∗ B k ∗ C k ∗ D k)) = iprop(bigSep s A ∗ bigSep s B ∗ bigSep s C ∗ bigSep s D) := by
  rw [bigSep_sep', bigSep_sep', bigSep_sep']
omit [FloatOps F] in
theorem merge7 (s : Finset (Fin 16)) (A B C D E G H : Fin 16 → sProp 𝕄) :
    bigSep s (fun k => iprop(A k ∗ B k ∗ C k ∗ D k ∗ E k ∗ G k ∗ H k))
      = iprop(bigSep s A ∗ bigSep s B ∗ bigSep s C ∗ bigSep s D ∗ bigSep s E ∗ bigSep s G ∗ bigSep s H) := by
  rw [bigSep_sep', bigSep_sep', bigSep_sep', bigSep_sep', bigSep_sep', bigSep_sep']

/-! ## The two barrier payloads a device hands out -/

omit [FloatOps F] in
/-- Its receive buffer, slot by slot, and its arrival cells across x at round 0: for its x-neighbour. -/
theorem barPayX_intro (c : Dev nD) (f0 : Buf (Elt F) ((rM : Memref sig .tc .vmem S16x16x512 .f32).view.loc (c : Thread nD τ))) :
    iprop((bigSep Finset.univ fun k : Fin 16 => (((rbuf k).view.loc (c : Thread nD τ)) ↦[(rbuf k).view.set]{fullShare} f0 : sProp 𝕄)) ∗ reach0 (F := F) c)
      ⊢ barPayX (F := F) (xp c) := by
  unfold barPayX
  rw [xp_xp]
  exact BIClass.sep_mono (bigSep_mono fun k _ => ex_intro _ f0)
    ((reach_all c).trans (bigSep_mono fun k _ => reachK_rx c k))

omit [FloatOps F] in
/-- The rows of its result its y-neighbour will write, chunk by chunk, and its arrival cells across y at round 0. -/
theorem barPayY_intro (c : Dev nD) (f : Buf (Elt F) ((oM : Memref sig .tc .hbm S1024x512 .f32).view.loc (c : Thread nD τ))) :
    iprop((bigSep Finset.univ fun k : Fin 16 => (((dstV (yp c) k).view.loc (c : Thread nD τ)) ↦[(dstV (yp c) k).view.set]{fullShare} f : sProp 𝕄)) ∗ reach0 (F := F) c)
      ⊢ barPayY (F := F) (yp c) := by
  unfold barPayY
  rw [yp_yp]
  exact BIClass.sep_mono (bigSep_mono fun k _ => ex_intro _ f)
    ((reach_all c).trans (bigSep_mono fun k _ => reachK_ry c k))

/-! ## Phase A -/

omit [FloatOps F] in
/-- Phase A starts with every chunk to do. -/
theorem XA_intro (c : Dev nD) (W : Waits sig Unit) :
    iprop(owes (c : Thread nD τ) (O₁ c) W
        ∗ (bigSep Finset.univ fun k : Fin 16 => (dutyTok ER (sxCell c k) 0 0 : sProp 𝕄))
        ∗ (bigSep Finset.univ fun k : Fin 16 => (dutyTok ER (rxCell (xp c) k) 0 0 : sProp 𝕄))
        ∗ (bigSep Finset.univ fun k : Fin 16 => (((xsrc c k).view.loc (c : Thread nD τ)) ↦[(xsrc c k).view.set]{fullShare.right} xstg m c : sProp 𝕄))
        ∗ (bigSep Finset.univ fun k : Fin 16 => iprop(∃ f : Buf (Elt F) ((rbuf k).view.loc ((xp c : Dev nD) : Thread nD τ)),
              (((rbuf k).view.loc ((xp c : Dev nD) : Thread nD τ)) ↦[(rbuf k).view.set]{fullShare} f : sProp 𝕄))))
      ⊢ XA m c 0 W := by
  unfold XA O₁
  rw [fromK_zero, belowK_zero, bigSep_empty]
  iintro ⟨HO, H⟩
  isplitl [HO]; · iexact HO
  isplitl
  · iapply (Entails.of_eq (merge4 Finset.univ _ _ _ _).symm)
    iexact H
  · iempintro

/-- Chunk `k` sent across x. -/
theorem phaseA_step (c n : Dev nD) (hn : n = xp c) (k : Fin 16)
    {hsc : ((rbuf k : Memref sig .tc .vmem S16x512 .f32) : Memref sig (Dev.tc n : Thread nD τ).2.kind .vmem S16x512 .f32).view.ref.isScScratch = false}
    {hsrc : (xsrc c k).view.WordExact} {hdst : (rbuf k).view.WordExact}
    {hsem : DmaTarget.Typed .vmem (.dma (rxS k)) (.remote (Dev.tc n : Thread nD τ) (rbuf k) (.dma (sxS k)) hsc)}
    {α : Type} {Q : α → sProp 𝕄} {cont : PUnit → Prog (TpuEff nD τ sig (Elt F) Λ₀ .tc) α} (W : Waits sig Unit) :
    iprop(invs m K c ∗ reach0 (F := F) c ∗ RX (F := F) c ∗ XA m c k.val W)
      ⊢ iprop((XA m c (k.val + 1) W -∗ wp frame (wpE (defs₀ (F := F)) 𝒱₀ (c : Thread nD τ) none) Set.univ (cont ⟨⟩) Q)
          -∗ wp frame (wpE (defs₀ (F := F)) 𝒱₀ (c : Thread nD τ) none) Set.univ
              (.op (.enqueueDma (xsrc c k) (.remote (Dev.tc n : Thread nD τ) (rbuf k) (.dma (sxS k)) hsc) (.dma (rxS k)) hsrc hdst hsem) cont) Q) := by
  unfold XA
  rw [oweX_step c k, ← add_assoc, bigSep_fromK k, bigSep_belowK_succ k]
  unfold elemA doneA
  iintro ⟨#HI, #HR, #HRX, HO, ⟨⟨Ht1, Ht2, Hp, ⟨%f, Hs⟩⟩, Hrest⟩, Hdone⟩ Hk
  ihave HIk := (invs_k m K c k) $$ HI
  unfold invK
  icases HIk with ⟨#Hsx, -, -, -, #Hrxp, -⟩
  ihave HRk := (reach_k (F := F) c k) $$ HR
  unfold reachK
  icases HRk with ⟨#Hr1, -⟩
  iapply (step_xr m K c n hn k f (oweY c 0 + oweX c (k.val + 1)) W) $$ [HO Ht1 Ht2 Hp Hs]
  · isplitr; · iexact Hsx
    isplitr; · iexact Hrxp
    isplitl [Hp]; · iexact Hp
    isplitl [Hs]; · iexact Hs
    isplitl [HO]; · iexact HO
    isplitl [Ht1]; · iexact Ht1
    isplitr; · iexact Hr1
    isplitl [Ht2]; · iexact Ht2
    iapply (RX_k (F := F) c k); iexact HRX
  iintro ⟨Hc, HO⟩
  iapply Hk
  isplitl [HO]; · iexact HO
  isplitl [Hrest]; · iexact Hrest
  isplitl [Hc]; · iexact Hc
  iexact Hdone

/-! ## Phase B -/

omit [FloatOps F] in
/-- Phase B starts with every chunk to do. -/
theorem XB_intro (c : Dev nD) (W : Waits sig Unit) :
    iprop(owes (c : Thread nD τ) (oweY c 0) W
        ∗ (bigSep Finset.univ fun k : Fin 16 => (atPos ER (rxCell c k) 0 ∅ 0 : sProp 𝕄))
        ∗ (bigSep Finset.univ fun k : Fin 16 => (cred (tallyAt (rxCell c k) () N16) : sProp 𝕄))
        ∗ (bigSep Finset.univ fun k : Fin 16 => (dutyTok ER (syCell c k) 0 0 : sProp 𝕄))
        ∗ (bigSep Finset.univ fun k : Fin 16 => (dutyTok ER (ryCell (yp c) k) 0 0 : sProp 𝕄))
        ∗ (bigSep Finset.univ fun k : Fin 16 => (dutyTok ER (locCell c) 0 k : sProp 𝕄))
        ∗ (bigSep Finset.univ (farP (F := F) c)) ∗ (bigSep Finset.univ (nearP (F := F) c)))
      ⊢ XB (F := F) c 0 := by
  unfold XB
  rw [fromK_zero, belowK_zero, bigSep_empty]
  iintro ⟨HO, H⟩
  isplitl [HO]; · iexists W; iexact HO
  isplitl
  · iapply (Entails.of_eq (merge7 Finset.univ _ _ _ _ _ _ _).symm)
    iexact H
  · iempintro

/-- The wait for chunk `k`'s arrival across x. -/
theorem phaseB_wait (c : Dev nD) (k : Fin 16)
    {sp sp' : Space} {s s' : Shape} {e e' : EltTy} {src : Memref sig .tc sp' s' e'} {κ' : Idealize.ShloMosaic.Kind} {dst : Memref sig κ' sp s e}
    {hsrc : src.view.WordExact} {hdst : dst.view.WordExact} (hd : dst.view.dmaCredit = N16)
    {α : Type} {Q : α → sProp 𝕄} {cont : PUnit → Prog (TpuEff nD τ sig (Elt F) Λ₀ .tc) α} :
    iprop(invs m K c ∗ levAts L lv ∗ XB (F := F) c k.val)
      ⊢ iprop((XB1 m c k -∗ wp frame (wpE (defs₀ (F := F)) 𝒱₀ (c : Thread nD τ) none) Set.univ (cont ⟨⟩) Q)
          -∗ wp frame (wpE (defs₀ (F := F)) 𝒱₀ (c : Thread nD τ) none) Set.univ (.op (.waitDma2 (rxS k) src dst hsrc hdst) cont) Q) := by
  unfold XB XB1 tailB
  rw [bigSep_fromK k]
  unfold elemB
  iintro ⟨#HI, #Hlev, ⟨%W, HO⟩, ⟨⟨Hat, Hc, Ht1, Ht2, Ht3, Hf, Hn⟩, Hrest⟩, Hdone⟩ Hk
  ihave HIk := (invs_k m K c k) $$ HI
  unfold invK
  icases HIk with ⟨-, #Hrx, -⟩
  iapply (step_wait m K c (rxS k) N16 (rxPay m c k) (oweY c k.val) (mayWait_rx c k k.val) (duties_rx m c k) (amount_rx m c k 0) (payload_rx m c k 0) hd W) $$ [HO Hc Hat]
  · isplitr; · iexact Hrx
    isplitl [Hc]; · iexact Hc
    isplitl [HO]; · iexact HO
    isplitr; · iexact Hlev
    iexact Hat
  iintro ⟨HO, Hat, -, Hp⟩
  iapply Hk
  isplitl [HO]; · iexists _; iexact HO
  isplitl [Hat Hp Ht1 Ht2 Ht3 Hf Hn]
  · isplitl [Hat]; · iexact Hat
    isplitl [Hp]; · iexact Hp
    isplitl [Ht1]; · iexact Ht1
    isplitl [Ht2]; · iexact Ht2
    isplitl [Ht3]; · iexact Ht3
    isplitl [Hf]; · iexact Hf
    iexact Hn
  isplitl [Hrest]; · iexact Hrest
  iexact Hdone

omit [FloatOps F] in
/-- A slot held whole is its left and right halves. -/
theorem slot_halves (c : Dev nD) (k : Fin 16) :
    ((((rbuf k).view.loc (c : Thread nD τ)) ↦[(rbuf k).view.set]{fullShare} rcont m c) : sProp 𝕄)
      ⊢ iprop((((rbuf k).view.loc (c : Thread nD τ)) ↦[(rbuf k).view.set]{fullShare.left} rcont m c)
          ∗ (((rbuf k).view.loc (c : Thread nD τ)) ↦[(rbuf k).view.set]{fullShare.right} rcont m c)) :=
  (pointsTo_share (PosShare.mem_left_op_right fullShare)).1

/-- Chunk `k` forwarded across y. -/
theorem phaseB_fwd (c n : Dev nD) (hn : n = yp c) (k : Fin 16)
    {hsc : ((dstV c k : Memref sig .tc .hbm S16x512 .f32) : Memref sig (Dev.tc n : Thread nD τ).2.kind .hbm S16x512 .f32).view.ref.isScScratch = false}
    {hsrc : (rbuf k).view.WordExact} {hdst : (dstV c k).view.WordExact}
    {hsem : DmaTarget.Typed .vmem (.dma (ryS k)) (.remote (Dev.tc n : Thread nD τ) (dstV c k) (.dma (syS k)) hsc)}
    {α : Type} {Q : α → sProp 𝕄} {cont : PUnit → Prog (TpuEff nD τ sig (Elt F) Λ₀ .tc) α} :
    iprop(invs m K c ∗ reach0 (F := F) c ∗ RY (F := F) c ∗ XB1 m c k)
      ⊢ iprop((XB2 m c k -∗ wp frame (wpE (defs₀ (F := F)) 𝒱₀ (c : Thread nD τ) none) Set.univ (cont ⟨⟩) Q)
          -∗ wp frame (wpE (defs₀ (F := F)) 𝒱₀ (c : Thread nD τ) none) Set.univ
              (.op (.enqueueDma (rbuf k) (.remote (Dev.tc n : Thread nD τ) (dstV c k) (.dma (syS k)) hsc) (.dma (ryS k)) hsrc hdst hsem) cont) Q) := by
  unfold XB1 XB2 rxPay farP
  rw [oweY_step c k]
  iintro ⟨#HI, #HR, #HRY, ⟨%W, HO⟩, ⟨Hat, Hp, Ht1, Ht2, Ht3, ⟨%f, Hf⟩, Hn⟩, Htail⟩ Hk
  ihave HIk := (invs_k m K c k) $$ HI
  unfold invK
  icases HIk with ⟨-, -, #Hsy, -, -, #Hryp⟩
  ihave HRk := (reach_k (F := F) c k) $$ HR
  unfold reachK
  icases HRk with ⟨-, -, #Hr1, -⟩
  ihave Hsh := (slot_halves m c k) $$ Hp
  icases Hsh with ⟨HpL, HpR⟩
  iapply (step_f m K c n hn k f (oweY c (k.val + 1)) W) $$ [HO Ht1 Ht2 HpR Hf]
  · isplitr; · iexact Hsy
    isplitr; · iexact Hryp
    isplitl [HpR]; · iexact HpR
    isplitl [Hf]; · iexact Hf
    isplitl [HO]; · iexact HO
    isplitl [Ht1]; · iexact Ht1
    isplitr; · iexact Hr1
    isplitl [Ht2]; · iexact Ht2
    iapply (RY_k (F := F) c k); iexact HRY
  iintro ⟨Hc, HO⟩
  iapply Hk
  isplitl [HO]; · iexists W; iexact HO
  isplitl [Hat Hc HpL Ht3 Hn]
  · isplitl [Hat]; · iexact Hat
    isplitl [Hc]; · iexact Hc
    isplitl [HpL]; · iexact HpL
    isplitl [Ht3]; · iexact Ht3
    iexact Hn
  iexact Htail

/-- Slot `k` copied into the device's own result. -/
theorem phaseB_loc (c : Dev nD) (k : Fin 16)
    {hsrc : (rbuf k).view.WordExact} {hdst : (dstV c k).view.WordExact}
    {hsem : DmaTarget.Typed (nD := nD) (τ := τ) (p := .tc) .vmem (.dma locS) (.here (dstV c k))}
    {α : Type} {Q : α → sProp 𝕄} {cont : PUnit → Prog (TpuEff nD τ sig (Elt F) Λ₀ .tc) α} :
    iprop(invs m K c ∗ reach0 (F := F) c ∗ XB2 m c k)
      ⊢ iprop((XB (F := F) c (k.val + 1) -∗ wp frame (wpE (defs₀ (F := F)) 𝒱₀ (c : Thread nD τ) none) Set.univ (cont ⟨⟩) Q)
          -∗ wp frame (wpE (defs₀ (F := F)) 𝒱₀ (c : Thread nD τ) none) Set.univ
              (.op (.enqueueDma (rbuf k) (.here (dstV c k)) (.dma locS) hsrc hdst hsem) cont) Q) := by
  unfold XB2 XB tailB nearP
  rw [bigSep_belowK_succ k]
  unfold doneB
  iintro ⟨#HI, #HR, HO, ⟨Hat, Hc, HpL, Ht3, ⟨%f, Hn⟩⟩, Hrest, Hdone⟩ Hk
  unfold invs reach0
  icases HI with ⟨-, -, -, -, #Hloc, -⟩
  icases HR with ⟨-, -, -, #Hrl, -⟩
  iapply (step_l m K c k f) $$ [HpL Hn Ht3]
  · isplitr; · iexact Hloc
    isplitl [HpL]; · iexact HpL
    isplitl [Hn]; · iexact Hn
    isplitl [Ht3]; · iexact Ht3
    iexact Hrl
  iintro Hcl
  iapply Hk
  isplitl [HO]; · iexact HO
  isplitl [Hrest]; · iexact Hrest
  isplitl [Hat Hc Hcl]
  · isplitl [Hat]; · iexact Hat
    isplitl [Hc]; · iexact Hc
    iexact Hcl
  iexact Hdone

end Cert.Kernel.AG

end
-- ==== Proof.KernelHandover.lean ====
/-
  Between the phases: what a phase's last state is, chunk sets emptied, and how the next phase's first state is
  put together from it and from what the device still holds from the start.
-/
import proofs.«900340_g7700000000000341_dist_ag_v7x_xyz2x2x4_x_m512_n512_f32_1_alg».proof.Proof.KernelPhases

set_option maxRecDepth 16384

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (K : GSem nD τ sig → ℕ)

local notation "𝕄" => MT nD τ sig Unit (Elt F) ℕ UU ℕ

omit [FloatOps F] in
theorem merge3 (s : Finset (Fin 16)) (A B C : Fin 16 → sProp 𝕄) :
    bigSep s (fun k => iprop(A k ∗ B k ∗ C k)) = iprop(bigSep s A ∗ bigSep s B ∗ bigSep s C) := by
  rw [bigSep_sep', bigSep_sep']
omit [FloatOps F] in
theorem merge5 (s : Finset (Fin 16)) (A B C D E : Fin 16 → sProp 𝕄) :
    bigSep s (fun k => iprop(A k ∗ B k ∗ C k ∗ D k ∗ E k)) = iprop(bigSep s A ∗ bigSep s B ∗ bigSep s C ∗ bigSep s D ∗ bigSep s E) := by
  rw [bigSep_sep', bigSep_sep', bigSep_sep', bigSep_sep']

/-! ## Whole buffers, spelt through their views -/

omit [FloatOps F] in
theorem x_whole (c : Dev nD) (q : PosShare TreeShare) (f : Buf (Elt F) ((c : Thread nD τ).loc cc0_stg0_0)) :
    ((((xM : Memref sig .tc .vmem S512x512 .f32).view.loc (c : Thread nD τ)) ↦[(xM : Memref sig .tc .vmem S512x512 .f32).view.set]{q} f) : sProp 𝕄)
      = (((c : Thread nD τ).loc cc0_stg0_0) ↦{q} f) := by rw [View.set_whole]
omit [FloatOps F] in
theorem o_whole (c : Dev nD) (q : PosShare TreeShare) (f : Buf (Elt F) ((c : Thread nD τ).loc main_v1)) :
    ((((oM : Memref sig .tc .hbm S1024x512 .f32).view.loc (c : Thread nD τ)) ↦[(oM : Memref sig .tc .hbm S1024x512 .f32).view.set]{q} f) : sProp 𝕄)
      = (((c : Thread nD τ).loc main_v1) ↦{q} f) := by rw [View.set_whole]
omit [FloatOps F] in
theorem r_whole (c : Dev nD) (q : PosShare TreeShare) (f : Buf (Elt F) ((c : Thread nD τ).loc cc0_scratch0)) :
    ((((rM : Memref sig .tc .vmem S16x16x512 .f32).view.loc (c : Thread nD τ)) ↦[(rM : Memref sig .tc .vmem S16x16x512 .f32).view.set]{q} f) : sProp 𝕄)
      = (((c : Thread nD τ).loc cc0_scratch0) ↦{q} f) := by rw [View.set_whole]

omit [FloatOps F] in
/-- The device's own near rows, chunk by chunk, at whatever they hold. -/
theorem near_intro (c : Dev nD) (f : Buf (Elt F) ((oM : Memref sig .tc .hbm S1024x512 .f32).view.loc (c : Thread nD τ))) :
    (bigSep Finset.univ fun k : Fin 16 => (((dstV c k).view.loc (c : Thread nD τ)) ↦[(dstV c k).view.set]{fullShare} f : sProp 𝕄))
      ⊢ bigSep Finset.univ (nearP (F := F) c) :=
  bigSep_mono fun k _ => ex_intro _ f

/-! ## Ends and starts -/

omit [FloatOps F] in
theorem XA_end (c : Dev nD) (W : Waits sig Unit) :
    XA m c 16 W ⊢ iprop(owes (c : Thread nD τ) (oweY c 0) W ∗ bigSep Finset.univ (doneA (F := F) c)) := by
  unfold XA
  rw [oweX_16, add_zero, fromK_16, belowK_16, bigSep_empty]
  iintro ⟨HO, -, H⟩
  isplitl [HO]; · iexact HO
  iexact H

omit [FloatOps F] in
theorem XB_end (c : Dev nD) :
    XB (F := F) c 16 ⊢ iprop((∃ W, owes (c : Thread nD τ) 0 W) ∗ bigSep Finset.univ (doneB (F := F) c)) := by
  unfold XB
  rw [oweY_16, fromK_16, belowK_16, bigSep_empty]
  iintro ⟨HO, -, H⟩
  isplitl [HO]; · iexact HO
  iexact H

omit [FloatOps F] in
theorem XC_intro (c : Dev nD) :
    iprop((∃ W, owes (c : Thread nD τ) 0 W)
        ∗ (bigSep Finset.univ fun k : Fin 16 => (atPos ER (sxCell c k) 0 ∅ 0 : sProp 𝕄))
        ∗ (bigSep Finset.univ fun k : Fin 16 => (cred (tallyAt (sxCell c k) () N16) : sProp 𝕄))
        ∗ (bigSep Finset.univ fun k : Fin 16 => (atPos ER (syCell c k) 0 ∅ 0 : sProp 𝕄))
        ∗ (bigSep Finset.univ fun k : Fin 16 => (cred (tallyAt (syCell c k) () N16) : sProp 𝕄))
        ∗ (bigSep Finset.univ fun k : Fin 16 => (atPos ER (ryCell c k) 0 ∅ 0 : sProp 𝕄))
        ∗ (bigSep Finset.univ fun k : Fin 16 => (cred (tallyAt (ryCell c k) () N16) : sProp 𝕄))
        ∗ (bigSep Finset.univ fun _k : Fin 16 => (cred (tallyAt (locCell c) () N16) : sProp 𝕄))
        ∗ atPos ER (locCell c) 0 ∅ 0)
      ⊢ XC m c 0 := by
  unfold XC locSt
  rw [fromK_zero, belowK_zero, bigSep_empty, Nat.zero_mul]
  iintro ⟨HO, H1, H2, H3, H4, H5, H6, H7, Hat⟩
  isplitl [HO]; · iexact HO
  isplitl [H1 H2 H3 H4 H5 H6 H7]
  · iapply (Entails.of_eq (merge7 Finset.univ _ _ _ _ _ _ _).symm)
    isplitl [H1]; · iexact H1
    isplitl [H2]; · iexact H2
    isplitl [H3]; · iexact H3
    isplitl [H4]; · iexact H4
    isplitl [H5]; · iexact H5
    isplitl [H6]; · iexact H6
    iexact H7
  isplitr; · iempintro
  iexists ∅
  rw [bigSep_empty]
  isplitl [Hat]; · iexact Hat
  iempintro

end Cert.Kernel.AG

end
-- ==== Proof.KernelClosing.lean ====
/-
  The closing phase of one device.

  For each chunk in turn the device waits for the chunk's departure across x, for its departure across y, for
  the arrival across y of the y-neighbour's chunk, and for a sixteen-row share of the cell the sixteen local
  copies pay together; last it waits for the copy of its own block. Each of the first three waits, and the last,
  takes the whole of a one-duty round: the device comes back at the cell's next round holding the duty's payload.
  The first fifteen waits on the shared cell take a share of its one round: the device takes the payloads of the
  copies known to have landed and moves on; the sixteenth takes the rest of the round and with it every payload
  not yet taken. Then every cell of the device stands at its second round, which has no duty, and is closed; the
  payloads are the pieces of three buffers, each stated at one contents function, and are joined.
-/
import proofs.«900340_g7700000000000341_dist_ag_v7x_xyz2x2x4_x_m512_n512_f32_1_alg».proof.Proof.KernelPhaseDefs

set_option maxRecDepth 16384

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (K : GSem nD τ sig → ℕ)

local notation "𝕄" => MT nD τ sig Unit (Elt F) ℕ UU ℕ

/-! ## The invariants of the device's own cells, out of the bundle -/

/-- The six invariants the bundle holds for chunk `k`. -/
abbrev famInv (c : Dev nD) (k : Fin 16) : sProp 𝕄 :=
  iprop(cellInv ER (agRd m) (K (sxCell c k)) (sxCell c k) ∗ cellInv ER (agRd m) (K (rxCell c k)) (rxCell c k)
    ∗ cellInv ER (agRd m) (K (syCell c k)) (syCell c k) ∗ cellInv ER (agRd m) (K (ryCell c k)) (ryCell c k)
    ∗ cellInv ER (agRd m) (K (rxCell (xp c) k)) (rxCell (xp c) k) ∗ cellInv ER (agRd m) (K (ryCell (yp c) k)) (ryCell (yp c) k))

theorem invs_fam (c : Dev nD) (k : Fin 16) : invs m K c ⊢ famInv m K c k := by
  have h : bigSep Finset.univ (famInv m K c) ⊢ famInv m K c k := bigSep_elim (Finset.mem_univ k)
  unfold invs
  iintro ⟨-, -, -, -, -, Hf⟩
  iapply h
  iexact Hf

theorem invs_own (c : Dev nD) : invs m K c ⊢ cellInv ER (agRd m) (K (ownCell c)) (ownCell c) := by
  unfold invs
  iintro ⟨-, -, -, H, -, -⟩
  iexact H

theorem invs_loc (c : Dev nD) : invs m K c ⊢ cellInv ER (agRd m) (K (locCell c)) (locCell c) := by
  unfold invs
  iintro ⟨-, -, -, -, H, -⟩
  iexact H

theorem invs_sx (c : Dev nD) (k : Fin 16) : invs m K c ⊢ cellInv ER (agRd m) (K (sxCell c k)) (sxCell c k) := by
  refine (invs_fam m K c k).trans ?_
  iintro ⟨H, -, -, -, -, -⟩
  iexact H

theorem invs_rx (c : Dev nD) (k : Fin 16) : invs m K c ⊢ cellInv ER (agRd m) (K (rxCell c k)) (rxCell c k) := by
  refine (invs_fam m K c k).trans ?_
  iintro ⟨-, H, -, -, -, -⟩
  iexact H

theorem invs_sy (c : Dev nD) (k : Fin 16) : invs m K c ⊢ cellInv ER (agRd m) (K (syCell c k)) (syCell c k) := by
  refine (invs_fam m K c k).trans ?_
  iintro ⟨-, -, H, -, -, -⟩
  iexact H

theorem invs_ry (c : Dev nD) (k : Fin 16) : invs m K c ⊢ cellInv ER (agRd m) (K (ryCell c k)) (ryCell c k) := by
  refine (invs_fam m K c k).trans ?_
  iintro ⟨-, -, -, H, -, -⟩
  iexact H

/-! ## The waits that take a whole round -/

theorem phaseC_sx (c : Dev nD) (k : Fin 16)
    {sp sp' : Space} {s s' : Shape} {e e' : EltTy} {src : Memref sig .tc sp' s' e'} {κ' : Idealize.ShloMosaic.Kind} {dst : Memref sig κ' sp s e}
    {hsrc : src.view.WordExact} {hdst : dst.view.WordExact} (hd : dst.view.dmaCredit = N16)
    {α : Type} {Q : α → sProp 𝕄} {cont : PUnit → Prog (TpuEff nD τ sig (Elt F) Λ₀ .tc) α} :
    iprop(invs m K c ∗ levAts L lv ∗ XC m c k.val)
      ⊢ iprop((XC1 m c k -∗ wp frame (wpE (defs₀ (F := F)) 𝒱₀ (c : Thread nD τ) none) Set.univ (cont ⟨⟩) Q)
          -∗ wp frame (wpE (defs₀ (F := F)) 𝒱₀ (c : Thread nD τ) none) Set.univ (.op (.waitDma2 (sxS k) src dst hsrc hdst) cont) Q) := by
  unfold XC XC1 tailC
  rw [bigSep_fromK k]
  unfold elemC
  iintro ⟨#HI, #Hlev, ⟨%W, HO⟩, ⟨⟨Hat, Hc, Hrest⟩, Hfrom⟩, Hbelow, Hloc⟩ Hk
  ihave #Hinv := (invs_sx m K c k) $$ HI
  iapply (step_wait m K c (sxS k) N16 (sxPay m c k) 0 (mayWait_none c _) (duties_sx m c k) (amount_sx m c k 0) (payload_sx m c k 0) hd W) $$ [Hc HO Hat]
  · isplitr; · iexact Hinv
    isplitl [Hc]; · iexact Hc
    isplitl [HO]; · iexact HO
    isplitr; · iexact Hlev
    iexact Hat
  iintro ⟨HO, Hat, -, Hpay⟩
  iapply Hk
  isplitl [HO]; · iexists _; iexact HO
  isplitl [Hat Hpay Hrest]
  · isplitl [Hat]; · iexact Hat
    isplitl [Hpay]; · iexact Hpay
    iexact Hrest
  isplitl [Hfrom Hbelow]
  · isplitl [Hfrom]; · iexact Hfrom
    iexact Hbelow
  iexact Hloc

theorem phaseC_sy (c : Dev nD) (k : Fin 16)
    {sp sp' : Space} {s s' : Shape} {e e' : EltTy} {src : Memref sig .tc sp' s' e'} {κ' : Idealize.ShloMosaic.Kind} {dst : Memref sig κ' sp s e}
    {hsrc : src.view.WordExact} {hdst : dst.view.WordExact} (hd : dst.view.dmaCredit = N16)
    {α : Type} {Q : α → sProp 𝕄} {cont : PUnit → Prog (TpuEff nD τ sig (Elt F) Λ₀ .tc) α} :
    iprop(invs m K c ∗ levAts L lv ∗ XC1 m c k)
      ⊢ iprop((XC2 m c k -∗ wp frame (wpE (defs₀ (F := F)) 𝒱₀ (c : Thread nD τ) none) Set.univ (cont ⟨⟩) Q)
          -∗ wp frame (wpE (defs₀ (F := F)) 𝒱₀ (c : Thread nD τ) none) Set.univ (.op (.waitDma2 (syS k) src dst hsrc hdst) cont) Q) := by
  unfold XC1 XC2
  iintro ⟨#HI, #Hlev, ⟨%W, HO⟩, ⟨Hsx, Hpx, Hat, Hc, Hrest⟩, Htail, Hloc⟩ Hk
  ihave #Hinv := (invs_sy m K c k) $$ HI
  iapply (step_wait m K c (syS k) N16 (syPay m c k) 0 (mayWait_none c _) (duties_sy m c k) (amount_sy m c k 0) (payload_sy m c k 0) hd W) $$ [Hc HO Hat]
  · isplitr; · iexact Hinv
    isplitl [Hc]; · iexact Hc
    isplitl [HO]; · iexact HO
    isplitr; · iexact Hlev
    iexact Hat
  iintro ⟨HO, Hat, -, Hpay⟩
  iapply Hk
  isplitl [HO]; · iexists _; iexact HO
  isplitl [Hsx Hpx Hat Hpay Hrest]
  · isplitl [Hsx]; · iexact Hsx
    isplitl [Hpx]; · iexact Hpx
    isplitl [Hat]; · iexact Hat
    isplitl [Hpay]; · iexact Hpay
    iexact Hrest
  isplitl [Htail]; · iexact Htail
  iexact Hloc

theorem phaseC_ry (c : Dev nD) (k : Fin 16)
    {sp sp' : Space} {s s' : Shape} {e e' : EltTy} {src : Memref sig .tc sp' s' e'} {κ' : Idealize.ShloMosaic.Kind} {dst : Memref sig κ' sp s e}
    {hsrc : src.view.WordExact} {hdst : dst.view.WordExact} (hd : dst.view.dmaCredit = N16)
    {α : Type} {Q : α → sProp 𝕄} {cont : PUnit → Prog (TpuEff nD τ sig (Elt F) Λ₀ .tc) α} :
    iprop(invs m K c ∗ levAts L lv ∗ XC2 m c k)
      ⊢ iprop((XC3 m c k -∗ wp frame (wpE (defs₀ (F := F)) 𝒱₀ (c : Thread nD τ) none) Set.univ (cont ⟨⟩) Q)
          -∗ wp frame (wpE (defs₀ (F := F)) 𝒱₀ (c : Thread nD τ) none) Set.univ (.op (.waitDma2 (ryS k) src dst hsrc hdst) cont) Q) := by
  unfold XC2 XC3 doneC
  iintro ⟨#HI, #Hlev, ⟨%W, HO⟩, ⟨Hsx, Hpx, Hsy, Hpy, Hat, Hc, Hcl⟩, Htail, Hloc⟩ Hk
  ihave #Hinv := (invs_ry m K c k) $$ HI
  iapply (step_wait m K c (ryS k) N16 (ryPay m c k) 0 (mayWait_none c _) (duties_ry m c k) (amount_ry m c k 0) (payload_ry m c k 0) hd W) $$ [Hc HO Hat]
  · isplitr; · iexact Hinv
    isplitl [Hc]; · iexact Hc
    isplitl [HO]; · iexact HO
    isplitr; · iexact Hlev
    iexact Hat
  iintro ⟨HO, Hat, -, Hpay⟩
  iapply Hk
  isplitl [HO]; · iexists _; iexact HO
  isplitl [Hsx Hpx Hsy Hpy Hat Hpay Hcl]
  · isplitr [Hcl]
    · isplitl [Hsx]; · iexact Hsx
      isplitl [Hpx]; · iexact Hpx
      isplitl [Hsy]; · iexact Hsy
      isplitl [Hpy]; · iexact Hpy
      isplitl [Hat]; · iexact Hat
      iexact Hpay
    iexact Hcl
  isplitl [Htail]; · iexact Htail
  iexact Hloc

/-- The wait for the copy of the device's own block. -/
theorem wait_own (c : Dev nD)
    {sp sp' : Space} {s s' : Shape} {e e' : EltTy} {src : Memref sig .tc sp' s' e'} {κ' : Idealize.ShloMosaic.Kind} {dst : Memref sig κ' sp s e}
    {hsrc : src.view.WordExact} {hdst : dst.view.WordExact} (hd : dst.view.dmaCredit = Nown)
    {α : Type} {Q : α → sProp 𝕄} {cont : PUnit → Prog (TpuEff nD τ sig (Elt F) Λ₀ .tc) α} :
    iprop(invs m K c ∗ levAts L lv ∗ cred (tallyAt (ownCell c) () Nown) ∗ (∃ W, owes (c : Thread nD τ) 0 W) ∗ atPos ER (ownCell c) 0 ∅ 0)
      ⊢ iprop((((∃ W, owes (c : Thread nD τ) 0 W) ∗ atPos ER (ownCell c) 1 ∅ 0 ∗ ownPay m c) -∗ wp frame (wpE (defs₀ (F := F)) 𝒱₀ (c : Thread nD τ) none) Set.univ (cont ⟨⟩) Q)
          -∗ wp frame (wpE (defs₀ (F := F)) 𝒱₀ (c : Thread nD τ) none) Set.univ (.op (.waitDma2 ownS src dst hsrc hdst) cont) Q) := by
  iintro ⟨#HI, #Hlev, Hc, ⟨%W, HO⟩, Hat⟩ Hk
  ihave #Hinv := (invs_own m K c) $$ HI
  iapply (step_wait m K c ownS Nown (ownPay m c) 0 (mayWait_none c _) (duties_own m c) (amount_own m c 0) (payload_own m c 0) hd W) $$ [Hc HO Hat]
  · isplitr; · iexact Hinv
    isplitl [Hc]; · iexact Hc
    isplitl [HO]; · iexact HO
    isplitr; · iexact Hlev
    iexact Hat
  iintro ⟨HO, Hat, -, Hpay⟩
  iapply Hk
  isplitl [HO]; · iexists _; iexact HO
  isplitl [Hat]; · iexact Hat
  iexact Hpay

/-! ## The waits on the cell the sixteen local copies share -/

/-- The wait's rule, the amount named as the sixteen rows' credit. -/
theorem waitLoc_spec {sp sp' : Space} {s s' : Shape} {e e' : EltTy} {src : Memref sig .tc sp' s' e'} {κ' : Idealize.ShloMosaic.Kind} {dst : Memref sig κ' sp s e}
    {hsrc : src.view.WordExact} {hdst : dst.view.WordExact} (hd : dst.view.dmaCredit = N16) (c : Dev nD) (K' : PUnit → sProp 𝕄) :
    wpE (defs₀ (F := F)) 𝒱₀ (c : Thread nD τ) none Set.univ (.waitDma2 locS src dst hsrc hdst) K'
      = waitSpec (c : Thread nD τ) Set.univ (.dma locS) N16 K' := by
  rw [← hd]; rfl

/-- The payloads already taken and those a wait hands over are the payloads of the larger set. -/
theorem locPay_join (c : Dev nD) (S T : Finset (Fin 16)) (h : T ⊆ S) :
    iprop(bigSep T (locPay m c) ∗ bigSep (S \ T) (fun d => (agRd (F := F) m).payload (locCell c) 0 d)) ⊢ bigSep S (locPay m c) := by
  rw [bigSep_congr (fun d _ => payload_loc m c d)]
  exact Entails.of_eq (bigSep_sdiff_split h).symm

theorem locPay_join_all (c : Dev nD) (T : Finset (Fin 16)) :
    iprop(bigSep T (locPay m c) ∗ bigSep ((agRd (F := F) m).duties (locCell c) 0 \ T) (fun d => (agRd (F := F) m).payload (locCell c) 0 d))
      ⊢ bigSep Finset.univ (locPay m c) := by
  rw [duties_loc]
  exact locPay_join m c Finset.univ T (Finset.subset_univ T)

/-- A wait for a sixteen-row share of the shared round, not the last: the payloads of the copies known to have landed
    are taken, the chunk joins the chunks done. -/
theorem phaseC_loc (c : Dev nD) (k : Fin 16) (hk : k.val + 1 < 16)
    {sp sp' : Space} {s s' : Shape} {e e' : EltTy} {src : Memref sig .tc sp' s' e'} {κ' : Idealize.ShloMosaic.Kind} {dst : Memref sig κ' sp s e}
    {hsrc : src.view.WordExact} {hdst : dst.view.WordExact} (hd : dst.view.dmaCredit = N16)
    {α : Type} {Q : α → sProp 𝕄} {cont : PUnit → Prog (TpuEff nD τ sig (Elt F) Λ₀ .tc) α} :
    iprop(invs m K c ∗ levAts L lv ∗ XC3 m c k)
      ⊢ iprop((XC m c (k.val + 1) -∗ wp frame (wpE (defs₀ (F := F)) 𝒱₀ (c : Thread nD τ) none) Set.univ (cont ⟨⟩) Q)
          -∗ wp frame (wpE (defs₀ (F := F)) 𝒱₀ (c : Thread nD τ) none) Set.univ (.op (.waitDma2 locS src dst hsrc hdst) cont) Q) := by
  unfold XC3 XC tailC locSt
  rw [bigSep_belowK_succ k, Nat.succ_mul]
  iintro ⟨#HI, #Hlev, ⟨%W, HO⟩, ⟨Hdone, Hc⟩, ⟨Hfrom, Hbelow⟩, ⟨%T, Hat, HT⟩⟩ Hk
  ihave #Hinv := (invs_loc m K c) $$ HI
  iapply (Rounds.wp_wait 𝒱₀ ER (agRd m) (c : Thread nD τ) none (κ := K (locCell c))
      (waitLoc_spec hd c) (Set.mem_univ _)
      (cr := Finsupp.single () N16) (O := 0) (W := W) {(SemLoc.dma locS, ())} (R := 0) (m := k.val * N16) (T := T)
      (Util.total_single _ _) (image_single_subset _ _ _)) $$ [Hc HO Hat]
  · isplitr; · iexact Hinv
    isplitl [Hc]; · iexact Hc
    isplitl [HO]; · iexact HO
    isplitr; · rw [MayOwe_zero]; iempintro
    iexact Hat
  iintro %S ⟨%hS, HO, Hat, Hpay⟩
  iapply Hk
  isplitl [HO]; · iexists _; iexact HO
  isplitl [Hfrom]; · iexact Hfrom
  isplitl [Hdone Hbelow]
  · isplitl [Hdone]; · iexact Hdone
    iexact Hbelow
  iexists S
  isplitl [Hat]; · iexact Hat
  iapply (locPay_join m c S T hS.1)
  isplitl [HT]; · iexact HT
  iexact Hpay

/-- The sixteenth wait on the shared cell takes the rest of its round: every payload not yet taken. -/
theorem phaseC_loc_last (c : Dev nD) (k : Fin 16) (hk : k.val = 15)
    {sp sp' : Space} {s s' : Shape} {e e' : EltTy} {src : Memref sig .tc sp' s' e'} {κ' : Idealize.ShloMosaic.Kind} {dst : Memref sig κ' sp s e}
    {hsrc : src.view.WordExact} {hdst : dst.view.WordExact} (hd : dst.view.dmaCredit = N16)
    {α : Type} {Q : α → sProp 𝕄} {cont : PUnit → Prog (TpuEff nD τ sig (Elt F) Λ₀ .tc) α} :
    iprop(invs m K c ∗ levAts L lv ∗ XC3 m c k)
      ⊢ iprop((XCend m c -∗ wp frame (wpE (defs₀ (F := F)) 𝒱₀ (c : Thread nD τ) none) Set.univ (cont ⟨⟩) Q)
          -∗ wp frame (wpE (defs₀ (F := F)) 𝒱₀ (c : Thread nD τ) none) Set.univ (.op (.waitDma2 locS src dst hsrc hdst) cont) Q) := by
  have h16 : k.val + 1 = 16 := by omega
  have hD : bigSep Finset.univ (doneC m c) = iprop(doneC m c k ∗ bigSep (belowK k.val) (doneC m c)) := by
    rw [← bigSep_belowK_succ k, h16, belowK_16]
  unfold XC3 XCend tailC locSt
  rw [hD]
  iintro ⟨#HI, #Hlev, ⟨%W, HO⟩, ⟨Hdone, Hc⟩, ⟨-, Hbelow⟩, ⟨%T, Hat, HT⟩⟩ Hk
  ihave #Hinv := (invs_loc m K c) $$ HI
  iapply (Rounds.wp_wait_rest 𝒱₀ ER (agRd m) (c : Thread nD τ) none (κ := K (locCell c))
      (waitLoc_spec hd c) (Set.mem_univ _)
      (cr := Finsupp.single () N16) (O := 0) (W := W) {(SemLoc.dma locS, ())} (R := 0) (m := k.val * N16) (T := T)
      (by rw [expect_loc, hk]; omega) (Util.total_single _ _) (image_single_subset _ _ _)) $$ [Hc HO Hat]
  · isplitr; · iexact Hinv
    isplitl [Hc]; · iexact Hc
    isplitl [HO]; · iexact HO
    isplitr; · rw [MayOwe_zero]; iempintro
    iexact Hat
  iintro ⟨HO, Hat, -, Hpay⟩
  iapply Hk
  isplitl [HO]; · iexists _; iexact HO
  isplitl [Hdone Hbelow]
  · isplitl [Hdone]; · iexact Hdone
    iexact Hbelow
  isplitl [Hat]; · iexact Hat
  iapply (locPay_join_all m c T)
  isplitl [HT]; · iexact HT
  iexact Hpay

/-! ## Closing the cells -/

/-- A cell at its second round with nothing taken closes, its counter at zero: no round from the second on has a duty. -/
theorem close_cell (g : GSem nD τ sig) (κ : ℕ) :
    iprop(cellInv ER (agRd m) κ g ∗ atPos ER g 1 ∅ 0) ⊢ iprop(|={Set.univ}=> semVal g 0) :=
  Rounds.cell_close ER (agRd m) (Set.mem_univ κ) (fun h => h) (duties_later m g)

/-- The device's positions on the four cells of chunk `k`, and those cells' counters. -/
abbrev pos4 (c : Dev nD) (k : Fin 16) : sProp 𝕄 :=
  iprop(atPos ER (sxCell c k) 1 ∅ 0 ∗ atPos ER (rxCell c k) 1 ∅ 0 ∗ atPos ER (syCell c k) 1 ∅ 0 ∗ atPos ER (ryCell c k) 1 ∅ 0)
abbrev val4 (c : Dev nD) (k : Fin 16) : sProp 𝕄 :=
  iprop(semVal (sxCell c k) 0 ∗ semVal (rxCell c k) 0 ∗ semVal (syCell c k) 0 ∗ semVal (ryCell c k) 0)

theorem close_four (c : Dev nD) (k : Fin 16) : iprop(famInv m K c k ∗ pos4 (F := F) c k) ⊢ iprop(|={Set.univ}=> val4 (F := F) c k) := by
  iintro ⟨⟨#I1, #I2, #I3, #I4, -, -⟩, P1, P2, P3, P4⟩
  imod (close_cell m (sxCell c k) _) $$ [P1] with H1
  · isplitr; · iexact I1
    iexact P1
  imod (close_cell m (rxCell c k) _) $$ [P2] with H2
  · isplitr; · iexact I2
    iexact P2
  imod (close_cell m (syCell c k) _) $$ [P3] with H3
  · isplitr; · iexact I3
    iexact P3
  imod (close_cell m (ryCell c k) _) $$ [P4] with H4
  · isplitr; · iexact I4
    iexact P4
  imodintro
  isplitl [H1]; · iexact H1
  isplitl [H2]; · iexact H2
  isplitl [H3]; · iexact H3
  iexact H4

theorem close_fam (c : Dev nD) :
    iprop(invs m K c ∗ bigSep Finset.univ (pos4 (F := F) c)) ⊢ iprop(|={Set.univ}=> bigSep Finset.univ (val4 (F := F) c)) := by
  have h1 : invs m K c ⊢ bigSep Finset.univ (famInv m K c) := by
    unfold invs
    iintro ⟨-, -, -, -, -, H⟩
    iexact H
  refine (sep_mono_left h1).trans ?_
  refine (Entails.of_eq (bigSep_sep' Finset.univ (famInv m K c) (pos4 (F := F) c)).symm).trans ?_
  exact (bigSep_mono fun k _ => close_four m K c k).trans (bigSep_fupd _ _)

/-! ## The families, regrouped -/

/-- The chunks done, with the positions on the arrival cells across x: the positions on the four cells of every chunk,
    and the three families of payloads. -/
theorem doneC_rearr (c : Dev nD) :
    iprop(bigSep Finset.univ (doneC m c) ∗ bigSep Finset.univ (fun k : Fin 16 => atPos ER (rxCell c k) 1 ∅ 0))
      ⊢ iprop(bigSep Finset.univ (pos4 (F := F) c) ∗ bigSep Finset.univ (sxPay m c) ∗ bigSep Finset.univ (syPay m c) ∗ bigSep Finset.univ (ryPay m c)) := by
  refine (Entails.of_eq (bigSep_sep' Finset.univ (doneC m c) (fun k : Fin 16 => atPos ER (rxCell c k) 1 ∅ 0)).symm).trans ?_
  refine (bigSep_mono (Ψ := fun k => iprop(pos4 (F := F) c k ∗ sxPay m c k ∗ syPay m c k ∗ ryPay m c k)) fun k _ => ?_).trans ?_
  · show iprop(doneC m c k ∗ atPos ER (rxCell c k) 1 ∅ 0) ⊢ iprop(pos4 (F := F) c k ∗ sxPay m c k ∗ syPay m c k ∗ ryPay m c k)
    unfold doneC
    iintro ⟨⟨A1, P1, A2, P2, A3, P3⟩, A4⟩
    isplitl [A1 A2 A3 A4]
    · isplitl [A1]; · iexact A1
      isplitl [A4]; · iexact A4
      isplitl [A2]; · iexact A2
      iexact A3
    isplitl [P1]; · iexact P1
    isplitl [P2]; · iexact P2
    iexact P3
  · refine (Entails.of_eq (bigSep_sep' Finset.univ (pos4 (F := F) c) (fun k => iprop(sxPay m c k ∗ syPay m c k ∗ ryPay m c k)))).trans ?_
    refine sep_mono_right ?_
    refine (Entails.of_eq (bigSep_sep' Finset.univ (sxPay m c) (fun k => iprop(syPay m c k ∗ ryPay m c k)))).trans ?_
    exact sep_mono_right (Entails.of_eq (bigSep_sep' Finset.univ (syPay m c) (ryPay m c)))

/-- The local copies' payloads: the rows written, and the left halves of the slots. -/
theorem locPay_split (c : Dev nD) :
    bigSep Finset.univ (locPay m c)
      ⊢ iprop(bigSep Finset.univ (fun k : Fin 16 => (((dstV c k).view.loc (c : Thread nD τ)) ↦[(dstV c k).view.set]{fullShare} gathered m c : sProp 𝕄))
          ∗ bigSep Finset.univ (fun k : Fin 16 => (((rbuf k).view.loc (c : Thread nD τ)) ↦[(rbuf k).view.set]{fullShare.left} rcont m c : sProp 𝕄))) := by
  unfold locPay
  exact Entails.of_eq (bigSep_sep' _ _ _)

/-! ## The buffers, joined -/

/-- The receive buffer: per slot the two half shares join, and the sixteen slots are the buffer. -/
theorem rcv_join (c : Dev nD) :
    iprop(bigSep Finset.univ (fun k : Fin 16 => (((rbuf k).view.loc (c : Thread nD τ)) ↦[(rbuf k).view.set]{fullShare.left} rcont m c : sProp 𝕄))
        ∗ bigSep Finset.univ (syPay m c))
      ⊢ (((c : Thread nD τ).loc cc0_scratch0) ↦{fullShare} rcont m c : sProp 𝕄) := by
  unfold syPay
  refine (Entails.of_eq (bigSep_sep' _ _ _).symm).trans ?_
  refine (bigSep_mono (Ψ := fun k : Fin 16 => (((rbuf k).view.loc (c : Thread nD τ)) ↦[(rbuf k).view.set]{fullShare} rcont m c : sProp 𝕄))
    fun k _ => (pointsTo_share (PosShare.mem_left_op_right fullShare)).2).trans ?_
  refine (Entails.of_eq (rM_pieces (F := F) c fullShare (rcont m c)).symm).trans ?_
  exact Entails.of_eq (congrArg (fun I => (((c : Thread nD τ).loc cc0_scratch0) ↦[I]{fullShare} rcont m c : sProp 𝕄)) (View.set_whole cc0_scratch0))

/-- The staging buffer: the right half share is held by chunks and a rest, the left half whole. -/
theorem stg_join (c : Dev nD) :
    iprop((((xM : Memref sig .tc .vmem S512x512 .f32).view.loc (c : Thread nD τ)) ↦[(xM : Memref sig .tc .vmem S512x512 .f32).view.set]{fullShare.left} xstg m c)
        ∗ bigSep Finset.univ (sxPay m c)
        ∗ (((xM : Memref sig .tc .vmem S512x512 .f32).view.loc (c : Thread nD τ)) ↦[(xM : Memref sig .tc .vmem S512x512 .f32).view.set \ Finset.univ.biUnion (fun k : Fin 16 => (xsrc c k).view.set)]{fullShare.right} xstg m c))
      ⊢ (((c : Thread nD τ).loc cc0_stg0_0) ↦{fullShare} xstg m c : sProp 𝕄) := by
  unfold sxPay
  refine (sep_mono_right (Entails.of_eq (xM_pieces (F := F) c fullShare.right (xstg m c)).symm)).trans ?_
  refine (pointsTo_share (PosShare.mem_left_op_right fullShare)).2.trans ?_
  exact Entails.of_eq (congrArg (fun I => (((c : Thread nD τ).loc cc0_stg0_0) ↦[I]{fullShare} xstg m c : sProp 𝕄)) (View.set_whole cc0_stg0_0))

/-- The result array: the device's own rows, the near chunks, the far chunks. -/
theorem out_join (c : Dev nD) :
    iprop((((ownDst c).view.loc (c : Thread nD τ)) ↦[(ownDst c).view.set]{fullShare} gathered m c)
        ∗ bigSep Finset.univ (fun k : Fin 16 => (((dstV c k).view.loc (c : Thread nD τ)) ↦[(dstV c k).view.set]{fullShare} gathered m c : sProp 𝕄))
        ∗ bigSep Finset.univ (ryPay m c))
      ⊢ (((c : Thread nD τ).loc main_v1) ↦{fullShare} gathered m c : sProp 𝕄) := by
  unfold ryPay
  refine (Entails.of_eq (out_pieces (F := F) c (gathered m c)).symm).trans ?_
  exact Entails.of_eq (congrArg (fun I => (((c : Thread nD τ).loc main_v1) ↦[I]{fullShare} gathered m c : sProp 𝕄)) (View.set_whole main_v1))

/-! ## The end of the body -/

/-- After the last wait: every cell of the device is closed with its counter at zero, and the payloads are the staging
    buffer, the receive buffer and the result array, whole. -/
theorem finish (c : Dev nD) :
    iprop(invs m K c ∗ XCend m c ∗ (bigSep Finset.univ fun k : Fin 16 => atPos ER (rxCell c k) 1 ∅ 0) ∗ atPos ER (ownCell c) 1 ∅ 0 ∗ ownPay m c
        ∗ (((xM : Memref sig .tc .vmem S512x512 .f32).view.loc (c : Thread nD τ)) ↦[(xM : Memref sig .tc .vmem S512x512 .f32).view.set \ Finset.univ.biUnion (fun k : Fin 16 => (xsrc c k).view.set)]{fullShare.right} xstg m c))
      ⊢ |={Set.univ}=> iprop((∃ W, owes (c : Thread nD τ) 0 W) ∗ Φ₁ m c ∗ (((c : Thread nD τ).loc cc0_stg0_0) ↦{fullShare} xstg m c)) := by
  unfold XCend Φ₁ ownPay
  iintro ⟨#HI, ⟨HO, Hdone, Hatl, Hlp⟩, Hrx, Hato, ⟨Hod, Hxl⟩, Hxr⟩
  ihave Hd := (doneC_rearr m c) $$ [Hdone Hrx]
  · isplitl [Hdone]; · iexact Hdone
    iexact Hrx
  icases Hd with ⟨Hp4, Hsx, Hsy, Hry⟩
  ihave Hl := (locPay_split m c) $$ Hlp
  icases Hl with ⟨Hnear, Hrl⟩
  ihave #Iown := (invs_own m K c) $$ HI
  ihave #Iloc := (invs_loc m K c) $$ HI
  imod (close_cell m (ownCell c) _) $$ [Hato] with Hvo
  · isplitr; · iexact Iown
    iexact Hato
  imod (close_cell m (locCell c) _) $$ [Hatl] with Hvl
  · isplitr; · iexact Iloc
    iexact Hatl
  imod (close_fam m K c) $$ [Hp4] with Hv4
  · isplitr; · iexact HI
    iexact Hp4
  imodintro
  isplitl [HO]; · iexact HO
  isplitr [Hxl Hsx Hxr]
  · isplitl [Hrl Hsy]
    · iapply (rcv_join m c)
      isplitl [Hrl]; · iexact Hrl
      iexact Hsy
    isplitl [Hod Hnear Hry]
    · iapply (out_join m c)
      isplitl [Hod]; · iexact Hod
      isplitl [Hnear]; · iexact Hnear
      iexact Hry
    isplitl [Hvo]; · iexact Hvo
    isplitl [Hvl]; · iexact Hvl
    iexact Hv4
  · iapply (stg_join m c)
    isplitl [Hxl]; · iexact Hxl
    isplitl [Hsx]; · iexact Hsx
    iexact Hxr

end Cert.Kernel.AG

end
-- ==== Proof.KernelBody.lean ====
/-
  One device's whole body.

  The device splits what it holds — its staged block into a left half for the copy of the whole block and right
  halves of the sixteen chunks that cross x; its result array into its own rows, the sixteen near chunks it fills
  itself and the sixteen far chunks its y-neighbour fills; its receive buffer into sixteen slots —, starts the copy of
  its own block, hands the receive buffer to its x-neighbour and the far chunks to its y-neighbour with its two barrier
  signals, and after the barrier wait runs the three phases chunk by chunk in the program's own order. At the end every
  own cell is closed at zero and the pieces are put back together: the staging buffer as found, the receive buffer
  full, the result array gathered.
-/
import proofs.«900340_g7700000000000341_dist_ag_v7x_xyz2x2x4_x_m512_n512_f32_1_alg».proof.Proof.KernelHandover
import proofs.«900340_g7700000000000341_dist_ag_v7x_xyz2x2x4_x_m512_n512_f32_1_alg».proof.Proof.KernelClosing
import proofs.«900340_g7700000000000341_dist_ag_v7x_xyz2x2x4_x_m512_n512_f32_1_alg».proof.Proof.Gen.Kernel.Skeleton
import proofs.«900340_g7700000000000341_dist_ag_v7x_xyz2x2x4_x_m512_n512_f32_1_alg».proof.Proof.Gen.Kernel.Points

set_option maxRecDepth 65536

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (K : GSem nD τ sig → ℕ)

local notation "𝕄" => MT nD τ sig Unit (Elt F) ℕ UU ℕ

/-! ## The single cells' invariants and round-0 facts -/

theorem invs_bar (c : Dev nD) : invs m K c ⊢ cellInv ER (agRd m) (K (barCell c)) (barCell c) := by
  unfold invs; iintro ⟨H, -⟩; iexact H
theorem invs_barX (c : Dev nD) : invs m K c ⊢ cellInv ER (agRd m) (K (barCell (xp c))) (barCell (xp c)) := by
  unfold invs; iintro ⟨-, H, -⟩; iexact H
theorem invs_barY (c : Dev nD) : invs m K c ⊢ cellInv ER (agRd m) (K (barCell (yp c))) (barCell (yp c)) := by
  unfold invs; iintro ⟨-, -, H, -⟩; iexact H
omit [FloatOps F] in
theorem reach_barX (c : Dev nD) : reach0 (F := F) c ⊢ reached ER (barCell (xp c)) 0 := by
  unfold reach0; iintro ⟨H, -⟩; iexact H
omit [FloatOps F] in
theorem reach_barY (c : Dev nD) : reach0 (F := F) c ⊢ reached ER (barCell (yp c)) 0 := by
  unfold reach0; iintro ⟨-, H, -⟩; iexact H
omit [FloatOps F] in
theorem reach_own (c : Dev nD) : reach0 (F := F) c ⊢ reached ER (ownCell c) 0 := by
  unfold reach0; iintro ⟨-, -, H, -⟩; iexact H

/-! ## The waits at the transfers' own shapes (a sixteen-row transfer credits `N16`, a whole block `Nown`) -/

omit [FloatOps F] in
/-- What a transfer credits depends on the shape and element type of its destination only, not on the buffer or its memory space. -/
theorem credit_indep {sp sp' : Space} {s : Shape} {e : EltTy} (v : View sig .tc sp s e) (v' : View sig .tc sp' s e) :
    v.dmaCredit = v'.dmaCredit := rfl

theorem phaseB_wait' (c : Dev nD) (k : Fin 16) {sp sp' : Space} {s' : Shape} {e' : EltTy} {src : Memref sig .tc sp' s' e'} {dst : Memref sig .tc sp S16x512 .f32}
    {hsrc : src.view.WordExact} {hdst : dst.view.WordExact}
    {α : Type} {Q : α → sProp 𝕄} {cont : PUnit → Prog (TpuEff nD τ sig (Elt F) Λ₀ .tc) α} (a : ℕ) (ha : a = k.val) :
    iprop(invs m K c ∗ levAts L lv ∗ XB (F := F) c a)
      ⊢ iprop((XB1 m c k -∗ wp frame (wpE (defs₀ (F := F)) 𝒱₀ (c : Thread nD τ) none) Set.univ (cont ⟨⟩) Q)
          -∗ wp frame (wpE (defs₀ (F := F)) 𝒱₀ (c : Thread nD τ) none) Set.univ (.op (.waitDma2 (rxS k) src dst hsrc hdst) cont) Q) :=
  by subst ha; exact phaseB_wait m K c k (credit_indep _ _)

theorem phaseC_sx' (c : Dev nD) (k : Fin 16) {sp sp' : Space} {s' : Shape} {e' : EltTy} {src : Memref sig .tc sp' s' e'} {dst : Memref sig .tc sp S16x512 .f32}
    {hsrc : src.view.WordExact} {hdst : dst.view.WordExact}
    {α : Type} {Q : α → sProp 𝕄} {cont : PUnit → Prog (TpuEff nD τ sig (Elt F) Λ₀ .tc) α} (a : ℕ) (ha : a = k.val) :
    iprop(invs m K c ∗ levAts L lv ∗ XC m c a)
      ⊢ iprop((XC1 m c k -∗ wp frame (wpE (defs₀ (F := F)) 𝒱₀ (c : Thread nD τ) none) Set.univ (cont ⟨⟩) Q)
          -∗ wp frame (wpE (defs₀ (F := F)) 𝒱₀ (c : Thread nD τ) none) Set.univ (.op (.waitDma2 (sxS k) src dst hsrc hdst) cont) Q) :=
  by subst ha; exact phaseC_sx m K c k (credit_indep _ _)

theorem phaseC_sy' (c : Dev nD) (k : Fin 16) {sp sp' : Space} {s' : Shape} {e' : EltTy} {src : Memref sig .tc sp' s' e'} {dst : Memref sig .tc sp S16x512 .f32}
    {hsrc : src.view.WordExact} {hdst : dst.view.WordExact}
    {α : Type} {Q : α → sProp 𝕄} {cont : PUnit → Prog (TpuEff nD τ sig (Elt F) Λ₀ .tc) α} :
    iprop(invs m K c ∗ levAts L lv ∗ XC1 m c k)
      ⊢ iprop((XC2 m c k -∗ wp frame (wpE (defs₀ (F := F)) 𝒱₀ (c : Thread nD τ) none) Set.univ (cont ⟨⟩) Q)
          -∗ wp frame (wpE (defs₀ (F := F)) 𝒱₀ (c : Thread nD τ) none) Set.univ (.op (.waitDma2 (syS k) src dst hsrc hdst) cont) Q) :=
  phaseC_sy m K c k (credit_indep _ _)

theorem phaseC_ry' (c : Dev nD) (k : Fin 16) {sp sp' : Space} {s' : Shape} {e' : EltTy} {src : Memref sig .tc sp' s' e'} {dst : Memref sig .tc sp S16x512 .f32}
    {hsrc : src.view.WordExact} {hdst : dst.view.WordExact}
    {α : Type} {Q : α → sProp 𝕄} {cont : PUnit → Prog (TpuEff nD τ sig (Elt F) Λ₀ .tc) α} :
    iprop(invs m K c ∗ levAts L lv ∗ XC2 m c k)
      ⊢ iprop((XC3 m c k -∗ wp frame (wpE (defs₀ (F := F)) 𝒱₀ (c : Thread nD τ) none) Set.univ (cont ⟨⟩) Q)
          -∗ wp frame (wpE (defs₀ (F := F)) 𝒱₀ (c : Thread nD τ) none) Set.univ (.op (.waitDma2 (ryS k) src dst hsrc hdst) cont) Q) :=
  phaseC_ry m K c k (credit_indep _ _)

theorem phaseC_loc' (c : Dev nD) (k : Fin 16) {sp sp' : Space} {s' : Shape} {e' : EltTy} {src : Memref sig .tc sp' s' e'} {dst : Memref sig .tc sp S16x512 .f32}
    {hsrc : src.view.WordExact} {hdst : dst.view.WordExact}
    {α : Type} {Q : α → sProp 𝕄} {cont : PUnit → Prog (TpuEff nD τ sig (Elt F) Λ₀ .tc) α} (hk : k.val + 1 < 16) (b : ℕ) (hb : b = k.val + 1) :
    iprop(invs m K c ∗ levAts L lv ∗ XC3 m c k)
      ⊢ iprop((XC m c b -∗ wp frame (wpE (defs₀ (F := F)) 𝒱₀ (c : Thread nD τ) none) Set.univ (cont ⟨⟩) Q)
          -∗ wp frame (wpE (defs₀ (F := F)) 𝒱₀ (c : Thread nD τ) none) Set.univ (.op (.waitDma2 locS src dst hsrc hdst) cont) Q) :=
  by subst hb; exact phaseC_loc m K c k hk (credit_indep _ _)

theorem phaseC_loc_last' (c : Dev nD) (k : Fin 16) {sp sp' : Space} {s' : Shape} {e' : EltTy} {src : Memref sig .tc sp' s' e'} {dst : Memref sig .tc sp S16x512 .f32}
    {hsrc : src.view.WordExact} {hdst : dst.view.WordExact}
    {α : Type} {Q : α → sProp 𝕄} {cont : PUnit → Prog (TpuEff nD τ sig (Elt F) Λ₀ .tc) α} (hk : k.val = 15) :
    iprop(invs m K c ∗ levAts L lv ∗ XC3 m c k)
      ⊢ iprop((XCend m c -∗ wp frame (wpE (defs₀ (F := F)) 𝒱₀ (c : Thread nD τ) none) Set.univ (cont ⟨⟩) Q)
          -∗ wp frame (wpE (defs₀ (F := F)) 𝒱₀ (c : Thread nD τ) none) Set.univ (.op (.waitDma2 locS src dst hsrc hdst) cont) Q) :=
  phaseC_loc_last m K c k hk (credit_indep _ _)

theorem wait_own' (c : Dev nD) {sp sp' : Space} {s' : Shape} {e' : EltTy} {src : Memref sig .tc sp' s' e'} {dst : Memref sig .tc sp S512x512 .f32}
    {hsrc : src.view.WordExact} {hdst : dst.view.WordExact}
    {α : Type} {Q : α → sProp 𝕄} {cont : PUnit → Prog (TpuEff nD τ sig (Elt F) Λ₀ .tc) α} :
    iprop(invs m K c ∗ levAts L lv ∗ cred (tallyAt (ownCell c) () Nown) ∗ (∃ W, owes (c : Thread nD τ) 0 W) ∗ atPos ER (ownCell c) 0 ∅ 0)
      ⊢ iprop((((∃ W, owes (c : Thread nD τ) 0 W) ∗ atPos ER (ownCell c) 1 ∅ 0 ∗ ownPay m c)
            -∗ wp frame (wpE (defs₀ (F := F)) 𝒱₀ (c : Thread nD τ) none) Set.univ (cont ⟨⟩) Q)
          -∗ wp frame (wpE (defs₀ (F := F)) 𝒱₀ (c : Thread nD τ) none) Set.univ (.op (.waitDma2 ownS src dst hsrc hdst) cont) Q) :=
  wait_own m K c (credit_indep _ _)

/-! ## What the barrier wait brings, with the facts kept folded -/

omit [FloatOps F] in
theorem barPayX_split (c : Dev nD) :
    barPayX (F := F) c ⊢ iprop((bigSep Finset.univ fun k : Fin 16 => iprop(∃ f : Buf (Elt F) ((rbuf k).view.loc ((xp c : Dev nD) : Thread nD τ)),
        (((rbuf k).view.loc ((xp c : Dev nD) : Thread nD τ)) ↦[(rbuf k).view.set]{fullShare} f : sProp 𝕄))) ∗ RX (F := F) c) := by
  unfold barPayX RX; exact BI.Entails.refl _
omit [FloatOps F] in
theorem barPayY_split (c : Dev nD) : barPayY (F := F) c ⊢ iprop(bigSep Finset.univ (farP (F := F) c) ∗ RY (F := F) c) := by
  unfold barPayY RY farP; exact BI.Entails.refl _

/-! ## The chunk steps with the chunk counts as literals -/

theorem phaseA_step' (c n : Dev nD) (hn : n = xp c) (k : Fin 16) (a b : ℕ) (ha : a = k.val) (hb : b = k.val + 1)
    {hsc : ((rbuf k : Memref sig .tc .vmem S16x512 .f32) : Memref sig (Dev.tc n : Thread nD τ).2.kind .vmem S16x512 .f32).view.ref.isScScratch = false}
    {hsrc : (xsrc c k).view.WordExact} {hdst : (rbuf k).view.WordExact}
    {hsem : DmaTarget.Typed .vmem (.dma (rxS k)) (.remote (Dev.tc n : Thread nD τ) (rbuf k) (.dma (sxS k)) hsc)}
    {α : Type} {Q : α → sProp 𝕄} {cont : PUnit → Prog (TpuEff nD τ sig (Elt F) Λ₀ .tc) α} (W : Waits sig Unit) :
    iprop(invs m K c ∗ reach0 (F := F) c ∗ RX (F := F) c ∗ XA m c a W)
      ⊢ iprop((XA m c b W -∗ wp frame (wpE (defs₀ (F := F)) 𝒱₀ (c : Thread nD τ) none) Set.univ (cont ⟨⟩) Q)
          -∗ wp frame (wpE (defs₀ (F := F)) 𝒱₀ (c : Thread nD τ) none) Set.univ
              (.op (.enqueueDma (xsrc c k) (.remote (Dev.tc n : Thread nD τ) (rbuf k) (.dma (sxS k)) hsc) (.dma (rxS k)) hsrc hdst hsem) cont) Q) := by
  subst ha; subst hb; exact phaseA_step m K c n hn k W

theorem phaseB_loc' (c : Dev nD) (k : Fin 16) (b : ℕ) (hb : b = k.val + 1)
    {hsrc : (rbuf k).view.WordExact} {hdst : (dstV c k).view.WordExact}
    {hsem : DmaTarget.Typed (nD := nD) (τ := τ) (p := .tc) .vmem (.dma locS) (.here (dstV c k))}
    {α : Type} {Q : α → sProp 𝕄} {cont : PUnit → Prog (TpuEff nD τ sig (Elt F) Λ₀ .tc) α} :
    iprop(invs m K c ∗ reach0 (F := F) c ∗ XB2 m c k)
      ⊢ iprop((XB (F := F) c b -∗ wp frame (wpE (defs₀ (F := F)) 𝒱₀ (c : Thread nD τ) none) Set.univ (cont ⟨⟩) Q)
          -∗ wp frame (wpE (defs₀ (F := F)) 𝒱₀ (c : Thread nD τ) none) Set.univ
              (.op (.enqueueDma (rbuf k) (.here (dstV c k)) (.dma locS) hsrc hdst hsem) cont) Q) := by
  subst hb; exact phaseB_loc m K c k

/-! ## The body obligation's two ends -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

def bodyPre (c : Dev nD) : sProp 𝕄 :=
  iprop((ghost m K c ∗ cred (tallyAt (barCell c) () 2)
      ∗ (bigSep Finset.univ fun k : Fin 16 => cred (tallyAt (rxCell c k) () N16))
      ∗ (bigSep Finset.univ fun k : Fin 16 => cred (tallyAt (ryCell c k) () N16))
      ∗ levAts L lv
      ∗ (((c : Thread nD τ).loc main_v1) ↦{fullShare} m ((c : Thread nD τ).loc main_v1))
      ∗ ∃ f : Buf (Elt F) ((c : Thread nD τ).loc cc0_scratch0), ((c : Thread nD τ).loc cc0_scratch0) ↦{fullShare} f)
    ∗ (dats m 0 c).owesAt () t0_0.castSucc
    ∗ (∃ d, stg c cc0_stg0_0 ((dats m 0 c).before (0 : Fin 1) t0_0 d)))

def bodyPost (c : Dev nD) : sProp 𝕄 :=
  iprop(Φ₁ m c ∗ (dats m 0 c).owesAt () t0_0.succ ∗ stg c cc0_stg0_0 (xstg m c))

/-! ## The steps, as the program meets them -/

set_option hygiene false in
local macro "next_part " e:ident s:ident : tactic =>
  `(tactic| (simp only [$e:ident]; unfold $s:ident; simp only [Prog.lift, Prog.bind_op, Prog.bind_ret, Prog.pure_eq_ret]))
set_option hygiene false in
local macro "xr_step " k:num ", " d:ident : tactic => do
  let k1 := Lean.Syntax.mkNumLit (toString (k.getNat + 1))
  `(tactic| (iapply (phaseA_step' m K c _ ($d c) ($k : Fin 16) $k $k1 rfl rfl _) $$ [HA] <;> first | (isplitr; (· iexact HI); isplitr; (· iexact HR); isplitr; (· iexact HRX); iexact HA) | iintro HA))
set_option hygiene false in
local macro "rx_wait " k:num : tactic =>
  `(tactic| (iapply (phaseB_wait' m K c ($k : Fin 16) $k rfl) $$ [HB] <;> first | (isplitr; (· iexact HI); isplitr; (· iexact Hlev); iexact HB) | iintro HB))
set_option hygiene false in
local macro "f_step " k:num ", " d:ident : tactic =>
  `(tactic| (iapply (phaseB_fwd m K c _ ($d c) ($k : Fin 16)) $$ [HB] <;> first | (isplitr; (· iexact HI); isplitr; (· iexact HR); isplitr; (· iexact HRY); iexact HB) | iintro HB))
set_option hygiene false in
local macro "l_step " k:num : tactic => do
  let k1 := Lean.Syntax.mkNumLit (toString (k.getNat + 1))
  `(tactic| (iapply (phaseB_loc' m K c ($k : Fin 16) $k1 rfl) $$ [HB] <;> first | (isplitr; (· iexact HI); isplitr; (· iexact HR); iexact HB) | iintro HB))
set_option hygiene false in
local macro "sx_wait " k:num : tactic =>
  `(tactic| (iapply (phaseC_sx' m K c ($k : Fin 16) $k rfl) $$ [HC] <;> first | (isplitr; (· iexact HI); isplitr; (· iexact Hlev); iexact HC) | iintro HC))
set_option hygiene false in
local macro "sy_wait " k:num : tactic =>
  `(tactic| (iapply (phaseC_sy' m K c ($k : Fin 16)) $$ [HC] <;> first | (isplitr; (· iexact HI); isplitr; (· iexact Hlev); iexact HC) | iintro HC))
set_option hygiene false in
local macro "ry_wait " k:num : tactic =>
  `(tactic| (iapply (phaseC_ry' m K c ($k : Fin 16)) $$ [HC] <;> first | (isplitr; (· iexact HI); isplitr; (· iexact Hlev); iexact HC) | iintro HC))
set_option hygiene false in
local macro "loc_wait " k:num : tactic => do
  let k1 := Lean.Syntax.mkNumLit (toString (k.getNat + 1))
  `(tactic| (iapply (phaseC_loc' m K c ($k : Fin 16) (by decide) $k1 rfl) $$ [HC] <;> first | (isplitr; (· iexact HI); isplitr; (· iexact Hlev); iexact HC) | iintro HC))
set_option hygiene false in
local macro "loc_last " k:num : tactic =>
  `(tactic| (iapply (phaseC_loc_last' m K c ($k : Fin 16) (by decide)) $$ [HC] <;> first | (isplitr; (· iexact HI); isplitr; (· iexact Hlev); iexact HC) | iintro HC))

set_option maxHeartbeats 8000000 in
/-- The body, statement by statement, from what the device holds at the start (`bodyPre`) to what it gives back. -/
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole main_v1) (Memref.isWhole_whole _)
            (Memref.whole cc0_scratch0) (Memref.isWhole_whole _) cc0_scratch1 cc0_scratch2 cc0_scratch3 cc0_scratch4 cc0_scratch5 cc0_scratch6) Kt := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, wp_deviceId]
  unfold bodyPre ghost positions payToks
  iintro ⟨⟨⟨⟨#HI, #HR, ⟨HatB, HatO, HatL, HatS⟩, ⟨HtBX, HtBY, HtO, HtK⟩⟩, HcB, HcRX, HcRY, #Hlev, Hout, ⟨%f0, Hr⟩⟩, Ho, ⟨%d0, %g0, %hg0, Hx⟩⟩, Hk⟩
  have hx : g0 = xstg m c := by rw [hg0]; unfold Dat.before; rw [if_pos (fetch0_0 t0_0)]; rfl
  subst hx
  unfold Dat.owesAt Pipeline.owesWithin
  icases Ho with ⟨%W, %hW, HO⟩
  rw [show (dats m 0 c).owed t0_0.castSucc = O₀ c from rfl]
  unfold O₀
  -- the staged block: a left half whole, right halves of the sixteen chunks, the right half of the rest
  ihave Hx := (Entails.of_eq (x_whole (F := F) c fullShare (xstg m c)).symm) $$ Hx
  ihave Hx := (pointsTo_share (ℓ := (xM : Memref sig .tc .vmem S512x512 .f32).view.loc (c : Thread nD τ)) (I := (xM : Memref sig .tc .vmem S512x512 .f32).view.set) (f := xstg m c) (PosShare.mem_left_op_right fullShare)).1 $$ Hx
  icases Hx with ⟨HxL, HxR⟩
  ihave HxR := (Entails.of_eq (xM_pieces (F := F) c fullShare.right (xstg m c))) $$ HxR
  icases HxR with ⟨HxP, HxRest⟩
  -- the result array: own rows, near chunks, far chunks
  ihave Hout := (Entails.of_eq (o_whole (F := F) c fullShare (m ((c : Thread nD τ).loc main_v1))).symm) $$ Hout
  ihave Hout := (Entails.of_eq (out_pieces (F := F) c (m ((c : Thread nD τ).loc main_v1)))) $$ Hout
  icases Hout with ⟨HoOwn, HoNear, HoFar⟩
  -- the receive buffer: sixteen slots
  ihave Hr := (Entails.of_eq (r_whole (F := F) c fullShare f0).symm) $$ Hr
  ihave Hr := (Entails.of_eq (rM_pieces (F := F) c fullShare f0)) $$ Hr
  -- the tokens and the positions, family by family
  ihave HtK := (Entails.of_eq (merge5 Finset.univ _ _ _ _ _)) $$ HtK
  icases HtK with ⟨HtL, HtSX, HtSY, HtRXP, HtRYP⟩
  ihave HatS := (Entails.of_eq (merge4 Finset.univ _ _ _ _)) $$ HatS
  icases HatS with ⟨HatSX, HatRX, HatSY, HatRY⟩
  -- the copy of the own block
  iapply (step_own m K c (m ((c : Thread nD τ).loc main_v1))) $$ [HxL HoOwn HtO]
  · isplitr; · iapply (invs_own m K c); iexact HI
    isplitl [HxL]; · iexact HxL
    isplitl [HoOwn]; · iexact HoOwn
    isplitl [HtO]; · iexact HtO
    iapply (reach_own (F := F) c); iexact HR
  iintro HcO
  simp only [dev1_eq c, dev2_eq c]
  -- the two barrier signals
  iapply (step_sigX m K c _ rfl (by decide) (O₁ c + tallyAt (barCell (yp c)) () 1) W) $$ [HO HtBX Hr]
  · isplitr; · iapply (invs_barX m K c); iexact HI
    isplitl [HO]; · iexact HO
    isplitl [HtBX]; · iexact HtBX
    isplitl [Hr]
    · iapply (barPayX_intro (F := F) c f0)
      isplitl [Hr]; · iexact Hr
      iexact HR
    iapply (reach_barX (F := F) c); iexact HR
  iintro HO
  iapply (step_sigY m K c _ rfl (by decide) (O₁ c) W) $$ [HO HtBY HoFar]
  · isplitr; · iapply (invs_barY m K c); iexact HI
    isplitl [HO]; · iexact HO
    isplitl [HtBY]; · iexact HtBY
    isplitl [HoFar]
    · iapply (barPayY_intro (F := F) c (m ((c : Thread nD τ).loc main_v1)))
      isplitl [HoFar]; · iexact HoFar
      iexact HR
    iapply (reach_barY (F := F) c); iexact HR
  iintro HO
  -- the barrier wait: both neighbours are inside the kernel, and what they handed over
  iapply (step_waitBar m K c (by decide) W) $$ [HcB HO HatB]
  · isplitr; · iapply (invs_bar m K c); iexact HI
    isplitl [HcB]; · iexact HcB
    isplitl [HO]; · iexact HO
    isplitr; · iexact Hlev
    iexact HatB
  iintro ⟨HO, HatB, HX, HY⟩
  ihave HX := (barPayX_split (F := F) c) $$ HX
  icases HX with ⟨Hslots, #HRX⟩
  ihave HY := (barPayY_split (F := F) c) $$ HY
  icases HY with ⟨Hfar, #HRY⟩
  -- phase A
  ihave HA := (XA_intro m c (insert (SemLoc.reg barS, ()) W)) $$ [HO HtSX HtRXP HxP Hslots]
  · isplitl [HO]; · iexact HO
    isplitl [HtSX]; · iexact HtSX
    isplitl [HtRXP]; · iexact HtRXP
    isplitl [HxP]; · iexact HxP
    iexact Hslots
  next_part k0_part2_eq_skeleton k0_part2_skel
  xr_step 0, dev3_eq
  xr_step 1, dev4_eq
  next_part k0_part3_eq_skeleton k0_part3_skel
  xr_step 2, dev5_eq
  xr_step 3, dev6_eq
  next_part k0_part4_eq_skeleton k0_part4_skel
  xr_step 4, dev7_eq
  xr_step 5, dev8_eq
  next_part k0_part5_eq_skeleton k0_part5_skel
  xr_step 6, dev9_eq
  xr_step 7, dev10_eq
  next_part k0_part6_eq_skeleton k0_part6_skel
  xr_step 8, dev11_eq
  xr_step 9, dev12_eq
  next_part k0_part7_eq_skeleton k0_part7_skel
  xr_step 10, dev13_eq
  xr_step 11, dev14_eq
  xr_step 12, dev15_eq
  next_part k0_part8_eq_skeleton k0_part8_skel
  xr_step 13, dev16_eq
  xr_step 14, dev17_eq
  next_part k0_part9_eq_skeleton k0_part9_skel
  xr_step 15, dev18_eq
  -- phase B
  ihave HA := (XA_end m c _) $$ HA
  icases HA with ⟨HO, HcSX⟩
  ihave Hnear := (near_intro (F := F) c (m ((c : Thread nD τ).loc main_v1))) $$ HoNear
  ihave HB := (XB_intro (F := F) c (insert (SemLoc.reg barS, ()) W)) $$ [HO HatRX HcRX HtSY HtRYP HtL Hfar Hnear]
  · isplitl [HO]; · iexact HO
    isplitl [HatRX]; · iexact HatRX
    isplitl [HcRX]; · iexact HcRX
    isplitl [HtSY]; · iexact HtSY
    isplitl [HtRYP]; · iexact HtRYP
    isplitl [HtL]; · iexact HtL
    isplitl [Hfar]; · iexact Hfar
    iexact Hnear
  rx_wait 0
  next_part k0_part10_eq_skeleton k0_part10_skel
  f_step 0, dev19_eq
  l_step 0
  rx_wait 1
  next_part k0_part11_eq_skeleton k0_part11_skel
  f_step 1, dev20_eq
  l_step 1
  rx_wait 2
  next_part k0_part12_eq_skeleton k0_part12_skel
  f_step 2, dev21_eq
  l_step 2
  rx_wait 3
  next_part k0_part13_eq_skeleton k0_part13_skel
  f_step 3, dev22_eq
  l_step 3
  rx_wait 4
  next_part k0_part14_eq_skeleton k0_part14_skel
  f_step 4, dev23_eq
  l_step 4
  rx_wait 5
  next_part k0_part15_eq_skeleton k0_part15_skel
  f_step 5, dev24_eq
  l_step 5
  next_part k0_part16_eq_skeleton k0_part16_skel
  rx_wait 6
  f_step 6, dev25_eq
  l_step 6
  next_part k0_part17_eq_skeleton k0_part17_skel
  rx_wait 7
  f_step 7, dev26_eq
  l_step 7
  next_part k0_part18_eq_skeleton k0_part18_skel
  rx_wait 8
  f_step 8, dev27_eq
  l_step 8
  next_part k0_part19_eq_skeleton k0_part19_skel
  rx_wait 9
  f_step 9, dev28_eq
  l_step 9
  next_part k0_part20_eq_skeleton k0_part20_skel
  rx_wait 10
  f_step 10, dev29_eq
  l_step 10
  next_part k0_part21_eq_skeleton k0_part21_skel
  rx_wait 11
  f_step 11, dev30_eq
  l_step 11
  next_part k0_part22_eq_skeleton k0_part22_skel
  rx_wait 12
  f_step 12, dev31_eq
  l_step 12
  next_part k0_part23_eq_skeleton k0_part23_skel
  rx_wait 13
  f_step 13, dev32_eq
  next_part k0_part24_eq_skeleton k0_part24_skel
  l_step 13
  rx_wait 14
  f_step 14, dev33_eq
  next_part k0_part25_eq_skeleton k0_part25_skel
  l_step 14
  rx_wait 15
  next_part k0_part26_eq_skeleton k0_part26_skel
  f_step 15, dev34_eq
  l_step 15
  -- phase C
  ihave HB := (XB_end (F := F) c) $$ HB
  icases HB with ⟨HOw, HdB⟩
  unfold doneB
  ihave HdB := (Entails.of_eq (merge3 Finset.univ _ _ _)) $$ HdB
  icases HdB with ⟨HatRX1, HcSY, HcL⟩
  unfold doneA
  ihave HC := (XC_intro m c) $$ [HOw HatSX HcSX HatSY HcSY HatRY HcRY HcL HatL]
  · isplitl [HOw]; · iexact HOw
    isplitl [HatSX]; · iexact HatSX
    isplitl [HcSX]; · iexact HcSX
    isplitl [HatSY]; · iexact HatSY
    isplitl [HcSY]; · iexact HcSY
    isplitl [HatRY]; · iexact HatRY
    isplitl [HcRY]; · iexact HcRY
    isplitl [HcL]; · iexact HcL
    iexact HatL
  sx_wait 0
  sy_wait 0
  ry_wait 0
  next_part k0_part27_eq_skeleton k0_part27_skel
  loc_wait 0
  sx_wait 1
  sy_wait 1
  ry_wait 1
  next_part k0_part28_eq_skeleton k0_part28_skel
  loc_wait 1
  sx_wait 2
  sy_wait 2
  ry_wait 2
  loc_wait 2
  next_part k0_part29_eq_skeleton k0_part29_skel
  sx_wait 3
  sy_wait 3
  ry_wait 3
  loc_wait 3
  next_part k0_part30_eq_skeleton k0_part30_skel
  sx_wait 4
  sy_wait 4
  ry_wait 4
  loc_wait 4
  next_part k0_part31_eq_skeleton k0_part31_skel
  sx_wait 5
  sy_wait 5
  ry_wait 5
  loc_wait 5
  sx_wait 6
  next_part k0_part32_eq_skeleton k0_part32_skel
  sy_wait 6
  ry_wait 6
  loc_wait 6
  sx_wait 7
  next_part k0_part33_eq_skeleton k0_part33_skel
  sy_wait 7
  ry_wait 7
  loc_wait 7
  sx_wait 8
  next_part k0_part34_eq_skeleton k0_part34_skel
  sy_wait 8
  ry_wait 8
  loc_wait 8
  sx_wait 9
  sy_wait 9
  next_part k0_part35_eq_skeleton k0_part35_skel
  ry_wait 9
  loc_wait 9
  sx_wait 10
  sy_wait 10
  next_part k0_part36_eq_skeleton k0_part36_skel
  ry_wait 10
  loc_wait 10
  sx_wait 11
  sy_wait 11
  next_part k0_part37_eq_skeleton k0_part37_skel
  ry_wait 11
  loc_wait 11
  sx_wait 12
  sy_wait 12
  next_part k0_part38_eq_skeleton k0_part38_skel
  ry_wait 12
  loc_wait 12
  sx_wait 13
  sy_wait 13
  next_part k0_part39_eq_skeleton k0_part39_skel
  ry_wait 13
  loc_wait 13
  sx_wait 14
  sy_wait 14
  next_part k0_part40_eq_skeleton k0_part40_skel
  ry_wait 14
  loc_wait 14
  sx_wait 15
  sy_wait 15
  ry_wait 15
  loc_last 15
  -- the wait for the copy of the own block
  unfold XCend
  icases HC with ⟨HOw, HdC, HatL1, HlP⟩
  iapply (wait_own' m K c) $$ [HcO HOw HatO]
  · isplitr; · iexact HI
    isplitr; · iexact Hlev
    isplitl [HcO]; · iexact HcO
    isplitl [HOw]; · iexact HOw
    iexact HatO
  iintro ⟨HOw, HatO1, HownP⟩
  -- every own cell closed at zero, the buffers put back together
  rw [wp_ret]
  imod (finish m K c) $$ [HOw HdC HatL1 HlP HatRX1 HatO1 HownP HxRest] with ⟨HOw, HΦ, Hx⟩
  · isplitr; · iexact HI
    isplitl [HOw HdC HatL1 HlP]
    · unfold XCend
      isplitl [HOw]; · iexact HOw
      isplitl [HdC]; · iexact HdC
      isplitl [HatL1]; · iexact HatL1
      iexact HlP
    isplitl [HatRX1]; · iexact HatRX1
    isplitl [HatO1]; · iexact HatO1
    isplitl [HownP]; · iexact HownP
    iexact HxRest
  imodintro
  iapply Hk
  unfold bodyPost Dat.owesAt Pipeline.owesWithin
  rw [show (dats m 0 c).owed t0_0.succ = 0 from rfl]
  isplitl [HΦ]; · iexact HΦ
  isplitl [HOw]
  · icases HOw with ⟨%W', HOw⟩
    iexists W'
    isplitr; · ipureintro; exact fun _ _ => Or.inl trivial
    iexact HOw
  iexists _
  isplitr; · (ipureintro; rfl)
  iexact Hx

/-! ## The library's body obligation -/

set_option maxRecDepth 65536 in
def bodyPre' (c : Dev nD) : sProp 𝕄 :=
  iprop(Φ₀ m c ∗ (dats m 0 c).owesAt () t0_0.castSucc
    ∗ (∃ d, stg c cc0_stg0_0 ((dats m 0 c).before (0 : Fin 1) t0_0 d)))

set_option maxRecDepth 65536 in
/-- The body obligation on device `c`. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  show bodyPre' m c ⊢ wp frame (wpE (defs₀ (F := F)) 𝒱₀ c none) Set.univ
    (cc0_body (Memref.whole cc0_stg0_0) (Memref.isWhole_whole _) (Memref.whole main_v1) (Memref.isWhole_whole _)
      (Memref.whole cc0_scratch0) (Memref.isWhole_whole _) cc0_scratch1 cc0_scratch2 cc0_scratch3 cc0_scratch4 cc0_scratch5 cc0_scratch6)
    (fun _ => bodyPost m c)
  unfold bodyPre' Φ₀ start
  iintro ⟨⟨⟨⟨%K, Hg⟩, H1, H2, H3, H4, H5⟩, Hscr⟩, Ho, Hx⟩
  iapply (sound_body m K c fun _ => bodyPost m c)
  unfold bodyPre
  isplitr []
  · isplitl [Hg H1 H2 H3 H4 H5 Hscr]
    · isplitl [Hg]; · iexact Hg
      isplitl [H1]; · iexact H1
      isplitl [H2]; · iexact H2
      isplitl [H3]; · iexact H3
      isplitl [H4]; · iexact H4
      isplitl [H5]; · iexact H5
      iexact Hscr
    isplitl [Ho]; · iexact Ho
    iexact Hx
  · iintro H; iexact H

end Cert.Kernel.AG

end
-- ==== Proof.KernelLaunch.lean ====
/-
  From the devices' bodies to the run of the whole mesh.

  Every device's sixty-seven cells — its barrier cell and the sixty-six semaphores of its scratch — are
  funded at launch at round 0, each with its owner's position and the tokens of its duties. One global step
  puts every cell's counter and round state under an invariant, chooses the names of all invariants at once,
  and deals the tokens around the mesh: a device keeps the tokens of the transfers it pays itself and
  receives, from its neighbour across x, the token of that neighbour's barrier duty 0 and of its sixteen
  arrivals across x, and from its neighbour across y the token of that neighbour's barrier duty 1 and of its
  sixteen arrivals across y. The credit dealt at launch is what the others owe a device's cells: two units on
  its barrier cell and one transfer on each arrival cell. The result array travels beside the pipeline: in
  with the start state, out with the end state, and is read off the final memory.
-/
import proofs.«900340_g7700000000000341_dist_ag_v7x_xyz2x2x4_x_m512_n512_f32_1_alg».proof.Proof.KernelLevels
import proofs.«900340_g7700000000000341_dist_ag_v7x_xyz2x2x4_x_m512_n512_f32_1_alg».proof.Proof.Gen.Kernel.Frame

set_option maxRecDepth 16384

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

local notation "𝕄" => MT nD τ sig Unit (Elt F) ℕ UU ℕ

/-! ## The cells of a device, indexed -/

/-- The four arrays of sixteen: chunk and which array (departures across x, arrivals across x, departures
    across y, arrivals across y). -/
def xsem : Fin 16 × Fin 4 → SemLoc sig
  | (k, 0) => .dma (sxS k) | (k, 1) => .dma (rxS k) | (k, 2) => .dma (syS k) | (k, 3) => .dma (ryS k)

/-- The kernel's own sixty-six semaphores. -/
abbrev OK : Type := Fin 2 ⊕ (Fin 16 × Fin 4)
def osem : OK → SemLoc sig
  | .inl 0 => .dma ownS | .inl 1 => .dma locS | .inr q => xsem q

/-- All sixty-seven cells of a device: the barrier cell first. -/
abbrev CK : Type := Unit ⊕ OK
def csem : CK → SemLoc sig
  | .inl _ => .reg barS | .inr q => osem q

abbrev kcell (ck : Dev nD × CK) : GSem nD τ sig := ((ck.1 : Thread nD τ), csem ck.2)

/-- A semaphore's place: the pool position of a DMA semaphore, 0 for a regular one. -/
def spos : SemLoc sig → ℕ
  | .reg _ => 0 | .dma d => d.val
def opos : OK → ℕ
  | .inl i => 1 + i.val | .inr (k, j) => 3 + 16 * j.val + k.val

theorem spos_osem (q : OK) : spos (osem q) = opos q := by
  rcases q with i | ⟨k, j⟩
  · fin_cases i
    · exact ownS_val
    · exact locS_val
  · fin_cases j
    · exact (sxS_val k).trans (by simp only [opos] <;> omega)
    · exact (rxS_val k).trans (by simp only [opos] <;> omega)
    · exact (syS_val k).trans (by simp only [opos] <;> omega)
    · exact (ryS_val k).trans (by simp only [opos] <;> omega)

theorem opos_pos (q : OK) : 1 ≤ opos q := by
  rcases q with i | ⟨k, j⟩ <;> simp only [opos] <;> omega

theorem opos_injective : Function.Injective opos := by
  rintro (i | ⟨k, j⟩) (i' | ⟨k', j'⟩) h <;> simp only [opos] at h
  · exact congrArg Sum.inl (Fin.ext (by omega))
  · have := i.isLt; omega
  · have := i'.isLt; omega
  · have hk := k.isLt; have hk' := k'.isLt
    have h1 : j = j' := Fin.ext (by omega)
    have h2 : k = k' := Fin.ext (by omega)
    rw [h1, h2]

theorem osem_injective : Function.Injective osem := fun a b h =>
  opos_injective (by rw [← spos_osem, ← spos_osem, h])

theorem csem_injective : Function.Injective csem := by
  rintro (_ | a) (_ | b) h
  · rfl
  · exact absurd (congrArg spos h) (by show (0 : ℕ) ≠ spos (osem b); rw [spos_osem]; have := opos_pos b; omega)
  · exact absurd (congrArg spos h) (by show spos (osem a) ≠ (0 : ℕ); rw [spos_osem]; have := opos_pos a; omega)
  · exact congrArg Sum.inr (osem_injective h)

theorem kcell_injective : Function.Injective (kcell : Dev nD × CK → GSem nD τ sig) := by
  rintro ⟨c, k⟩ ⟨c', k'⟩ h
  have h1 : c = c' := by have := congrArg (fun g : GSem nD τ sig => g.1.1) h; exact this
  subst h1
  have h2 : k = k' := csem_injective (congrArg Prod.snd h)
  subst h2; rfl

/-! ## The kernel's own semaphores and the pipeline's -/

theorem ownSemFacts : Pipeline.OwnSemFacts cfg0.spec osem where
  isScoped := by decide
  inj := osem_injective
  disj := fun k w s h => by
    have h0 : ∀ (w : Fin cfg0.W) (s : Fin (cfg0.spec w).nbuf), spos (SemLoc.dma ((cfg0.spec w).sem s) : SemLoc sig) = 0 := by decide
    have := opos_pos k
    rw [← spos_osem, h, h0 w s] at this
    omega

theorem share_eq (c : Dev nD) (w : Fin cfg0.W) : (dats m 0 c).share w = fullShare := by unfold Dat.share; split <;> rfl

/-! ## Conjunctions over a device's cells, cell by cell -/

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ
omit [FloatOps F] in
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ
omit [FloatOps F] in
theorem bigSep_fin5 (Φ : Fin 5 → sProp 𝕄) : bigSep Finset.univ Φ = iprop(Φ 0 ∗ Φ 1 ∗ Φ 2 ∗ Φ 3 ∗ Φ 4) := bigSep_univ_eq_bigSepL [0, 1, 2, 3, 4] (by decide) (by decide) Φ

omit [FloatOps F] in
theorem bigSep_OK (Φ : SemLoc sig → sProp 𝕄) :
    bigSep Finset.univ (fun q : OK => Φ (osem q))
      = iprop((Φ (.dma ownS) ∗ Φ (.dma locS)) ∗ bigSep Finset.univ fun k : Fin 16 =>
          iprop(Φ (.dma (sxS k)) ∗ Φ (.dma (rxS k)) ∗ Φ (.dma (syS k)) ∗ Φ (.dma (ryS k)))) := by
  have e : ∀ k : Fin 16, (bigSep Finset.univ fun j : Fin 4 => Φ (osem (.inr (k, j))))
      = iprop(Φ (.dma (sxS k)) ∗ Φ (.dma (rxS k)) ∗ Φ (.dma (syS k)) ∗ Φ (.dma (ryS k))) := fun k => by rw [bigSep_fin4]; rfl
  rw [bigSep_univ_sum, bigSep_univ_two, bigSep_univ_prod, bigSep_congr (s := Finset.univ) fun k _ => e k]
  rfl

omit [FloatOps F] in
theorem bigSep_CK (Φ : GSem nD τ sig → sProp 𝕄) (c : Dev nD) :
    bigSep Finset.univ (fun k : CK => Φ (kcell (c, k)))
      = iprop(Φ (barCell c) ∗ (Φ (ownCell c) ∗ Φ (locCell c)) ∗ bigSep Finset.univ fun k : Fin 16 =>
          iprop(Φ (sxCell c k) ∗ Φ (rxCell c k) ∗ Φ (syCell c k) ∗ Φ (ryCell c k))) := by
  rw [bigSep_univ_sum, bigSep_univ_of_subsingleton ()]
  exact congrArg (fun X : sProp 𝕄 => iprop(Φ (barCell c) ∗ X)) (bigSep_OK (fun sm => Φ ((c : Thread nD τ), sm)))

/-! ## The cells and the duty tokens funded at launch -/

def agCells : Finset (GSem nD τ sig) := Finset.univ.map ⟨kcell, kcell_injective⟩

omit [FloatOps F] in
theorem kcell_mem (ck : Dev nD × CK) : kcell ck ∈ (agCells : Finset (GSem nD τ sig)) :=
  Finset.mem_map.mpr ⟨ck, Finset.mem_univ _, rfl⟩

/-- The duties of a device's cells: the barrier cell's two and the own copy's one; then per chunk the local
    copy's (a duty of the one shared cell) and the four transfers'. -/
abbrev TK : Type := Fin 3 ⊕ (Fin 16 × Fin 5)
def tcell : TK → CK
  | .inl 0 => .inl () | .inl 1 => .inl () | .inl 2 => .inr (.inl 0)
  | .inr (_, 0) => .inr (.inl 1) | .inr (k, 1) => .inr (.inr (k, 0)) | .inr (k, 2) => .inr (.inr (k, 2))
  | .inr (k, 3) => .inr (.inr (k, 1)) | .inr (k, 4) => .inr (.inr (k, 3))
def tduty : TK → Fin 16
  | .inl 0 => 0 | .inl 1 => 1 | .inl 2 => 0
  | .inr (k, 0) => k | .inr (_, 1) => 0 | .inr (_, 2) => 0 | .inr (_, 3) => 0 | .inr (_, 4) => 0

theorem tkey_injective : Function.Injective (fun t : TK => (tcell t, tduty t)) := by decide

abbrev tokOf (ct : Dev nD × TK) : GSem nD τ sig × ℕ × Fin 16 := (kcell (ct.1, tcell ct.2), 0, tduty ct.2)

theorem tokOf_injective : Function.Injective (tokOf : Dev nD × TK → GSem nD τ sig × ℕ × Fin 16) := by
  rintro ⟨c, t⟩ ⟨c', t'⟩ h
  have h1 : kcell (c, tcell t) = kcell (c', tcell t') := congrArg (fun x : GSem nD τ sig × ℕ × Fin 16 => x.1) h
  have h2 : tduty t = tduty t' := congrArg (fun x : GSem nD τ sig × ℕ × Fin 16 => x.2.2) h
  have h3 := kcell_injective h1
  have hc : c = c' := congrArg Prod.fst h3
  have ht : tcell t = tcell t' := congrArg Prod.snd h3
  have htt : t = t' := tkey_injective (Prod.ext ht h2)
  rw [hc, htt]

def agToks : Finset (GSem nD τ sig × ℕ × Fin 16) := Finset.univ.map ⟨tokOf, tokOf_injective⟩

def u₀ : UU :=
  (initOf (Pipeline.cells cfgs cellOf_inj) (Pipeline.launchToks cfgs cellOf_inj), initOf agCells agToks)

/-- The duty tokens of device `c`'s own cells. -/
def toks (c : Dev nD) : sProp 𝕄 :=
  iprop((dutyTok ER (barCell c) 0 0 ∗ dutyTok ER (barCell c) 0 1 ∗ dutyTok ER (ownCell c) 0 0)
    ∗ bigSep Finset.univ fun k : Fin 16 =>
        iprop(dutyTok ER (locCell c) 0 k ∗ dutyTok ER (sxCell c k) 0 0 ∗ dutyTok ER (syCell c k) 0 0
          ∗ dutyTok ER (rxCell c k) 0 0 ∗ dutyTok ER (ryCell c k) 0 0))

omit [FloatOps F] in
theorem bigSep_TK (c : Dev nD) :
    (bigSep Finset.univ fun t : TK => (dutyTok ER (kcell (c, tcell t)) 0 (tduty t) : sProp 𝕄)) = toks c := by
  have e : ∀ k : Fin 16, (bigSep Finset.univ fun j : Fin 5 => (dutyTok ER (kcell (c, tcell (.inr (k, j)))) 0 (tduty (.inr (k, j))) : sProp 𝕄))
      = iprop(dutyTok ER (locCell c) 0 k ∗ dutyTok ER (sxCell c k) 0 0 ∗ dutyTok ER (syCell c k) 0 0
          ∗ dutyTok ER (rxCell c k) 0 0 ∗ dutyTok ER (ryCell c k) 0 0) := fun k => by rw [bigSep_fin5]; rfl
  unfold toks
  rw [bigSep_univ_sum, bigSep_fin3, bigSep_univ_prod, bigSep_congr (s := Finset.univ) fun k _ => e k]
  rfl

/-- What the launch element deals device `c`: its cells' round states, its positions and the reached-marks, its
    cells' tokens. -/
def G (c : Dev nD) : sProp 𝕄 :=
  iprop((bigSep Finset.univ fun k : CK => roundState ER (agRd m) (kcell (c, k)) 0)
    ∗ (bigSep Finset.univ fun k : CK => iprop(atPos ER (kcell (c, k)) 0 ∅ 0 ∗ reached ER (kcell (c, k)) 0)) ∗ toks c)

/-- What the global step makes of it. -/
def G' (c : Dev nD) : sProp 𝕄 := iprop(∃ K, ghost m K c)

omit [FloatOps F] in
theorem fund_ag : BI.own (ER (initOf agCells agToks)) ⊢ (|==> bigSep Finset.univ (G m) : sProp 𝕄) := by
  have hX (Φ : GSem nD τ sig → sProp 𝕄) : bigSep agCells Φ = bigSep Finset.univ fun c : Dev nD => bigSep Finset.univ fun k : CK => Φ (kcell (c, k)) := by
    unfold agCells; rw [bigSep_map, bigSep_univ_prod]; rfl
  have hT : bigSep agToks (fun x => (dutyTok ER x.1 x.2.1 x.2.2 : sProp 𝕄)) = bigSep Finset.univ fun c : Dev nD => toks c := by
    unfold agToks; rw [bigSep_map, bigSep_univ_prod]
    exact bigSep_congr fun c _ => bigSep_TK c
  iintro HX
  imod (Rounds.fund ER (agRd m) agCells agToks) $$ HX with ⟨Hst, Hr, Hat, Htok⟩
  imodintro
  ihave Hst' := (Entails.of_eq (hX fun g => roundState ER (agRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: every cell under an invariant, the names chosen at once, the tokens dealt around -/

omit [FloatOps F] in
/-- The barrier semaphore is the one semaphore of a core that is not scoped. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem bigSep_CK' (Φ : CK → sProp 𝕄) : bigSep Finset.univ Φ = iprop(Φ (.inl ()) ∗ bigSep Finset.univ fun q : OK => Φ (.inr q)) := by
  rw [bigSep_univ_sum, bigSep_univ_of_subsingleton ()]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [unscopedSems0_eq, bigSep_CK']
  show iprop(Pipeline.ownSems0 (Ix := Unit) (Name := ℕ) (U := UU) (Lvl := ℕ) (Val := Elt F) (τ := τ) osem c ∗ semVal (barCell c) 0)
    ⊢ iprop(semVal (barCell c) 0 ∗ Pipeline.ownSems0 (Ix := Unit) (Name := ℕ) (U := UU) (Lvl := ℕ) (Val := Elt F) (τ := τ) osem c)
  iintro ⟨HS, HB⟩
  isplitl [HB]; · iexact HB
  iexact HS

omit [FloatOps F] in
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (agRd m) κ (kcell (c, k))))
          ∗ (bigSep Finset.univ fun k : CK => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (agRd m) (kcell (c, k)) 0)
      ⊢ (|={Set.univ}=> bigSep Finset.univ fun k : CK => iprop(∃ κ : ℕ, cellInv ER (agRd m) κ (kcell (c, k))) : sProp 𝕄) from by
        rw [← bigSep_sep']
        exact (bigSep_mono fun k _ => (Rounds.body_intro ER (agRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Every cell's invariant at the chosen names and every cell's round 0 reached: what all devices share. -/
def records (K : GSem nD τ sig → ℕ) : sProp 𝕄 :=
  iprop((bigSep agCells fun g => cellInv ER (agRd m) (K g) g) ∗ bigSep agCells fun g => reached ER g 0)

instance records_persistent (K : GSem nD τ sig → ℕ) : BI.Persistent (records m K) := by unfold records; infer_instance

omit [FloatOps F] in
theorem inv_at (K : GSem nD τ sig → ℕ) {g : GSem nD τ sig} (hg : g ∈ (agCells : Finset (GSem nD τ sig))) :
    records m K ⊢ cellInv ER (agRd m) (K g) g := by
  have h : (bigSep agCells fun g => (cellInv ER (agRd m) (K g) g : sProp 𝕄)) ⊢ cellInv ER (agRd m) (K g) g := bigSep_elim hg
  unfold records
  iintro ⟨HI, -⟩
  iapply h
  iexact HI
omit [FloatOps F] in
theorem reached_at (K : GSem nD τ sig → ℕ) {g : GSem nD τ sig} (hg : g ∈ (agCells : Finset (GSem nD τ sig))) :
    records m K ⊢ reached ER g 0 := by
  have h : (bigSep agCells fun g => (reached ER g 0 : sProp 𝕄)) ⊢ reached ER g 0 := bigSep_elim hg
  unfold records
  iintro ⟨-, HR⟩
  iapply h
  iexact HR

omit [FloatOps F] in
theorem mem_bar (c : Dev nD) : barCell c ∈ (agCells : Finset (GSem nD τ sig)) := kcell_mem (c, .inl ())
omit [FloatOps F] in
theorem mem_own (c : Dev nD) : ownCell c ∈ (agCells : Finset (GSem nD τ sig)) := kcell_mem (c, .inr (.inl 0))
omit [FloatOps F] in
theorem mem_loc (c : Dev nD) : locCell c ∈ (agCells : Finset (GSem nD τ sig)) := kcell_mem (c, .inr (.inl 1))
omit [FloatOps F] in
theorem mem_sx (c : Dev nD) (k : Fin 16) : sxCell c k ∈ (agCells : Finset (GSem nD τ sig)) := kcell_mem (c, .inr (.inr (k, 0)))
omit [FloatOps F] in
theorem mem_rx (c : Dev nD) (k : Fin 16) : rxCell c k ∈ (agCells : Finset (GSem nD τ sig)) := kcell_mem (c, .inr (.inr (k, 1)))
omit [FloatOps F] in
theorem mem_sy (c : Dev nD) (k : Fin 16) : syCell c k ∈ (agCells : Finset (GSem nD τ sig)) := kcell_mem (c, .inr (.inr (k, 2)))
omit [FloatOps F] in
theorem mem_ry (c : Dev nD) (k : Fin 16) : ryCell c k ∈ (agCells : Finset (GSem nD τ sig)) := kcell_mem (c, .inr (.inr (k, 3)))

omit [FloatOps F] in
theorem invs_intro (K : GSem nD τ sig → ℕ) (c : Dev nD) : records m K ⊢ invs m K c := by
  have hk (k : Fin 16) : records m K ⊢ iprop(cellInv ER (agRd m) (K (sxCell c k)) (sxCell c k) ∗ cellInv ER (agRd m) (K (rxCell c k)) (rxCell c k)
          ∗ cellInv ER (agRd m) (K (syCell c k)) (syCell c k) ∗ cellInv ER (agRd m) (K (ryCell c k)) (ryCell c k)
          ∗ cellInv ER (agRd m) (K (rxCell (xp c) k)) (rxCell (xp c) k) ∗ cellInv ER (agRd m) (K (ryCell (yp c) k)) (ryCell (yp c) k)) := by
    iintro #HR
    isplitr; · iapply (inv_at m K (mem_sx c k)); iexact HR
    isplitr; · iapply (inv_at m K (mem_rx c k)); iexact HR
    isplitr; · iapply (inv_at m K (mem_sy c k)); iexact HR
    isplitr; · iapply (inv_at m K (mem_ry c k)); iexact HR
    isplitr; · iapply (inv_at m K (mem_rx (xp c) k)); iexact HR
    iapply (inv_at m K (mem_ry (yp c) k)); iexact HR
  unfold invs
  iintro #HR
  isplitr; · iapply (inv_at m K (mem_bar c)); iexact HR
  isplitr; · iapply (inv_at m K (mem_bar (xp c))); iexact HR
  isplitr; · iapply (inv_at m K (mem_bar (yp c))); iexact HR
  isplitr; · iapply (inv_at m K (mem_own c)); iexact HR
  isplitr; · iapply (inv_at m K (mem_loc c)); iexact HR
  iapply (bigSep_intro_persistent (R := records m K) (S := Finset.univ) fun k _ => hk k); iexact HR

omit [FloatOps F] in
theorem reach0_intro (K : GSem nD τ sig → ℕ) (c : Dev nD) : records m K ⊢ reach0 c := by
  have hk (k : Fin 16) : records m K ⊢ iprop(reached ER (sxCell c k) 0 ∗ reached ER (rxCell c k) 0 ∗ reached ER (syCell c k) 0 ∗ reached ER (ryCell c k) 0) := by
    iintro #HR
    isplitr; · iapply (reached_at m K (mem_sx c k)); iexact HR
    isplitr; · iapply (reached_at m K (mem_rx c k)); iexact HR
    isplitr; · iapply (reached_at m K (mem_sy c k)); iexact HR
    iapply (reached_at m K (mem_ry c k)); iexact HR
  unfold reach0
  iintro #HR
  isplitr; · iapply (reached_at m K (mem_bar (xp c))); iexact HR
  isplitr; · iapply (reached_at m K (mem_bar (yp c))); iexact HR
  isplitr; · iapply (reached_at m K (mem_own c)); iexact HR
  isplitr; · iapply (reached_at m K (mem_loc c)); iexact HR
  iapply (bigSep_intro_persistent (R := records m K) (S := Finset.univ) fun k _ => hk k); iexact HR

omit [FloatOps F] in
theorem positions_intro (c : Dev nD) : (bigSep Finset.univ fun k : CK => (atPos ER (kcell (c, k)) 0 ∅ 0 : sProp 𝕄)) ⊢ positions c := by
  rw [bigSep_CK (fun g => (atPos ER g 0 ∅ 0 : sProp 𝕄)) c]; unfold positions
  iintro ⟨Hb, ⟨Ho, Hl⟩, Hk⟩
  isplitl [Hb]; · iexact Hb
  isplitl [Ho]; · iexact Ho
  isplitl [Hl]; · iexact Hl
  iexact Hk

omit [FloatOps F] in
theorem ghost_intro (K : GSem nD τ sig → ℕ) (c : Dev nD) : iprop(records m K ∗ positions c ∗ payToks c) ⊢ G' m c := by
  unfold G' ghost
  iintro ⟨#HR, Hpos, Htok⟩
  iexists K
  isplitr; · iapply (invs_intro m K c); iexact HR
  isplitr; · iapply (reach0_intro m K c); iexact HR
  isplitl [Hpos]; · iexact Hpos
  iexact Htok

omit [FloatOps F] in
/-- The tokens dealt around the mesh: a barrier cell's duty 0 and the arrivals' across x go to the neighbour across
    x, a barrier cell's duty 1 and the arrivals' across y to the neighbour across y; the rest stay. -/
theorem toks_around : (bigSep Finset.univ fun c : Dev nD => (toks c : sProp 𝕄)) ⊢ bigSep Finset.univ fun c : Dev nD => payToks c := by
  unfold toks payToks
  simp only [bigSep_sep']
  rw [bigSep_univ_equiv xEquiv (fun c : Dev nD => (dutyTok ER (barCell c) 0 0 : sProp 𝕄)),
    bigSep_univ_equiv yEquiv (fun c : Dev nD => (dutyTok ER (barCell c) 0 1 : sProp 𝕄)),
    bigSep_univ_equiv xEquiv (fun c : Dev nD => bigSep Finset.univ fun k : Fin 16 => (dutyTok ER (rxCell c k) 0 0 : sProp 𝕄)),
    bigSep_univ_equiv yEquiv (fun c : Dev nD => bigSep Finset.univ fun k : Fin 16 => (dutyTok ER (ryCell c k) 0 0 : sProp 𝕄))]
  iintro ⟨⟨H1, H2, H3⟩, H4, H5, H6, H7, H8⟩
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

omit [FloatOps F] in
theorem regroup :
    (bigSep Finset.univ fun c : Dev nD => iprop((bigSep Finset.univ fun k : CK => iprop(∃ κ : ℕ, cellInv ER (agRd m) κ (kcell (c, k))))
          ∗ (bigSep Finset.univ fun k : CK => iprop(atPos ER (kcell (c, k)) 0 ∅ 0 ∗ reached ER (kcell (c, k)) 0)) ∗ toks c) : sProp 𝕄)
      ⊢ bigSep Finset.univ (G' m) := by
  have hX (Φ : GSem nD τ sig → sProp 𝕄) : (bigSep Finset.univ fun c : Dev nD => bigSep Finset.univ fun k : CK => Φ (kcell (c, k))) = bigSep agCells Φ := by
    unfold agCells; rw [bigSep_map, bigSep_univ_prod]; rfl
  rw [bigSep_sep', bigSep_sep', hX (fun g => iprop(∃ κ : ℕ, cellInv ER (agRd m) κ g)),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', hX (fun g => (reached ER g 0 : sProp 𝕄))]
  iintro ⟨HI, ⟨Hat, #HR⟩, Htok⟩
  ihave HK := (BI.bigSep_exists_pi agCells (fun (g : GSem nD τ sig) (κ : ℕ) => (cellInv ER (agRd m) κ g : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (show iprop((bigSep Finset.univ fun c : Dev nD => (positions c : sProp 𝕄)) ∗ bigSep Finset.univ fun c : Dev nD => (payToks c : sProp 𝕄))
        ⊢ bigSep Finset.univ fun c : Dev nD => iprop(positions c ∗ payToks c) from Entails.of_eq (bigSep_sep' Finset.univ (fun c : Dev nD => (positions c : sProp 𝕄)) payToks).symm)
    isplitl [Hat]
    · iapply (show (bigSep Finset.univ fun c : Dev nD => bigSep Finset.univ fun k : CK => (atPos ER (kcell (c, k)) 0 ∅ 0 : sProp 𝕄))
          ⊢ bigSep Finset.univ fun c : Dev nD => (positions c : sProp 𝕄) from bigSep_mono fun c _ => positions_intro c)
      iexact Hat
    · iexact Htk

omit [FloatOps F] in
/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit: what the others owe a device's cells -/

omit [FloatOps F] in
theorem creds (c : Dev nD) :
    (Pipeline.launchCred O₀ c : sProp 𝕄) ⊢ iprop(cred (tallyAt (barCell c) () 2)
      ∗ (bigSep Finset.univ fun k : Fin 16 => cred (tallyAt (rxCell c k) () N16))
      ∗ (bigSep Finset.univ fun k : Fin 16 => cred (tallyAt (ryCell c k) () N16))) := by
  have e1 : (Pipeline.launchCred O₀ c : sProp 𝕄)
      = iprop(Pipeline.launchCred (fun d => O₁ d + tallyAt (barCell (yp d)) () 1) c ∗ Pipeline.launchCred (fun d => tallyAt (barCell (xp d)) () 1) c) :=
    Pipeline.launchCred_add (fun d => O₁ d + tallyAt (barCell (yp d)) () 1) (fun d => tallyAt (barCell (xp d)) () 1) c
  have e2 : (Pipeline.launchCred (fun d => O₁ d + tallyAt (barCell (yp d)) () 1) c : sProp 𝕄)
      = iprop(Pipeline.launchCred O₁ c ∗ Pipeline.launchCred (fun d => tallyAt (barCell (yp d)) () 1) c) :=
    Pipeline.launchCred_add O₁ (fun d => tallyAt (barCell (yp d)) () 1) c
  have e3 : (Pipeline.launchCred O₁ c : sProp 𝕄)
      = iprop(Pipeline.launchCred (fun d => oweY d 0) c ∗ Pipeline.launchCred (fun d => oweX d 0) c) :=
    Pipeline.launchCred_add (fun d => oweY d 0) (fun d => oweX d 0) c
  have e4 : (Pipeline.launchCred (fun d => oweY d 0) c : sProp 𝕄)
      = bigSep (fromK 0) fun j => Pipeline.launchCred (fun d => tallyAt (ryCell (yp d) j) () N16) c :=
    Pipeline.launchCred_sum (fromK 0) (fun j d => tallyAt (ryCell (yp d) j) () N16) c
  have e5 : (Pipeline.launchCred (fun d => oweX d 0) c : sProp 𝕄)
      = bigSep (fromK 0) fun j => Pipeline.launchCred (fun d => tallyAt (rxCell (xp d) j) () N16) c :=
    Pipeline.launchCred_sum (fromK 0) (fun j d => tallyAt (rxCell (xp d) j) () N16) c
  have hbY : (Pipeline.launchCred (fun d => tallyAt (barCell (yp d)) () 1) c : sProp 𝕄) ⊢ cred (tallyAt (barCell c) () 1) :=
    Pipeline.launchCred_tallyAt (.reg barS) yp yp yp_yp yp_yp () 1 c
  have hbX : (Pipeline.launchCred (fun d => tallyAt (barCell (xp d)) () 1) c : sProp 𝕄) ⊢ cred (tallyAt (barCell c) () 1) :=
    Pipeline.launchCred_tallyAt (.reg barS) xp xp xp_xp xp_xp () 1 c
  have hrx : (bigSep Finset.univ fun j : Fin 16 => (Pipeline.launchCred (fun d => tallyAt (rxCell (xp d) j) () N16) c : sProp 𝕄))
      ⊢ bigSep Finset.univ fun k : Fin 16 => cred (tallyAt (rxCell c k) () N16) :=
    bigSep_mono fun k _ => Pipeline.launchCred_tallyAt (.dma (rxS k)) xp xp xp_xp xp_xp () N16 c
  have hry : (bigSep Finset.univ fun j : Fin 16 => (Pipeline.launchCred (fun d => tallyAt (ryCell (yp d) j) () N16) c : sProp 𝕄))
      ⊢ bigSep Finset.univ fun k : Fin 16 => cred (tallyAt (ryCell c k) () N16) :=
    bigSep_mono fun k _ => Pipeline.launchCred_tallyAt (.dma (ryS k)) yp yp yp_yp yp_yp () N16 c
  have h2 : iprop(cred (tallyAt (barCell c) () 1) ∗ cred (tallyAt (barCell c) () 1)) ⊢ (cred (tallyAt (barCell c) () 2) : sProp 𝕄) :=
    (cred_add (tallyAt (barCell c) () 1) (tallyAt (barCell c) () 1)).2.trans (Entails.of_eq (congrArg cred (tallyAt_add (barCell c) () 1 1)))
  rw [e1, e2, e3, e4, e5, fromK_zero]
  iintro ⟨⟨⟨HY, HX⟩, HbY⟩, HbX⟩
  ihave HbY' := hbY $$ HbY
  ihave HbX' := hbX $$ HbX
  isplitl [HbY' HbX']
  · iapply h2
    isplitl [HbY'] <;> iassumption
  isplitl [HX]
  · iapply hrx; iexact HX
  · iapply hry; iexact HY

/-! ## The launch theorem's side conditions -/

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Hout, Hlev, Hcr, -, HG⟩
  ihave Hc := (creds (F := F) c) $$ Hcr
  icases Hc with ⟨H1, HX, HY⟩
  imodintro
  unfold start G'
  isplitl
  · isplitl [HG]; · iexact HG
    isplitl [H1]; · iexact H1
    isplitl [HX]; · iexact HX
    isplitl [HY]; · iexact HY
    isplitl [Hlev]; · iexact Hlev
    iexact Hout
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs]; · iexact Hs
  iexact Hr

omit [FloatOps F] in
/-- The kernel's own semaphores at zero, by their names. -/
theorem ownSems0_eq (c : Dev nD) : (Pipeline.ownSems0 (Ix := Unit) (Name := ℕ) (U := UU) (Lvl := ℕ) (Val := Elt F) (τ := τ) osem c : sProp 𝕄)
    = iprop((semVal (ownCell c) 0 ∗ semVal (locCell c) 0) ∗ bigSep Finset.univ fun k : Fin 16 =>
        iprop(semVal (sxCell c k) 0 ∗ semVal (rxCell c k) 0 ∗ semVal (syCell c k) 0 ∗ semVal (ryCell c k) 0)) := by
  unfold Pipeline.ownSems0
  exact bigSep_OK (fun sm => (semVal ((c : Thread nD τ), sm) 0 : sProp 𝕄))

theorem phi1_exit (c : Dev nD) :
    (dats m 0 c).Φ (Fin.last cfg0.N) ⊢ iprop((((c : Thread nD τ).loc main_v1) ↦{fullShare} gathered m c)
      ∗ Pipeline.ownSems0 (Ix := Unit) (Name := ℕ) (U := UU) (Lvl := ℕ) (Val := Elt F) (τ := τ) osem c ∗ Pipeline.scopedRest cfg0.spec c) := by
  rw [show (dats m 0 c).Φ (Fin.last cfg0.N) = Φ₁ m c from rfl, scopedRest0_eq, ownSems0_eq]
  unfold Φ₁
  iintro ⟨Hr, Ho, Hown, Hloc, Hk⟩
  isplitl [Ho]; · iexact Ho
  isplitl [Hown Hloc Hk]
  · isplitl [Hown Hloc]
    · isplitl [Hown] <;> iassumption
    · iexact Hk
  iexists (rcont m c); iexact Hr

/-- The pipeline's staging semaphore sits at level 0. -/
theorem lv_stage : ∀ (w : Fin cfg0.W) (s : Fin (cfg0.spec w).nbuf), lvK (kindOf (SemLoc.dma ((cfg0.spec w).sem s) : SemLoc sig)) = 0 := by decide

theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait_low c _ (lv_stage w s)
    · show _ ⊢ MayWait _ _ _ 0
      rw [MayWait_zero]; iintro -; iempintro

/-! ## The run -/

/-- At the compiled mesh of sixteen devices, for any float values, from any memory with zero counters: if every
    device's body meets its obligation, every weakly fair execution of @main terminates, and in every final state
    each device's result array is the gathered one and its argument array is unchanged. -/
theorem run_of_body (hbody : ∀ c : Dev nD, BodyObligation (dats (F := F) m 0 c) (defs₀ (F := F)) 𝒱₀ () Set.univ) :
    θ_run (defs (F := F)) (onTc (τ := τ) (main (F := F))) ⟨m, fun _ => 0, ρ⟩ (fun r => ∀ c : Dev nD,
      r.2.mem ((c.tc : Thread nD τ).loc main_v1) = gathered m c
      ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ag m) $$ HX with HG
      imodintro
      isplitl [HP] <;> iassumption)
    (hglob := glob m)
    (hA := fun _ _ => rfl) (hpf := fun _ k => k.elim0)
    (X := start m) (Y := fun c => (((c : Thread nD τ).loc main_v1) ↦{fullShare} gathered m c)) (Z := fun _ => iprop(emp))
    (hX := start_intro m ρ) (hin := phi0_intro m) (hout := phi1_exit m)
    (QY := fun c s => s.mem ((c : Thread nD τ).loc main_v1) = gathered m c)
    (hY := fun c s' => by
      iintro ⟨HY, -, HSI⟩
      icombine HSI HY gives %h
      imodintro
      isplitr; · ipureintro; exact Buf.eq_of_forall_mem_univ h
      iexact HSI)
    (hQ := fun s h c => ⟨(h c).2.2,
      ((h c).1 0).trans (((dats m 0 c).arrAt_in 0 rfl _).trans (V_main_arg0 m c))⟩)

end Cert.Kernel.AG

end
-- ==== Proof.KernelRun.lean ====
/-
  The run of the whole mesh: every device's body obligation, handed to the launch, gives that every fair execution of
  the sixteen devices terminates without a fault with each device's result array the gathered array and its argument
  unchanged.
-/
import proofs.«900340_g7700000000000341_dist_ag_v7x_xyz2x2x4_x_m512_n512_f32_1_alg».proof.Proof.KernelBody
import proofs.«900340_g7700000000000341_dist_ag_v7x_xyz2x2x4_x_m512_n512_f32_1_alg».proof.Proof.KernelLaunch

set_option maxRecDepth 16384

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem run : RunStmt F := fun m ρ => run_of_body m ρ (fun c => body_obligation m c)

end Cert.Kernel.AG

end
-- ==== Proof.KernelIdealCells.lean ====
/-
  The semaphore cells and the views of the all-gather, named once.

  Per device: the barrier semaphore; one semaphore for the copy of the device's own block into its rows of
  the result; one shared by the sixteen local copies out of the receive buffer; and four arrays of sixteen,
  indexed by the chunk `k` of sixteen rows: departures and arrivals of the chunks sent across x, departures
  and arrivals of the chunks forwarded across y. The sixty-seven DMA semaphores of a core lie in one pool; a
  cell's place in the pool (`*_val`) is what tells the kinds apart.

  The views: the device's rows of the result (`ownDst`), chunk `k` of the half of its block that crosses x
  (`xsrc`), slot `k` of the receive buffer (`rbuf`), and the rows of the result chunk `k` is written to,
  here and on the y-neighbour (`dstV`).
-/
import proofs.«900340_g7700000000000341_dist_ag_v7x_xyz2x2x4_x_m512_n512_f32_1_alg».proof.Proof.KernelIdealMesh
import proofs.«900340_g7700000000000341_dist_ag_v7x_xyz2x2x4_x_m512_n512_f32_1_alg».proof.Proof.Gen.KernelIdeal.Launch
import Idealize.ShloMosaic.Lib.Pipeline.Launch
import Idealize.ShloMosaic.Lib.Pipeline.Kit
import Idealize.ShloMosaic.Lib.Tactic

set_option maxRecDepth 16384

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the rounds of this protocol (duties named by `Fin 16`) -/

abbrev UB : Type := URounds (GSem nD τ sig) (Fin 16)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The semaphores -/

theorem inb16 (k : Fin 16) : ∀ a, (![k.val] : Fin 1 → Nat) a + S1.size a ≤ S16.size a := by
  intro a; have := k.isLt; fin_cases a; show k.val + 1 ≤ 16; omega

/-- Entry `k` of an array of sixteen DMA semaphores, as the program names it: the slice at `k`, squeezed. -/
def semAt (A : DmaSems sig S16) (k : Fin 16) : DmaSem sig :=
  ((A.slice (Rect.unit (s := S16) ![k.val] S1.size (inb16 k))).squeeze S_ squeezes_S1_S_).sem

abbrev barS : Sem sig := (SemArray.scalar (sig.barrier 0 rfl) : Sems sig S_).sem
abbrev ownS : DmaSem sig := (cc0_scratch1 : DmaSems sig S_).sem
abbrev locS : DmaSem sig := (cc0_scratch2 : DmaSems sig S_).sem
/-- Departure and arrival of chunk `k` across x; departure and arrival of chunk `k` across y. -/
abbrev sxS (k : Fin 16) : DmaSem sig := semAt cc0_scratch3 k
abbrev rxS (k : Fin 16) : DmaSem sig := semAt cc0_scratch4 k
abbrev syS (k : Fin 16) : DmaSem sig := semAt cc0_scratch5 k
abbrev ryS (k : Fin 16) : DmaSem sig := semAt cc0_scratch6 k

theorem ownS_val : (ownS : DmaSem sig).val = 1 := by decide
theorem locS_val : (locS : DmaSem sig).val = 2 := by decide
theorem sxS_val : ∀ k : Fin 16, (sxS k).val = 3 + k.val := by decide
theorem rxS_val : ∀ k : Fin 16, (rxS k).val = 19 + k.val := by decide
theorem syS_val : ∀ k : Fin 16, (syS k).val = 35 + k.val := by decide
theorem ryS_val : ∀ k : Fin 16, (ryS k).val = 51 + k.val := by decide

abbrev barCell (c : Dev nD) : GSem nD τ sig := ((c : Thread nD τ), .reg barS)
abbrev ownCell (c : Dev nD) : GSem nD τ sig := ((c : Thread nD τ), .dma ownS)
abbrev locCell (c : Dev nD) : GSem nD τ sig := ((c : Thread nD τ), .dma locS)
abbrev sxCell (c : Dev nD) (k : Fin 16) : GSem nD τ sig := ((c : Thread nD τ), .dma (sxS k))
abbrev rxCell (c : Dev nD) (k : Fin 16) : GSem nD τ sig := ((c : Thread nD τ), .dma (rxS k))
abbrev syCell (c : Dev nD) (k : Fin 16) : GSem nD τ sig := ((c : Thread nD τ), .dma (syS k))
abbrev ryCell (c : Dev nD) (k : Fin 16) : GSem nD τ sig := ((c : Thread nD τ), .dma (ryS k))

/-! ## The views -/

abbrev xM : Memref sig .tc .vmem S512x512 .f32 := Memref.whole cc0_stg0_0
abbrev oM : Memref sig .tc .hbm S1024x512 .f32 := Memref.whole main_v1
abbrev rM : Memref sig .tc .vmem S16x16x512 .f32 := Memref.whole cc0_scratch0

theorem inbR (k : Fin 16) : ∀ a, (![k.val, 0, 0] : Fin 3 → Nat) a + S1x16x512.size a ≤ S16x16x512.size a := by
  intro a; have := k.isLt
  fin_cases a
  · show k.val + 1 ≤ 16; omega
  · show 0 + 16 ≤ 16; omega
  · show 0 + 512 ≤ 512; omega

/-- The device's own rows of the result. -/
def ownDst (c : Dev nD) : Memref sig .tc .hbm S512x512 .f32 :=
  oM.slice (Rect.unit (s := S1024x512) (k0_off1 c) S512x512.size (k0_off1_inb c)) (fun _ => rfl)
/-- Chunk `k` of the half of the device's block that crosses x. -/
def xsrc (c : Dev nD) (k : Fin 16) : Memref sig .tc .vmem S16x512 .f32 :=
  xM.slice (Rect.unit (s := S512x512) (k0_off2 c (BitVec.ofNat 32 (16 * k.val))) S16x512.size (k0_off2_inb c k)) (fun _ => rfl)
/-- Slot `k` of the receive buffer. -/
def rbuf (k : Fin 16) : Memref sig .tc .vmem S16x512 .f32 :=
  (rM.slice (Rect.unit (s := S16x16x512) ![k.val, 0, 0] S1x16x512.size (inbR k)) (fun _ => rfl)).squeeze S16x512 squeezes_S1x16x512_S16x512
/-- The rows of the result chunk `k` received by `c` is written to, on `c` and on its y-neighbour. -/
def dstV (c : Dev nD) (k : Fin 16) : Memref sig .tc .hbm S16x512 .f32 :=
  oM.slice (Rect.unit (s := S1024x512) (k0_off3 c (BitVec.ofNat 32 (16 * k.val))) S16x512.size (k0_off3_inb c k)) (fun _ => rfl)

/-- What a transfer of sixteen rows, and of a whole block, credits a DMA semaphore. -/
abbrev N16 : ℕ := (rbuf 0).view.dmaCredit
abbrev Nown : ℕ := (ownDst 0).view.dmaCredit
theorem N16_pos : 0 < N16 := View.dmaCredit_pos _ (by decide)
theorem Nown_pos : 0 < Nown := View.dmaCredit_pos _ (by decide)
theorem rbuf_credit (k : Fin 16) : (rbuf k).view.dmaCredit = N16 := rfl
theorem dstV_credit (c : Dev nD) (k : Fin 16) : (dstV c k).view.dmaCredit = N16 := rfl
theorem ownDst_credit (c : Dev nD) : (ownDst c).view.dmaCredit = Nown := rfl

end Cert.KernelIdeal.AG

end
-- ==== Proof.KernelIdealContents.lean ====
/-
  What the buffers hold.

  `xstg`: a device's block of the argument, as its staging buffer holds it during the kernel. `rcont`: the
  receive buffer once all sixteen chunks have arrived: slot `k`, row `r` holds row 256·y + 16·k + r of the
  x-neighbour's block (y the device's own y coordinate, which the x-neighbour shares). The result array's
  contents are `gathered` (defined with the mesh).
-/
import proofs.«900340_g7700000000000341_dist_ag_v7x_xyz2x2x4_x_m512_n512_f32_1_alg».proof.Proof.KernelIdealCells
import Idealize.ShloMosaic.Lib.ValueIdx

set_option maxRecDepth 16384

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Device `c`'s block of the argument, as staged. -/
def xstg (c : Dev nD) : (cc0_stg0_0 : Ref sig .tc).ty.Contents (Elt F) :=
  (win0_0.blk t0_0).view.read (Elt F) (m ((c : Thread nD τ).loc main_arg0))

/-- Device `c`'s receive buffer after every chunk has arrived. -/
def rcont (c : Dev nD) : (cc0_scratch0 : Ref sig .tc).ty.Contents (Elt F) :=
  fun j => xstg m (xp c) (ValueIdx.ix2
    (⟨256 * ((c.val / 4) % 2) + 16 * (j 0).val + (j 1).val, by
      have h0 : (j 0).val < 16 := (j 0).isLt
      have h1 : (j 1).val < 16 := (j 1).isLt
      omega⟩ : Fin 512) (j 2))

end Cert.KernelIdeal.AG

end
-- ==== Proof.KernelIdealSched.lean ====
/-
  The protocol as a schedule of rounds.

  Every cell has one round. A barrier cell has two duties of one unit: duty 0 is the x-neighbour's signal
  and hands over that neighbour's receive buffer, slot by slot, with the fact that each of its arrival cells
  across x is at round 0; duty 1 is the y-neighbour's signal and hands over, chunk by chunk, the rows of the
  y-neighbour's result this device will write, with the same fact for its arrival cells across y. That is
  what a device needs before it may address a neighbour.

  The copy of the own block pays one duty: the device's rows of the result, now holding its block, and the
  staging buffer's left half share. The sixteen local copies out of the receive buffer pay the sixteen
  duties of one shared cell: each the rows it wrote and the left half share of its slot. A chunk sent across
  x pays the sender's departure cell (the right half share of the chunk of the staging buffer) and the
  receiver's arrival cell (the slot, holding the chunk). A chunk forwarded across y pays the forwarder's
  departure cell (the right half share of the slot) and the receiver's arrival cell (the rows written).
  Every piece is stated at ONE contents function per buffer, so the pieces join by an equation.
-/
import proofs.«900340_g7700000000000341_dist_ag_v7x_xyz2x2x4_x_m512_n512_f32_1_alg».proof.Proof.KernelIdealContents

set_option maxRecDepth 16384

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

local notation "𝕄" => MT nD τ sig Unit (Elt F) ℕ UU ℕ

/-! ## Payloads -/

/-- Handed to `c` by its x-neighbour's signal: that neighbour's receive buffer, slot by slot, and that its
    arrival cells across x are at round 0. -/
def barPayX (c : Dev nD) : sProp 𝕄 :=
  iprop((bigSep Finset.univ fun k : Fin 16 =>
      iprop(∃ f : Buf (Elt F) ((rbuf k).view.loc ((xp c : Dev nD) : Thread nD τ)),
        ((rbuf k).view.loc ((xp c : Dev nD) : Thread nD τ)) ↦[(rbuf k).view.set]{fullShare} f))
    ∗ bigSep Finset.univ fun k : Fin 16 => reached ER (rxCell (xp c) k) 0)

/-- Handed to `c` by its y-neighbour's signal: the rows of that neighbour's result `c` will write, chunk by
    chunk, and that its arrival cells across y are at round 0. -/
def barPayY (c : Dev nD) : sProp 𝕄 :=
  iprop((bigSep Finset.univ fun k : Fin 16 =>
      iprop(∃ f : Buf (Elt F) ((dstV c k).view.loc ((yp c : Dev nD) : Thread nD τ)),
        ((dstV c k).view.loc ((yp c : Dev nD) : Thread nD τ)) ↦[(dstV c k).view.set]{fullShare} f))
    ∗ bigSep Finset.univ fun k : Fin 16 => reached ER (ryCell (yp c) k) 0)

def ownPay (c : Dev nD) : sProp 𝕄 :=
  iprop((((ownDst c).view.loc (c : Thread nD τ)) ↦[(ownDst c).view.set]{fullShare} gathered m c)
    ∗ (((xM : Memref sig .tc .vmem S512x512 .f32).view.loc (c : Thread nD τ)) ↦[(xM : Memref sig .tc .vmem S512x512 .f32).view.set]{fullShare.left} xstg m c))
def locPay (c : Dev nD) (k : Fin 16) : sProp 𝕄 :=
  iprop((((dstV c k).view.loc (c : Thread nD τ)) ↦[(dstV c k).view.set]{fullShare} gathered m c)
    ∗ (((rbuf k).view.loc (c : Thread nD τ)) ↦[(rbuf k).view.set]{fullShare.left} rcont m c))
def sxPay (c : Dev nD) (k : Fin 16) : sProp 𝕄 :=
  ((xsrc c k).view.loc (c : Thread nD τ)) ↦[(xsrc c k).view.set]{fullShare.right} xstg m c
def rxPay (c : Dev nD) (k : Fin 16) : sProp 𝕄 :=
  ((rbuf k).view.loc (c : Thread nD τ)) ↦[(rbuf k).view.set]{fullShare} rcont m c
def syPay (c : Dev nD) (k : Fin 16) : sProp 𝕄 :=
  ((rbuf k).view.loc (c : Thread nD τ)) ↦[(rbuf k).view.set]{fullShare.right} rcont m c
def ryPay (c : Dev nD) (k : Fin 16) : sProp 𝕄 :=
  ((dstV (yp c) k).view.loc (c : Thread nD τ)) ↦[(dstV (yp c) k).view.set]{fullShare} gathered m c

/-! ## The kinds of cells, by their place in the pool -/

inductive Kind
  | bar | own | loc | sx (k : Fin 16) | rx (k : Fin 16) | sy (k : Fin 16) | ry (k : Fin 16) | other
  deriving DecidableEq

def kindOfDma (q : DmaSem sig) : Kind :=
  if q.val = 1 then .own else if q.val = 2 then .loc
  else if h : 3 ≤ q.val ∧ q.val < 19 then .sx ⟨q.val - 3, by omega⟩
  else if h : 19 ≤ q.val ∧ q.val < 35 then .rx ⟨q.val - 19, by omega⟩
  else if h : 35 ≤ q.val ∧ q.val < 51 then .sy ⟨q.val - 35, by omega⟩
  else if h : 51 ≤ q.val ∧ q.val < 67 then .ry ⟨q.val - 51, by omega⟩
  else .other

def kindOf : SemLoc sig → Kind
  | .reg _ => .bar
  | .dma q => kindOfDma q

theorem kindOf_bar : kindOf (.reg barS) = .bar := rfl
theorem kindOf_own : kindOf (.dma ownS) = .own := by decide
theorem kindOf_loc : kindOf (.dma locS) = .loc := by decide
theorem kindOf_sx : ∀ k : Fin 16, kindOf (.dma (sxS k)) = .sx k := by decide
theorem kindOf_rx : ∀ k : Fin 16, kindOf (.dma (rxS k)) = .rx k := by decide
theorem kindOf_sy : ∀ k : Fin 16, kindOf (.dma (syS k)) = .sy k := by decide
theorem kindOf_ry : ∀ k : Fin 16, kindOf (.dma (ryS k)) = .ry k := by decide

def dutiesK : Kind → Finset (Fin 16)
  | .bar => {0, 1} | .loc => Finset.univ | .other => ∅ | _ => {0}
def amountK : Kind → ℕ
  | .bar => 1 | .own => Nown | _ => N16
def payloadK (c : Dev nD) : Kind → Fin 16 → sProp 𝕄
  | .bar, d => if d = 0 then barPayX c else barPayY c
  | .own, _ => ownPay m c
  | .loc, d => locPay m c d
  | .sx k, _ => sxPay m c k
  | .rx k, _ => rxPay m c k
  | .sy k, _ => syPay m c k
  | .ry k, _ => ryPay m c k
  | .other, _ => iprop(emp)

theorem amountK_pos (κ : Kind) : 0 < amountK κ := by
  cases κ <;> first | exact Nat.one_pos | exact Nown_pos | exact N16_pos

/-! ## The schedule -/

def agRd : Rounds.Schedule (GSem nD τ sig) (Fin 16) 𝕄 where
  duties g r := if r = 0 ∧ g.1.2 = .tc then dutiesK (kindOf g.2) else ∅
  unitless _ := False
  amount g _ _ := amountK (kindOf g.2)
  payload g _ d := payloadK m g.1.1 (kindOf g.2) d
  amount_pos g _ _ _ := amountK_pos _

instance agRd_payload_storable (g : GSem nD τ sig) (r : ℕ) (d : Fin 16) :
    BI.Storable (upEmb : UEmb _ 𝕄) ((agRd (F := F) m).payload g r d) := by
  show BI.Storable upEmb (payloadK m g.1.1 (kindOf g.2) d)
  cases kindOf g.2
  · show BI.Storable upEmb (if d = 0 then barPayX g.1.1 else barPayY g.1.1)
    by_cases h : d = 0
    · rw [if_pos h]; unfold barPayX rbuf; infer_instance
    · rw [if_neg h]; unfold barPayY dstV; infer_instance
  · unfold payloadK ownPay ownDst; infer_instance
  · unfold payloadK locPay dstV rbuf; infer_instance
  · unfold payloadK sxPay xsrc; infer_instance
  · unfold payloadK rxPay rbuf; infer_instance
  · unfold payloadK syPay rbuf; infer_instance
  · unfold payloadK ryPay dstV; infer_instance
  · unfold payloadK; infer_instance

section Tables
variable (c : Dev nD) (k : Fin 16)

omit [FloatOps F] in
theorem duties_later (g : GSem nD τ sig) : ∀ r, 1 ≤ r → (agRd (F := F) m).duties g r = ∅ :=
  fun r hr => by dsimp only [agRd]; rw [if_neg fun h => by omega]

omit [FloatOps F] in
theorem duties_bar : (agRd (F := F) m).duties (barCell c) 0 = {0, 1} := by dsimp only [agRd]; rw [if_pos ⟨rfl, rfl⟩]; rfl
omit [FloatOps F] in
theorem duties_own : (agRd (F := F) m).duties (ownCell c) 0 = {0} := by dsimp only [agRd]; rw [if_pos ⟨rfl, rfl⟩, kindOf_own]; rfl
omit [FloatOps F] in
theorem duties_loc : (agRd (F := F) m).duties (locCell c) 0 = Finset.univ := by dsimp only [agRd]; rw [if_pos ⟨rfl, rfl⟩, kindOf_loc]; rfl
omit [FloatOps F] in
theorem duties_sx : (agRd (F := F) m).duties (sxCell c k) 0 = {0} := by dsimp only [agRd]; rw [if_pos ⟨rfl, rfl⟩, kindOf_sx]; rfl
omit [FloatOps F] in
theorem duties_rx : (agRd (F := F) m).duties (rxCell c k) 0 = {0} := by dsimp only [agRd]; rw [if_pos ⟨rfl, rfl⟩, kindOf_rx]; rfl
omit [FloatOps F] in
theorem duties_sy : (agRd (F := F) m).duties (syCell c k) 0 = {0} := by dsimp only [agRd]; rw [if_pos ⟨rfl, rfl⟩, kindOf_sy]; rfl
omit [FloatOps F] in
theorem duties_ry : (agRd (F := F) m).duties (ryCell c k) 0 = {0} := by dsimp only [agRd]; rw [if_pos ⟨rfl, rfl⟩, kindOf_ry]; rfl

omit [FloatOps F] in
theorem amount_bar (d : Fin 16) : (agRd (F := F) m).amount (barCell c) 0 d = 1 := rfl
omit [FloatOps F] in
theorem amount_own (d : Fin 16) : (agRd (F := F) m).amount (ownCell c) 0 d = Nown := by dsimp only [agRd]; rw [kindOf_own]; rfl
omit [FloatOps F] in
theorem amount_loc (d : Fin 16) : (agRd (F := F) m).amount (locCell c) 0 d = N16 := by dsimp only [agRd]; rw [kindOf_loc]; rfl
omit [FloatOps F] in
theorem amount_sx (d : Fin 16) : (agRd (F := F) m).amount (sxCell c k) 0 d = N16 := by dsimp only [agRd]; rw [kindOf_sx]; rfl
omit [FloatOps F] in
theorem amount_rx (d : Fin 16) : (agRd (F := F) m).amount (rxCell c k) 0 d = N16 := by dsimp only [agRd]; rw [kindOf_rx]; rfl
omit [FloatOps F] in
theorem amount_sy (d : Fin 16) : (agRd (F := F) m).amount (syCell c k) 0 d = N16 := by dsimp only [agRd]; rw [kindOf_sy]; rfl
omit [FloatOps F] in
theorem amount_ry (d : Fin 16) : (agRd (F := F) m).amount (ryCell c k) 0 d = N16 := by dsimp only [agRd]; rw [kindOf_ry]; rfl

omit [FloatOps F] in
theorem expect_bar : (agRd (F := F) m).expect (barCell c) 0 = 2 := by
  unfold Schedule.expect Schedule.amountOf
  rw [duties_bar, Finset.sum_congr rfl fun d _ => amount_bar m c d]; rfl
omit [FloatOps F] in
theorem expect_own : (agRd (F := F) m).expect (ownCell c) 0 = Nown := by
  unfold Schedule.expect Schedule.amountOf; rw [duties_own, Finset.sum_singleton, amount_own]
omit [FloatOps F] in
theorem expect_loc : (agRd (F := F) m).expect (locCell c) 0 = 16 * N16 := by
  unfold Schedule.expect Schedule.amountOf
  rw [duties_loc, Finset.sum_congr rfl fun d _ => amount_loc m c d, Finset.sum_const, Finset.card_univ, Fintype.card_fin, smul_eq_mul]
omit [FloatOps F] in
theorem expect_sx : (agRd (F := F) m).expect (sxCell c k) 0 = N16 := by
  unfold Schedule.expect Schedule.amountOf; rw [duties_sx, Finset.sum_singleton, amount_sx]
omit [FloatOps F] in
theorem expect_rx : (agRd (F := F) m).expect (rxCell c k) 0 = N16 := by
  unfold Schedule.expect Schedule.amountOf; rw [duties_rx, Finset.sum_singleton, amount_rx]
omit [FloatOps F] in
theorem expect_sy : (agRd (F := F) m).expect (syCell c k) 0 = N16 := by
  unfold Schedule.expect Schedule.amountOf; rw [duties_sy, Finset.sum_singleton, amount_sy]
omit [FloatOps F] in
theorem expect_ry : (agRd (F := F) m).expect (ryCell c k) 0 = N16 := by
  unfold Schedule.expect Schedule.amountOf; rw [duties_ry, Finset.sum_singleton, amount_ry]

omit [FloatOps F] in
theorem payload_bar0 : (agRd (F := F) m).payload (barCell c) 0 0 = barPayX c := rfl
omit [FloatOps F] in
theorem payload_bar1 : (agRd (F := F) m).payload (barCell c) 0 1 = barPayY c := rfl
omit [FloatOps F] in
theorem payload_own (d : Fin 16) : (agRd (F := F) m).payload (ownCell c) 0 d = ownPay m c := by dsimp only [agRd]; rw [kindOf_own]; rfl
omit [FloatOps F] in
theorem payload_loc (d : Fin 16) : (agRd (F := F) m).payload (locCell c) 0 d = locPay m c d := by dsimp only [agRd]; rw [kindOf_loc]; rfl
omit [FloatOps F] in
theorem payload_sx (d : Fin 16) : (agRd (F := F) m).payload (sxCell c k) 0 d = sxPay m c k := by dsimp only [agRd]; rw [kindOf_sx]; rfl
omit [FloatOps F] in
theorem payload_rx (d : Fin 16) : (agRd (F := F) m).payload (rxCell c k) 0 d = rxPay m c k := by dsimp only [agRd]; rw [kindOf_rx]; rfl
omit [FloatOps F] in
theorem payload_sy (d : Fin 16) : (agRd (F := F) m).payload (syCell c k) 0 d = syPay m c k := by dsimp only [agRd]; rw [kindOf_sy]; rfl
omit [FloatOps F] in
theorem payload_ry (d : Fin 16) : (agRd (F := F) m).payload (ryCell c k) 0 d = ryPay m c k := by dsimp only [agRd]; rw [kindOf_ry]; rfl

end Tables

end Cert.KernelIdeal.AG

end
-- ==== Proof.KernelIdealState.lean ====
/-
  What a device holds when the kernel starts and what it gives back.

  Progress through the sixteen chunks is counted by `n`: `fromK n` are the chunks still to do, `belowK n`
  those done. What a device owes at launch is a sum over chunks — an arrival on its x-neighbour's cell for every
  chunk it sends, an arrival on its y-neighbour's cell for every chunk it forwards — plus one unit on each
  neighbour's barrier cell; each transfer peels its summand. Waiting is allowed on a cell below everything still
  owed: barrier cells sit at level 1, arrivals across x at 2, arrivals across y at 3, everything a device pays
  itself at 0; a device waits on its barrier owing only arrivals, on an arrival across x owing only arrivals
  across y, and on everything else owing nothing.
-/
import proofs.«900340_g7700000000000341_dist_ag_v7x_xyz2x2x4_x_m512_n512_f32_1_alg».proof.Proof.KernelIdealSched

set_option maxRecDepth 16384

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

local notation "𝕄" => MT nD τ sig Unit (Elt F) ℕ UU ℕ

/-! ## Chunks still to do, chunks done -/

def fromK (n : ℕ) : Finset (Fin 16) := Finset.univ.filter fun j => n ≤ j.val
def belowK (n : ℕ) : Finset (Fin 16) := Finset.univ.filter fun j => j.val < n

theorem mem_fromK {n : ℕ} {j : Fin 16} : j ∈ fromK n ↔ n ≤ j.val := by simp [fromK]
theorem mem_belowK {n : ℕ} {j : Fin 16} : j ∈ belowK n ↔ j.val < n := by simp [belowK]
theorem fromK_zero : fromK 0 = Finset.univ := by ext j; simp [mem_fromK]
theorem fromK_16 : fromK 16 = ∅ := by ext j; have := j.isLt; simp [mem_fromK]
theorem belowK_zero : belowK 0 = ∅ := by ext j; simp [mem_belowK]
theorem belowK_16 : belowK 16 = Finset.univ := by ext j; have := j.isLt; simp [mem_belowK]
theorem not_mem_fromK_succ (k : Fin 16) : k ∉ fromK (k.val + 1) := by rw [mem_fromK]; omega
theorem not_mem_belowK (k : Fin 16) : k ∉ belowK k.val := by rw [mem_belowK]; omega
theorem fromK_eq_insert (k : Fin 16) : fromK k.val = insert k (fromK (k.val + 1)) := by
  ext j; rw [Finset.mem_insert, mem_fromK, mem_fromK, Fin.ext_iff]; omega
theorem belowK_succ (k : Fin 16) : belowK (k.val + 1) = insert k (belowK k.val) := by
  ext j; rw [Finset.mem_insert, mem_belowK, mem_belowK, Fin.ext_iff]; omega

omit [FloatOps F] in
theorem bigSep_fromK (k : Fin 16) (Φ : Fin 16 → sProp 𝕄) :
    bigSep (fromK k.val) Φ = iprop(Φ k ∗ bigSep (fromK (k.val + 1)) Φ) := by
  rw [fromK_eq_insert, bigSep_insert (not_mem_fromK_succ k)]; rfl
omit [FloatOps F] in
theorem bigSep_belowK_succ (k : Fin 16) (Φ : Fin 16 → sProp 𝕄) :
    bigSep (belowK (k.val + 1)) Φ = iprop(Φ k ∗ bigSep (belowK k.val) Φ) := by
  rw [belowK_succ, bigSep_insert (not_mem_belowK k)]; rfl

/-! ## What a device owes -/

/-- The arrivals across x still owed when chunks `n …` are to be sent; across y likewise. -/
def oweX (c : Dev nD) (n : ℕ) : CellTallies nD τ sig Unit := ∑ j ∈ fromK n, tallyAt (rxCell (xp c) j) () N16
def oweY (c : Dev nD) (n : ℕ) : CellTallies nD τ sig Unit := ∑ j ∈ fromK n, tallyAt (ryCell (yp c) j) () N16

theorem oweX_step (c : Dev nD) (k : Fin 16) : oweX c k.val = oweX c (k.val + 1) + tallyAt (rxCell (xp c) k) () N16 := by
  unfold oweX; rw [fromK_eq_insert, Finset.sum_insert (not_mem_fromK_succ k), add_comm]
theorem oweY_step (c : Dev nD) (k : Fin 16) : oweY c k.val = oweY c (k.val + 1) + tallyAt (ryCell (yp c) k) () N16 := by
  unfold oweY; rw [fromK_eq_insert, Finset.sum_insert (not_mem_fromK_succ k), add_comm]
theorem oweX_16 (c : Dev nD) : oweX c 16 = 0 := by unfold oweX; rw [fromK_16, Finset.sum_empty]
theorem oweY_16 (c : Dev nD) : oweY c 16 = 0 := by unfold oweY; rw [fromK_16, Finset.sum_empty]

/-- After both barrier signals; at launch. -/
def O₁ (c : Dev nD) : CellTallies nD τ sig Unit := oweY c 0 + oweX c 0
def O₀ (c : Dev nD) : CellTallies nD τ sig Unit := O₁ c + tallyAt (barCell (yp c)) () 1 + tallyAt (barCell (xp c)) () 1

/-! ## Levels -/

def L (g : GSem nD τ sig) : Finset Unit := if g.1.2 = .tc then {()} else ∅
def lvK : Kind → ℕ
  | .bar => 1 | .rx _ => 2 | .ry _ => 3 | _ => 0
def lv (g : GSem nD τ sig) (_ : Unit) : ℕ := lvK (kindOf g.2)

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_rx (c : Dev nD) (k : Fin 16) : lv (rxCell c k) () = 2 := by unfold lv; rw [kindOf_rx]; rfl
theorem lv_ry (c : Dev nD) (k : Fin 16) : lv (ryCell c k) () = 3 := by unfold lv; rw [kindOf_ry]; rfl

/-! ## The ghost state a device starts from -/

section Ghost
variable (K : GSem nD τ sig → ℕ) (c : Dev nD)

/-- The invariants of the cells `c` touches: its own, its neighbours' barrier cells, the arrival cells it pays. -/
def invs : sProp 𝕄 :=
  iprop(cellInv ER (agRd m) (K (barCell c)) (barCell c) ∗ cellInv ER (agRd m) (K (barCell (xp c))) (barCell (xp c))
    ∗ cellInv ER (agRd m) (K (barCell (yp c))) (barCell (yp c))
    ∗ cellInv ER (agRd m) (K (ownCell c)) (ownCell c) ∗ cellInv ER (agRd m) (K (locCell c)) (locCell c)
    ∗ bigSep Finset.univ fun k : Fin 16 =>
        iprop(cellInv ER (agRd m) (K (sxCell c k)) (sxCell c k) ∗ cellInv ER (agRd m) (K (rxCell c k)) (rxCell c k)
          ∗ cellInv ER (agRd m) (K (syCell c k)) (syCell c k) ∗ cellInv ER (agRd m) (K (ryCell c k)) (ryCell c k)
          ∗ cellInv ER (agRd m) (K (rxCell (xp c) k)) (rxCell (xp c) k) ∗ cellInv ER (agRd m) (K (ryCell (yp c) k)) (ryCell (yp c) k)))

/-- Round 0 reached: of the neighbours' barrier cells (for the two signals) and of `c`'s own cells. -/
def reach0 : sProp 𝕄 :=
  iprop(reached ER (barCell (xp c)) 0 ∗ reached ER (barCell (yp c)) 0 ∗ reached ER (ownCell c) 0 ∗ reached ER (locCell c) 0
    ∗ bigSep Finset.univ fun k : Fin 16 =>
        iprop(reached ER (sxCell c k) 0 ∗ reached ER (rxCell c k) 0 ∗ reached ER (syCell c k) 0 ∗ reached ER (ryCell c k) 0))

/-- `c`'s positions on its own cells. -/
def positions : sProp 𝕄 :=
  iprop(atPos ER (barCell c) 0 ∅ 0 ∗ atPos ER (ownCell c) 0 ∅ 0 ∗ atPos ER (locCell c) 0 ∅ 0
    ∗ bigSep Finset.univ fun k : Fin 16 =>
        iprop(atPos ER (sxCell c k) 0 ∅ 0 ∗ atPos ER (rxCell c k) 0 ∅ 0 ∗ atPos ER (syCell c k) 0 ∅ 0 ∗ atPos ER (ryCell c k) 0 ∅ 0))

/-- The tokens of the duties `c` pays. -/
def payToks : sProp 𝕄 :=
  iprop(dutyTok ER (barCell (xp c)) 0 0 ∗ dutyTok ER (barCell (yp c)) 0 1 ∗ dutyTok ER (ownCell c) 0 0
    ∗ bigSep Finset.univ fun k : Fin 16 =>
        iprop(dutyTok ER (locCell c) 0 k ∗ dutyTok ER (sxCell c k) 0 0 ∗ dutyTok ER (syCell c k) 0 0
          ∗ dutyTok ER (rxCell (xp c) k) 0 0 ∗ dutyTok ER (ryCell (yp c) k) 0 0))

def ghost : sProp 𝕄 := iprop(invs m K c ∗ reach0 c ∗ positions c ∗ payToks c)

instance invs_persistent : BI.Persistent (invs m K c) := by unfold invs; infer_instance
instance reach0_persistent : BI.Persistent (reach0 (F := F) c) := by unfold reach0; infer_instance

end Ghost

/-- What device `c`'s body starts from besides its staged block and its scratch: the ghost state at some names, the
    credit dealt at launch for what the others owe its cells, the level facts, and its result array as launched. -/
def start (c : Dev nD) : sProp 𝕄 :=
  iprop((∃ K, ghost m K c) ∗ cred (tallyAt (barCell c) () 2)
    ∗ (bigSep Finset.univ fun k : Fin 16 => cred (tallyAt (rxCell c k) () N16))
    ∗ (bigSep Finset.univ fun k : Fin 16 => cred (tallyAt (ryCell c k) () N16))
    ∗ levAts L lv
    ∗ (((c : Thread nD τ).loc main_v1) ↦{fullShare} m ((c : Thread nD τ).loc main_v1)))

def Φ₀ (c : Dev nD) : sProp 𝕄 :=
  iprop(start m c ∗ ∃ f : Buf (Elt F) ((c : Thread nD τ).loc cc0_scratch0), ((c : Thread nD τ).loc cc0_scratch0) ↦{fullShare} f)

/-- After the kernel: the receive buffer full, the result array gathered, the kernel's own semaphores at zero. -/
def Φ₁ (c : Dev nD) : sProp 𝕄 :=
  iprop((((c : Thread nD τ).loc cc0_scratch0) ↦{fullShare} rcont m c)
    ∗ (((c : Thread nD τ).loc main_v1) ↦{fullShare} gathered m c)
    ∗ semVal (ownCell c) 0 ∗ semVal (locCell c) 0
    ∗ bigSep Finset.univ fun k : Fin 16 => iprop(semVal (sxCell c k) 0 ∗ semVal (rxCell c k) 0 ∗ semVal (syCell c k) 0 ∗ semVal (ryCell c k) 0))

/-- The pipeline's proof data: one point; the staged block is left as found; what is owed goes from `O₀` to nothing. -/
def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨_ + 1, h⟩ => absurd h (Nat.not_lt.2 (Nat.le_add_left _ _))
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.KernelIdeal.AG

end
-- ==== Proof.KernelIdealLevels.lean ====
/-
  Where what a device owes sits, and the evidence its waits present.

  A sum of one-cell tallies is positive only at one of its cells: what is owed across x sits on arrival cells
  across x of the x-neighbour (level 2), what is owed across y on arrival cells across y of the y-neighbour
  (level 3), the two barrier units on the neighbours' barrier cells (level 1). So a barrier wait (level 1)
  is below everything owed once the two signals are out, a wait for an arrival across x (level 2) is below
  what is owed across y, and a wait at level 0 is below everything.
-/
import proofs.«900340_g7700000000000341_dist_ag_v7x_xyz2x2x4_x_m512_n512_f32_1_alg».proof.Proof.KernelIdealState

set_option maxRecDepth 16384

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem oweX_pos {c : Dev nD} {n : ℕ} {g : GSem nD τ sig} {u : Unit} (h : 0 < oweX c n g u) : ∃ j : Fin 16, g = rxCell (xp c) j := by
  unfold oweX at h
  obtain ⟨j, -, hj⟩ := Pipeline.sum_pos_exists h
  exact ⟨j, (Pipeline.tallyAt_pos hj).1⟩
theorem oweY_pos {c : Dev nD} {n : ℕ} {g : GSem nD τ sig} {u : Unit} (h : 0 < oweY c n g u) : ∃ j : Fin 16, g = ryCell (yp c) j := by
  unfold oweY at h
  obtain ⟨j, -, hj⟩ := Pipeline.sum_pos_exists h
  exact ⟨j, (Pipeline.tallyAt_pos hj).1⟩

/-- Everything owed after the two signals sits on an arrival cell, at level 2 or 3. -/
theorem O₁_pos {c : Dev nD} {g : GSem nD τ sig} {u : Unit} (h : 0 < O₁ c g u) : u ∈ L g ∧ 2 ≤ lv g u := by
  unfold O₁ at h
  rcases Pipeline.add_pos_cases h with h | h
  · obtain ⟨j, rfl⟩ := oweY_pos h
    exact ⟨by rw [L_tc]; exact Finset.mem_singleton_self _, by rw [lv_ry]; decide⟩
  · obtain ⟨j, rfl⟩ := oweX_pos h
    exact ⟨by rw [L_tc]; exact Finset.mem_singleton_self _, by rw [lv_rx]⟩

/-- Everything owed at launch sits at level 1 or above. -/
theorem O₀_pos {c : Dev nD} {g : GSem nD τ sig} {u : Unit} (h : 0 < O₀ c g u) : u ∈ L g ∧ 1 ≤ lv g u := by
  unfold O₀ at h
  rcases Pipeline.add_pos_cases h with h | h
  · rcases Pipeline.add_pos_cases h with h | h
    · have := O₁_pos h; exact ⟨this.1, by omega⟩
    · obtain ⟨rfl, -⟩ := Pipeline.tallyAt_pos h
      exact ⟨by rw [L_tc]; exact Finset.mem_singleton_self _, by rw [lv_bar]⟩
  · obtain ⟨rfl, -⟩ := Pipeline.tallyAt_pos h
    exact ⟨by rw [L_tc]; exact Finset.mem_singleton_self _, by rw [lv_bar]⟩

omit [FloatOps F] in
/-- The barrier wait, the two signals out. -/
theorem mayWait_bar (c : Dev nD) : (levAts L lv : sProp 𝕄) ⊢ MayWait (c : Thread nD τ) (.reg barS) () (O₁ c) :=
  Pipeline.mayWait_of_levAts (by rw [L_tc]; exact Finset.mem_singleton_self _) fun g u hg => by
    have := O₁_pos hg
    exact ⟨this.1, by rw [show lv ((c : Thread nD τ), SemLoc.reg barS) () = 1 from rfl]; omega⟩

omit [FloatOps F] in
/-- The wait for chunk `k`'s arrival across x, owing arrivals across y only. -/
theorem mayWait_rx (c : Dev nD) (k : Fin 16) (n : ℕ) : (levAts L lv : sProp 𝕄) ⊢ MayWait (c : Thread nD τ) (.dma (rxS k)) () (oweY c n) :=
  Pipeline.mayWait_of_levAts (by rw [L_tc]; exact Finset.mem_singleton_self _) fun g u hg => by
    obtain ⟨j, rfl⟩ := oweY_pos hg
    exact ⟨by rw [L_tc]; exact Finset.mem_singleton_self _, by rw [show lv ((c : Thread nD τ), SemLoc.dma (rxS k)) () = 2 from lv_rx c k, lv_ry]; decide⟩

omit [FloatOps F] in
/-- A wait at level 0 — the pipeline's staging cell, or any cell a device pays itself — owing what is owed at launch. -/
theorem mayWait_low (c : Dev nD) (sm : SemLoc sig) (h0 : lv ((c : Thread nD τ), sm) () = 0) :
    (levAts L lv : sProp 𝕄) ⊢ MayWait (c : Thread nD τ) sm () (O₀ c) :=
  Pipeline.mayWait_of_levAts (by rw [L_tc]; exact Finset.mem_singleton_self _) fun g u hg => by
    have := O₀_pos hg
    exact ⟨this.1, by rw [h0]; omega⟩

end Cert.KernelIdeal.AG

end
-- ==== Proof.KernelIdealValues.lean ====
/-
  Where the transfers of the all-gather put their elements.

  A transfer writes, at the element of the destination view with local index `y`, the element of the source
  view with the same local index. Every view here is a block of consecutive rows of a whole buffer (for the
  receive buffer, one of its sixteen slots), so both elements are found by adding the block's first row to
  `y`'s row. The four statements say that what lands is what the final contents hold there: the device's own
  block lands on its own rows of the result; chunk `k` of the half that crosses x lands in slot `k` of the
  x-neighbour's receive buffer; and slot `k` of a receive buffer lands on the rows of the result, here and on
  the y-neighbour, that the gathered array reads from the x-neighbour's block.
-/
import proofs.«900340_g7700000000000341_dist_ag_v7x_xyz2x2x4_x_m512_n512_f32_1_alg».proof.Proof.KernelIdealContents
import Idealize.ShloMosaic.Lib.Pipeline.Value
import Idealize.ShloMosaic.Lib.ValueLayout

set_option maxRecDepth 16384

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

variable (m : (ℓ : Loc nD τ sig) → Buf (Elt F) ℓ)

local notation "𝕄" => MT nD τ sig Unit (Elt F) ℕ UU ℕ

/-! ## The staged block -/

/-- The staged block is the device's block of the argument: the window's one block is the whole array. -/
theorem xstg_eq (c : Dev nD) : xstg m c = m ((c : Thread nD τ).loc main_arg0) := by
  unfold xstg
  exact Memref.read_access_unit_zero (Elt F) main_arg0 (funext fun a => Nat.zero_mul _) _ _

/-! ## Where a view's element with local index (a, b) sits in its buffer -/

/-- Row `a` of the device's own rows of the result is row 512·x + a. -/
theorem ownDst_emb (c : Dev nD) (a b : Fin 512) (d : Fin 2) :
    ((ownDst c).view.emb (ix2 a b) d).val = (![512 * (c.val / 8) + a.val, b.val] : Fin 2 → Nat) d := by
  show k0_off1 c d + 1 * (ix2 a b d).val = _
  rw [k0_off1_eq]
  match d with
  | ⟨0, _⟩ => show 512 * (c.val / 8) + 1 * a.val = 512 * (c.val / 8) + a.val; omega
  | ⟨1, _⟩ => show 0 + 1 * b.val = b.val; omega

/-- Row `a` of chunk `k` of the half that crosses x is row 256·y + 16·k + a of the block. -/
theorem xsrc_emb (c : Dev nD) (k : Fin 16) (a : Fin 16) (b : Fin 512) (d : Fin 2) :
    ((xsrc c k).view.emb (ix2 a b) d).val = (![256 * ((c.val / 4) % 2) + 16 * k.val + a.val, b.val] : Fin 2 → Nat) d := by
  show k0_off2 c (BitVec.ofNat 32 (16 * k.val)) d + 1 * (ix2 a b d).val = _
  rw [k0_off2_eq]
  match d with
  | ⟨0, _⟩ => show 256 * ((c.val / 4) % 2) + 16 * k.val + 1 * a.val = 256 * ((c.val / 4) % 2) + 16 * k.val + a.val; omega
  | ⟨1, _⟩ => show 0 + 1 * b.val = b.val; omega

/-- Row `a` of the rows chunk `k` is written to is row 512·(1 − x) + 256·y + 16·k + a of the result. -/
theorem dstV_emb (c : Dev nD) (k : Fin 16) (a : Fin 16) (b : Fin 512) (d : Fin 2) :
    ((dstV c k).view.emb (ix2 a b) d).val
      = (![(256 * ((c.val / 4) % 2) + 16 * k.val + 512) - 512 * (c.val / 8) + a.val, b.val] : Fin 2 → Nat) d := by
  show k0_off3 c (BitVec.ofNat 32 (16 * k.val)) d + 1 * (ix2 a b d).val = _
  rw [k0_off3_eq]
  match d with
  | ⟨0, _⟩ =>
    show (256 * ((c.val / 4) % 2) + 16 * k.val + 512) - 512 * (c.val / 8) + 1 * a.val
      = (256 * ((c.val / 4) % 2) + 16 * k.val + 512) - 512 * (c.val / 8) + a.val
    omega
  | ⟨1, _⟩ => show 0 + 1 * b.val = b.val; omega

/-- Row `a` of slot `k` of the receive buffer is its element (k, a, ·). -/
theorem rbuf_emb (k : Fin 16) (a : Fin 16) (b : Fin 512) (d : Fin 3) :
    ((rbuf k).view.emb (ix2 a b) d).val = (![k.val, a.val, b.val] : Fin 3 → Nat) d := by
  have e : (rbuf k).view.emb (ix2 a b)
      = (Rect.unit (s := S16x16x512) ![k.val, 0, 0] S1x16x512.size (inbR k)).emb
          (Shape.reshapeEquiv squeezes_S1x16x512_S16x512.numel_eq (ix2 a b)) := rfl
  rw [e, reshapeEquiv_ix2_1ab]
  match d with
  | ⟨0, _⟩ => show k.val + 1 * 0 = k.val; omega
  | ⟨1, _⟩ => show 0 + 1 * a.val = a.val; omega
  | ⟨2, _⟩ => show 0 + 1 * b.val = b.val; omega

/-! ## The devices the rows are read from -/

/-- A row of a device's own block is read from the device itself. -/
theorem srcDev_own (c : Dev nD) (r : Fin 1024) (a : Nat) (ha : a < 512) (hr : r.val = 512 * (c.val / 8) + a) :
    srcDev c r = c := by
  have hc : c.val < 16 := c.isLt
  unfold srcDev
  rw [if_pos (by omega)]

/-- A row of the other block, numbered 256·y + 16·k + a in that block, is read from the x-neighbour of the device
    `c` whose y is that y, on any device `d` with `c`'s x and z. -/
theorem srcDev_far (c d : Dev nD) (r : Fin 1024) (k a : Nat) (hk : k < 16) (ha : a < 16)
    (hx : d.val / 8 = c.val / 8) (hz : d.val % 4 = c.val % 4)
    (hr : r.val = (256 * ((c.val / 4) % 2) + 16 * k + 512) - 512 * (c.val / 8) + a) :
    srcDev d r = xp c := by
  have hc : c.val < 16 := c.isLt
  have hd : d.val < 16 := d.isLt
  unfold srcDev
  rw [if_neg (by omega)]
  apply Fin.ext
  show 8 * (r.val / 512) + 4 * ((r.val % 512) / 256) + d.val % 4 = (4 * ((c.val / 4) % 2) + (c.val % 4) + 8) - 8 * (c.val / 8)
  omega

/-! ## What lands where -/

theorem x_lands (c : Dev nD) (k : Fin 16) (fd : Buf (Elt F) ((rbuf k).view.loc ((xp c : Dev nD) : Thread nD τ))) :
    ∀ j ∈ (rbuf k).view.set, (rbuf k).view.write (Elt F) fd ((xsrc c k).view.read (Elt F) (xstg m c)) Finset.univ j = rcont m (xp c) j := by
  intro j hj
  obtain ⟨y, rfl⟩ := View.exists_emb_of_mem_set _ hj
  refine (View.write_emb_of_mem _ _ (Finset.mem_univ y)).trans ?_
  show xstg m c ((xsrc c k).view.emb y) = rcont m (xp c) ((rbuf k).view.emb y)
  obtain ⟨a, b, rfl⟩ : ∃ a b, y = ix2 a b := ⟨y 0, y 1, eq_ix2 y⟩
  unfold rcont
  rw [xp_xp]
  congr 1
  funext d
  apply Fin.ext
  match d with
  | ⟨0, _⟩ =>
    show ((xsrc c k).view.emb (ix2 a b) (0 : Fin 2)).val
      = 256 * (((xp c).val / 4) % 2) + 16 * ((rbuf k).view.emb (ix2 a b) (0 : Fin 3)).val + ((rbuf k).view.emb (ix2 a b) (1 : Fin 3)).val
    rw [xsrc_emb, rbuf_emb, rbuf_emb, xp_y]
    rfl
  | ⟨1, _⟩ =>
    show ((xsrc c k).view.emb (ix2 a b) (1 : Fin 2)).val = ((rbuf k).view.emb (ix2 a b) (2 : Fin 3)).val
    rw [xsrc_emb, rbuf_emb]
    rfl

/-- The gathered array at an index whose row is read from device `s`. -/
theorem gathered_of_src (d s : Dev nD) (j : S1024x512.Idx) (h : srcDev d (j 0) = s) :
    gathered m d j = m ((s : Thread nD τ).loc main_arg0) (ix2 (⟨(j 0).val % 512, Nat.mod_lt _ (by decide)⟩ : Fin 512) (j 1)) := by
  subst h; rfl

/-- Row `a` of slot `k` of `c`'s receive buffer holds row 256·y + 16·k + a of the x-neighbour's block, which is the row
    the gathered array of any device with `c`'s x and z reads at row 512·(1 − x) + 256·y + 16·k + a. -/
theorem far_value (c d : Dev nD) (k : Fin 16) (a : Fin 16) (b : Fin 512) (hx : d.val / 8 = c.val / 8) (hz : d.val % 4 = c.val % 4) :
    rcont m c ((rbuf k).view.emb (ix2 a b)) = gathered m d ((dstV c k).view.emb (ix2 a b)) := by
  have ha : a.val < 16 := a.isLt
  have hk : k.val < 16 := k.isLt
  have hc : c.val < 16 := c.isLt
  have e0 := dstV_emb c k a b 0
  have hs : srcDev d ((dstV c k).view.emb (ix2 a b) (0 : Fin 2)) = xp c := srcDev_far c d _ k.val a.val hk ha hx hz e0
  rw [gathered_of_src m d (xp c) _ hs]
  unfold rcont
  rw [xstg_eq]
  congr 1
  funext e
  apply Fin.ext
  match e with
  | ⟨0, _⟩ =>
    show 256 * ((c.val / 4) % 2) + 16 * ((rbuf k).view.emb (ix2 a b) (0 : Fin 3)).val + ((rbuf k).view.emb (ix2 a b) (1 : Fin 3)).val
      = ((dstV c k).view.emb (ix2 a b) (0 : Fin 2)).val % 512
    rw [rbuf_emb, rbuf_emb, e0]
    show 256 * ((c.val / 4) % 2) + 16 * k.val + a.val = ((256 * ((c.val / 4) % 2) + 16 * k.val + 512) - 512 * (c.val / 8) + a.val) % 512
    omega
  | ⟨1, _⟩ =>
    show ((rbuf k).view.emb (ix2 a b) (2 : Fin 3)).val = ((dstV c k).view.emb (ix2 a b) (1 : Fin 2)).val
    rw [rbuf_emb, dstV_emb]
    rfl

theorem loc_lands (c : Dev nD) (k : Fin 16) (fd : Buf (Elt F) ((dstV c k).view.loc (c : Thread nD τ))) :
    ∀ i ∈ (dstV c k).view.set, (dstV c k).view.write (Elt F) fd ((rbuf k).view.read (Elt F) (rcont m c)) Finset.univ i = gathered m c i := by
  intro i hi
  obtain ⟨y, rfl⟩ := View.exists_emb_of_mem_set _ hi
  refine (View.write_emb_of_mem _ _ (Finset.mem_univ y)).trans ?_
  show rcont m c ((rbuf k).view.emb y) = gathered m c ((dstV c k).view.emb y)
  obtain ⟨a, b, rfl⟩ : ∃ a b, y = ix2 a b := ⟨y 0, y 1, eq_ix2 y⟩
  exact far_value m c c k a b rfl rfl

theorem y_lands (c : Dev nD) (k : Fin 16) (fd : Buf (Elt F) ((dstV c k).view.loc ((yp c : Dev nD) : Thread nD τ))) :
    ∀ i ∈ (dstV c k).view.set, (dstV c k).view.write (Elt F) fd ((rbuf k).view.read (Elt F) (rcont m c)) Finset.univ i = gathered m (yp c) i := by
  intro i hi
  obtain ⟨y, rfl⟩ := View.exists_emb_of_mem_set _ hi
  refine (View.write_emb_of_mem _ _ (Finset.mem_univ y)).trans ?_
  show rcont m c ((rbuf k).view.emb y) = gathered m (yp c) ((dstV c k).view.emb y)
  obtain ⟨a, b, rfl⟩ : ∃ a b, y = ix2 a b := ⟨y 0, y 1, eq_ix2 y⟩
  exact far_value m c (yp c) k a b (yp_x c) (yp_z c)

theorem own_lands (c : Dev nD) (fd : Buf (Elt F) ((ownDst c).view.loc (c : Thread nD τ))) :
    ∀ i ∈ (ownDst c).view.set, (ownDst c).view.write (Elt F) fd ((xM : Memref sig .tc .vmem S512x512 .f32).view.read (Elt F) (xstg m c)) Finset.univ i = gathered m c i := by
  intro i hi
  obtain ⟨y, rfl⟩ := View.exists_emb_of_mem_set _ hi
  refine (View.write_emb_of_mem _ _ (Finset.mem_univ y)).trans ?_
  show xstg m c y = gathered m c ((ownDst c).view.emb y)
  obtain ⟨a, b, rfl⟩ : ∃ a b, y = ix2 a b := ⟨y 0, y 1, eq_ix2 y⟩
  have ha : a.val < 512 := a.isLt
  have e0 := ownDst_emb c a b 0
  have hs : srcDev c ((ownDst c).view.emb (ix2 a b) (0 : Fin 2)) = c := srcDev_own c _ a.val ha e0
  rw [gathered_of_src m c c _ hs, xstg_eq]
  congr 1
  funext e
  apply Fin.ext
  match e with
  | ⟨0, _⟩ =>
    show a.val = ((ownDst c).view.emb (ix2 a b) (0 : Fin 2)).val % 512
    rw [e0]
    show a.val = (512 * (c.val / 8) + a.val) % 512
    omega
  | ⟨1, _⟩ =>
    show b.val = ((ownDst c).view.emb (ix2 a b) (1 : Fin 2)).val
    rw [ownDst_emb]
    rfl

/-! ## Which elements a view covers -/

/-- Slot `k` of the receive buffer covers the elements whose first coordinate is `k`. -/
theorem mem_rbuf (k : Fin 16) (i : S16x16x512.Idx) : i ∈ (rbuf k).view.set ↔ (i 0).val = k.val := by
  have e : (rbuf k).view.set = (Rect.unit (s := S16x16x512) ![k.val, 0, 0] S1x16x512.size (inbR k)).set :=
    (View.set_reshape _ _).trans (View.set_slice_whole cc0_scratch0 _)
  refine (Finset.ext_iff.mp e i).trans (Rect.mem_set_unit.trans ?_)
  have h1 : (i 1).val < 16 := (i 1).isLt
  have h2 : (i 2).val < 512 := (i 2).isLt
  constructor
  · intro h
    have h' : k.val ≤ (i 0).val ∧ (i 0).val < k.val + 1 := h 0
    omega
  · intro h a
    match a with
    | ⟨0, _⟩ => show k.val ≤ (i 0).val ∧ (i 0).val < k.val + 1; omega
    | ⟨1, _⟩ => show 0 ≤ (i 1).val ∧ (i 1).val < 0 + 16; omega
    | ⟨2, _⟩ => show 0 ≤ (i 2).val ∧ (i 2).val < 0 + 512; omega

/-- A block of `n` rows from row `L` of an array of two axes covers the elements whose row is in [L, L + n). -/
theorem mem_rows {R C n : Nat} {off : Fin 2 → Nat} {inb : ∀ a, off a + (![n, C] : Fin 2 → Nat) a ≤ (⟨2, ![R, C]⟩ : Shape).size a}
    (L : Nat) (ho : off = ![L, 0]) (i : (⟨2, ![R, C]⟩ : Shape).Idx) :
    i ∈ (Rect.unit (s := ⟨2, ![R, C]⟩) off ![n, C] inb).set ↔ L ≤ (i 0).val ∧ (i 0).val < L + n := by
  subst ho
  rw [Rect.mem_set_unit]
  have h1 : (i 1).val < C := (i 1).isLt
  constructor
  · intro h; exact h 0
  · intro h a
    match a with
    | ⟨0, _⟩ => exact h
    | ⟨1, _⟩ => show 0 ≤ (i 1).val ∧ (i 1).val < 0 + C; omega

theorem mem_ownDst (c : Dev nD) (i : S1024x512.Idx) :
    i ∈ (ownDst c).view.set ↔ 512 * (c.val / 8) ≤ (i 0).val ∧ (i 0).val < 512 * (c.val / 8) + 512 := by
  have e : (ownDst c).view.set = (Rect.unit (s := S1024x512) (k0_off1 c) S512x512.size (k0_off1_inb c)).set :=
    View.set_slice_whole main_v1 _
  exact (Finset.ext_iff.mp e i).trans (mem_rows _ (k0_off1_eq c) i)

theorem mem_dstV (c : Dev nD) (k : Fin 16) (i : S1024x512.Idx) :
    i ∈ (dstV c k).view.set ↔ (256 * ((c.val / 4) % 2) + 16 * k.val + 512) - 512 * (c.val / 8) ≤ (i 0).val
      ∧ (i 0).val < (256 * ((c.val / 4) % 2) + 16 * k.val + 512) - 512 * (c.val / 8) + 16 := by
  have e : (dstV c k).view.set = (Rect.unit (s := S1024x512) (k0_off3 c (BitVec.ofNat 32 (16 * k.val))) S16x512.size (k0_off3_inb c k)).set :=
    View.set_slice_whole main_v1 _
  exact (Finset.ext_iff.mp e i).trans (mem_rows _ (k0_off3_eq c k) i)

theorem mem_xsrc (c : Dev nD) (k : Fin 16) (i : S512x512.Idx) :
    i ∈ (xsrc c k).view.set ↔ 256 * ((c.val / 4) % 2) + 16 * k.val ≤ (i 0).val
      ∧ (i 0).val < 256 * ((c.val / 4) % 2) + 16 * k.val + 16 := by
  have e : (xsrc c k).view.set = (Rect.unit (s := S512x512) (k0_off2 c (BitVec.ofNat 32 (16 * k.val))) S16x512.size (k0_off2_inb c k)).set :=
    View.set_slice_whole cc0_stg0_0 _
  exact (Finset.ext_iff.mp e i).trans (mem_rows _ (k0_off2_eq c k) i)

/-! ## The buffers, cut into the views the transfers name -/

/-- The receive buffer is its sixteen slots. -/
theorem rM_pieces (d : Dev nD) (q : PosShare TreeShare) (f : Buf (Elt F) ((rM : Memref sig .tc .vmem S16x16x512 .f32).view.loc (d : Thread nD τ))) :
    (((rM : Memref sig .tc .vmem S16x16x512 .f32).view.loc (d : Thread nD τ)) ↦[(rM : Memref sig .tc .vmem S16x16x512 .f32).view.set]{q} f : sProp 𝕄)
      = bigSep Finset.univ fun k : Fin 16 => (((rbuf k).view.loc (d : Thread nD τ)) ↦[(rbuf k).view.set]{q} f : sProp 𝕄) := by
  have hU : (rM : Memref sig .tc .vmem S16x16x512 .f32).view.set
      = Finset.univ.biUnion fun k : Fin 16 => ((rbuf k).view.set : Finset S16x16x512.Idx) := by
    ext i
    refine ⟨fun _ => Finset.mem_biUnion.mpr ⟨i 0, Finset.mem_univ _, (mem_rbuf _ i).mpr rfl⟩, fun _ => ?_⟩
    exact (Finset.ext_iff.mp (View.set_whole cc0_scratch0) i).mpr (Finset.mem_univ _)
  have hd : ∀ k ∈ (Finset.univ : Finset (Fin 16)), ∀ k' ∈ (Finset.univ : Finset (Fin 16)), k ≠ k' →
      Disjoint ((rbuf k).view.set : Finset S16x16x512.Idx) ((rbuf k').view.set : Finset S16x16x512.Idx) := by
    intro k _ k' _ hne
    refine Finset.disjoint_left.mpr fun i hi hi' => hne (Fin.ext ?_)
    exact ((mem_rbuf k i).mp hi).symm.trans ((mem_rbuf k' i).mp hi')
  have key := pointsTo_biUnion (ℓ := (rM : Memref sig .tc .vmem S16x16x512 .f32).view.loc (d : Thread nD τ)) (q := q) (f := f)
    (Ix := Unit) (Name := ℕ) (U := UU) (Lvl := ℕ)
    Finset.univ (fun k : Fin 16 => ((rbuf k).view.set : Finset S16x16x512.Idx)) hd
  rw [← hU] at key
  exact key

/-- Two holders of disjoint element sets of one buffer, as an equation. -/
theorem pointsTo_union_eq {ℓ : Loc nD τ sig} {I J : Finset (Idx ℓ)} {q : PosShare TreeShare} {f : Buf (Elt F) ℓ} (h : Disjoint I J) :
    (ℓ ↦[I ∪ J]{q} f : sProp 𝕄) = iprop((ℓ ↦[I]{q} f) ∗ ℓ ↦[J]{q} f) :=
  BI.equiv_iff.mp ⟨(pointsTo_union h).1, (pointsTo_union h).2⟩

/-- Carving a subset out of a holder's elements, as an equation. -/
theorem pointsTo_split_subset_eq {ℓ : Loc nD τ sig} {I S : Finset (Idx ℓ)} {q : PosShare TreeShare} {f : Buf (Elt F) ℓ} (h : I ⊆ S) :
    (ℓ ↦[S]{q} f : sProp 𝕄) = iprop((ℓ ↦[I]{q} f) ∗ ℓ ↦[S \ I]{q} f) :=
  BI.equiv_iff.mp ⟨(pointsTo_split_subset h).1, (pointsTo_split_subset h).2⟩

/-- The chunks of the half that crosses x lie apart. -/
theorem xsrc_disjoint (d : Dev nD) : ∀ k ∈ (Finset.univ : Finset (Fin 16)), ∀ k' ∈ (Finset.univ : Finset (Fin 16)), k ≠ k' →
    Disjoint ((xsrc d k).view.set : Finset S512x512.Idx) ((xsrc d k').view.set : Finset S512x512.Idx) := by
  intro k _ k' _ hne
  refine Finset.disjoint_left.mpr fun i hi hi' => hne (Fin.ext ?_)
  have h1 := (mem_xsrc d k i).mp hi
  have h2 := (mem_xsrc d k' i).mp hi'
  omega

/-- The staging buffer is the sixteen chunks that cross x and the rest. -/
theorem xM_pieces (d : Dev nD) (q : PosShare TreeShare) (f : Buf (Elt F) ((xM : Memref sig .tc .vmem S512x512 .f32).view.loc (d : Thread nD τ))) :
    (((xM : Memref sig .tc .vmem S512x512 .f32).view.loc (d : Thread nD τ)) ↦[(xM : Memref sig .tc .vmem S512x512 .f32).view.set]{q} f : sProp 𝕄)
      = iprop((bigSep Finset.univ fun k : Fin 16 => (((xsrc d k).view.loc (d : Thread nD τ)) ↦[(xsrc d k).view.set]{q} f))
          ∗ (((xM : Memref sig .tc .vmem S512x512 .f32).view.loc (d : Thread nD τ)) ↦[(xM : Memref sig .tc .vmem S512x512 .f32).view.set \ Finset.univ.biUnion (fun k : Fin 16 => (xsrc d k).view.set)]{q} f)) := by
  have hsub : (Finset.univ.biUnion fun k : Fin 16 => ((xsrc d k).view.set : Finset S512x512.Idx))
      ⊆ (xM : Memref sig .tc .vmem S512x512 .f32).view.set :=
    fun i _ => (Finset.ext_iff.mp (View.set_whole cc0_stg0_0) i).mpr (Finset.mem_univ _)
  have h1 := pointsTo_split_subset_eq (F := F) (ℓ := (xM : Memref sig .tc .vmem S512x512 .f32).view.loc (d : Thread nD τ)) (q := q) (f := f) hsub
  have h2 := pointsTo_biUnion (ℓ := (xM : Memref sig .tc .vmem S512x512 .f32).view.loc (d : Thread nD τ)) (q := q) (f := f)
    (Ix := Unit) (Name := ℕ) (U := UU) (Lvl := ℕ)
    Finset.univ (fun k : Fin 16 => ((xsrc d k).view.set : Finset S512x512.Idx)) (xsrc_disjoint d)
  rw [h2] at h1
  exact h1

/-- The rows the chunks received by one device are written to lie apart. -/
theorem dstV_disjoint (c : Dev nD) : ∀ k ∈ (Finset.univ : Finset (Fin 16)), ∀ k' ∈ (Finset.univ : Finset (Fin 16)), k ≠ k' →
    Disjoint ((dstV c k).view.set : Finset S1024x512.Idx) ((dstV c k').view.set : Finset S1024x512.Idx) := by
  intro k _ k' _ hne
  have hc : c.val < 16 := c.isLt
  refine Finset.disjoint_left.mpr fun i hi hi' => hne (Fin.ext ?_)
  have h1 := (mem_dstV c k i).mp hi
  have h2 := (mem_dstV c k' i).mp hi'
  omega

/-- The near half of the other block: the rows the device's own sixteen chunks are written to. -/
abbrev nearRows (d : Dev nD) : Finset S1024x512.Idx :=
  Finset.univ.biUnion fun k : Fin 16 => ((dstV d k).view.set : Finset S1024x512.Idx)

/-- A row is in the near half when it lies in the 256 rows from row 512·(1 − x) + 256·y. -/
theorem mem_nearRows (d : Dev nD) (i : S1024x512.Idx) :
    i ∈ nearRows d ↔ (256 * ((d.val / 4) % 2) + 512) - 512 * (d.val / 8) ≤ (i 0).val
      ∧ (i 0).val < (256 * ((d.val / 4) % 2) + 512) - 512 * (d.val / 8) + 256 := by
  have hd : d.val < 16 := d.isLt
  have hi : (i 0).val < 1024 := (i 0).isLt
  constructor
  · intro h
    obtain ⟨k, -, hk⟩ := Finset.mem_biUnion.mp h
    have h1 := (mem_dstV d k i).mp hk
    have hk16 : k.val < 16 := k.isLt
    omega
  · intro h
    have hk : ((i 0).val % 256) / 16 < 16 := by omega
    have hm : i ∈ ((dstV d ⟨((i 0).val % 256) / 16, hk⟩).view.set : Finset S1024x512.Idx) :=
      (mem_dstV d ⟨((i 0).val % 256) / 16, hk⟩ i).mpr (by dsimp only; omega)
    exact Finset.mem_biUnion.mpr ⟨⟨((i 0).val % 256) / 16, hk⟩, Finset.mem_univ _, hm⟩

/-- The device's own rows, the near half and the far half (the y-neighbour's near half) are all the rows; -/
theorem out_cover (d : Dev nD) :
    ((oM : Memref sig .tc .hbm S1024x512 .f32).view.set : Finset S1024x512.Idx)
      = ((ownDst d).view.set : Finset S1024x512.Idx) ∪ (nearRows d ∪ nearRows (yp d)) := by
  have hd : d.val < 16 := d.isLt
  have hyx := yp_x d
  have hyy := yp_y d
  ext i
  refine ⟨fun _ => ?_, fun _ => (Finset.ext_iff.mp (View.set_whole main_v1) i).mpr (Finset.mem_univ _)⟩
  have hi : (i 0).val < 1024 := (i 0).isLt
  by_cases h1 : (i 0).val / 512 = d.val / 8
  · exact Finset.mem_union_left _ ((mem_ownDst d i).mpr (by omega))
  · refine Finset.mem_union_right _ ?_
    by_cases h2 : ((i 0).val % 512) / 256 = (d.val / 4) % 2
    · exact Finset.mem_union_left _ ((mem_nearRows d i).mpr (by omega))
    · refine Finset.mem_union_right _ ((mem_nearRows (yp d) i).mpr ?_)
      rw [hyx, hyy]
      omega

/-- and no two of the three meet. -/
theorem own_disjoint (d : Dev nD) :
    Disjoint ((ownDst d).view.set : Finset S1024x512.Idx) (nearRows d ∪ nearRows (yp d)) := by
  have hd : d.val < 16 := d.isLt
  have hyx := yp_x d
  have hyy := yp_y d
  refine Finset.disjoint_left.mpr fun i hA hBC => ?_
  have h0 := (mem_ownDst d i).mp hA
  rcases Finset.mem_union.mp hBC with hB | hC
  · have h1 := (mem_nearRows d i).mp hB
    omega
  · have h1 := (mem_nearRows (yp d) i).mp hC
    rw [hyx, hyy] at h1
    omega

theorem near_far_disjoint (d : Dev nD) : Disjoint (nearRows d) (nearRows (yp d)) := by
  have hd : d.val < 16 := d.isLt
  have hyx := yp_x d
  have hyy := yp_y d
  refine Finset.disjoint_left.mpr fun i hB hC => ?_
  have h1 := (mem_nearRows d i).mp hB
  have h2 := (mem_nearRows (yp d) i).mp hC
  rw [hyx, hyy] at h2
  omega

/-- The result array is the device's own rows, the sixteen chunks of the near half of the other block, and the
    sixteen chunks of the far half, which are the rows the y-neighbour's chunks are written to. -/
theorem out_pieces (d : Dev nD) (f : Buf (Elt F) ((oM : Memref sig .tc .hbm S1024x512 .f32).view.loc (d : Thread nD τ))) :
    (((oM : Memref sig .tc .hbm S1024x512 .f32).view.loc (d : Thread nD τ)) ↦[(oM : Memref sig .tc .hbm S1024x512 .f32).view.set]{fullShare} f : sProp 𝕄)
      = iprop((((ownDst d).view.loc (d : Thread nD τ)) ↦[(ownDst d).view.set]{fullShare} f)
          ∗ (bigSep Finset.univ fun k : Fin 16 => (((dstV d k).view.loc (d : Thread nD τ)) ↦[(dstV d k).view.set]{fullShare} f))
          ∗ (bigSep Finset.univ fun k : Fin 16 => (((dstV (yp d) k).view.loc (d : Thread nD τ)) ↦[(dstV (yp d) k).view.set]{fullShare} f))) := by
  have k1 := pointsTo_union_eq (F := F) (ℓ := (oM : Memref sig .tc .hbm S1024x512 .f32).view.loc (d : Thread nD τ))
    (I := ((ownDst d).view.set : Finset S1024x512.Idx)) (J := nearRows d ∪ nearRows (yp d)) (q := fullShare) (f := f) (own_disjoint d)
  have k2 := pointsTo_union_eq (F := F) (ℓ := (oM : Memref sig .tc .hbm S1024x512 .f32).view.loc (d : Thread nD τ))
    (I := nearRows d) (J := nearRows (yp d)) (q := fullShare) (f := f) (near_far_disjoint d)
  have k3 := pointsTo_biUnion (ℓ := (oM : Memref sig .tc .hbm S1024x512 .f32).view.loc (d : Thread nD τ)) (q := fullShare) (f := f)
    (Ix := Unit) (Name := ℕ) (U := UU) (Lvl := ℕ) Finset.univ (fun k : Fin 16 => ((dstV d k).view.set : Finset S1024x512.Idx)) (dstV_disjoint d)
  have k4 := pointsTo_biUnion (ℓ := (oM : Memref sig .tc .hbm S1024x512 .f32).view.loc (d : Thread nD τ)) (q := fullShare) (f := f)
    (Ix := Unit) (Name := ℕ) (U := UU) (Lvl := ℕ) Finset.univ (fun k : Fin 16 => ((dstV (yp d) k).view.set : Finset S1024x512.Idx)) (dstV_disjoint (yp d))
  have k0 := congrArg (fun I : Finset S1024x512.Idx =>
    (((oM : Memref sig .tc .hbm S1024x512 .f32).view.loc (d : Thread nD τ)) ↦[I]{fullShare} f : sProp 𝕄)) (out_cover d)
  exact k0.trans (k1.trans (congrArg (fun P : sProp 𝕄 =>
    iprop((((oM : Memref sig .tc .hbm S1024x512 .f32).view.loc (d : Thread nD τ)) ↦[((ownDst d).view.set : Finset S1024x512.Idx)]{fullShare} f) ∗ P))
    (k2.trans (congrArg₂ (fun P Q : sProp 𝕄 => iprop(P ∗ Q)) k3 k4))))

end Cert.KernelIdeal.AG

end
-- ==== Proof.KernelIdealSteps.lean ====
/-
  One step of one device, once per kind of statement, at a symbolic device `c` and chunk `k`.

  Each lemma is the rounds rule of its statement read at this protocol's cells: which duty the statement
  pays, with which token, what it hands the cell's owner (by the value lemmas: what lands is the piece of the
  one contents function the payload names), and what it peels off what the device owes.
-/
import proofs.«900340_g7700000000000341_dist_ag_v7x_xyz2x2x4_x_m512_n512_f32_1_alg».proof.Proof.KernelIdealLevels
import proofs.«900340_g7700000000000341_dist_ag_v7x_xyz2x2x4_x_m512_n512_f32_1_alg».proof.Proof.KernelIdealValues

set_option maxRecDepth 16384

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (K : GSem nD τ sig → ℕ)

local notation "𝕄" => MT nD τ sig Unit (Elt F) ℕ UU ℕ

/-! ## What a finished round hands over -/

omit [FloatOps F] in
theorem rest_bar (c : Dev nD) :
    bigSep ((agRd (F := F) m).duties (barCell c) 0 \ ∅) (fun d => (agRd (F := F) m).payload (barCell c) 0 d) = iprop(barPayX c ∗ barPayY c) := by
  rw [Finset.sdiff_empty, duties_bar, bigSep_insert (by decide : (0 : Fin 16) ∉ ({1} : Finset (Fin 16))), bigSep_singleton, payload_bar0, payload_bar1]
  rfl

omit [FloatOps F] in
theorem rest_single {g : GSem nD τ sig} {P : sProp 𝕄} (hd : (agRd (F := F) m).duties g 0 = {0}) (hp : (agRd (F := F) m).payload g 0 0 = P) :
    bigSep ((agRd (F := F) m).duties g 0 \ ∅) (fun d => (agRd (F := F) m).payload g 0 d) = P := by
  rw [Finset.sdiff_empty, hd, bigSep_singleton, hp]

/-! ## Transfers -/

/-- Chunk `k` sent across x: pays the sender's departure cell with the right half of the chunk of its block, and the
    receiver's arrival cell with slot `k` of its receive buffer holding the chunk. -/
theorem step_xr (c n : Dev nD) (hn : n = xp c) (k : Fin 16)
    {hsc : ((rbuf k : Memref sig .tc .vmem S16x512 .f32) : Memref sig (Dev.tc n : Thread nD τ).2.kind .vmem S16x512 .f32).view.ref.isScScratch = false}
    {hsrc : (xsrc c k).view.WordExact} {hdst : (rbuf k).view.WordExact}
    {hsem : DmaTarget.Typed .vmem (.dma (rxS k)) (.remote (Dev.tc n : Thread nD τ) (rbuf k) (.dma (sxS k)) hsc)}
    {α : Type} {Q : α → sProp 𝕄} {cont : PUnit → Prog (TpuEff nD τ sig (Elt F) Λ₀ .tc) α}
    (fn : Buf (Elt F) ((rbuf k).view.loc ((xp c : Dev nD) : Thread nD τ))) (O : CellTallies nD τ sig Unit) (W : Waits sig Unit) :
    iprop(cellInv ER (agRd m) (K (sxCell c k)) (sxCell c k) ∗ cellInv ER (agRd m) (K (rxCell (xp c) k)) (rxCell (xp c) k)
        ∗ (((xsrc c k).view.loc (c : Thread nD τ)) ↦[(xsrc c k).view.set]{fullShare.right} xstg m c)
        ∗ (((rbuf k).view.loc ((xp c : Dev nD) : Thread nD τ)) ↦[(rbuf k).view.set]{fullShare} fn)
        ∗ owes (c : Thread nD τ) (O + tallyAt (rxCell (xp c) k) () N16) W
        ∗ dutyTok ER (sxCell c k) 0 0 ∗ reached ER (sxCell c k) 0
        ∗ dutyTok ER (rxCell (xp c) k) 0 0 ∗ reached ER (rxCell (xp c) k) 0)
      ⊢ iprop(((cred (tallyAt (sxCell c k) () N16) ∗ owes (c : Thread nD τ) O W) -∗ wp frame (wpE (defs₀ (F := F)) 𝒱₀ (c : Thread nD τ) none) Set.univ (cont ⟨⟩) Q)
          -∗ wp frame (wpE (defs₀ (F := F)) 𝒱₀ (c : Thread nD τ) none) Set.univ
              (.op (.enqueueDma (xsrc c k) (.remote (Dev.tc n : Thread nD τ) (rbuf k) (.dma (sxS k)) hsc) (.dma (rxS k)) hsrc hdst hsem) cont) Q) := by
  subst hn
  exact Rounds.wp_send_pointsTo 𝒱₀ ER (agRd m) (c : Thread nD τ) none (κ₁ := K (sxCell c k)) (κ₂ := K (rxCell (xp c) k))
    (r₁ := 0) (r₂ := 0) (d₁ := 0) (d₂ := 0) (src := xsrc c k) (dst := rbuf k) (q := fullShare.right) (fs := xstg m c) (fd := fn)
    (c' := ((xp c : Dev nD) : Thread nD τ))
    (by rw [duties_sx]; exact Finset.mem_singleton_self _) (by rw [duties_rx]; exact Finset.mem_singleton_self _)
    () () N16 rfl (amount_sx m c k 0) (amount_rx m (xp c) k 0) O rfl (W := W)
    (by rw [payload_sx]; exact BI.Entails.refl _)
    (by rw [payload_rx]; unfold rxPay; rw [pointsTo_congr (x_lands m c k fn)])

omit [FloatOps F] in
theorem ryPay_yp (c : Dev nD) (k : Fin 16) :
    ryPay m (yp c) k = ((((dstV c k).view.loc ((yp c : Dev nD) : Thread nD τ)) ↦[(dstV c k).view.set]{fullShare} gathered m (yp c)) : sProp 𝕄) := by
  unfold ryPay; rw [yp_yp]

/-- Chunk `k` forwarded across y: pays the forwarder's departure cell with the right half of slot `k`, and the receiver's
    arrival cell with the rows of its result the chunk is written to. -/
theorem step_f (c n : Dev nD) (hn : n = yp c) (k : Fin 16)
    {hsc : ((dstV c k : Memref sig .tc .hbm S16x512 .f32) : Memref sig (Dev.tc n : Thread nD τ).2.kind .hbm S16x512 .f32).view.ref.isScScratch = false}
    {hsrc : (rbuf k).view.WordExact} {hdst : (dstV c k).view.WordExact}
    {hsem : DmaTarget.Typed .vmem (.dma (ryS k)) (.remote (Dev.tc n : Thread nD τ) (dstV c k) (.dma (syS k)) hsc)}
    {α : Type} {Q : α → sProp 𝕄} {cont : PUnit → Prog (TpuEff nD τ sig (Elt F) Λ₀ .tc) α}
    (fd : Buf (Elt F) ((dstV c k).view.loc ((yp c : Dev nD) : Thread nD τ))) (O : CellTallies nD τ sig Unit) (W : Waits sig Unit) :
    iprop(cellInv ER (agRd m) (K (syCell c k)) (syCell c k) ∗ cellInv ER (agRd m) (K (ryCell (yp c) k)) (ryCell (yp c) k)
        ∗ (((rbuf k).view.loc (c : Thread nD τ)) ↦[(rbuf k).view.set]{fullShare.right} rcont m c)
        ∗ (((dstV c k).view.loc ((yp c : Dev nD) : Thread nD τ)) ↦[(dstV c k).view.set]{fullShare} fd)
        ∗ owes (c : Thread nD τ) (O + tallyAt (ryCell (yp c) k) () N16) W
        ∗ dutyTok ER (syCell c k) 0 0 ∗ reached ER (syCell c k) 0
        ∗ dutyTok ER (ryCell (yp c) k) 0 0 ∗ reached ER (ryCell (yp c) k) 0)
      ⊢ iprop(((cred (tallyAt (syCell c k) () N16) ∗ owes (c : Thread nD τ) O W) -∗ wp frame (wpE (defs₀ (F := F)) 𝒱₀ (c : Thread nD τ) none) Set.univ (cont ⟨⟩) Q)
          -∗ wp frame (wpE (defs₀ (F := F)) 𝒱₀ (c : Thread nD τ) none) Set.univ
              (.op (.enqueueDma (rbuf k) (.remote (Dev.tc n : Thread nD τ) (dstV c k) (.dma (syS k)) hsc) (.dma (ryS k)) hsrc hdst hsem) cont) Q) := by
  subst hn
  exact Rounds.wp_send_pointsTo 𝒱₀ ER (agRd m) (c : Thread nD τ) none (κ₁ := K (syCell c k)) (κ₂ := K (ryCell (yp c) k))
    (r₁ := 0) (r₂ := 0) (d₁ := 0) (d₂ := 0) (src := rbuf k) (dst := dstV c k) (q := fullShare.right) (fs := rcont m c) (fd := fd)
    (c' := ((yp c : Dev nD) : Thread nD τ))
    (by rw [duties_sy]; exact Finset.mem_singleton_self _) (by rw [duties_ry]; exact Finset.mem_singleton_self _)
    () () N16 rfl (amount_sy m c k 0) (amount_ry m (yp c) k 0) O rfl (W := W)
    (by rw [payload_sy]; exact BI.Entails.refl _)
    (by rw [payload_ry, ryPay_yp, pointsTo_congr (y_lands m c k fd)])

/-- The local copy of slot `k` into the device's own result: pays duty `k` of the shared cell with the rows written and the
    left half of the slot. -/
theorem step_l (c : Dev nD) (k : Fin 16)
    {hsrc : (rbuf k).view.WordExact} {hdst : (dstV c k).view.WordExact}
    {hsem : DmaTarget.Typed (nD := nD) (τ := τ) (p := .tc) .vmem (.dma locS) (.here (dstV c k))}
    {α : Type} {Q : α → sProp 𝕄} {cont : PUnit → Prog (TpuEff nD τ sig (Elt F) Λ₀ .tc) α}
    (fd : Buf (Elt F) ((dstV c k).view.loc (c : Thread nD τ))) :
    iprop(cellInv ER (agRd m) (K (locCell c)) (locCell c)
        ∗ (((rbuf k).view.loc (c : Thread nD τ)) ↦[(rbuf k).view.set]{fullShare.left} rcont m c)
        ∗ (((dstV c k).view.loc (c : Thread nD τ)) ↦[(dstV c k).view.set]{fullShare} fd)
        ∗ dutyTok ER (locCell c) 0 k ∗ reached ER (locCell c) 0)
      ⊢ iprop((cred (tallyAt (locCell c) () N16) -∗ wp frame (wpE (defs₀ (F := F)) 𝒱₀ (c : Thread nD τ) none) Set.univ (cont ⟨⟩) Q)
          -∗ wp frame (wpE (defs₀ (F := F)) 𝒱₀ (c : Thread nD τ) none) Set.univ
              (.op (.enqueueDma (rbuf k) (.here (dstV c k)) (.dma locS) hsrc hdst hsem) cont) Q) :=
  Rounds.wp_copy_pointsTo 𝒱₀ ER (agRd m) (c : Thread nD τ) none (κ := K (locCell c)) (r := 0) (d := k)
    (src := rbuf k) (dst := dstV c k) (q := fullShare.left) (fs := rcont m c) (fd := fd)
    (by rw [duties_loc]; exact Finset.mem_univ _) () N16 rfl (amount_loc m c k)
    (by rw [payload_loc]; unfold locPay; rw [pointsTo_congr (loc_lands m c k fd)])

/-- The copy of the device's own block into its rows of the result. -/
theorem step_own (c : Dev nD)
    {hsrc : (xM : Memref sig .tc .vmem S512x512 .f32).view.WordExact} {hdst : (ownDst c).view.WordExact}
    {hsem : DmaTarget.Typed (nD := nD) (τ := τ) (p := .tc) .vmem (.dma ownS) (.here (ownDst c))}
    {α : Type} {Q : α → sProp 𝕄} {cont : PUnit → Prog (TpuEff nD τ sig (Elt F) Λ₀ .tc) α}
    (fd : Buf (Elt F) ((ownDst c).view.loc (c : Thread nD τ))) :
    iprop(cellInv ER (agRd m) (K (ownCell c)) (ownCell c)
        ∗ (((xM : Memref sig .tc .vmem S512x512 .f32).view.loc (c : Thread nD τ)) ↦[(xM : Memref sig .tc .vmem S512x512 .f32).view.set]{fullShare.left} xstg m c)
        ∗ (((ownDst c).view.loc (c : Thread nD τ)) ↦[(ownDst c).view.set]{fullShare} fd)
        ∗ dutyTok ER (ownCell c) 0 0 ∗ reached ER (ownCell c) 0)
      ⊢ iprop((cred (tallyAt (ownCell c) () Nown) -∗ wp frame (wpE (defs₀ (F := F)) 𝒱₀ (c : Thread nD τ) none) Set.univ (cont ⟨⟩) Q)
          -∗ wp frame (wpE (defs₀ (F := F)) 𝒱₀ (c : Thread nD τ) none) Set.univ
              (.op (.enqueueDma (xM : Memref sig .tc .vmem S512x512 .f32) (.here (ownDst c)) (.dma ownS) hsrc hdst hsem) cont) Q) :=
  Rounds.wp_copy_pointsTo 𝒱₀ ER (agRd m) (c : Thread nD τ) none (κ := K (ownCell c)) (r := 0) (d := 0)
    (src := (xM : Memref sig .tc .vmem S512x512 .f32)) (dst := ownDst c) (q := fullShare.left) (fs := xstg m c) (fd := fd)
    (by rw [duties_own]; exact Finset.mem_singleton_self _) () Nown rfl (amount_own m c 0)
    (by rw [payload_own]; unfold ownPay; rw [pointsTo_congr (own_lands m c fd)])

/-! ## Signals -/

/-- The signal to the x-neighbour's barrier cell: its duty 0, with this device's receive buffer and arrival facts. -/
theorem step_sigX (c n : Dev nD) (hn : n = xp c) {k' : ℕ} (hk : k' = 1)
    {α : Type} {Q : α → sProp 𝕄} {cont : PUnit → Prog (TpuEff nD τ sig (Elt F) Λ₀ .tc) α}
    (O : CellTallies nD τ sig Unit) (W : Waits sig Unit) :
    iprop(cellInv ER (agRd m) (K (barCell (xp c))) (barCell (xp c)) ∗ owes (c : Thread nD τ) (O + tallyAt (barCell (xp c)) () 1) W
        ∗ dutyTok ER (barCell (xp c)) 0 0 ∗ barPayX (F := F) (xp c) ∗ reached ER (barCell (xp c)) 0)
      ⊢ iprop((owes (c : Thread nD τ) O W -∗ wp frame (wpE (defs₀ (F := F)) 𝒱₀ (c : Thread nD τ) none) Set.univ (cont ⟨⟩) Q)
          -∗ wp frame (wpE (defs₀ (F := F)) 𝒱₀ (c : Thread nD τ) none) Set.univ (.op (.semSignal ((n, Proc.tc) : Thread nD τ) barS k') cont) Q) := by
  subst hn; subst hk
  exact Rounds.wp_signal 𝒱₀ ER (agRd m) (c : Thread nD τ) none (dst := ((xp c : Dev nD) : Thread nD τ)) (κ := K (barCell (xp c)))
    (r := 0) (d := 0) (by rw [duties_bar]; decide) (amount_bar m (xp c) 0) () O rfl

/-- The signal to the y-neighbour's barrier cell: its duty 1, with the rows of this device's result the neighbour will write. -/
theorem step_sigY (c n : Dev nD) (hn : n = yp c) {k' : ℕ} (hk : k' = 1)
    {α : Type} {Q : α → sProp 𝕄} {cont : PUnit → Prog (TpuEff nD τ sig (Elt F) Λ₀ .tc) α}
    (O : CellTallies nD τ sig Unit) (W : Waits sig Unit) :
    iprop(cellInv ER (agRd m) (K (barCell (yp c))) (barCell (yp c)) ∗ owes (c : Thread nD τ) (O + tallyAt (barCell (yp c)) () 1) W
        ∗ dutyTok ER (barCell (yp c)) 0 1 ∗ barPayY (F := F) (yp c) ∗ reached ER (barCell (yp c)) 0)
      ⊢ iprop((owes (c : Thread nD τ) O W -∗ wp frame (wpE (defs₀ (F := F)) 𝒱₀ (c : Thread nD τ) none) Set.univ (cont ⟨⟩) Q)
          -∗ wp frame (wpE (defs₀ (F := F)) 𝒱₀ (c : Thread nD τ) none) Set.univ (.op (.semSignal ((n, Proc.tc) : Thread nD τ) barS k') cont) Q) := by
  subst hn; subst hk
  exact Rounds.wp_signal 𝒱₀ ER (agRd m) (c : Thread nD τ) none (dst := ((yp c : Dev nD) : Thread nD τ)) (κ := K (barCell (yp c)))
    (r := 0) (d := 1) (by rw [duties_bar]; decide) (amount_bar m (yp c) 1) () O rfl

/-! ## Waits -/

/-- The barrier wait: both neighbours' payloads. -/
theorem step_waitBar (c : Dev nD) {k' : ℕ} (hk : k' = 2)
    {α : Type} {Q : α → sProp 𝕄} {cont : PUnit → Prog (TpuEff nD τ sig (Elt F) Λ₀ .tc) α} (W : Waits sig Unit) :
    iprop(cellInv ER (agRd m) (K (barCell c)) (barCell c) ∗ cred (tallyAt (barCell c) () 2) ∗ owes (c : Thread nD τ) (O₁ c) W
        ∗ levAts L lv ∗ atPos ER (barCell c) 0 ∅ 0)
      ⊢ iprop(((owes (c : Thread nD τ) (O₁ c) (insert (SemLoc.reg barS, ()) W) ∗ atPos ER (barCell c) 1 ∅ 0 ∗ barPayX (F := F) c ∗ barPayY (F := F) c)
            -∗ wp frame (wpE (defs₀ (F := F)) 𝒱₀ (c : Thread nD τ) none) Set.univ (cont ⟨⟩) Q)
          -∗ wp frame (wpE (defs₀ (F := F)) 𝒱₀ (c : Thread nD τ) none) Set.univ (.op (.semWait barS k') cont) Q) := by
  subst hk
  iintro ⟨#HI, Hc, HO, #Hlev, Hat⟩ Hk
  iapply (Rounds.wp_wait_rest_token 𝒱₀ ER (agRd m) (c : Thread nD τ) none (κ := K (barCell c))
      (wpE_semWait_eq 𝒱₀ (c : Thread nD τ) none Set.univ) (Set.mem_univ _) () (O := O₁ c) (W := W) (R := 0) (m := 0) (T := ∅)
      (by rw [expect_bar])) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  ihave Hp := (Entails.of_eq (rest_bar m c)) $$ Hpay
  icases Hp with ⟨HX, HY⟩
  iapply Hk
  isplitl [HO]; · iexact HO
  isplitl [Hat]; · iexact Hat
  isplitl [HX]; · iexact HX
  iexact HY

/-- A wait for the whole of a one-duty round on one of the device's own DMA cells, while it owes `O` above that cell. -/
theorem step_wait (c : Dev nD) (q : DmaSem sig) (N : ℕ) (P : sProp 𝕄) (O : CellTallies nD τ sig Unit)
    (hmw : (levAts L lv : sProp 𝕄) ⊢ MayWait (c : Thread nD τ) (.dma q) () O)
    (hduty : (agRd (F := F) m).duties ((c : Thread nD τ), .dma q) 0 = {0}) (hamt : (agRd (F := F) m).amount ((c : Thread nD τ), .dma q) 0 0 = N)
    (hpay : (agRd (F := F) m).payload ((c : Thread nD τ), .dma q) 0 0 = P)
    {sp sp' : Space} {s s' : Shape} {e e' : EltTy} {src : Memref sig .tc sp' s' e'} {κ' : Idealize.ShloMosaic.Kind} {dst : Memref sig κ' sp s e}
    {hsrc : src.view.WordExact} {hdst : dst.view.WordExact} (hd : dst.view.dmaCredit = N)
    {α : Type} {Q : α → sProp 𝕄} {cont : PUnit → Prog (TpuEff nD τ sig (Elt F) Λ₀ .tc) α} (W : Waits sig Unit) :
    iprop(cellInv ER (agRd m) (K ((c : Thread nD τ), .dma q)) ((c : Thread nD τ), .dma q) ∗ cred (tallyAt ((c : Thread nD τ), .dma q) () N)
        ∗ owes (c : Thread nD τ) O W ∗ levAts L lv ∗ atPos ER ((c : Thread nD τ), .dma q) 0 ∅ 0)
      ⊢ iprop(((owes (c : Thread nD τ) O (insert (SemLoc.dma q, ()) W) ∗ atPos ER ((c : Thread nD τ), .dma q) 1 ∅ 0
              ∗ reached ER ((c : Thread nD τ), .dma q) 1 ∗ P)
            -∗ wp frame (wpE (defs₀ (F := F)) 𝒱₀ (c : Thread nD τ) none) Set.univ (cont ⟨⟩) Q)
          -∗ wp frame (wpE (defs₀ (F := F)) 𝒱₀ (c : Thread nD τ) none) Set.univ (.op (.waitDma2 q src dst hsrc hdst) cont) Q) := by
  subst hd
  iintro ⟨#HI, Hc, HO, #Hlev, Hat⟩ Hk
  iapply (Rounds.wp_wait_rest_token 𝒱₀ ER (agRd m) (c : Thread nD τ) none (κ := K ((c : Thread nD τ), .dma q))
      (wpE_waitDma2_eq 𝒱₀ (c : Thread nD τ) none Set.univ) (Set.mem_univ _) () (O := O) (W := W) (R := 0) (m := 0) (T := ∅)
      (by unfold Schedule.expect Schedule.amountOf; rw [hduty, Finset.sum_singleton, hamt, Nat.zero_add])) $$ [Hc HO Hat]
  · isplitr; · iexact HI
    isplitl [Hc]; · iexact Hc
    isplitl [HO]; · iexact HO
    isplitr; · iapply hmw; iexact Hlev
    iexact Hat
  iintro ⟨HO, Hat, #Hr, Hpay⟩
  ihave Hp := (Entails.of_eq (rest_single m hduty hpay)) $$ Hpay
  iapply Hk
  isplitl [HO]; · iexact HO
  isplitl [Hat]; · iexact Hat
  isplitr; · iexact Hr
  iexact Hp

omit [FloatOps F] in
/-- Owing nothing, any wait is allowed. -/
theorem mayWait_none (c : Dev nD) (sm : SemLoc sig) : (levAts L lv : sProp 𝕄) ⊢ MayWait (c : Thread nD τ) sm () 0 := by
  rw [MayWait_zero]; iintro -; iempintro

end Cert.KernelIdeal.AG

end
-- ==== Proof.KernelIdealPhaseDefs.lean ====
/-
  The state of one device between statements, indexed by how many chunks a phase has handled.

  Phase A sends the sixteen chunks across x; phase B, per chunk: waits for its arrival, forwards it across y and
  copies it into the device's own result; phase C, per chunk: waits for the two departures, the arrival across y
  and a sixteen-row share of the shared local-copy cell (only the sixteenth such wait ends that cell's round and
  hands over the sixteen payloads). `elem` is what a phase still holds for a chunk to do, `done` what it holds
  for a chunk done.
-/
import proofs.«900340_g7700000000000341_dist_ag_v7x_xyz2x2x4_x_m512_n512_f32_1_alg».proof.Proof.KernelIdealSteps

set_option maxRecDepth 16384

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

local notation "𝕄" => MT nD τ sig Unit (Elt F) ℕ UU ℕ

/-- The neighbours' arrival cells at round 0: what the barrier payloads bring. -/
def RX (c : Dev nD) : sProp 𝕄 := bigSep Finset.univ fun k : Fin 16 => reached ER (rxCell (xp c) k) 0
def RY (c : Dev nD) : sProp 𝕄 := bigSep Finset.univ fun k : Fin 16 => reached ER (ryCell (yp c) k) 0

instance RX_persistent (c : Dev nD) : BI.Persistent (RX (F := F) c) := by unfold RX; infer_instance
instance RY_persistent (c : Dev nD) : BI.Persistent (RY (F := F) c) := by unfold RY; infer_instance

/-! ## Phase A -/

def elemA (c : Dev nD) (k : Fin 16) : sProp 𝕄 :=
  iprop(dutyTok ER (sxCell c k) 0 0 ∗ dutyTok ER (rxCell (xp c) k) 0 0
    ∗ (((xsrc c k).view.loc (c : Thread nD τ)) ↦[(xsrc c k).view.set]{fullShare.right} xstg m c)
    ∗ ∃ f : Buf (Elt F) ((rbuf k).view.loc ((xp c : Dev nD) : Thread nD τ)),
        ((rbuf k).view.loc ((xp c : Dev nD) : Thread nD τ)) ↦[(rbuf k).view.set]{fullShare} f)
def doneA (c : Dev nD) (k : Fin 16) : sProp 𝕄 := cred (tallyAt (sxCell c k) () N16)
def XA (c : Dev nD) (n : ℕ) (W : Waits sig Unit) : sProp 𝕄 :=
  iprop(owes (c : Thread nD τ) (oweY c 0 + oweX c n) W ∗ bigSep (fromK n) (elemA m c) ∗ bigSep (belowK n) (doneA (F := F) c))

/-! ## Phase B -/

def farP (c : Dev nD) (k : Fin 16) : sProp 𝕄 :=
  iprop(∃ f : Buf (Elt F) ((dstV c k).view.loc ((yp c : Dev nD) : Thread nD τ)),
    ((dstV c k).view.loc ((yp c : Dev nD) : Thread nD τ)) ↦[(dstV c k).view.set]{fullShare} f)
def nearP (c : Dev nD) (k : Fin 16) : sProp 𝕄 :=
  iprop(∃ f : Buf (Elt F) ((dstV c k).view.loc (c : Thread nD τ)),
    ((dstV c k).view.loc (c : Thread nD τ)) ↦[(dstV c k).view.set]{fullShare} f)

def elemB (c : Dev nD) (k : Fin 16) : sProp 𝕄 :=
  iprop(atPos ER (rxCell c k) 0 ∅ 0 ∗ cred (tallyAt (rxCell c k) () N16)
    ∗ dutyTok ER (syCell c k) 0 0 ∗ dutyTok ER (ryCell (yp c) k) 0 0 ∗ dutyTok ER (locCell c) 0 k
    ∗ farP (F := F) c k ∗ nearP (F := F) c k)
def doneB (c : Dev nD) (k : Fin 16) : sProp 𝕄 :=
  iprop(atPos ER (rxCell c k) 1 ∅ 0 ∗ cred (tallyAt (syCell c k) () N16) ∗ cred (tallyAt (locCell c) () N16))
/-- The chunks after `k` still to do and the chunks before `k` done. -/
def tailB (c : Dev nD) (k : Fin 16) : sProp 𝕄 :=
  iprop(bigSep (fromK (k.val + 1)) (elemB (F := F) c) ∗ bigSep (belowK k.val) (doneB (F := F) c))
def XB (c : Dev nD) (n : ℕ) : sProp 𝕄 :=
  iprop((∃ W, owes (c : Thread nD τ) (oweY c n) W) ∗ bigSep (fromK n) (elemB (F := F) c) ∗ bigSep (belowK n) (doneB (F := F) c))
/-- Chunk `k` has arrived: slot `k` is held whole. -/
def XB1 (c : Dev nD) (k : Fin 16) : sProp 𝕄 :=
  iprop((∃ W, owes (c : Thread nD τ) (oweY c k.val) W)
    ∗ (atPos ER (rxCell c k) 1 ∅ 0 ∗ rxPay m c k
        ∗ dutyTok ER (syCell c k) 0 0 ∗ dutyTok ER (ryCell (yp c) k) 0 0 ∗ dutyTok ER (locCell c) 0 k
        ∗ farP (F := F) c k ∗ nearP (F := F) c k)
    ∗ tailB (F := F) c k)
/-- Chunk `k` is on its way across y: the left half of slot `k` is still held. -/
def XB2 (c : Dev nD) (k : Fin 16) : sProp 𝕄 :=
  iprop((∃ W, owes (c : Thread nD τ) (oweY c (k.val + 1)) W)
    ∗ (atPos ER (rxCell c k) 1 ∅ 0 ∗ cred (tallyAt (syCell c k) () N16)
        ∗ (((rbuf k).view.loc (c : Thread nD τ)) ↦[(rbuf k).view.set]{fullShare.left} rcont m c)
        ∗ dutyTok ER (locCell c) 0 k ∗ nearP (F := F) c k)
    ∗ tailB (F := F) c k)

/-! ## Phase C -/

def elemC (c : Dev nD) (k : Fin 16) : sProp 𝕄 :=
  iprop(atPos ER (sxCell c k) 0 ∅ 0 ∗ cred (tallyAt (sxCell c k) () N16)
    ∗ atPos ER (syCell c k) 0 ∅ 0 ∗ cred (tallyAt (syCell c k) () N16)
    ∗ atPos ER (ryCell c k) 0 ∅ 0 ∗ cred (tallyAt (ryCell c k) () N16)
    ∗ cred (tallyAt (locCell c) () N16))
def doneC (c : Dev nD) (k : Fin 16) : sProp 𝕄 :=
  iprop(atPos ER (sxCell c k) 1 ∅ 0 ∗ sxPay m c k ∗ atPos ER (syCell c k) 1 ∅ 0 ∗ syPay m c k
    ∗ atPos ER (ryCell c k) 1 ∅ 0 ∗ ryPay m c k)
/-- The shared local-copy cell after `n` of its sixteen waits: `n` sixteen-row shares consumed, the payloads of the
    copies known to have landed taken. -/
def locSt (c : Dev nD) (n : ℕ) : sProp 𝕄 :=
  iprop(∃ T : Finset (Fin 16), atPos ER (locCell c) 0 T (n * N16) ∗ bigSep T (locPay m c))
def tailC (c : Dev nD) (k : Fin 16) : sProp 𝕄 :=
  iprop(bigSep (fromK (k.val + 1)) (elemC (F := F) c) ∗ bigSep (belowK k.val) (doneC m c))
def XC (c : Dev nD) (n : ℕ) : sProp 𝕄 :=
  iprop((∃ W, owes (c : Thread nD τ) 0 W) ∗ bigSep (fromK n) (elemC (F := F) c) ∗ bigSep (belowK n) (doneC m c) ∗ locSt m c n)
/-- Within chunk `k` of phase C: after the wait on the departure across x; after the one on the departure across y; after
    the one on the arrival across y. -/
def XC1 (c : Dev nD) (k : Fin 16) : sProp 𝕄 :=
  iprop((∃ W, owes (c : Thread nD τ) 0 W)
    ∗ (atPos ER (sxCell c k) 1 ∅ 0 ∗ sxPay m c k
        ∗ atPos ER (syCell c k) 0 ∅ 0 ∗ cred (tallyAt (syCell c k) () N16)
        ∗ atPos ER (ryCell c k) 0 ∅ 0 ∗ cred (tallyAt (ryCell c k) () N16) ∗ cred (tallyAt (locCell c) () N16))
    ∗ tailC m c k ∗ locSt m c k.val)
def XC2 (c : Dev nD) (k : Fin 16) : sProp 𝕄 :=
  iprop((∃ W, owes (c : Thread nD τ) 0 W)
    ∗ (atPos ER (sxCell c k) 1 ∅ 0 ∗ sxPay m c k ∗ atPos ER (syCell c k) 1 ∅ 0 ∗ syPay m c k
        ∗ atPos ER (ryCell c k) 0 ∅ 0 ∗ cred (tallyAt (ryCell c k) () N16) ∗ cred (tallyAt (locCell c) () N16))
    ∗ tailC m c k ∗ locSt m c k.val)
def XC3 (c : Dev nD) (k : Fin 16) : sProp 𝕄 :=
  iprop((∃ W, owes (c : Thread nD τ) 0 W)
    ∗ (doneC m c k ∗ cred (tallyAt (locCell c) () N16))
    ∗ tailC m c k ∗ locSt m c k.val)
/-- After the sixteenth wait on the shared cell: its round over, all sixteen payloads. -/
def XCend (c : Dev nD) : sProp 𝕄 :=
  iprop((∃ W, owes (c : Thread nD τ) 0 W) ∗ bigSep Finset.univ (doneC m c)
    ∗ atPos ER (locCell c) 1 ∅ 0 ∗ bigSep Finset.univ (locPay m c))

end Cert.KernelIdeal.AG

end
-- ==== Proof.KernelIdealPhases.lean ====
/-
  Phases A and B of one device, a chunk at a time, and the hand-overs between phases.

  Each step takes the phase's state at chunk `k`, peels chunk `k` off the chunks still to do, applies the statement's
  rule, and files what the rule returns with the chunks done.
-/
import proofs.«900340_g7700000000000341_dist_ag_v7x_xyz2x2x4_x_m512_n512_f32_1_alg».proof.Proof.KernelIdealPhaseDefs

set_option maxRecDepth 16384

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (K : GSem nD τ sig → ℕ)

local notation "𝕄" => MT nD τ sig Unit (Elt F) ℕ UU ℕ

/-! ## The cells' invariants and round-0 facts, chunk by chunk -/

/-- The six invariants of chunk `k`, and the four round-0 facts. -/
def invK (c : Dev nD) (k : Fin 16) : sProp 𝕄 :=
  iprop(cellInv ER (agRd m) (K (sxCell c k)) (sxCell c k) ∗ cellInv ER (agRd m) (K (rxCell c k)) (rxCell c k)
      ∗ cellInv ER (agRd m) (K (syCell c k)) (syCell c k) ∗ cellInv ER (agRd m) (K (ryCell c k)) (ryCell c k)
      ∗ cellInv ER (agRd m) (K (rxCell (xp c) k)) (rxCell (xp c) k) ∗ cellInv ER (agRd m) (K (ryCell (yp c) k)) (ryCell (yp c) k))
def reachK (c : Dev nD) (k : Fin 16) : sProp 𝕄 :=
  iprop(reached ER (sxCell c k) 0 ∗ reached ER (rxCell c k) 0 ∗ reached ER (syCell c k) 0 ∗ reached ER (ryCell c k) 0)

theorem invs_all (c : Dev nD) : invs m K c ⊢ bigSep Finset.univ (invK m K c) := by
  unfold invs
  iintro ⟨-, -, -, -, -, H⟩
  iexact H

theorem invs_k (c : Dev nD) (k : Fin 16) : invs m K c ⊢ invK m K c k :=
  (invs_all m K c).trans (bigSep_elim (Finset.mem_univ k))

omit [FloatOps F] in
theorem RX_k (c : Dev nD) (k : Fin 16) : RX (F := F) c ⊢ reached ER (rxCell (xp c) k) 0 := by
  unfold RX; exact bigSep_elim (Finset.mem_univ k)
omit [FloatOps F] in
theorem RY_k (c : Dev nD) (k : Fin 16) : RY (F := F) c ⊢ reached ER (ryCell (yp c) k) 0 := by
  unfold RY; exact bigSep_elim (Finset.mem_univ k)

omit [FloatOps F] in
theorem reach_all (c : Dev nD) : reach0 (F := F) c ⊢ bigSep Finset.univ (reachK (F := F) c) := by
  unfold reach0
  iintro ⟨-, -, -, -, H⟩
  iexact H

omit [FloatOps F] in
theorem reach_k (c : Dev nD) (k : Fin 16) : reach0 (F := F) c ⊢ reachK (F := F) c k :=
  (reach_all c).trans (bigSep_elim (Finset.mem_univ k))

omit [FloatOps F] in
theorem ex_intro {α : Type} (Φ : α → sProp 𝕄) (a : α) : Φ a ⊢ iprop(∃ x, Φ x) := by
  iintro H; iexists a; iexact H
omit [FloatOps F] in
theorem reachK_rx (c : Dev nD) (k : Fin 16) : reachK (F := F) c k ⊢ reached ER (rxCell c k) 0 := by
  unfold reachK; iintro ⟨-, H, -⟩; iexact H
omit [FloatOps F] in
theorem reachK_ry (c : Dev nD) (k : Fin 16) : reachK (F := F) c k ⊢ reached ER (ryCell c k) 0 := by
  unfold reachK; iintro ⟨-, -, -, H⟩; iexact H

/-! ## Families merged and split -/

omit [FloatOps F] in
theorem merge4 (s : Finset (Fin 16)) (A B C D : Fin 16 → sProp 𝕄) :
    bigSep s (fun k => iprop(A k ∗ B k ∗ C k ∗ D k)) = iprop(bigSep s A ∗ bigSep s B ∗ bigSep s C ∗ bigSep s D) := by
  rw [bigSep_sep', bigSep_sep', bigSep_sep']
omit [FloatOps F] in
theorem merge7 (s : Finset (Fin 16)) (A B C D E G H : Fin 16 → sProp 𝕄) :
    bigSep s (fun k => iprop(A k ∗ B k ∗ C k ∗ D k ∗ E k ∗ G k ∗ H k))
      = iprop(bigSep s A ∗ bigSep s B ∗ bigSep s C ∗ bigSep s D ∗ bigSep s E ∗ bigSep s G ∗ bigSep s H) := by
  rw [bigSep_sep', bigSep_sep', bigSep_sep', bigSep_sep', bigSep_sep', bigSep_sep']

/-! ## The two barrier payloads a device hands out -/

omit [FloatOps F] in
/-- Its receive buffer, slot by slot, and its arrival cells across x at round 0: for its x-neighbour. -/
theorem barPayX_intro (c : Dev nD) (f0 : Buf (Elt F) ((rM : Memref sig .tc .vmem S16x16x512 .f32).view.loc (c : Thread nD τ))) :
    iprop((bigSep Finset.univ fun k : Fin 16 => (((rbuf k).view.loc (c : Thread nD τ)) ↦[(rbuf k).view.set]{fullShare} f0 : sProp 𝕄)) ∗ reach0 (F := F) c)
      ⊢ barPayX (F := F) (xp c) := by
  unfold barPayX
  rw [xp_xp]
  exact BIClass.sep_mono (bigSep_mono fun k _ => ex_intro _ f0)
    ((reach_all c).trans (bigSep_mono fun k _ => reachK_rx c k))

omit [FloatOps F] in
/-- The rows of its result its y-neighbour will write, chunk by chunk, and its arrival cells across y at round 0. -/
theorem barPayY_intro (c : Dev nD) (f : Buf (Elt F) ((oM : Memref sig .tc .hbm S1024x512 .f32).view.loc (c : Thread nD τ))) :
    iprop((bigSep Finset.univ fun k : Fin 16 => (((dstV (yp c) k).view.loc (c : Thread nD τ)) ↦[(dstV (yp c) k).view.set]{fullShare} f : sProp 𝕄)) ∗ reach0 (F := F) c)
      ⊢ barPayY (F := F) (yp c) := by
  unfold barPayY
  rw [yp_yp]
  exact BIClass.sep_mono (bigSep_mono fun k _ => ex_intro _ f)
    ((reach_all c).trans (bigSep_mono fun k _ => reachK_ry c k))

/-! ## Phase A -/

omit [FloatOps F] in
/-- Phase A starts with every chunk to do. -/
theorem XA_intro (c : Dev nD) (W : Waits sig Unit) :
    iprop(owes (c : Thread nD τ) (O₁ c) W
        ∗ (bigSep Finset.univ fun k : Fin 16 => (dutyTok ER (sxCell c k) 0 0 : sProp 𝕄))
        ∗ (bigSep Finset.univ fun k : Fin 16 => (dutyTok ER (rxCell (xp c) k) 0 0 : sProp 𝕄))
        ∗ (bigSep Finset.univ fun k : Fin 16 => (((xsrc c k).view.loc (c : Thread nD τ)) ↦[(xsrc c k).view.set]{fullShare.right} xstg m c : sProp 𝕄))
        ∗ (bigSep Finset.univ fun k : Fin 16 => iprop(∃ f : Buf (Elt F) ((rbuf k).view.loc ((xp c : Dev nD) : Thread nD τ)),
              (((rbuf k).view.loc ((xp c : Dev nD) : Thread nD τ)) ↦[(rbuf k).view.set]{fullShare} f : sProp 𝕄))))
      ⊢ XA m c 0 W := by
  unfold XA O₁
  rw [fromK_zero, belowK_zero, bigSep_empty]
  iintro ⟨HO, H⟩
  isplitl [HO]; · iexact HO
  isplitl
  · iapply (Entails.of_eq (merge4 Finset.univ _ _ _ _).symm)
    iexact H
  · iempintro

/-- Chunk `k` sent across x. -/
theorem phaseA_step (c n : Dev nD) (hn : n = xp c) (k : Fin 16)
    {hsc : ((rbuf k : Memref sig .tc .vmem S16x512 .f32) : Memref sig (Dev.tc n : Thread nD τ).2.kind .vmem S16x512 .f32).view.ref.isScScratch = false}
    {hsrc : (xsrc c k).view.WordExact} {hdst : (rbuf k).view.WordExact}
    {hsem : DmaTarget.Typed .vmem (.dma (rxS k)) (.remote (Dev.tc n : Thread nD τ) (rbuf k) (.dma (sxS k)) hsc)}
    {α : Type} {Q : α → sProp 𝕄} {cont : PUnit → Prog (TpuEff nD τ sig (Elt F) Λ₀ .tc) α} (W : Waits sig Unit) :
    iprop(invs m K c ∗ reach0 (F := F) c ∗ RX (F := F) c ∗ XA m c k.val W)
      ⊢ iprop((XA m c (k.val + 1) W -∗ wp frame (wpE (defs₀ (F := F)) 𝒱₀ (c : Thread nD τ) none) Set.univ (cont ⟨⟩) Q)
          -∗ wp frame (wpE (defs₀ (F := F)) 𝒱₀ (c : Thread nD τ) none) Set.univ
              (.op (.enqueueDma (xsrc c k) (.remote (Dev.tc n : Thread nD τ) (rbuf k) (.dma (sxS k)) hsc) (.dma (rxS k)) hsrc hdst hsem) cont) Q) := by
  unfold XA
  rw [oweX_step c k, ← add_assoc, bigSep_fromK k, bigSep_belowK_succ k]
  unfold elemA doneA
  iintro ⟨#HI, #HR, #HRX, HO, ⟨⟨Ht1, Ht2, Hp, ⟨%f, Hs⟩⟩, Hrest⟩, Hdone⟩ Hk
  ihave HIk := (invs_k m K c k) $$ HI
  unfold invK
  icases HIk with ⟨#Hsx, -, -, -, #Hrxp, -⟩
  ihave HRk := (reach_k (F := F) c k) $$ HR
  unfold reachK
  icases HRk with ⟨#Hr1, -⟩
  iapply (step_xr m K c n hn k f (oweY c 0 + oweX c (k.val + 1)) W) $$ [HO Ht1 Ht2 Hp Hs]
  · isplitr; · iexact Hsx
    isplitr; · iexact Hrxp
    isplitl [Hp]; · iexact Hp
    isplitl [Hs]; · iexact Hs
    isplitl [HO]; · iexact HO
    isplitl [Ht1]; · iexact Ht1
    isplitr; · iexact Hr1
    isplitl [Ht2]; · iexact Ht2
    iapply (RX_k (F := F) c k); iexact HRX
  iintro ⟨Hc, HO⟩
  iapply Hk
  isplitl [HO]; · iexact HO
  isplitl [Hrest]; · iexact Hrest
  isplitl [Hc]; · iexact Hc
  iexact Hdone

/-! ## Phase B -/

omit [FloatOps F] in
/-- Phase B starts with every chunk to do. -/
theorem XB_intro (c : Dev nD) (W : Waits sig Unit) :
    iprop(owes (c : Thread nD τ) (oweY c 0) W
        ∗ (bigSep Finset.univ fun k : Fin 16 => (atPos ER (rxCell c k) 0 ∅ 0 : sProp 𝕄))
        ∗ (bigSep Finset.univ fun k : Fin 16 => (cred (tallyAt (rxCell c k) () N16) : sProp 𝕄))
        ∗ (bigSep Finset.univ fun k : Fin 16 => (dutyTok ER (syCell c k) 0 0 : sProp 𝕄))
        ∗ (bigSep Finset.univ fun k : Fin 16 => (dutyTok ER (ryCell (yp c) k) 0 0 : sProp 𝕄))
        ∗ (bigSep Finset.univ fun k : Fin 16 => (dutyTok ER (locCell c) 0 k : sProp 𝕄))
        ∗ (bigSep Finset.univ (farP (F := F) c)) ∗ (bigSep Finset.univ (nearP (F := F) c)))
      ⊢ XB (F := F) c 0 := by
  unfold XB
  rw [fromK_zero, belowK_zero, bigSep_empty]
  iintro ⟨HO, H⟩
  isplitl [HO]; · iexists W; iexact HO
  isplitl
  · iapply (Entails.of_eq (merge7 Finset.univ _ _ _ _ _ _ _).symm)
    iexact H
  · iempintro

/-- The wait for chunk `k`'s arrival across x. -/
theorem phaseB_wait (c : Dev nD) (k : Fin 16)
    {sp sp' : Space} {s s' : Shape} {e e' : EltTy} {src : Memref sig .tc sp' s' e'} {κ' : Idealize.ShloMosaic.Kind} {dst : Memref sig κ' sp s e}
    {hsrc : src.view.WordExact} {hdst : dst.view.WordExact} (hd : dst.view.dmaCredit = N16)
    {α : Type} {Q : α → sProp 𝕄} {cont : PUnit → Prog (TpuEff nD τ sig (Elt F) Λ₀ .tc) α} :
    iprop(invs m K c ∗ levAts L lv ∗ XB (F := F) c k.val)
      ⊢ iprop((XB1 m c k -∗ wp frame (wpE (defs₀ (F := F)) 𝒱₀ (c : Thread nD τ) none) Set.univ (cont ⟨⟩) Q)
          -∗ wp frame (wpE (defs₀ (F := F)) 𝒱₀ (c : Thread nD τ) none) Set.univ (.op (.waitDma2 (rxS k) src dst hsrc hdst) cont) Q) := by
  unfold XB XB1 tailB
  rw [bigSep_fromK k]
  unfold elemB
  iintro ⟨#HI, #Hlev, ⟨%W, HO⟩, ⟨⟨Hat, Hc, Ht1, Ht2, Ht3, Hf, Hn⟩, Hrest⟩, Hdone⟩ Hk
  ihave HIk := (invs_k m K c k) $$ HI
  unfold invK
  icases HIk with ⟨-, #Hrx, -⟩
  iapply (step_wait m K c (rxS k) N16 (rxPay m c k) (oweY c k.val) (mayWait_rx c k k.val) (duties_rx m c k) (amount_rx m c k 0) (payload_rx m c k 0) hd W) $$ [HO Hc Hat]
  · isplitr; · iexact Hrx
    isplitl [Hc]; · iexact Hc
    isplitl [HO]; · iexact HO
    isplitr; · iexact Hlev
    iexact Hat
  iintro ⟨HO, Hat, -, Hp⟩
  iapply Hk
  isplitl [HO]; · iexists _; iexact HO
  isplitl [Hat Hp Ht1 Ht2 Ht3 Hf Hn]
  · isplitl [Hat]; · iexact Hat
    isplitl [Hp]; · iexact Hp
    isplitl [Ht1]; · iexact Ht1
    isplitl [Ht2]; · iexact Ht2
    isplitl [Ht3]; · iexact Ht3
    isplitl [Hf]; · iexact Hf
    iexact Hn
  isplitl [Hrest]; · iexact Hrest
  iexact Hdone

omit [FloatOps F] in
/-- A slot held whole is its left and right halves. -/
theorem slot_halves (c : Dev nD) (k : Fin 16) :
    ((((rbuf k).view.loc (c : Thread nD τ)) ↦[(rbuf k).view.set]{fullShare} rcont m c) : sProp 𝕄)
      ⊢ iprop((((rbuf k).view.loc (c : Thread nD τ)) ↦[(rbuf k).view.set]{fullShare.left} rcont m c)
          ∗ (((rbuf k).view.loc (c : Thread nD τ)) ↦[(rbuf k).view.set]{fullShare.right} rcont m c)) :=
  (pointsTo_share (PosShare.mem_left_op_right fullShare)).1

/-- Chunk `k` forwarded across y. -/
theorem phaseB_fwd (c n : Dev nD) (hn : n = yp c) (k : Fin 16)
    {hsc : ((dstV c k : Memref sig .tc .hbm S16x512 .f32) : Memref sig (Dev.tc n : Thread nD τ).2.kind .hbm S16x512 .f32).view.ref.isScScratch = false}
    {hsrc : (rbuf k).view.WordExact} {hdst : (dstV c k).view.WordExact}
    {hsem : DmaTarget.Typed .vmem (.dma (ryS k)) (.remote (Dev.tc n : Thread nD τ) (dstV c k) (.dma (syS k)) hsc)}
    {α : Type} {Q : α → sProp 𝕄} {cont : PUnit → Prog (TpuEff nD τ sig (Elt F) Λ₀ .tc) α} :
    iprop(invs m K c ∗ reach0 (F := F) c ∗ RY (F := F) c ∗ XB1 m c k)
      ⊢ iprop((XB2 m c k -∗ wp frame (wpE (defs₀ (F := F)) 𝒱₀ (c : Thread nD τ) none) Set.univ (cont ⟨⟩) Q)
          -∗ wp frame (wpE (defs₀ (F := F)) 𝒱₀ (c : Thread nD τ) none) Set.univ
              (.op (.enqueueDma (rbuf k) (.remote (Dev.tc n : Thread nD τ) (dstV c k) (.dma (syS k)) hsc) (.dma (ryS k)) hsrc hdst hsem) cont) Q) := by
  unfold XB1 XB2 rxPay farP
  rw [oweY_step c k]
  iintro ⟨#HI, #HR, #HRY, ⟨%W, HO⟩, ⟨Hat, Hp, Ht1, Ht2, Ht3, ⟨%f, Hf⟩, Hn⟩, Htail⟩ Hk
  ihave HIk := (invs_k m K c k) $$ HI
  unfold invK
  icases HIk with ⟨-, -, #Hsy, -, -, #Hryp⟩
  ihave HRk := (reach_k (F := F) c k) $$ HR
  unfold reachK
  icases HRk with ⟨-, -, #Hr1, -⟩
  ihave Hsh := (slot_halves m c k) $$ Hp
  icases Hsh with ⟨HpL, HpR⟩
  iapply (step_f m K c n hn k f (oweY c (k.val + 1)) W) $$ [HO Ht1 Ht2 HpR Hf]
  · isplitr; · iexact Hsy
    isplitr; · iexact Hryp
    isplitl [HpR]; · iexact HpR
    isplitl [Hf]; · iexact Hf
    isplitl [HO]; · iexact HO
    isplitl [Ht1]; · iexact Ht1
    isplitr; · iexact Hr1
    isplitl [Ht2]; · iexact Ht2
    iapply (RY_k (F := F) c k); iexact HRY
  iintro ⟨Hc, HO⟩
  iapply Hk
  isplitl [HO]; · iexists W; iexact HO
  isplitl [Hat Hc HpL Ht3 Hn]
  · isplitl [Hat]; · iexact Hat
    isplitl [Hc]; · iexact Hc
    isplitl [HpL]; · iexact HpL
    isplitl [Ht3]; · iexact Ht3
    iexact Hn
  iexact Htail

/-- Slot `k` copied into the device's own result. -/
theorem phaseB_loc (c : Dev nD) (k : Fin 16)
    {hsrc : (rbuf k).view.WordExact} {hdst : (dstV c k).view.WordExact}
    {hsem : DmaTarget.Typed (nD := nD) (τ := τ) (p := .tc) .vmem (.dma locS) (.here (dstV c k))}
    {α : Type} {Q : α → sProp 𝕄} {cont : PUnit → Prog (TpuEff nD τ sig (Elt F) Λ₀ .tc) α} :
    iprop(invs m K c ∗ reach0 (F := F) c ∗ XB2 m c k)
      ⊢ iprop((XB (F := F) c (k.val + 1) -∗ wp frame (wpE (defs₀ (F := F)) 𝒱₀ (c : Thread nD τ) none) Set.univ (cont ⟨⟩) Q)
          -∗ wp frame (wpE (defs₀ (F := F)) 𝒱₀ (c : Thread nD τ) none) Set.univ
              (.op (.enqueueDma (rbuf k) (.here (dstV c k)) (.dma locS) hsrc hdst hsem) cont) Q) := by
  unfold XB2 XB tailB nearP
  rw [bigSep_belowK_succ k]
  unfold doneB
  iintro ⟨#HI, #HR, HO, ⟨Hat, Hc, HpL, Ht3, ⟨%f, Hn⟩⟩, Hrest, Hdone⟩ Hk
  unfold invs reach0
  icases HI with ⟨-, -, -, -, #Hloc, -⟩
  icases HR with ⟨-, -, -, #Hrl, -⟩
  iapply (step_l m K c k f) $$ [HpL Hn Ht3]
  · isplitr; · iexact Hloc
    isplitl [HpL]; · iexact HpL
    isplitl [Hn]; · iexact Hn
    isplitl [Ht3]; · iexact Ht3
    iexact Hrl
  iintro Hcl
  iapply Hk
  isplitl [HO]; · iexact HO
  isplitl [Hrest]; · iexact Hrest
  isplitl [Hat Hc Hcl]
  · isplitl [Hat]; · iexact Hat
    isplitl [Hc]; · iexact Hc
    iexact Hcl
  iexact Hdone

end Cert.KernelIdeal.AG

end
-- ==== Proof.KernelIdealHandover.lean ====
/-
  Between the phases: what a phase's last state is, chunk sets emptied, and how the next phase's first state is
  put together from it and from what the device still holds from the start.
-/
import proofs.«900340_g7700000000000341_dist_ag_v7x_xyz2x2x4_x_m512_n512_f32_1_alg».proof.Proof.KernelIdealPhases

set_option maxRecDepth 16384

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (K : GSem nD τ sig → ℕ)

local notation "𝕄" => MT nD τ sig Unit (Elt F) ℕ UU ℕ

omit [FloatOps F] in
theorem merge3 (s : Finset (Fin 16)) (A B C : Fin 16 → sProp 𝕄) :
    bigSep s (fun k => iprop(A k ∗ B k ∗ C k)) = iprop(bigSep s A ∗ bigSep s B ∗ bigSep s C) := by
  rw [bigSep_sep', bigSep_sep']
omit [FloatOps F] in
theorem merge5 (s : Finset (Fin 16)) (A B C D E : Fin 16 → sProp 𝕄) :
    bigSep s (fun k => iprop(A k ∗ B k ∗ C k ∗ D k ∗ E k)) = iprop(bigSep s A ∗ bigSep s B ∗ bigSep s C ∗ bigSep s D ∗ bigSep s E) := by
  rw [bigSep_sep', bigSep_sep', bigSep_sep', bigSep_sep']

/-! ## Whole buffers, spelt through their views -/

omit [FloatOps F] in
theorem x_whole (c : Dev nD) (q : PosShare TreeShare) (f : Buf (Elt F) ((c : Thread nD τ).loc cc0_stg0_0)) :
    ((((xM : Memref sig .tc .vmem S512x512 .f32).view.loc (c : Thread nD τ)) ↦[(xM : Memref sig .tc .vmem S512x512 .f32).view.set]{q} f) : sProp 𝕄)
      = (((c : Thread nD τ).loc cc0_stg0_0) ↦{q} f) := by rw [View.set_whole]
omit [FloatOps F] in
theorem o_whole (c : Dev nD) (q : PosShare TreeShare) (f : Buf (Elt F) ((c : Thread nD τ).loc main_v1)) :
    ((((oM : Memref sig .tc .hbm S1024x512 .f32).view.loc (c : Thread nD τ)) ↦[(oM : Memref sig .tc .hbm S1024x512 .f32).view.set]{q} f) : sProp 𝕄)
      = (((c : Thread nD τ).loc main_v1) ↦{q} f) := by rw [View.set_whole]
omit [FloatOps F] in
theorem r_whole (c : Dev nD) (q : PosShare TreeShare) (f : Buf (Elt F) ((c : Thread nD τ).loc cc0_scratch0)) :
    ((((rM : Memref sig .tc .vmem S16x16x512 .f32).view.loc (c : Thread nD τ)) ↦[(rM : Memref sig .tc .vmem S16x16x512 .f32).view.set]{q} f) : sProp 𝕄)
      = (((c : Thread nD τ).loc cc0_scratch0) ↦{q} f) := by rw [View.set_whole]

omit [FloatOps F] in
/-- The device's own near rows, chunk by chunk, at whatever they hold. -/
theorem near_intro (c : Dev nD) (f : Buf (Elt F) ((oM : Memref sig .tc .hbm S1024x512 .f32).view.loc (c : Thread nD τ))) :
    (bigSep Finset.univ fun k : Fin 16 => (((dstV c k).view.loc (c : Thread nD τ)) ↦[(dstV c k).view.set]{fullShare} f : sProp 𝕄))
      ⊢ bigSep Finset.univ (nearP (F := F) c) :=
  bigSep_mono fun k _ => ex_intro _ f

/-! ## Ends and starts -/

omit [FloatOps F] in
theorem XA_end (c : Dev nD) (W : Waits sig Unit) :
    XA m c 16 W ⊢ iprop(owes (c : Thread nD τ) (oweY c 0) W ∗ bigSep Finset.univ (doneA (F := F) c)) := by
  unfold XA
  rw [oweX_16, add_zero, fromK_16, belowK_16, bigSep_empty]
  iintro ⟨HO, -, H⟩
  isplitl [HO]; · iexact HO
  iexact H

omit [FloatOps F] in
theorem XB_end (c : Dev nD) :
    XB (F := F) c 16 ⊢ iprop((∃ W, owes (c : Thread nD τ) 0 W) ∗ bigSep Finset.univ (doneB (F := F) c)) := by
  unfold XB
  rw [oweY_16, fromK_16, belowK_16, bigSep_empty]
  iintro ⟨HO, -, H⟩
  isplitl [HO]; · iexact HO
  iexact H

omit [FloatOps F] in
theorem XC_intro (c : Dev nD) :
    iprop((∃ W, owes (c : Thread nD τ) 0 W)
        ∗ (bigSep Finset.univ fun k : Fin 16 => (atPos ER (sxCell c k) 0 ∅ 0 : sProp 𝕄))
        ∗ (bigSep Finset.univ fun k : Fin 16 => (cred (tallyAt (sxCell c k) () N16) : sProp 𝕄))
        ∗ (bigSep Finset.univ fun k : Fin 16 => (atPos ER (syCell c k) 0 ∅ 0 : sProp 𝕄))
        ∗ (bigSep Finset.univ fun k : Fin 16 => (cred (tallyAt (syCell c k) () N16) : sProp 𝕄))
        ∗ (bigSep Finset.univ fun k : Fin 16 => (atPos ER (ryCell c k) 0 ∅ 0 : sProp 𝕄))
        ∗ (bigSep Finset.univ fun k : Fin 16 => (cred (tallyAt (ryCell c k) () N16) : sProp 𝕄))
        ∗ (bigSep Finset.univ fun _k : Fin 16 => (cred (tallyAt (locCell c) () N16) : sProp 𝕄))
        ∗ atPos ER (locCell c) 0 ∅ 0)
      ⊢ XC m c 0 := by
  unfold XC locSt
  rw [fromK_zero, belowK_zero, bigSep_empty, Nat.zero_mul]
  iintro ⟨HO, H1, H2, H3, H4, H5, H6, H7, Hat⟩
  isplitl [HO]; · iexact HO
  isplitl [H1 H2 H3 H4 H5 H6 H7]
  · iapply (Entails.of_eq (merge7 Finset.univ _ _ _ _ _ _ _).symm)
    isplitl [H1]; · iexact H1
    isplitl [H2]; · iexact H2
    isplitl [H3]; · iexact H3
    isplitl [H4]; · iexact H4
    isplitl [H5]; · iexact H5
    isplitl [H6]; · iexact H6
    iexact H7
  isplitr; · iempintro
  iexists ∅
  rw [bigSep_empty]
  isplitl [Hat]; · iexact Hat
  iempintro

end Cert.KernelIdeal.AG

end
-- ==== Proof.KernelIdealClosing.lean ====
/-
  The closing phase of one device.

  For each chunk in turn the device waits for the chunk's departure across x, for its departure across y, for
  the arrival across y of the y-neighbour's chunk, and for a sixteen-row share of the cell the sixteen local
  copies pay together; last it waits for the copy of its own block. Each of the first three waits, and the last,
  takes the whole of a one-duty round: the device comes back at the cell's next round holding the duty's payload.
  The first fifteen waits on the shared cell take a share of its one round: the device takes the payloads of the
  copies known to have landed and moves on; the sixteenth takes the rest of the round and with it every payload
  not yet taken. Then every cell of the device stands at its second round, which has no duty, and is closed; the
  payloads are the pieces of three buffers, each stated at one contents function, and are joined.
-/
import proofs.«900340_g7700000000000341_dist_ag_v7x_xyz2x2x4_x_m512_n512_f32_1_alg».proof.Proof.KernelIdealPhaseDefs

set_option maxRecDepth 16384

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (K : GSem nD τ sig → ℕ)

local notation "𝕄" => MT nD τ sig Unit (Elt F) ℕ UU ℕ

/-! ## The invariants of the device's own cells, out of the bundle -/

/-- The six invariants the bundle holds for chunk `k`. -/
abbrev famInv (c : Dev nD) (k : Fin 16) : sProp 𝕄 :=
  iprop(cellInv ER (agRd m) (K (sxCell c k)) (sxCell c k) ∗ cellInv ER (agRd m) (K (rxCell c k)) (rxCell c k)
    ∗ cellInv ER (agRd m) (K (syCell c k)) (syCell c k) ∗ cellInv ER (agRd m) (K (ryCell c k)) (ryCell c k)
    ∗ cellInv ER (agRd m) (K (rxCell (xp c) k)) (rxCell (xp c) k) ∗ cellInv ER (agRd m) (K (ryCell (yp c) k)) (ryCell (yp c) k))

theorem invs_fam (c : Dev nD) (k : Fin 16) : invs m K c ⊢ famInv m K c k := by
  have h : bigSep Finset.univ (famInv m K c) ⊢ famInv m K c k := bigSep_elim (Finset.mem_univ k)
  unfold invs
  iintro ⟨-, -, -, -, -, Hf⟩
  iapply h
  iexact Hf

theorem invs_own (c : Dev nD) : invs m K c ⊢ cellInv ER (agRd m) (K (ownCell c)) (ownCell c) := by
  unfold invs
  iintro ⟨-, -, -, H, -, -⟩
  iexact H

theorem invs_loc (c : Dev nD) : invs m K c ⊢ cellInv ER (agRd m) (K (locCell c)) (locCell c) := by
  unfold invs
  iintro ⟨-, -, -, -, H, -⟩
  iexact H

theorem invs_sx (c : Dev nD) (k : Fin 16) : invs m K c ⊢ cellInv ER (agRd m) (K (sxCell c k)) (sxCell c k) := by
  refine (invs_fam m K c k).trans ?_
  iintro ⟨H, -, -, -, -, -⟩
  iexact H

theorem invs_rx (c : Dev nD) (k : Fin 16) : invs m K c ⊢ cellInv ER (agRd m) (K (rxCell c k)) (rxCell c k) := by
  refine (invs_fam m K c k).trans ?_
  iintro ⟨-, H, -, -, -, -⟩
  iexact H

theorem invs_sy (c : Dev nD) (k : Fin 16) : invs m K c ⊢ cellInv ER (agRd m) (K (syCell c k)) (syCell c k) := by
  refine (invs_fam m K c k).trans ?_
  iintro ⟨-, -, H, -, -, -⟩
  iexact H

theorem invs_ry (c : Dev nD) (k : Fin 16) : invs m K c ⊢ cellInv ER (agRd m) (K (ryCell c k)) (ryCell c k) := by
  refine (invs_fam m K c k).trans ?_
  iintro ⟨-, -, -, H, -, -⟩
  iexact H

/-! ## The waits that take a whole round -/

theorem phaseC_sx (c : Dev nD) (k : Fin 16)
    {sp sp' : Space} {s s' : Shape} {e e' : EltTy} {src : Memref sig .tc sp' s' e'} {κ' : Idealize.ShloMosaic.Kind} {dst : Memref sig κ' sp s e}
    {hsrc : src.view.WordExact} {hdst : dst.view.WordExact} (hd : dst.view.dmaCredit = N16)
    {α : Type} {Q : α → sProp 𝕄} {cont : PUnit → Prog (TpuEff nD τ sig (Elt F) Λ₀ .tc) α} :
    iprop(invs m K c ∗ levAts L lv ∗ XC m c k.val)
      ⊢ iprop((XC1 m c k -∗ wp frame (wpE (defs₀ (F := F)) 𝒱₀ (c : Thread nD τ) none) Set.univ (cont ⟨⟩) Q)
          -∗ wp frame (wpE (defs₀ (F := F)) 𝒱₀ (c : Thread nD τ) none) Set.univ (.op (.waitDma2 (sxS k) src dst hsrc hdst) cont) Q) := by
  unfold XC XC1 tailC
  rw [bigSep_fromK k]
  unfold elemC
  iintro ⟨#HI, #Hlev, ⟨%W, HO⟩, ⟨⟨Hat, Hc, Hrest⟩, Hfrom⟩, Hbelow, Hloc⟩ Hk
  ihave #Hinv := (invs_sx m K c k) $$ HI
  iapply (step_wait m K c (sxS k) N16 (sxPay m c k) 0 (mayWait_none c _) (duties_sx m c k) (amount_sx m c k 0) (payload_sx m c k 0) hd W) $$ [Hc HO Hat]
  · isplitr; · iexact Hinv
    isplitl [Hc]; · iexact Hc
    isplitl [HO]; · iexact HO
    isplitr; · iexact Hlev
    iexact Hat
  iintro ⟨HO, Hat, -, Hpay⟩
  iapply Hk
  isplitl [HO]; · iexists _; iexact HO
  isplitl [Hat Hpay Hrest]
  · isplitl [Hat]; · iexact Hat
    isplitl [Hpay]; · iexact Hpay
    iexact Hrest
  isplitl [Hfrom Hbelow]
  · isplitl [Hfrom]; · iexact Hfrom
    iexact Hbelow
  iexact Hloc

theorem phaseC_sy (c : Dev nD) (k : Fin 16)
    {sp sp' : Space} {s s' : Shape} {e e' : EltTy} {src : Memref sig .tc sp' s' e'} {κ' : Idealize.ShloMosaic.Kind} {dst : Memref sig κ' sp s e}
    {hsrc : src.view.WordExact} {hdst : dst.view.WordExact} (hd : dst.view.dmaCredit = N16)
    {α : Type} {Q : α → sProp 𝕄} {cont : PUnit → Prog (TpuEff nD τ sig (Elt F) Λ₀ .tc) α} :
    iprop(invs m K c ∗ levAts L lv ∗ XC1 m c k)
      ⊢ iprop((XC2 m c k -∗ wp frame (wpE (defs₀ (F := F)) 𝒱₀ (c : Thread nD τ) none) Set.univ (cont ⟨⟩) Q)
          -∗ wp frame (wpE (defs₀ (F := F)) 𝒱₀ (c : Thread nD τ) none) Set.univ (.op (.waitDma2 (syS k) src dst hsrc hdst) cont) Q) := by
  unfold XC1 XC2
  iintro ⟨#HI, #Hlev, ⟨%W, HO⟩, ⟨Hsx, Hpx, Hat, Hc, Hrest⟩, Htail, Hloc⟩ Hk
  ihave #Hinv := (invs_sy m K c k) $$ HI
  iapply (step_wait m K c (syS k) N16 (syPay m c k) 0 (mayWait_none c _) (duties_sy m c k) (amount_sy m c k 0) (payload_sy m c k 0) hd W) $$ [Hc HO Hat]
  · isplitr; · iexact Hinv
    isplitl [Hc]; · iexact Hc
    isplitl [HO]; · iexact HO
    isplitr; · iexact Hlev
    iexact Hat
  iintro ⟨HO, Hat, -, Hpay⟩
  iapply Hk
  isplitl [HO]; · iexists _; iexact HO
  isplitl [Hsx Hpx Hat Hpay Hrest]
  · isplitl [Hsx]; · iexact Hsx
    isplitl [Hpx]; · iexact Hpx
    isplitl [Hat]; · iexact Hat
    isplitl [Hpay]; · iexact Hpay
    iexact Hrest
  isplitl [Htail]; · iexact Htail
  iexact Hloc

theorem phaseC_ry (c : Dev nD) (k : Fin 16)
    {sp sp' : Space} {s s' : Shape} {e e' : EltTy} {src : Memref sig .tc sp' s' e'} {κ' : Idealize.ShloMosaic.Kind} {dst : Memref sig κ' sp s e}
    {hsrc : src.view.WordExact} {hdst : dst.view.WordExact} (hd : dst.view.dmaCredit = N16)
    {α : Type} {Q : α → sProp 𝕄} {cont : PUnit → Prog (TpuEff nD τ sig (Elt F) Λ₀ .tc) α} :
    iprop(invs m K c ∗ levAts L lv ∗ XC2 m c k)
      ⊢ iprop((XC3 m c k -∗ wp frame (wpE (defs₀ (F := F)) 𝒱₀ (c : Thread nD τ) none) Set.univ (cont ⟨⟩) Q)
          -∗ wp frame (wpE (defs₀ (F := F)) 𝒱₀ (c : Thread nD τ) none) Set.univ (.op (.waitDma2 (ryS k) src dst hsrc hdst) cont) Q) := by
  unfold XC2 XC3 doneC
  iintro ⟨#HI, #Hlev, ⟨%W, HO⟩, ⟨Hsx, Hpx, Hsy, Hpy, Hat, Hc, Hcl⟩, Htail, Hloc⟩ Hk
  ihave #Hinv := (invs_ry m K c k) $$ HI
  iapply (step_wait m K c (ryS k) N16 (ryPay m c k) 0 (mayWait_none c _) (duties_ry m c k) (amount_ry m c k 0) (payload_ry m c k 0) hd W) $$ [Hc HO Hat]
  · isplitr; · iexact Hinv
    isplitl [Hc]; · iexact Hc
    isplitl [HO]; · iexact HO
    isplitr; · iexact Hlev
    iexact Hat
  iintro ⟨HO, Hat, -, Hpay⟩
  iapply Hk
  isplitl [HO]; · iexists _; iexact HO
  isplitl [Hsx Hpx Hsy Hpy Hat Hpay Hcl]
  · isplitr [Hcl]
    · isplitl [Hsx]; · iexact Hsx
      isplitl [Hpx]; · iexact Hpx
      isplitl [Hsy]; · iexact Hsy
      isplitl [Hpy]; · iexact Hpy
      isplitl [Hat]; · iexact Hat
      iexact Hpay
    iexact Hcl
  isplitl [Htail]; · iexact Htail
  iexact Hloc

/-- The wait for the copy of the device's own block. -/
theorem wait_own (c : Dev nD)
    {sp sp' : Space} {s s' : Shape} {e e' : EltTy} {src : Memref sig .tc sp' s' e'} {κ' : Idealize.ShloMosaic.Kind} {dst : Memref sig κ' sp s e}
    {hsrc : src.view.WordExact} {hdst : dst.view.WordExact} (hd : dst.view.dmaCredit = Nown)
    {α : Type} {Q : α → sProp 𝕄} {cont : PUnit → Prog (TpuEff nD τ sig (Elt F) Λ₀ .tc) α} :
    iprop(invs m K c ∗ levAts L lv ∗ cred (tallyAt (ownCell c) () Nown) ∗ (∃ W, owes (c : Thread nD τ) 0 W) ∗ atPos ER (ownCell c) 0 ∅ 0)
      ⊢ iprop((((∃ W, owes (c : Thread nD τ) 0 W) ∗ atPos ER (ownCell c) 1 ∅ 0 ∗ ownPay m c) -∗ wp frame (wpE (defs₀ (F := F)) 𝒱₀ (c : Thread nD τ) none) Set.univ (cont ⟨⟩) Q)
          -∗ wp frame (wpE (defs₀ (F := F)) 𝒱₀ (c : Thread nD τ) none) Set.univ (.op (.waitDma2 ownS src dst hsrc hdst) cont) Q) := by
  iintro ⟨#HI, #Hlev, Hc, ⟨%W, HO⟩, Hat⟩ Hk
  ihave #Hinv := (invs_own m K c) $$ HI
  iapply (step_wait m K c ownS Nown (ownPay m c) 0 (mayWait_none c _) (duties_own m c) (amount_own m c 0) (payload_own m c 0) hd W) $$ [Hc HO Hat]
  · isplitr; · iexact Hinv
    isplitl [Hc]; · iexact Hc
    isplitl [HO]; · iexact HO
    isplitr; · iexact Hlev
    iexact Hat
  iintro ⟨HO, Hat, -, Hpay⟩
  iapply Hk
  isplitl [HO]; · iexists _; iexact HO
  isplitl [Hat]; · iexact Hat
  iexact Hpay

/-! ## The waits on the cell the sixteen local copies share -/

/-- The wait's rule, the amount named as the sixteen rows' credit. -/
theorem waitLoc_spec {sp sp' : Space} {s s' : Shape} {e e' : EltTy} {src : Memref sig .tc sp' s' e'} {κ' : Idealize.ShloMosaic.Kind} {dst : Memref sig κ' sp s e}
    {hsrc : src.view.WordExact} {hdst : dst.view.WordExact} (hd : dst.view.dmaCredit = N16) (c : Dev nD) (K' : PUnit → sProp 𝕄) :
    wpE (defs₀ (F := F)) 𝒱₀ (c : Thread nD τ) none Set.univ (.waitDma2 locS src dst hsrc hdst) K'
      = waitSpec (c : Thread nD τ) Set.univ (.dma locS) N16 K' := by
  rw [← hd]; rfl

/-- The payloads already taken and those a wait hands over are the payloads of the larger set. -/
theorem locPay_join (c : Dev nD) (S T : Finset (Fin 16)) (h : T ⊆ S) :
    iprop(bigSep T (locPay m c) ∗ bigSep (S \ T) (fun d => (agRd (F := F) m).payload (locCell c) 0 d)) ⊢ bigSep S (locPay m c) := by
  rw [bigSep_congr (fun d _ => payload_loc m c d)]
  exact Entails.of_eq (bigSep_sdiff_split h).symm

theorem locPay_join_all (c : Dev nD) (T : Finset (Fin 16)) :
    iprop(bigSep T (locPay m c) ∗ bigSep ((agRd (F := F) m).duties (locCell c) 0 \ T) (fun d => (agRd (F := F) m).payload (locCell c) 0 d))
      ⊢ bigSep Finset.univ (locPay m c) := by
  rw [duties_loc]
  exact locPay_join m c Finset.univ T (Finset.subset_univ T)

/-- A wait for a sixteen-row share of the shared round, not the last: the payloads of the copies known to have landed
    are taken, the chunk joins the chunks done. -/
theorem phaseC_loc (c : Dev nD) (k : Fin 16) (hk : k.val + 1 < 16)
    {sp sp' : Space} {s s' : Shape} {e e' : EltTy} {src : Memref sig .tc sp' s' e'} {κ' : Idealize.ShloMosaic.Kind} {dst : Memref sig κ' sp s e}
    {hsrc : src.view.WordExact} {hdst : dst.view.WordExact} (hd : dst.view.dmaCredit = N16)
    {α : Type} {Q : α → sProp 𝕄} {cont : PUnit → Prog (TpuEff nD τ sig (Elt F) Λ₀ .tc) α} :
    iprop(invs m K c ∗ levAts L lv ∗ XC3 m c k)
      ⊢ iprop((XC m c (k.val + 1) -∗ wp frame (wpE (defs₀ (F := F)) 𝒱₀ (c : Thread nD τ) none) Set.univ (cont ⟨⟩) Q)
          -∗ wp frame (wpE (defs₀ (F := F)) 𝒱₀ (c : Thread nD τ) none) Set.univ (.op (.waitDma2 locS src dst hsrc hdst) cont) Q) := by
  unfold XC3 XC tailC locSt
  rw [bigSep_belowK_succ k, Nat.succ_mul]
  iintro ⟨#HI, #Hlev, ⟨%W, HO⟩, ⟨Hdone, Hc⟩, ⟨Hfrom, Hbelow⟩, ⟨%T, Hat, HT⟩⟩ Hk
  ihave #Hinv := (invs_loc m K c) $$ HI
  iapply (Rounds.wp_wait 𝒱₀ ER (agRd m) (c : Thread nD τ) none (κ := K (locCell c))
      (waitLoc_spec hd c) (Set.mem_univ _)
      (cr := Finsupp.single () N16) (O := 0) (W := W) {(SemLoc.dma locS, ())} (R := 0) (m := k.val * N16) (T := T)
      (Util.total_single _ _) (image_single_subset _ _ _)) $$ [Hc HO Hat]
  · isplitr; · iexact Hinv
    isplitl [Hc]; · iexact Hc
    isplitl [HO]; · iexact HO
    isplitr; · rw [MayOwe_zero]; iempintro
    iexact Hat
  iintro %S ⟨%hS, HO, Hat, Hpay⟩
  iapply Hk
  isplitl [HO]; · iexists _; iexact HO
  isplitl [Hfrom]; · iexact Hfrom
  isplitl [Hdone Hbelow]
  · isplitl [Hdone]; · iexact Hdone
    iexact Hbelow
  iexists S
  isplitl [Hat]; · iexact Hat
  iapply (locPay_join m c S T hS.1)
  isplitl [HT]; · iexact HT
  iexact Hpay

/-- The sixteenth wait on the shared cell takes the rest of its round: every payload not yet taken. -/
theorem phaseC_loc_last (c : Dev nD) (k : Fin 16) (hk : k.val = 15)
    {sp sp' : Space} {s s' : Shape} {e e' : EltTy} {src : Memref sig .tc sp' s' e'} {κ' : Idealize.ShloMosaic.Kind} {dst : Memref sig κ' sp s e}
    {hsrc : src.view.WordExact} {hdst : dst.view.WordExact} (hd : dst.view.dmaCredit = N16)
    {α : Type} {Q : α → sProp 𝕄} {cont : PUnit → Prog (TpuEff nD τ sig (Elt F) Λ₀ .tc) α} :
    iprop(invs m K c ∗ levAts L lv ∗ XC3 m c k)
      ⊢ iprop((XCend m c -∗ wp frame (wpE (defs₀ (F := F)) 𝒱₀ (c : Thread nD τ) none) Set.univ (cont ⟨⟩) Q)
          -∗ wp frame (wpE (defs₀ (F := F)) 𝒱₀ (c : Thread nD τ) none) Set.univ (.op (.waitDma2 locS src dst hsrc hdst) cont) Q) := by
  have h16 : k.val + 1 = 16 := by omega
  have hD : bigSep Finset.univ (doneC m c) = iprop(doneC m c k ∗ bigSep (belowK k.val) (doneC m c)) := by
    rw [← bigSep_belowK_succ k, h16, belowK_16]
  unfold XC3 XCend tailC locSt
  rw [hD]
  iintro ⟨#HI, #Hlev, ⟨%W, HO⟩, ⟨Hdone, Hc⟩, ⟨-, Hbelow⟩, ⟨%T, Hat, HT⟩⟩ Hk
  ihave #Hinv := (invs_loc m K c) $$ HI
  iapply (Rounds.wp_wait_rest 𝒱₀ ER (agRd m) (c : Thread nD τ) none (κ := K (locCell c))
      (waitLoc_spec hd c) (Set.mem_univ _)
      (cr := Finsupp.single () N16) (O := 0) (W := W) {(SemLoc.dma locS, ())} (R := 0) (m := k.val * N16) (T := T)
      (by rw [expect_loc, hk]; omega) (Util.total_single _ _) (image_single_subset _ _ _)) $$ [Hc HO Hat]
  · isplitr; · iexact Hinv
    isplitl [Hc]; · iexact Hc
    isplitl [HO]; · iexact HO
    isplitr; · rw [MayOwe_zero]; iempintro
    iexact Hat
  iintro ⟨HO, Hat, -, Hpay⟩
  iapply Hk
  isplitl [HO]; · iexists _; iexact HO
  isplitl [Hdone Hbelow]
  · isplitl [Hdone]; · iexact Hdone
    iexact Hbelow
  isplitl [Hat]; · iexact Hat
  iapply (locPay_join_all m c T)
  isplitl [HT]; · iexact HT
  iexact Hpay

/-! ## Closing the cells -/

/-- A cell at its second round with nothing taken closes, its counter at zero: no round from the second on has a duty. -/
theorem close_cell (g : GSem nD τ sig) (κ : ℕ) :
    iprop(cellInv ER (agRd m) κ g ∗ atPos ER g 1 ∅ 0) ⊢ iprop(|={Set.univ}=> semVal g 0) :=
  Rounds.cell_close ER (agRd m) (Set.mem_univ κ) (fun h => h) (duties_later m g)

/-- The device's positions on the four cells of chunk `k`, and those cells' counters. -/
abbrev pos4 (c : Dev nD) (k : Fin 16) : sProp 𝕄 :=
  iprop(atPos ER (sxCell c k) 1 ∅ 0 ∗ atPos ER (rxCell c k) 1 ∅ 0 ∗ atPos ER (syCell c k) 1 ∅ 0 ∗ atPos ER (ryCell c k) 1 ∅ 0)
abbrev val4 (c : Dev nD) (k : Fin 16) : sProp 𝕄 :=
  iprop(semVal (sxCell c k) 0 ∗ semVal (rxCell c k) 0 ∗ semVal (syCell c k) 0 ∗ semVal (ryCell c k) 0)

theorem close_four (c : Dev nD) (k : Fin 16) : iprop(famInv m K c k ∗ pos4 (F := F) c k) ⊢ iprop(|={Set.univ}=> val4 (F := F) c k) := by
  iintro ⟨⟨#I1, #I2, #I3, #I4, -, -⟩, P1, P2, P3, P4⟩
  imod (close_cell m (sxCell c k) _) $$ [P1] with H1
  · isplitr; · iexact I1
    iexact P1
  imod (close_cell m (rxCell c k) _) $$ [P2] with H2
  · isplitr; · iexact I2
    iexact P2
  imod (close_cell m (syCell c k) _) $$ [P3] with H3
  · isplitr; · iexact I3
    iexact P3
  imod (close_cell m (ryCell c k) _) $$ [P4] with H4
  · isplitr; · iexact I4
    iexact P4
  imodintro
  isplitl [H1]; · iexact H1
  isplitl [H2]; · iexact H2
  isplitl [H3]; · iexact H3
  iexact H4

theorem close_fam (c : Dev nD) :
    iprop(invs m K c ∗ bigSep Finset.univ (pos4 (F := F) c)) ⊢ iprop(|={Set.univ}=> bigSep Finset.univ (val4 (F := F) c)) := by
  have h1 : invs m K c ⊢ bigSep Finset.univ (famInv m K c) := by
    unfold invs
    iintro ⟨-, -, -, -, -, H⟩
    iexact H
  refine (sep_mono_left h1).trans ?_
  refine (Entails.of_eq (bigSep_sep' Finset.univ (famInv m K c) (pos4 (F := F) c)).symm).trans ?_
  exact (bigSep_mono fun k _ => close_four m K c k).trans (bigSep_fupd _ _)

/-! ## The families, regrouped -/

/-- The chunks done, with the positions on the arrival cells across x: the positions on the four cells of every chunk,
    and the three families of payloads. -/
theorem doneC_rearr (c : Dev nD) :
    iprop(bigSep Finset.univ (doneC m c) ∗ bigSep Finset.univ (fun k : Fin 16 => atPos ER (rxCell c k) 1 ∅ 0))
      ⊢ iprop(bigSep Finset.univ (pos4 (F := F) c) ∗ bigSep Finset.univ (sxPay m c) ∗ bigSep Finset.univ (syPay m c) ∗ bigSep Finset.univ (ryPay m c)) := by
  refine (Entails.of_eq (bigSep_sep' Finset.univ (doneC m c) (fun k : Fin 16 => atPos ER (rxCell c k) 1 ∅ 0)).symm).trans ?_
  refine (bigSep_mono (Ψ := fun k => iprop(pos4 (F := F) c k ∗ sxPay m c k ∗ syPay m c k ∗ ryPay m c k)) fun k _ => ?_).trans ?_
  · show iprop(doneC m c k ∗ atPos ER (rxCell c k) 1 ∅ 0) ⊢ iprop(pos4 (F := F) c k ∗ sxPay m c k ∗ syPay m c k ∗ ryPay m c k)
    unfold doneC
    iintro ⟨⟨A1, P1, A2, P2, A3, P3⟩, A4⟩
    isplitl [A1 A2 A3 A4]
    · isplitl [A1]; · iexact A1
      isplitl [A4]; · iexact A4
      isplitl [A2]; · iexact A2
      iexact A3
    isplitl [P1]; · iexact P1
    isplitl [P2]; · iexact P2
    iexact P3
  · refine (Entails.of_eq (bigSep_sep' Finset.univ (pos4 (F := F) c) (fun k => iprop(sxPay m c k ∗ syPay m c k ∗ ryPay m c k)))).trans ?_
    refine sep_mono_right ?_
    refine (Entails.of_eq (bigSep_sep' Finset.univ (sxPay m c) (fun k => iprop(syPay m c k ∗ ryPay m c k)))).trans ?_
    exact sep_mono_right (Entails.of_eq (bigSep_sep' Finset.univ (syPay m c) (ryPay m c)))

/-- The local copies' payloads: the rows written, and the left halves of the slots. -/
theorem locPay_split (c : Dev nD) :
    bigSep Finset.univ (locPay m c)
      ⊢ iprop(bigSep Finset.univ (fun k : Fin 16 => (((dstV c k).view.loc (c : Thread nD τ)) ↦[(dstV c k).view.set]{fullShare} gathered m c : sProp 𝕄))
          ∗ bigSep Finset.univ (fun k : Fin 16 => (((rbuf k).view.loc (c : Thread nD τ)) ↦[(rbuf k).view.set]{fullShare.left} rcont m c : sProp 𝕄))) := by
  unfold locPay
  exact Entails.of_eq (bigSep_sep' _ _ _)

/-! ## The buffers, joined -/

/-- The receive buffer: per slot the two half shares join, and the sixteen slots are the buffer. -/
theorem rcv_join (c : Dev nD) :
    iprop(bigSep Finset.univ (fun k : Fin 16 => (((rbuf k).view.loc (c : Thread nD τ)) ↦[(rbuf k).view.set]{fullShare.left} rcont m c : sProp 𝕄))
        ∗ bigSep Finset.univ (syPay m c))
      ⊢ (((c : Thread nD τ).loc cc0_scratch0) ↦{fullShare} rcont m c : sProp 𝕄) := by
  unfold syPay
  refine (Entails.of_eq (bigSep_sep' _ _ _).symm).trans ?_
  refine (bigSep_mono (Ψ := fun k : Fin 16 => (((rbuf k).view.loc (c : Thread nD τ)) ↦[(rbuf k).view.set]{fullShare} rcont m c : sProp 𝕄))
    fun k _ => (pointsTo_share (PosShare.mem_left_op_right fullShare)).2).trans ?_
  refine (Entails.of_eq (rM_pieces (F := F) c fullShare (rcont m c)).symm).trans ?_
  exact Entails.of_eq (congrArg (fun I => (((c : Thread nD τ).loc cc0_scratch0) ↦[I]{fullShare} rcont m c : sProp 𝕄)) (View.set_whole cc0_scratch0))

/-- The staging buffer: the right half share is held by chunks and a rest, the left half whole. -/
theorem stg_join (c : Dev nD) :
    iprop((((xM : Memref sig .tc .vmem S512x512 .f32).view.loc (c : Thread nD τ)) ↦[(xM : Memref sig .tc .vmem S512x512 .f32).view.set]{fullShare.left} xstg m c)
        ∗ bigSep Finset.univ (sxPay m c)
        ∗ (((xM : Memref sig .tc .vmem S512x512 .f32).view.loc (c : Thread nD τ)) ↦[(xM : Memref sig .tc .vmem S512x512 .f32).view.set \ Finset.univ.biUnion (fun k : Fin 16 => (xsrc c k).view.set)]{fullShare.right} xstg m c))
      ⊢ (((c : Thread nD τ).loc cc0_stg0_0) ↦{fullShare} xstg m c : sProp 𝕄) := by
  unfold sxPay
  refine (sep_mono_right (Entails.of_eq (xM_pieces (F := F) c fullShare.right (xstg m c)).symm)).trans ?_
  refine (pointsTo_share (PosShare.mem_left_op_right fullShare)).2.trans ?_
  exact Entails.of_eq (congrArg (fun I => (((c : Thread nD τ).loc cc0_stg0_0) ↦[I]{fullShare} xstg m c : sProp 𝕄)) (View.set_whole cc0_stg0_0))

/-- The result array: the device's own rows, the near chunks, the far chunks. -/
theorem out_join (c : Dev nD) :
    iprop((((ownDst c).view.loc (c : Thread nD τ)) ↦[(ownDst c).view.set]{fullShare} gathered m c)
        ∗ bigSep Finset.univ (fun k : Fin 16 => (((dstV c k).view.loc (c : Thread nD τ)) ↦[(dstV c k).view.set]{fullShare} gathered m c : sProp 𝕄))
        ∗ bigSep Finset.univ (ryPay m c))
      ⊢ (((c : Thread nD τ).loc main_v1) ↦{fullShare} gathered m c : sProp 𝕄) := by
  unfold ryPay
  refine (Entails.of_eq (out_pieces (F := F) c (gathered m c)).symm).trans ?_
  exact Entails.of_eq (congrArg (fun I => (((c : Thread nD τ).loc main_v1) ↦[I]{fullShare} gathered m c : sProp 𝕄)) (View.set_whole main_v1))

/-! ## The end of the body -/

/-- After the last wait: every cell of the device is closed with its counter at zero, and the payloads are the staging
    buffer, the receive buffer and the result array, whole. -/
theorem finish (c : Dev nD) :
    iprop(invs m K c ∗ XCend m c ∗ (bigSep Finset.univ fun k : Fin 16 => atPos ER (rxCell c k) 1 ∅ 0) ∗ atPos ER (ownCell c) 1 ∅ 0 ∗ ownPay m c
        ∗ (((xM : Memref sig .tc .vmem S512x512 .f32).view.loc (c : Thread nD τ)) ↦[(xM : Memref sig .tc .vmem S512x512 .f32).view.set \ Finset.univ.biUnion (fun k : Fin 16 => (xsrc c k).view.set)]{fullShare.right} xstg m c))
      ⊢ |={Set.univ}=> iprop((∃ W, owes (c : Thread nD τ) 0 W) ∗ Φ₁ m c ∗ (((c : Thread nD τ).loc cc0_stg0_0) ↦{fullShare} xstg m c)) := by
  unfold XCend Φ₁ ownPay
  iintro ⟨#HI, ⟨HO, Hdone, Hatl, Hlp⟩, Hrx, Hato, ⟨Hod, Hxl⟩, Hxr⟩
  ihave Hd := (doneC_rearr m c) $$ [Hdone Hrx]
  · isplitl [Hdone]; · iexact Hdone
    iexact Hrx
  icases Hd with ⟨Hp4, Hsx, Hsy, Hry⟩
  ihave Hl := (locPay_split m c) $$ Hlp
  icases Hl with ⟨Hnear, Hrl⟩
  ihave #Iown := (invs_own m K c) $$ HI
  ihave #Iloc := (invs_loc m K c) $$ HI
  imod (close_cell m (ownCell c) _) $$ [Hato] with Hvo
  · isplitr; · iexact Iown
    iexact Hato
  imod (close_cell m (locCell c) _) $$ [Hatl] with Hvl
  · isplitr; · iexact Iloc
    iexact Hatl
  imod (close_fam m K c) $$ [Hp4] with Hv4
  · isplitr; · iexact HI
    iexact Hp4
  imodintro
  isplitl [HO]; · iexact HO
  isplitr [Hxl Hsx Hxr]
  · isplitl [Hrl Hsy]
    · iapply (rcv_join m c)
      isplitl [Hrl]; · iexact Hrl
      iexact Hsy
    isplitl [Hod Hnear Hry]
    · iapply (out_join m c)
      isplitl [Hod]; · iexact Hod
      isplitl [Hnear]; · iexact Hnear
      iexact Hry
    isplitl [Hvo]; · iexact Hvo
    isplitl [Hvl]; · iexact Hvl
    iexact Hv4
  · iapply (stg_join m c)
    isplitl [Hxl]; · iexact Hxl
    isplitl [Hsx]; · iexact Hsx
    iexact Hxr

end Cert.KernelIdeal.AG

end
-- ==== Proof.KernelIdealBody.lean ====
/-
  One device's whole body.

  The device splits what it holds — its staged block into a left half for the copy of the whole block and right
  halves of the sixteen chunks that cross x; its result array into its own rows, the sixteen near chunks it fills
  itself and the sixteen far chunks its y-neighbour fills; its receive buffer into sixteen slots —, starts the copy of
  its own block, hands the receive buffer to its x-neighbour and the far chunks to its y-neighbour with its two barrier
  signals, and after the barrier wait runs the three phases chunk by chunk in the program's own order. At the end every
  own cell is closed at zero and the pieces are put back together: the staging buffer as found, the receive buffer
  full, the result array gathered.
-/
import proofs.«900340_g7700000000000341_dist_ag_v7x_xyz2x2x4_x_m512_n512_f32_1_alg».proof.Proof.KernelIdealHandover
import proofs.«900340_g7700000000000341_dist_ag_v7x_xyz2x2x4_x_m512_n512_f32_1_alg».proof.Proof.KernelIdealClosing
import proofs.«900340_g7700000000000341_dist_ag_v7x_xyz2x2x4_x_m512_n512_f32_1_alg».proof.Proof.Gen.KernelIdeal.Skeleton
import proofs.«900340_g7700000000000341_dist_ag_v7x_xyz2x2x4_x_m512_n512_f32_1_alg».proof.Proof.Gen.KernelIdeal.Points

set_option maxRecDepth 65536

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (K : GSem nD τ sig → ℕ)

local notation "𝕄" => MT nD τ sig Unit (Elt F) ℕ UU ℕ

/-! ## The single cells' invariants and round-0 facts -/

theorem invs_bar (c : Dev nD) : invs m K c ⊢ cellInv ER (agRd m) (K (barCell c)) (barCell c) := by
  unfold invs; iintro ⟨H, -⟩; iexact H
theorem invs_barX (c : Dev nD) : invs m K c ⊢ cellInv ER (agRd m) (K (barCell (xp c))) (barCell (xp c)) := by
  unfold invs; iintro ⟨-, H, -⟩; iexact H
theorem invs_barY (c : Dev nD) : invs m K c ⊢ cellInv ER (agRd m) (K (barCell (yp c))) (barCell (yp c)) := by
  unfold invs; iintro ⟨-, -, H, -⟩; iexact H
omit [FloatOps F] in
theorem reach_barX (c : Dev nD) : reach0 (F := F) c ⊢ reached ER (barCell (xp c)) 0 := by
  unfold reach0; iintro ⟨H, -⟩; iexact H
omit [FloatOps F] in
theorem reach_barY (c : Dev nD) : reach0 (F := F) c ⊢ reached ER (barCell (yp c)) 0 := by
  unfold reach0; iintro ⟨-, H, -⟩; iexact H
omit [FloatOps F] in
theorem reach_own (c : Dev nD) : reach0 (F := F) c ⊢ reached ER (ownCell c) 0 := by
  unfold reach0; iintro ⟨-, -, H, -⟩; iexact H

/-! ## The waits at the transfers' own shapes (a sixteen-row transfer credits `N16`, a whole block `Nown`) -/

omit [FloatOps F] in
/-- What a transfer credits depends on the shape and element type of its destination only, not on the buffer or its memory space. -/
theorem credit_indep {sp sp' : Space} {s : Shape} {e : EltTy} (v : View sig .tc sp s e) (v' : View sig .tc sp' s e) :
    v.dmaCredit = v'.dmaCredit := rfl

theorem phaseB_wait' (c : Dev nD) (k : Fin 16) {sp sp' : Space} {s' : Shape} {e' : EltTy} {src : Memref sig .tc sp' s' e'} {dst : Memref sig .tc sp S16x512 .f32}
    {hsrc : src.view.WordExact} {hdst : dst.view.WordExact}
    {α : Type} {Q : α → sProp 𝕄} {cont : PUnit → Prog (TpuEff nD τ sig (Elt F) Λ₀ .tc) α} (a : ℕ) (ha : a = k.val) :
    iprop(invs m K c ∗ levAts L lv ∗ XB (F := F) c a)
      ⊢ iprop((XB1 m c k -∗ wp frame (wpE (defs₀ (F := F)) 𝒱₀ (c : Thread nD τ) none) Set.univ (cont ⟨⟩) Q)
          -∗ wp frame (wpE (defs₀ (F := F)) 𝒱₀ (c : Thread nD τ) none) Set.univ (.op (.waitDma2 (rxS k) src dst hsrc hdst) cont) Q) :=
  by subst ha; exact phaseB_wait m K c k (credit_indep _ _)

theorem phaseC_sx' (c : Dev nD) (k : Fin 16) {sp sp' : Space} {s' : Shape} {e' : EltTy} {src : Memref sig .tc sp' s' e'} {dst : Memref sig .tc sp S16x512 .f32}
    {hsrc : src.view.WordExact} {hdst : dst.view.WordExact}
    {α : Type} {Q : α → sProp 𝕄} {cont : PUnit → Prog (TpuEff nD τ sig (Elt F) Λ₀ .tc) α} (a : ℕ) (ha : a = k.val) :
    iprop(invs m K c ∗ levAts L lv ∗ XC m c a)
      ⊢ iprop((XC1 m c k -∗ wp frame (wpE (defs₀ (F := F)) 𝒱₀ (c : Thread nD τ) none) Set.univ (cont ⟨⟩) Q)
          -∗ wp frame (wpE (defs₀ (F := F)) 𝒱₀ (c : Thread nD τ) none) Set.univ (.op (.waitDma2 (sxS k) src dst hsrc hdst) cont) Q) :=
  by subst ha; exact phaseC_sx m K c k (credit_indep _ _)

theorem phaseC_sy' (c : Dev nD) (k : Fin 16) {sp sp' : Space} {s' : Shape} {e' : EltTy} {src : Memref sig .tc sp' s' e'} {dst : Memref sig .tc sp S16x512 .f32}
    {hsrc : src.view.WordExact} {hdst : dst.view.WordExact}
    {α : Type} {Q : α → sProp 𝕄} {cont : PUnit → Prog (TpuEff nD τ sig (Elt F) Λ₀ .tc) α} :
    iprop(invs m K c ∗ levAts L lv ∗ XC1 m c k)
      ⊢ iprop((XC2 m c k -∗ wp frame (wpE (defs₀ (F := F)) 𝒱₀ (c : Thread nD τ) none) Set.univ (cont ⟨⟩) Q)
          -∗ wp frame (wpE (defs₀ (F := F)) 𝒱₀ (c : Thread nD τ) none) Set.univ (.op (.waitDma2 (syS k) src dst hsrc hdst) cont) Q) :=
  phaseC_sy m K c k (credit_indep _ _)

theorem phaseC_ry' (c : Dev nD) (k : Fin 16) {sp sp' : Space} {s' : Shape} {e' : EltTy} {src : Memref sig .tc sp' s' e'} {dst : Memref sig .tc sp S16x512 .f32}
    {hsrc : src.view.WordExact} {hdst : dst.view.WordExact}
    {α : Type} {Q : α → sProp 𝕄} {cont : PUnit → Prog (TpuEff nD τ sig (Elt F) Λ₀ .tc) α} :
    iprop(invs m K c ∗ levAts L lv ∗ XC2 m c k)
      ⊢ iprop((XC3 m c k -∗ wp frame (wpE (defs₀ (F := F)) 𝒱₀ (c : Thread nD τ) none) Set.univ (cont ⟨⟩) Q)
          -∗ wp frame (wpE (defs₀ (F := F)) 𝒱₀ (c : Thread nD τ) none) Set.univ (.op (.waitDma2 (ryS k) src dst hsrc hdst) cont) Q) :=
  phaseC_ry m K c k (credit_indep _ _)

theorem phaseC_loc' (c : Dev nD) (k : Fin 16) {sp sp' : Space} {s' : Shape} {e' : EltTy} {src : Memref sig .tc sp' s' e'} {dst : Memref sig .tc sp S16x512 .f32}
    {hsrc : src.view.WordExact} {hdst : dst.view.WordExact}
    {α : Type} {Q : α → sProp 𝕄} {cont : PUnit → Prog (TpuEff nD τ sig (Elt F) Λ₀ .tc) α} (hk : k.val + 1 < 16) (b : ℕ) (hb : b = k.val + 1) :
    iprop(invs m K c ∗ levAts L lv ∗ XC3 m c k)
      ⊢ iprop((XC m c b -∗ wp frame (wpE (defs₀ (F := F)) 𝒱₀ (c : Thread nD τ) none) Set.univ (cont ⟨⟩) Q)
          -∗ wp frame (wpE (defs₀ (F := F)) 𝒱₀ (c : Thread nD τ) none) Set.univ (.op (.waitDma2 locS src dst hsrc hdst) cont) Q) :=
  by subst hb; exact phaseC_loc m K c k hk (credit_indep _ _)

theorem phaseC_loc_last' (c : Dev nD) (k : Fin 16) {sp sp' : Space} {s' : Shape} {e' : EltTy} {src : Memref sig .tc sp' s' e'} {dst : Memref sig .tc sp S16x512 .f32}
    {hsrc : src.view.WordExact} {hdst : dst.view.WordExact}
    {α : Type} {Q : α → sProp 𝕄} {cont : PUnit → Prog (TpuEff nD τ sig (Elt F) Λ₀ .tc) α} (hk : k.val = 15) :
    iprop(invs m K c ∗ levAts L lv ∗ XC3 m c k)
      ⊢ iprop((XCend m c -∗ wp frame (wpE (defs₀ (F := F)) 𝒱₀ (c : Thread nD τ) none) Set.univ (cont ⟨⟩) Q)
          -∗ wp frame (wpE (defs₀ (F := F)) 𝒱₀ (c : Thread nD τ) none) Set.univ (.op (.waitDma2 locS src dst hsrc hdst) cont) Q) :=
  phaseC_loc_last m K c k hk (credit_indep _ _)

theorem wait_own' (c : Dev nD) {sp sp' : Space} {s' : Shape} {e' : EltTy} {src : Memref sig .tc sp' s' e'} {dst : Memref sig .tc sp S512x512 .f32}
    {hsrc : src.view.WordExact} {hdst : dst.view.WordExact}
    {α : Type} {Q : α → sProp 𝕄} {cont : PUnit → Prog (TpuEff nD τ sig (Elt F) Λ₀ .tc) α} :
    iprop(invs m K c ∗ levAts L lv ∗ cred (tallyAt (ownCell c) () Nown) ∗ (∃ W, owes (c : Thread nD τ) 0 W) ∗ atPos ER (ownCell c) 0 ∅ 0)
      ⊢ iprop((((∃ W, owes (c : Thread nD τ) 0 W) ∗ atPos ER (ownCell c) 1 ∅ 0 ∗ ownPay m c)
            -∗ wp frame (wpE (defs₀ (F := F)) 𝒱₀ (c : Thread nD τ) none) Set.univ (cont ⟨⟩) Q)
          -∗ wp frame (wpE (defs₀ (F := F)) 𝒱₀ (c : Thread nD τ) none) Set.univ (.op (.waitDma2 ownS src dst hsrc hdst) cont) Q) :=
  wait_own m K c (credit_indep _ _)

/-! ## What the barrier wait brings, with the facts kept folded -/

omit [FloatOps F] in
theorem barPayX_split (c : Dev nD) :
    barPayX (F := F) c ⊢ iprop((bigSep Finset.univ fun k : Fin 16 => iprop(∃ f : Buf (Elt F) ((rbuf k).view.loc ((xp c : Dev nD) : Thread nD τ)),
        (((rbuf k).view.loc ((xp c : Dev nD) : Thread nD τ)) ↦[(rbuf k).view.set]{fullShare} f : sProp 𝕄))) ∗ RX (F := F) c) := by
  unfold barPayX RX; exact BI.Entails.refl _
omit [FloatOps F] in
theorem barPayY_split (c : Dev nD) : barPayY (F := F) c ⊢ iprop(bigSep Finset.univ (farP (F := F) c) ∗ RY (F := F) c) := by
  unfold barPayY RY farP; exact BI.Entails.refl _

/-! ## The chunk steps with the chunk counts as literals -/

theorem phaseA_step' (c n : Dev nD) (hn : n = xp c) (k : Fin 16) (a b : ℕ) (ha : a = k.val) (hb : b = k.val + 1)
    {hsc : ((rbuf k : Memref sig .tc .vmem S16x512 .f32) : Memref sig (Dev.tc n : Thread nD τ).2.kind .vmem S16x512 .f32).view.ref.isScScratch = false}
    {hsrc : (xsrc c k).view.WordExact} {hdst : (rbuf k).view.WordExact}
    {hsem : DmaTarget.Typed .vmem (.dma (rxS k)) (.remote (Dev.tc n : Thread nD τ) (rbuf k) (.dma (sxS k)) hsc)}
    {α : Type} {Q : α → sProp 𝕄} {cont : PUnit → Prog (TpuEff nD τ sig (Elt F) Λ₀ .tc) α} (W : Waits sig Unit) :
    iprop(invs m K c ∗ reach0 (F := F) c ∗ RX (F := F) c ∗ XA m c a W)
      ⊢ iprop((XA m c b W -∗ wp frame (wpE (defs₀ (F := F)) 𝒱₀ (c : Thread nD τ) none) Set.univ (cont ⟨⟩) Q)
          -∗ wp frame (wpE (defs₀ (F := F)) 𝒱₀ (c : Thread nD τ) none) Set.univ
              (.op (.enqueueDma (xsrc c k) (.remote (Dev.tc n : Thread nD τ) (rbuf k) (.dma (sxS k)) hsc) (.dma (rxS k)) hsrc hdst hsem) cont) Q) := by
  subst ha; subst hb; exact phaseA_step m K c n hn k W

theorem phaseB_loc' (c : Dev nD) (k : Fin 16) (b : ℕ) (hb : b = k.val + 1)
    {hsrc : (rbuf k).view.WordExact} {hdst : (dstV c k).view.WordExact}
    {hsem : DmaTarget.Typed (nD := nD) (τ := τ) (p := .tc) .vmem (.dma locS) (.here (dstV c k))}
    {α : Type} {Q : α → sProp 𝕄} {cont : PUnit → Prog (TpuEff nD τ sig (Elt F) Λ₀ .tc) α} :
    iprop(invs m K c ∗ reach0 (F := F) c ∗ XB2 m c k)
      ⊢ iprop((XB (F := F) c b -∗ wp frame (wpE (defs₀ (F := F)) 𝒱₀ (c : Thread nD τ) none) Set.univ (cont ⟨⟩) Q)
          -∗ wp frame (wpE (defs₀ (F := F)) 𝒱₀ (c : Thread nD τ) none) Set.univ
              (.op (.enqueueDma (rbuf k) (.here (dstV c k)) (.dma locS) hsrc hdst hsem) cont) Q) := by
  subst hb; exact phaseB_loc m K c k

/-! ## The body obligation's two ends -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

def bodyPre (c : Dev nD) : sProp 𝕄 :=
  iprop((ghost m K c ∗ cred (tallyAt (barCell c) () 2)
      ∗ (bigSep Finset.univ fun k : Fin 16 => cred (tallyAt (rxCell c k) () N16))
      ∗ (bigSep Finset.univ fun k : Fin 16 => cred (tallyAt (ryCell c k) () N16))
      ∗ levAts L lv
      ∗ (((c : Thread nD τ).loc main_v1) ↦{fullShare} m ((c : Thread nD τ).loc main_v1))
      ∗ ∃ f : Buf (Elt F) ((c : Thread nD τ).loc cc0_scratch0), ((c : Thread nD τ).loc cc0_scratch0) ↦{fullShare} f)
    ∗ (dats m 0 c).owesAt () t0_0.castSucc
    ∗ (∃ d, stg c cc0_stg0_0 ((dats m 0 c).before (0 : Fin 1) t0_0 d)))

def bodyPost (c : Dev nD) : sProp 𝕄 :=
  iprop(Φ₁ m c ∗ (dats m 0 c).owesAt () t0_0.succ ∗ stg c cc0_stg0_0 (xstg m c))

/-! ## The steps, as the program meets them -/

set_option hygiene false in
local macro "next_part " e:ident s:ident : tactic =>
  `(tactic| (simp only [$e:ident]; unfold $s:ident; simp only [Prog.lift, Prog.bind_op, Prog.bind_ret, Prog.pure_eq_ret]))
set_option hygiene false in
local macro "xr_step " k:num ", " d:ident : tactic => do
  let k1 := Lean.Syntax.mkNumLit (toString (k.getNat + 1))
  `(tactic| (iapply (phaseA_step' m K c _ ($d c) ($k : Fin 16) $k $k1 rfl rfl _) $$ [HA] <;> first | (isplitr; (· iexact HI); isplitr; (· iexact HR); isplitr; (· iexact HRX); iexact HA) | iintro HA))
set_option hygiene false in
local macro "rx_wait " k:num : tactic =>
  `(tactic| (iapply (phaseB_wait' m K c ($k : Fin 16) $k rfl) $$ [HB] <;> first | (isplitr; (· iexact HI); isplitr; (· iexact Hlev); iexact HB) | iintro HB))
set_option hygiene false in
local macro "f_step " k:num ", " d:ident : tactic =>
  `(tactic| (iapply (phaseB_fwd m K c _ ($d c) ($k : Fin 16)) $$ [HB] <;> first | (isplitr; (· iexact HI); isplitr; (· iexact HR); isplitr; (· iexact HRY); iexact HB) | iintro HB))
set_option hygiene false in
local macro "l_step " k:num : tactic => do
  let k1 := Lean.Syntax.mkNumLit (toString (k.getNat + 1))
  `(tactic| (iapply (phaseB_loc' m K c ($k : Fin 16) $k1 rfl) $$ [HB] <;> first | (isplitr; (· iexact HI); isplitr; (· iexact HR); iexact HB) | iintro HB))
set_option hygiene false in
local macro "sx_wait " k:num : tactic =>
  `(tactic| (iapply (phaseC_sx' m K c ($k : Fin 16) $k rfl) $$ [HC] <;> first | (isplitr; (· iexact HI); isplitr; (· iexact Hlev); iexact HC) | iintro HC))
set_option hygiene false in
local macro "sy_wait " k:num : tactic =>
  `(tactic| (iapply (phaseC_sy' m K c ($k : Fin 16)) $$ [HC] <;> first | (isplitr; (· iexact HI); isplitr; (· iexact Hlev); iexact HC) | iintro HC))
set_option hygiene false in
local macro "ry_wait " k:num : tactic =>
  `(tactic| (iapply (phaseC_ry' m K c ($k : Fin 16)) $$ [HC] <;> first | (isplitr; (· iexact HI); isplitr; (· iexact Hlev); iexact HC) | iintro HC))
set_option hygiene false in
local macro "loc_wait " k:num : tactic => do
  let k1 := Lean.Syntax.mkNumLit (toString (k.getNat + 1))
  `(tactic| (iapply (phaseC_loc' m K c ($k : Fin 16) (by decide) $k1 rfl) $$ [HC] <;> first | (isplitr; (· iexact HI); isplitr; (· iexact Hlev); iexact HC) | iintro HC))
set_option hygiene false in
local macro "loc_last " k:num : tactic =>
  `(tactic| (iapply (phaseC_loc_last' m K c ($k : Fin 16) (by decide)) $$ [HC] <;> first | (isplitr; (· iexact HI); isplitr; (· iexact Hlev); iexact HC) | iintro HC))

set_option maxHeartbeats 8000000 in
/-- The body, statement by statement, from what the device holds at the start (`bodyPre`) to what it gives back. -/
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole main_v1) (Memref.isWhole_whole _)
            (Memref.whole cc0_scratch0) (Memref.isWhole_whole _) cc0_scratch1 cc0_scratch2 cc0_scratch3 cc0_scratch4 cc0_scratch5 cc0_scratch6) Kt := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, wp_deviceId]
  unfold bodyPre ghost positions payToks
  iintro ⟨⟨⟨⟨#HI, #HR, ⟨HatB, HatO, HatL, HatS⟩, ⟨HtBX, HtBY, HtO, HtK⟩⟩, HcB, HcRX, HcRY, #Hlev, Hout, ⟨%f0, Hr⟩⟩, Ho, ⟨%d0, %g0, %hg0, Hx⟩⟩, Hk⟩
  have hx : g0 = xstg m c := by rw [hg0]; unfold Dat.before; rw [if_pos (fetch0_0 t0_0)]; rfl
  subst hx
  unfold Dat.owesAt Pipeline.owesWithin
  icases Ho with ⟨%W, %hW, HO⟩
  rw [show (dats m 0 c).owed t0_0.castSucc = O₀ c from rfl]
  unfold O₀
  -- the staged block: a left half whole, right halves of the sixteen chunks, the right half of the rest
  ihave Hx := (Entails.of_eq (x_whole (F := F) c fullShare (xstg m c)).symm) $$ Hx
  ihave Hx := (pointsTo_share (ℓ := (xM : Memref sig .tc .vmem S512x512 .f32).view.loc (c : Thread nD τ)) (I := (xM : Memref sig .tc .vmem S512x512 .f32).view.set) (f := xstg m c) (PosShare.mem_left_op_right fullShare)).1 $$ Hx
  icases Hx with ⟨HxL, HxR⟩
  ihave HxR := (Entails.of_eq (xM_pieces (F := F) c fullShare.right (xstg m c))) $$ HxR
  icases HxR with ⟨HxP, HxRest⟩
  -- the result array: own rows, near chunks, far chunks
  ihave Hout := (Entails.of_eq (o_whole (F := F) c fullShare (m ((c : Thread nD τ).loc main_v1))).symm) $$ Hout
  ihave Hout := (Entails.of_eq (out_pieces (F := F) c (m ((c : Thread nD τ).loc main_v1)))) $$ Hout
  icases Hout with ⟨HoOwn, HoNear, HoFar⟩
  -- the receive buffer: sixteen slots
  ihave Hr := (Entails.of_eq (r_whole (F := F) c fullShare f0).symm) $$ Hr
  ihave Hr := (Entails.of_eq (rM_pieces (F := F) c fullShare f0)) $$ Hr
  -- the tokens and the positions, family by family
  ihave HtK := (Entails.of_eq (merge5 Finset.univ _ _ _ _ _)) $$ HtK
  icases HtK with ⟨HtL, HtSX, HtSY, HtRXP, HtRYP⟩
  ihave HatS := (Entails.of_eq (merge4 Finset.univ _ _ _ _)) $$ HatS
  icases HatS with ⟨HatSX, HatRX, HatSY, HatRY⟩
  -- the copy of the own block
  iapply (step_own m K c (m ((c : Thread nD τ).loc main_v1))) $$ [HxL HoOwn HtO]
  · isplitr; · iapply (invs_own m K c); iexact HI
    isplitl [HxL]; · iexact HxL
    isplitl [HoOwn]; · iexact HoOwn
    isplitl [HtO]; · iexact HtO
    iapply (reach_own (F := F) c); iexact HR
  iintro HcO
  simp only [dev1_eq c, dev2_eq c]
  -- the two barrier signals
  iapply (step_sigX m K c _ rfl (by decide) (O₁ c + tallyAt (barCell (yp c)) () 1) W) $$ [HO HtBX Hr]
  · isplitr; · iapply (invs_barX m K c); iexact HI
    isplitl [HO]; · iexact HO
    isplitl [HtBX]; · iexact HtBX
    isplitl [Hr]
    · iapply (barPayX_intro (F := F) c f0)
      isplitl [Hr]; · iexact Hr
      iexact HR
    iapply (reach_barX (F := F) c); iexact HR
  iintro HO
  iapply (step_sigY m K c _ rfl (by decide) (O₁ c) W) $$ [HO HtBY HoFar]
  · isplitr; · iapply (invs_barY m K c); iexact HI
    isplitl [HO]; · iexact HO
    isplitl [HtBY]; · iexact HtBY
    isplitl [HoFar]
    · iapply (barPayY_intro (F := F) c (m ((c : Thread nD τ).loc main_v1)))
      isplitl [HoFar]; · iexact HoFar
      iexact HR
    iapply (reach_barY (F := F) c); iexact HR
  iintro HO
  -- the barrier wait: both neighbours are inside the kernel, and what they handed over
  iapply (step_waitBar m K c (by decide) W) $$ [HcB HO HatB]
  · isplitr; · iapply (invs_bar m K c); iexact HI
    isplitl [HcB]; · iexact HcB
    isplitl [HO]; · iexact HO
    isplitr; · iexact Hlev
    iexact HatB
  iintro ⟨HO, HatB, HX, HY⟩
  ihave HX := (barPayX_split (F := F) c) $$ HX
  icases HX with ⟨Hslots, #HRX⟩
  ihave HY := (barPayY_split (F := F) c) $$ HY
  icases HY with ⟨Hfar, #HRY⟩
  -- phase A
  ihave HA := (XA_intro m c (insert (SemLoc.reg barS, ()) W)) $$ [HO HtSX HtRXP HxP Hslots]
  · isplitl [HO]; · iexact HO
    isplitl [HtSX]; · iexact HtSX
    isplitl [HtRXP]; · iexact HtRXP
    isplitl [HxP]; · iexact HxP
    iexact Hslots
  next_part k0_part2_eq_skeleton k0_part2_skel
  xr_step 0, dev3_eq
  xr_step 1, dev4_eq
  next_part k0_part3_eq_skeleton k0_part3_skel
  xr_step 2, dev5_eq
  xr_step 3, dev6_eq
  next_part k0_part4_eq_skeleton k0_part4_skel
  xr_step 4, dev7_eq
  xr_step 5, dev8_eq
  next_part k0_part5_eq_skeleton k0_part5_skel
  xr_step 6, dev9_eq
  xr_step 7, dev10_eq
  next_part k0_part6_eq_skeleton k0_part6_skel
  xr_step 8, dev11_eq
  xr_step 9, dev12_eq
  next_part k0_part7_eq_skeleton k0_part7_skel
  xr_step 10, dev13_eq
  xr_step 11, dev14_eq
  xr_step 12, dev15_eq
  next_part k0_part8_eq_skeleton k0_part8_skel
  xr_step 13, dev16_eq
  xr_step 14, dev17_eq
  next_part k0_part9_eq_skeleton k0_part9_skel
  xr_step 15, dev18_eq
  -- phase B
  ihave HA := (XA_end m c _) $$ HA
  icases HA with ⟨HO, HcSX⟩
  ihave Hnear := (near_intro (F := F) c (m ((c : Thread nD τ).loc main_v1))) $$ HoNear
  ihave HB := (XB_intro (F := F) c (insert (SemLoc.reg barS, ()) W)) $$ [HO HatRX HcRX HtSY HtRYP HtL Hfar Hnear]
  · isplitl [HO]; · iexact HO
    isplitl [HatRX]; · iexact HatRX
    isplitl [HcRX]; · iexact HcRX
    isplitl [HtSY]; · iexact HtSY
    isplitl [HtRYP]; · iexact HtRYP
    isplitl [HtL]; · iexact HtL
    isplitl [Hfar]; · iexact Hfar
    iexact Hnear
  rx_wait 0
  next_part k0_part10_eq_skeleton k0_part10_skel
  f_step 0, dev19_eq
  l_step 0
  rx_wait 1
  next_part k0_part11_eq_skeleton k0_part11_skel
  f_step 1, dev20_eq
  l_step 1
  rx_wait 2
  next_part k0_part12_eq_skeleton k0_part12_skel
  f_step 2, dev21_eq
  l_step 2
  rx_wait 3
  next_part k0_part13_eq_skeleton k0_part13_skel
  f_step 3, dev22_eq
  l_step 3
  rx_wait 4
  next_part k0_part14_eq_skeleton k0_part14_skel
  f_step 4, dev23_eq
  l_step 4
  rx_wait 5
  next_part k0_part15_eq_skeleton k0_part15_skel
  f_step 5, dev24_eq
  l_step 5
  next_part k0_part16_eq_skeleton k0_part16_skel
  rx_wait 6
  f_step 6, dev25_eq
  l_step 6
  next_part k0_part17_eq_skeleton k0_part17_skel
  rx_wait 7
  f_step 7, dev26_eq
  l_step 7
  next_part k0_part18_eq_skeleton k0_part18_skel
  rx_wait 8
  f_step 8, dev27_eq
  l_step 8
  next_part k0_part19_eq_skeleton k0_part19_skel
  rx_wait 9
  f_step 9, dev28_eq
  l_step 9
  next_part k0_part20_eq_skeleton k0_part20_skel
  rx_wait 10
  f_step 10, dev29_eq
  l_step 10
  next_part k0_part21_eq_skeleton k0_part21_skel
  rx_wait 11
  f_step 11, dev30_eq
  l_step 11
  next_part k0_part22_eq_skeleton k0_part22_skel
  rx_wait 12
  f_step 12, dev31_eq
  l_step 12
  next_part k0_part23_eq_skeleton k0_part23_skel
  rx_wait 13
  f_step 13, dev32_eq
  next_part k0_part24_eq_skeleton k0_part24_skel
  l_step 13
  rx_wait 14
  f_step 14, dev33_eq
  next_part k0_part25_eq_skeleton k0_part25_skel
  l_step 14
  rx_wait 15
  next_part k0_part26_eq_skeleton k0_part26_skel
  f_step 15, dev34_eq
  l_step 15
  -- phase C
  ihave HB := (XB_end (F := F) c) $$ HB
  icases HB with ⟨HOw, HdB⟩
  unfold doneB
  ihave HdB := (Entails.of_eq (merge3 Finset.univ _ _ _)) $$ HdB
  icases HdB with ⟨HatRX1, HcSY, HcL⟩
  unfold doneA
  ihave HC := (XC_intro m c) $$ [HOw HatSX HcSX HatSY HcSY HatRY HcRY HcL HatL]
  · isplitl [HOw]; · iexact HOw
    isplitl [HatSX]; · iexact HatSX
    isplitl [HcSX]; · iexact HcSX
    isplitl [HatSY]; · iexact HatSY
    isplitl [HcSY]; · iexact HcSY
    isplitl [HatRY]; · iexact HatRY
    isplitl [HcRY]; · iexact HcRY
    isplitl [HcL]; · iexact HcL
    iexact HatL
  sx_wait 0
  sy_wait 0
  ry_wait 0
  next_part k0_part27_eq_skeleton k0_part27_skel
  loc_wait 0
  sx_wait 1
  sy_wait 1
  ry_wait 1
  next_part k0_part28_eq_skeleton k0_part28_skel
  loc_wait 1
  sx_wait 2
  sy_wait 2
  ry_wait 2
  loc_wait 2
  next_part k0_part29_eq_skeleton k0_part29_skel
  sx_wait 3
  sy_wait 3
  ry_wait 3
  loc_wait 3
  next_part k0_part30_eq_skeleton k0_part30_skel
  sx_wait 4
  sy_wait 4
  ry_wait 4
  loc_wait 4
  next_part k0_part31_eq_skeleton k0_part31_skel
  sx_wait 5
  sy_wait 5
  ry_wait 5
  loc_wait 5
  sx_wait 6
  next_part k0_part32_eq_skeleton k0_part32_skel
  sy_wait 6
  ry_wait 6
  loc_wait 6
  sx_wait 7
  next_part k0_part33_eq_skeleton k0_part33_skel
  sy_wait 7
  ry_wait 7
  loc_wait 7
  sx_wait 8
  next_part k0_part34_eq_skeleton k0_part34_skel
  sy_wait 8
  ry_wait 8
  loc_wait 8
  sx_wait 9
  sy_wait 9
  next_part k0_part35_eq_skeleton k0_part35_skel
  ry_wait 9
  loc_wait 9
  sx_wait 10
  sy_wait 10
  next_part k0_part36_eq_skeleton k0_part36_skel
  ry_wait 10
  loc_wait 10
  sx_wait 11
  sy_wait 11
  next_part k0_part37_eq_skeleton k0_part37_skel
  ry_wait 11
  loc_wait 11
  sx_wait 12
  sy_wait 12
  next_part k0_part38_eq_skeleton k0_part38_skel
  ry_wait 12
  loc_wait 12
  sx_wait 13
  sy_wait 13
  next_part k0_part39_eq_skeleton k0_part39_skel
  ry_wait 13
  loc_wait 13
  sx_wait 14
  sy_wait 14
  next_part k0_part40_eq_skeleton k0_part40_skel
  ry_wait 14
  loc_wait 14
  sx_wait 15
  sy_wait 15
  ry_wait 15
  loc_last 15
  -- the wait for the copy of the own block
  unfold XCend
  icases HC with ⟨HOw, HdC, HatL1, HlP⟩
  iapply (wait_own' m K c) $$ [HcO HOw HatO]
  · isplitr; · iexact HI
    isplitr; · iexact Hlev
    isplitl [HcO]; · iexact HcO
    isplitl [HOw]; · iexact HOw
    iexact HatO
  iintro ⟨HOw, HatO1, HownP⟩
  -- every own cell closed at zero, the buffers put back together
  rw [wp_ret]
  imod (finish m K c) $$ [HOw HdC HatL1 HlP HatRX1 HatO1 HownP HxRest] with ⟨HOw, HΦ, Hx⟩
  · isplitr; · iexact HI
    isplitl [HOw HdC HatL1 HlP]
    · unfold XCend
      isplitl [HOw]; · iexact HOw
      isplitl [HdC]; · iexact HdC
      isplitl [HatL1]; · iexact HatL1
      iexact HlP
    isplitl [HatRX1]; · iexact HatRX1
    isplitl [HatO1]; · iexact HatO1
    isplitl [HownP]; · iexact HownP
    iexact HxRest
  imodintro
  iapply Hk
  unfold bodyPost Dat.owesAt Pipeline.owesWithin
  rw [show (dats m 0 c).owed t0_0.succ = 0 from rfl]
  isplitl [HΦ]; · iexact HΦ
  isplitl [HOw]
  · icases HOw with ⟨%W', HOw⟩
    iexists W'
    isplitr; · ipureintro; exact fun _ _ => Or.inl trivial
    iexact HOw
  iexists _
  isplitr; · (ipureintro; rfl)
  iexact Hx

/-! ## The library's body obligation -/

set_option maxRecDepth 65536 in
def bodyPre' (c : Dev nD) : sProp 𝕄 :=
  iprop(Φ₀ m c ∗ (dats m 0 c).owesAt () t0_0.castSucc
    ∗ (∃ d, stg c cc0_stg0_0 ((dats m 0 c).before (0 : Fin 1) t0_0 d)))

set_option maxRecDepth 65536 in
/-- The body obligation on device `c`. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  show bodyPre' m c ⊢ wp frame (wpE (defs₀ (F := F)) 𝒱₀ c none) Set.univ
    (cc0_body (Memref.whole cc0_stg0_0) (Memref.isWhole_whole _) (Memref.whole main_v1) (Memref.isWhole_whole _)
      (Memref.whole cc0_scratch0) (Memref.isWhole_whole _) cc0_scratch1 cc0_scratch2 cc0_scratch3 cc0_scratch4 cc0_scratch5 cc0_scratch6)
    (fun _ => bodyPost m c)
  unfold bodyPre' Φ₀ start
  iintro ⟨⟨⟨⟨%K, Hg⟩, H1, H2, H3, H4, H5⟩, Hscr⟩, Ho, Hx⟩
  iapply (sound_body m K c fun _ => bodyPost m c)
  unfold bodyPre
  isplitr []
  · isplitl [Hg H1 H2 H3 H4 H5 Hscr]
    · isplitl [Hg]; · iexact Hg
      isplitl [H1]; · iexact H1
      isplitl [H2]; · iexact H2
      isplitl [H3]; · iexact H3
      isplitl [H4]; · iexact H4
      isplitl [H5]; · iexact H5
      iexact Hscr
    isplitl [Ho]; · iexact Ho
    iexact Hx
  · iintro H; iexact H

end Cert.KernelIdeal.AG

end
-- ==== Proof.KernelIdealLaunch.lean ====
/-
  From the devices' bodies to the run of the whole mesh.

  Every device's sixty-seven cells — its barrier cell and the sixty-six semaphores of its scratch — are
  funded at launch at round 0, each with its owner's position and the tokens of its duties. One global step
  puts every cell's counter and round state under an invariant, chooses the names of all invariants at once,
  and deals the tokens around the mesh: a device keeps the tokens of the transfers it pays itself and
  receives, from its neighbour across x, the token of that neighbour's barrier duty 0 and of its sixteen
  arrivals across x, and from its neighbour across y the token of that neighbour's barrier duty 1 and of its
  sixteen arrivals across y. The credit dealt at launch is what the others owe a device's cells: two units on
  its barrier cell and one transfer on each arrival cell. The result array travels beside the pipeline: in
  with the start state, out with the end state, and is read off the final memory.
-/
import proofs.«900340_g7700000000000341_dist_ag_v7x_xyz2x2x4_x_m512_n512_f32_1_alg».proof.Proof.KernelIdealLevels
import proofs.«900340_g7700000000000341_dist_ag_v7x_xyz2x2x4_x_m512_n512_f32_1_alg».proof.Proof.Gen.KernelIdeal.Frame

set_option maxRecDepth 16384

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

local notation "𝕄" => MT nD τ sig Unit (Elt F) ℕ UU ℕ

/-! ## The cells of a device, indexed -/

/-- The four arrays of sixteen: chunk and which array (departures across x, arrivals across x, departures
    across y, arrivals across y). -/
def xsem : Fin 16 × Fin 4 → SemLoc sig
  | (k, 0) => .dma (sxS k) | (k, 1) => .dma (rxS k) | (k, 2) => .dma (syS k) | (k, 3) => .dma (ryS k)

/-- The kernel's own sixty-six semaphores. -/
abbrev OK : Type := Fin 2 ⊕ (Fin 16 × Fin 4)
def osem : OK → SemLoc sig
  | .inl 0 => .dma ownS | .inl 1 => .dma locS | .inr q => xsem q

/-- All sixty-seven cells of a device: the barrier cell first. -/
abbrev CK : Type := Unit ⊕ OK
def csem : CK → SemLoc sig
  | .inl _ => .reg barS | .inr q => osem q

abbrev kcell (ck : Dev nD × CK) : GSem nD τ sig := ((ck.1 : Thread nD τ), csem ck.2)

/-- A semaphore's place: the pool position of a DMA semaphore, 0 for a regular one. -/
def spos : SemLoc sig → ℕ
  | .reg _ => 0 | .dma d => d.val
def opos : OK → ℕ
  | .inl i => 1 + i.val | .inr (k, j) => 3 + 16 * j.val + k.val

theorem spos_osem (q : OK) : spos (osem q) = opos q := by
  rcases q with i | ⟨k, j⟩
  · fin_cases i
    · exact ownS_val
    · exact locS_val
  · fin_cases j
    · exact (sxS_val k).trans (by simp only [opos] <;> omega)
    · exact (rxS_val k).trans (by simp only [opos] <;> omega)
    · exact (syS_val k).trans (by simp only [opos] <;> omega)
    · exact (ryS_val k).trans (by simp only [opos] <;> omega)

theorem opos_pos (q : OK) : 1 ≤ opos q := by
  rcases q with i | ⟨k, j⟩ <;> simp only [opos] <;> omega

theorem opos_injective : Function.Injective opos := by
  rintro (i | ⟨k, j⟩) (i' | ⟨k', j'⟩) h <;> simp only [opos] at h
  · exact congrArg Sum.inl (Fin.ext (by omega))
  · have := i.isLt; omega
  · have := i'.isLt; omega
  · have hk := k.isLt; have hk' := k'.isLt
    have h1 : j = j' := Fin.ext (by omega)
    have h2 : k = k' := Fin.ext (by omega)
    rw [h1, h2]

theorem osem_injective : Function.Injective osem := fun a b h =>
  opos_injective (by rw [← spos_osem, ← spos_osem, h])

theorem csem_injective : Function.Injective csem := by
  rintro (_ | a) (_ | b) h
  · rfl
  · exact absurd (congrArg spos h) (by show (0 : ℕ) ≠ spos (osem b); rw [spos_osem]; have := opos_pos b; omega)
  · exact absurd (congrArg spos h) (by show spos (osem a) ≠ (0 : ℕ); rw [spos_osem]; have := opos_pos a; omega)
  · exact congrArg Sum.inr (osem_injective h)

theorem kcell_injective : Function.Injective (kcell : Dev nD × CK → GSem nD τ sig) := by
  rintro ⟨c, k⟩ ⟨c', k'⟩ h
  have h1 : c = c' := by have := congrArg (fun g : GSem nD τ sig => g.1.1) h; exact this
  subst h1
  have h2 : k = k' := csem_injective (congrArg Prod.snd h)
  subst h2; rfl

/-! ## The kernel's own semaphores and the pipeline's -/

theorem ownSemFacts : Pipeline.OwnSemFacts cfg0.spec osem where
  isScoped := by decide
  inj := osem_injective
  disj := fun k w s h => by
    have h0 : ∀ (w : Fin cfg0.W) (s : Fin (cfg0.spec w).nbuf), spos (SemLoc.dma ((cfg0.spec w).sem s) : SemLoc sig) = 0 := by decide
    have := opos_pos k
    rw [← spos_osem, h, h0 w s] at this
    omega

theorem share_eq (c : Dev nD) (w : Fin cfg0.W) : (dats m 0 c).share w = fullShare := by unfold Dat.share; split <;> rfl

/-! ## Conjunctions over a device's cells, cell by cell -/

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ
omit [FloatOps F] in
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ
omit [FloatOps F] in
theorem bigSep_fin5 (Φ : Fin 5 → sProp 𝕄) : bigSep Finset.univ Φ = iprop(Φ 0 ∗ Φ 1 ∗ Φ 2 ∗ Φ 3 ∗ Φ 4) := bigSep_univ_eq_bigSepL [0, 1, 2, 3, 4] (by decide) (by decide) Φ

omit [FloatOps F] in
theorem bigSep_OK (Φ : SemLoc sig → sProp 𝕄) :
    bigSep Finset.univ (fun q : OK => Φ (osem q))
      = iprop((Φ (.dma ownS) ∗ Φ (.dma locS)) ∗ bigSep Finset.univ fun k : Fin 16 =>
          iprop(Φ (.dma (sxS k)) ∗ Φ (.dma (rxS k)) ∗ Φ (.dma (syS k)) ∗ Φ (.dma (ryS k)))) := by
  have e : ∀ k : Fin 16, (bigSep Finset.univ fun j : Fin 4 => Φ (osem (.inr (k, j))))
      = iprop(Φ (.dma (sxS k)) ∗ Φ (.dma (rxS k)) ∗ Φ (.dma (syS k)) ∗ Φ (.dma (ryS k))) := fun k => by rw [bigSep_fin4]; rfl
  rw [bigSep_univ_sum, bigSep_univ_two, bigSep_univ_prod, bigSep_congr (s := Finset.univ) fun k _ => e k]
  rfl

omit [FloatOps F] in
theorem bigSep_CK (Φ : GSem nD τ sig → sProp 𝕄) (c : Dev nD) :
    bigSep Finset.univ (fun k : CK => Φ (kcell (c, k)))
      = iprop(Φ (barCell c) ∗ (Φ (ownCell c) ∗ Φ (locCell c)) ∗ bigSep Finset.univ fun k : Fin 16 =>
          iprop(Φ (sxCell c k) ∗ Φ (rxCell c k) ∗ Φ (syCell c k) ∗ Φ (ryCell c k))) := by
  rw [bigSep_univ_sum, bigSep_univ_of_subsingleton ()]
  exact congrArg (fun X : sProp 𝕄 => iprop(Φ (barCell c) ∗ X)) (bigSep_OK (fun sm => Φ ((c : Thread nD τ), sm)))

/-! ## The cells and the duty tokens funded at launch -/

def agCells : Finset (GSem nD τ sig) := Finset.univ.map ⟨kcell, kcell_injective⟩

omit [FloatOps F] in
theorem kcell_mem (ck : Dev nD × CK) : kcell ck ∈ (agCells : Finset (GSem nD τ sig)) :=
  Finset.mem_map.mpr ⟨ck, Finset.mem_univ _, rfl⟩

/-- The duties of a device's cells: the barrier cell's two and the own copy's one; then per chunk the local
    copy's (a duty of the one shared cell) and the four transfers'. -/
abbrev TK : Type := Fin 3 ⊕ (Fin 16 × Fin 5)
def tcell : TK → CK
  | .inl 0 => .inl () | .inl 1 => .inl () | .inl 2 => .inr (.inl 0)
  | .inr (_, 0) => .inr (.inl 1) | .inr (k, 1) => .inr (.inr (k, 0)) | .inr (k, 2) => .inr (.inr (k, 2))
  | .inr (k, 3) => .inr (.inr (k, 1)) | .inr (k, 4) => .inr (.inr (k, 3))
def tduty : TK → Fin 16
  | .inl 0 => 0 | .inl 1 => 1 | .inl 2 => 0
  | .inr (k, 0) => k | .inr (_, 1) => 0 | .inr (_, 2) => 0 | .inr (_, 3) => 0 | .inr (_, 4) => 0

theorem tkey_injective : Function.Injective (fun t : TK => (tcell t, tduty t)) := by decide

abbrev tokOf (ct : Dev nD × TK) : GSem nD τ sig × ℕ × Fin 16 := (kcell (ct.1, tcell ct.2), 0, tduty ct.2)

theorem tokOf_injective : Function.Injective (tokOf : Dev nD × TK → GSem nD τ sig × ℕ × Fin 16) := by
  rintro ⟨c, t⟩ ⟨c', t'⟩ h
  have h1 : kcell (c, tcell t) = kcell (c', tcell t') := congrArg (fun x : GSem nD τ sig × ℕ × Fin 16 => x.1) h
  have h2 : tduty t = tduty t' := congrArg (fun x : GSem nD τ sig × ℕ × Fin 16 => x.2.2) h
  have h3 := kcell_injective h1
  have hc : c = c' := congrArg Prod.fst h3
  have ht : tcell t = tcell t' := congrArg Prod.snd h3
  have htt : t = t' := tkey_injective (Prod.ext ht h2)
  rw [hc, htt]

def agToks : Finset (GSem nD τ sig × ℕ × Fin 16) := Finset.univ.map ⟨tokOf, tokOf_injective⟩

def u₀ : UU :=
  (initOf (Pipeline.cells cfgs cellOf_inj) (Pipeline.launchToks cfgs cellOf_inj), initOf agCells agToks)

/-- The duty tokens of device `c`'s own cells. -/
def toks (c : Dev nD) : sProp 𝕄 :=
  iprop((dutyTok ER (barCell c) 0 0 ∗ dutyTok ER (barCell c) 0 1 ∗ dutyTok ER (ownCell c) 0 0)
    ∗ bigSep Finset.univ fun k : Fin 16 =>
        iprop(dutyTok ER (locCell c) 0 k ∗ dutyTok ER (sxCell c k) 0 0 ∗ dutyTok ER (syCell c k) 0 0
          ∗ dutyTok ER (rxCell c k) 0 0 ∗ dutyTok ER (ryCell c k) 0 0))

omit [FloatOps F] in
theorem bigSep_TK (c : Dev nD) :
    (bigSep Finset.univ fun t : TK => (dutyTok ER (kcell (c, tcell t)) 0 (tduty t) : sProp 𝕄)) = toks c := by
  have e : ∀ k : Fin 16, (bigSep Finset.univ fun j : Fin 5 => (dutyTok ER (kcell (c, tcell (.inr (k, j)))) 0 (tduty (.inr (k, j))) : sProp 𝕄))
      = iprop(dutyTok ER (locCell c) 0 k ∗ dutyTok ER (sxCell c k) 0 0 ∗ dutyTok ER (syCell c k) 0 0
          ∗ dutyTok ER (rxCell c k) 0 0 ∗ dutyTok ER (ryCell c k) 0 0) := fun k => by rw [bigSep_fin5]; rfl
  unfold toks
  rw [bigSep_univ_sum, bigSep_fin3, bigSep_univ_prod, bigSep_congr (s := Finset.univ) fun k _ => e k]
  rfl

/-- What the launch element deals device `c`: its cells' round states, its positions and the reached-marks, its
    cells' tokens. -/
def G (c : Dev nD) : sProp 𝕄 :=
  iprop((bigSep Finset.univ fun k : CK => roundState ER (agRd m) (kcell (c, k)) 0)
    ∗ (bigSep Finset.univ fun k : CK => iprop(atPos ER (kcell (c, k)) 0 ∅ 0 ∗ reached ER (kcell (c, k)) 0)) ∗ toks c)

/-- What the global step makes of it. -/
def G' (c : Dev nD) : sProp 𝕄 := iprop(∃ K, ghost m K c)

omit [FloatOps F] in
theorem fund_ag : BI.own (ER (initOf agCells agToks)) ⊢ (|==> bigSep Finset.univ (G m) : sProp 𝕄) := by
  have hX (Φ : GSem nD τ sig → sProp 𝕄) : bigSep agCells Φ = bigSep Finset.univ fun c : Dev nD => bigSep Finset.univ fun k : CK => Φ (kcell (c, k)) := by
    unfold agCells; rw [bigSep_map, bigSep_univ_prod]; rfl
  have hT : bigSep agToks (fun x => (dutyTok ER x.1 x.2.1 x.2.2 : sProp 𝕄)) = bigSep Finset.univ fun c : Dev nD => toks c := by
    unfold agToks; rw [bigSep_map, bigSep_univ_prod]
    exact bigSep_congr fun c _ => bigSep_TK c
  iintro HX
  imod (Rounds.fund ER (agRd m) agCells agToks) $$ HX with ⟨Hst, Hr, Hat, Htok⟩
  imodintro
  ihave Hst' := (Entails.of_eq (hX fun g => roundState ER (agRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: every cell under an invariant, the names chosen at once, the tokens dealt around -/

omit [FloatOps F] in
/-- The barrier semaphore is the one semaphore of a core that is not scoped. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem bigSep_CK' (Φ : CK → sProp 𝕄) : bigSep Finset.univ Φ = iprop(Φ (.inl ()) ∗ bigSep Finset.univ fun q : OK => Φ (.inr q)) := by
  rw [bigSep_univ_sum, bigSep_univ_of_subsingleton ()]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [unscopedSems0_eq, bigSep_CK']
  show iprop(Pipeline.ownSems0 (Ix := Unit) (Name := ℕ) (U := UU) (Lvl := ℕ) (Val := Elt F) (τ := τ) osem c ∗ semVal (barCell c) 0)
    ⊢ iprop(semVal (barCell c) 0 ∗ Pipeline.ownSems0 (Ix := Unit) (Name := ℕ) (U := UU) (Lvl := ℕ) (Val := Elt F) (τ := τ) osem c)
  iintro ⟨HS, HB⟩
  isplitl [HB]; · iexact HB
  iexact HS

omit [FloatOps F] in
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (agRd m) κ (kcell (c, k))))
          ∗ (bigSep Finset.univ fun k : CK => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (agRd m) (kcell (c, k)) 0)
      ⊢ (|={Set.univ}=> bigSep Finset.univ fun k : CK => iprop(∃ κ : ℕ, cellInv ER (agRd m) κ (kcell (c, k))) : sProp 𝕄) from by
        rw [← bigSep_sep']
        exact (bigSep_mono fun k _ => (Rounds.body_intro ER (agRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Every cell's invariant at the chosen names and every cell's round 0 reached: what all devices share. -/
def records (K : GSem nD τ sig → ℕ) : sProp 𝕄 :=
  iprop((bigSep agCells fun g => cellInv ER (agRd m) (K g) g) ∗ bigSep agCells fun g => reached ER g 0)

instance records_persistent (K : GSem nD τ sig → ℕ) : BI.Persistent (records m K) := by unfold records; infer_instance

omit [FloatOps F] in
theorem inv_at (K : GSem nD τ sig → ℕ) {g : GSem nD τ sig} (hg : g ∈ (agCells : Finset (GSem nD τ sig))) :
    records m K ⊢ cellInv ER (agRd m) (K g) g := by
  have h : (bigSep agCells fun g => (cellInv ER (agRd m) (K g) g : sProp 𝕄)) ⊢ cellInv ER (agRd m) (K g) g := bigSep_elim hg
  unfold records
  iintro ⟨HI, -⟩
  iapply h
  iexact HI
omit [FloatOps F] in
theorem reached_at (K : GSem nD τ sig → ℕ) {g : GSem nD τ sig} (hg : g ∈ (agCells : Finset (GSem nD τ sig))) :
    records m K ⊢ reached ER g 0 := by
  have h : (bigSep agCells fun g => (reached ER g 0 : sProp 𝕄)) ⊢ reached ER g 0 := bigSep_elim hg
  unfold records
  iintro ⟨-, HR⟩
  iapply h
  iexact HR

omit [FloatOps F] in
theorem mem_bar (c : Dev nD) : barCell c ∈ (agCells : Finset (GSem nD τ sig)) := kcell_mem (c, .inl ())
omit [FloatOps F] in
theorem mem_own (c : Dev nD) : ownCell c ∈ (agCells : Finset (GSem nD τ sig)) := kcell_mem (c, .inr (.inl 0))
omit [FloatOps F] in
theorem mem_loc (c : Dev nD) : locCell c ∈ (agCells : Finset (GSem nD τ sig)) := kcell_mem (c, .inr (.inl 1))
omit [FloatOps F] in
theorem mem_sx (c : Dev nD) (k : Fin 16) : sxCell c k ∈ (agCells : Finset (GSem nD τ sig)) := kcell_mem (c, .inr (.inr (k, 0)))
omit [FloatOps F] in
theorem mem_rx (c : Dev nD) (k : Fin 16) : rxCell c k ∈ (agCells : Finset (GSem nD τ sig)) := kcell_mem (c, .inr (.inr (k, 1)))
omit [FloatOps F] in
theorem mem_sy (c : Dev nD) (k : Fin 16) : syCell c k ∈ (agCells : Finset (GSem nD τ sig)) := kcell_mem (c, .inr (.inr (k, 2)))
omit [FloatOps F] in
theorem mem_ry (c : Dev nD) (k : Fin 16) : ryCell c k ∈ (agCells : Finset (GSem nD τ sig)) := kcell_mem (c, .inr (.inr (k, 3)))

omit [FloatOps F] in
theorem invs_intro (K : GSem nD τ sig → ℕ) (c : Dev nD) : records m K ⊢ invs m K c := by
  have hk (k : Fin 16) : records m K ⊢ iprop(cellInv ER (agRd m) (K (sxCell c k)) (sxCell c k) ∗ cellInv ER (agRd m) (K (rxCell c k)) (rxCell c k)
          ∗ cellInv ER (agRd m) (K (syCell c k)) (syCell c k) ∗ cellInv ER (agRd m) (K (ryCell c k)) (ryCell c k)
          ∗ cellInv ER (agRd m) (K (rxCell (xp c) k)) (rxCell (xp c) k) ∗ cellInv ER (agRd m) (K (ryCell (yp c) k)) (ryCell (yp c) k)) := by
    iintro #HR
    isplitr; · iapply (inv_at m K (mem_sx c k)); iexact HR
    isplitr; · iapply (inv_at m K (mem_rx c k)); iexact HR
    isplitr; · iapply (inv_at m K (mem_sy c k)); iexact HR
    isplitr; · iapply (inv_at m K (mem_ry c k)); iexact HR
    isplitr; · iapply (inv_at m K (mem_rx (xp c) k)); iexact HR
    iapply (inv_at m K (mem_ry (yp c) k)); iexact HR
  unfold invs
  iintro #HR
  isplitr; · iapply (inv_at m K (mem_bar c)); iexact HR
  isplitr; · iapply (inv_at m K (mem_bar (xp c))); iexact HR
  isplitr; · iapply (inv_at m K (mem_bar (yp c))); iexact HR
  isplitr; · iapply (inv_at m K (mem_own c)); iexact HR
  isplitr; · iapply (inv_at m K (mem_loc c)); iexact HR
  iapply (bigSep_intro_persistent (R := records m K) (S := Finset.univ) fun k _ => hk k); iexact HR

omit [FloatOps F] in
theorem reach0_intro (K : GSem nD τ sig → ℕ) (c : Dev nD) : records m K ⊢ reach0 c := by
  have hk (k : Fin 16) : records m K ⊢ iprop(reached ER (sxCell c k) 0 ∗ reached ER (rxCell c k) 0 ∗ reached ER (syCell c k) 0 ∗ reached ER (ryCell c k) 0) := by
    iintro #HR
    isplitr; · iapply (reached_at m K (mem_sx c k)); iexact HR
    isplitr; · iapply (reached_at m K (mem_rx c k)); iexact HR
    isplitr; · iapply (reached_at m K (mem_sy c k)); iexact HR
    iapply (reached_at m K (mem_ry c k)); iexact HR
  unfold reach0
  iintro #HR
  isplitr; · iapply (reached_at m K (mem_bar (xp c))); iexact HR
  isplitr; · iapply (reached_at m K (mem_bar (yp c))); iexact HR
  isplitr; · iapply (reached_at m K (mem_own c)); iexact HR
  isplitr; · iapply (reached_at m K (mem_loc c)); iexact HR
  iapply (bigSep_intro_persistent (R := records m K) (S := Finset.univ) fun k _ => hk k); iexact HR

omit [FloatOps F] in
theorem positions_intro (c : Dev nD) : (bigSep Finset.univ fun k : CK => (atPos ER (kcell (c, k)) 0 ∅ 0 : sProp 𝕄)) ⊢ positions c := by
  rw [bigSep_CK (fun g => (atPos ER g 0 ∅ 0 : sProp 𝕄)) c]; unfold positions
  iintro ⟨Hb, ⟨Ho, Hl⟩, Hk⟩
  isplitl [Hb]; · iexact Hb
  isplitl [Ho]; · iexact Ho
  isplitl [Hl]; · iexact Hl
  iexact Hk

omit [FloatOps F] in
theorem ghost_intro (K : GSem nD τ sig → ℕ) (c : Dev nD) : iprop(records m K ∗ positions c ∗ payToks c) ⊢ G' m c := by
  unfold G' ghost
  iintro ⟨#HR, Hpos, Htok⟩
  iexists K
  isplitr; · iapply (invs_intro m K c); iexact HR
  isplitr; · iapply (reach0_intro m K c); iexact HR
  isplitl [Hpos]; · iexact Hpos
  iexact Htok

omit [FloatOps F] in
/-- The tokens dealt around the mesh: a barrier cell's duty 0 and the arrivals' across x go to the neighbour across
    x, a barrier cell's duty 1 and the arrivals' across y to the neighbour across y; the rest stay. -/
theorem toks_around : (bigSep Finset.univ fun c : Dev nD => (toks c : sProp 𝕄)) ⊢ bigSep Finset.univ fun c : Dev nD => payToks c := by
  unfold toks payToks
  simp only [bigSep_sep']
  rw [bigSep_univ_equiv xEquiv (fun c : Dev nD => (dutyTok ER (barCell c) 0 0 : sProp 𝕄)),
    bigSep_univ_equiv yEquiv (fun c : Dev nD => (dutyTok ER (barCell c) 0 1 : sProp 𝕄)),
    bigSep_univ_equiv xEquiv (fun c : Dev nD => bigSep Finset.univ fun k : Fin 16 => (dutyTok ER (rxCell c k) 0 0 : sProp 𝕄)),
    bigSep_univ_equiv yEquiv (fun c : Dev nD => bigSep Finset.univ fun k : Fin 16 => (dutyTok ER (ryCell c k) 0 0 : sProp 𝕄))]
  iintro ⟨⟨H1, H2, H3⟩, H4, H5, H6, H7, H8⟩
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

omit [FloatOps F] in
theorem regroup :
    (bigSep Finset.univ fun c : Dev nD => iprop((bigSep Finset.univ fun k : CK => iprop(∃ κ : ℕ, cellInv ER (agRd m) κ (kcell (c, k))))
          ∗ (bigSep Finset.univ fun k : CK => iprop(atPos ER (kcell (c, k)) 0 ∅ 0 ∗ reached ER (kcell (c, k)) 0)) ∗ toks c) : sProp 𝕄)
      ⊢ bigSep Finset.univ (G' m) := by
  have hX (Φ : GSem nD τ sig → sProp 𝕄) : (bigSep Finset.univ fun c : Dev nD => bigSep Finset.univ fun k : CK => Φ (kcell (c, k))) = bigSep agCells Φ := by
    unfold agCells; rw [bigSep_map, bigSep_univ_prod]; rfl
  rw [bigSep_sep', bigSep_sep', hX (fun g => iprop(∃ κ : ℕ, cellInv ER (agRd m) κ g)),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', hX (fun g => (reached ER g 0 : sProp 𝕄))]
  iintro ⟨HI, ⟨Hat, #HR⟩, Htok⟩
  ihave HK := (BI.bigSep_exists_pi agCells (fun (g : GSem nD τ sig) (κ : ℕ) => (cellInv ER (agRd m) κ g : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (show iprop((bigSep Finset.univ fun c : Dev nD => (positions c : sProp 𝕄)) ∗ bigSep Finset.univ fun c : Dev nD => (payToks c : sProp 𝕄))
        ⊢ bigSep Finset.univ fun c : Dev nD => iprop(positions c ∗ payToks c) from Entails.of_eq (bigSep_sep' Finset.univ (fun c : Dev nD => (positions c : sProp 𝕄)) payToks).symm)
    isplitl [Hat]
    · iapply (show (bigSep Finset.univ fun c : Dev nD => bigSep Finset.univ fun k : CK => (atPos ER (kcell (c, k)) 0 ∅ 0 : sProp 𝕄))
          ⊢ bigSep Finset.univ fun c : Dev nD => (positions c : sProp 𝕄) from bigSep_mono fun c _ => positions_intro c)
      iexact Hat
    · iexact Htk

omit [FloatOps F] in
/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit: what the others owe a device's cells -/

omit [FloatOps F] in
theorem creds (c : Dev nD) :
    (Pipeline.launchCred O₀ c : sProp 𝕄) ⊢ iprop(cred (tallyAt (barCell c) () 2)
      ∗ (bigSep Finset.univ fun k : Fin 16 => cred (tallyAt (rxCell c k) () N16))
      ∗ (bigSep Finset.univ fun k : Fin 16 => cred (tallyAt (ryCell c k) () N16))) := by
  have e1 : (Pipeline.launchCred O₀ c : sProp 𝕄)
      = iprop(Pipeline.launchCred (fun d => O₁ d + tallyAt (barCell (yp d)) () 1) c ∗ Pipeline.launchCred (fun d => tallyAt (barCell (xp d)) () 1) c) :=
    Pipeline.launchCred_add (fun d => O₁ d + tallyAt (barCell (yp d)) () 1) (fun d => tallyAt (barCell (xp d)) () 1) c
  have e2 : (Pipeline.launchCred (fun d => O₁ d + tallyAt (barCell (yp d)) () 1) c : sProp 𝕄)
      = iprop(Pipeline.launchCred O₁ c ∗ Pipeline.launchCred (fun d => tallyAt (barCell (yp d)) () 1) c) :=
    Pipeline.launchCred_add O₁ (fun d => tallyAt (barCell (yp d)) () 1) c
  have e3 : (Pipeline.launchCred O₁ c : sProp 𝕄)
      = iprop(Pipeline.launchCred (fun d => oweY d 0) c ∗ Pipeline.launchCred (fun d => oweX d 0) c) :=
    Pipeline.launchCred_add (fun d => oweY d 0) (fun d => oweX d 0) c
  have e4 : (Pipeline.launchCred (fun d => oweY d 0) c : sProp 𝕄)
      = bigSep (fromK 0) fun j => Pipeline.launchCred (fun d => tallyAt (ryCell (yp d) j) () N16) c :=
    Pipeline.launchCred_sum (fromK 0) (fun j d => tallyAt (ryCell (yp d) j) () N16) c
  have e5 : (Pipeline.launchCred (fun d => oweX d 0) c : sProp 𝕄)
      = bigSep (fromK 0) fun j => Pipeline.launchCred (fun d => tallyAt (rxCell (xp d) j) () N16) c :=
    Pipeline.launchCred_sum (fromK 0) (fun j d => tallyAt (rxCell (xp d) j) () N16) c
  have hbY : (Pipeline.launchCred (fun d => tallyAt (barCell (yp d)) () 1) c : sProp 𝕄) ⊢ cred (tallyAt (barCell c) () 1) :=
    Pipeline.launchCred_tallyAt (.reg barS) yp yp yp_yp yp_yp () 1 c
  have hbX : (Pipeline.launchCred (fun d => tallyAt (barCell (xp d)) () 1) c : sProp 𝕄) ⊢ cred (tallyAt (barCell c) () 1) :=
    Pipeline.launchCred_tallyAt (.reg barS) xp xp xp_xp xp_xp () 1 c
  have hrx : (bigSep Finset.univ fun j : Fin 16 => (Pipeline.launchCred (fun d => tallyAt (rxCell (xp d) j) () N16) c : sProp 𝕄))
      ⊢ bigSep Finset.univ fun k : Fin 16 => cred (tallyAt (rxCell c k) () N16) :=
    bigSep_mono fun k _ => Pipeline.launchCred_tallyAt (.dma (rxS k)) xp xp xp_xp xp_xp () N16 c
  have hry : (bigSep Finset.univ fun j : Fin 16 => (Pipeline.launchCred (fun d => tallyAt (ryCell (yp d) j) () N16) c : sProp 𝕄))
      ⊢ bigSep Finset.univ fun k : Fin 16 => cred (tallyAt (ryCell c k) () N16) :=
    bigSep_mono fun k _ => Pipeline.launchCred_tallyAt (.dma (ryS k)) yp yp yp_yp yp_yp () N16 c
  have h2 : iprop(cred (tallyAt (barCell c) () 1) ∗ cred (tallyAt (barCell c) () 1)) ⊢ (cred (tallyAt (barCell c) () 2) : sProp 𝕄) :=
    (cred_add (tallyAt (barCell c) () 1) (tallyAt (barCell c) () 1)).2.trans (Entails.of_eq (congrArg cred (tallyAt_add (barCell c) () 1 1)))
  rw [e1, e2, e3, e4, e5, fromK_zero]
  iintro ⟨⟨⟨HY, HX⟩, HbY⟩, HbX⟩
  ihave HbY' := hbY $$ HbY
  ihave HbX' := hbX $$ HbX
  isplitl [HbY' HbX']
  · iapply h2
    isplitl [HbY'] <;> iassumption
  isplitl [HX]
  · iapply hrx; iexact HX
  · iapply hry; iexact HY

/-! ## The launch theorem's side conditions -/

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Hout, Hlev, Hcr, -, HG⟩
  ihave Hc := (creds (F := F) c) $$ Hcr
  icases Hc with ⟨H1, HX, HY⟩
  imodintro
  unfold start G'
  isplitl
  · isplitl [HG]; · iexact HG
    isplitl [H1]; · iexact H1
    isplitl [HX]; · iexact HX
    isplitl [HY]; · iexact HY
    isplitl [Hlev]; · iexact Hlev
    iexact Hout
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs]; · iexact Hs
  iexact Hr

omit [FloatOps F] in
/-- The kernel's own semaphores at zero, by their names. -/
theorem ownSems0_eq (c : Dev nD) : (Pipeline.ownSems0 (Ix := Unit) (Name := ℕ) (U := UU) (Lvl := ℕ) (Val := Elt F) (τ := τ) osem c : sProp 𝕄)
    = iprop((semVal (ownCell c) 0 ∗ semVal (locCell c) 0) ∗ bigSep Finset.univ fun k : Fin 16 =>
        iprop(semVal (sxCell c k) 0 ∗ semVal (rxCell c k) 0 ∗ semVal (syCell c k) 0 ∗ semVal (ryCell c k) 0)) := by
  unfold Pipeline.ownSems0
  exact bigSep_OK (fun sm => (semVal ((c : Thread nD τ), sm) 0 : sProp 𝕄))

theorem phi1_exit (c : Dev nD) :
    (dats m 0 c).Φ (Fin.last cfg0.N) ⊢ iprop((((c : Thread nD τ).loc main_v1) ↦{fullShare} gathered m c)
      ∗ Pipeline.ownSems0 (Ix := Unit) (Name := ℕ) (U := UU) (Lvl := ℕ) (Val := Elt F) (τ := τ) osem c ∗ Pipeline.scopedRest cfg0.spec c) := by
  rw [show (dats m 0 c).Φ (Fin.last cfg0.N) = Φ₁ m c from rfl, scopedRest0_eq, ownSems0_eq]
  unfold Φ₁
  iintro ⟨Hr, Ho, Hown, Hloc, Hk⟩
  isplitl [Ho]; · iexact Ho
  isplitl [Hown Hloc Hk]
  · isplitl [Hown Hloc]
    · isplitl [Hown] <;> iassumption
    · iexact Hk
  iexists (rcont m c); iexact Hr

/-- The pipeline's staging semaphore sits at level 0. -/
theorem lv_stage : ∀ (w : Fin cfg0.W) (s : Fin (cfg0.spec w).nbuf), lvK (kindOf (SemLoc.dma ((cfg0.spec w).sem s) : SemLoc sig)) = 0 := by decide

theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait_low c _ (lv_stage w s)
    · show _ ⊢ MayWait _ _ _ 0
      rw [MayWait_zero]; iintro -; iempintro

/-! ## The run -/

/-- At the compiled mesh of sixteen devices, for any float values, from any memory with zero counters: if every
    device's body meets its obligation, every weakly fair execution of @main terminates, and in every final state
    each device's result array is the gathered one and its argument array is unchanged. -/
theorem run_of_body (hbody : ∀ c : Dev nD, BodyObligation (dats (F := F) m 0 c) (defs₀ (F := F)) 𝒱₀ () Set.univ) :
    θ_run (defs (F := F)) (onTc (τ := τ) (main (F := F))) ⟨m, fun _ => 0, ρ⟩ (fun r => ∀ c : Dev nD,
      r.2.mem ((c.tc : Thread nD τ).loc main_v1) = gathered m c
      ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ag m) $$ HX with HG
      imodintro
      isplitl [HP] <;> iassumption)
    (hglob := glob m)
    (hA := fun _ _ => rfl) (hpf := fun _ k => k.elim0)
    (X := start m) (Y := fun c => (((c : Thread nD τ).loc main_v1) ↦{fullShare} gathered m c)) (Z := fun _ => iprop(emp))
    (hX := start_intro m ρ) (hin := phi0_intro m) (hout := phi1_exit m)
    (QY := fun c s => s.mem ((c : Thread nD τ).loc main_v1) = gathered m c)
    (hY := fun c s' => by
      iintro ⟨HY, -, HSI⟩
      icombine HSI HY gives %h
      imodintro
      isplitr; · ipureintro; exact Buf.eq_of_forall_mem_univ h
      iexact HSI)
    (hQ := fun s h c => ⟨(h c).2.2,
      ((h c).1 0).trans (((dats m 0 c).arrAt_in 0 rfl _).trans (V_main_arg0 m c))⟩)

end Cert.KernelIdeal.AG

end
-- ==== Proof.KernelIdealRun.lean ====
/-
  The run of the whole mesh: every device's body obligation, handed to the launch, gives that every fair execution of
  the sixteen devices terminates without a fault with each device's result array the gathered array and its argument
  unchanged.
-/
import proofs.«900340_g7700000000000341_dist_ag_v7x_xyz2x2x4_x_m512_n512_f32_1_alg».proof.Proof.KernelIdealBody
import proofs.«900340_g7700000000000341_dist_ag_v7x_xyz2x2x4_x_m512_n512_f32_1_alg».proof.Proof.KernelIdealLaunch

set_option maxRecDepth 16384

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem run : RunStmt F := fun m ρ => run_of_body m ρ (fun c => body_obligation m c)

end Cert.KernelIdeal.AG

end
-- ==== Proof.lean ====
/-
  The all-gather over a mesh of sixteen devices (x = 2, y = 2, z = 4), against the identity on the whole array.

  The array of 1024 rows is cut along its rows by the x axis only: every device holds the block of 512 rows its x
  coordinate names. Each device copies its own block into its rows of the result, sends the half of its block its y
  coordinate names across x in sixteen chunks of sixteen rows, and forwards every chunk it receives across y while
  copying it into its own result; so a device ends with its own block, one half of the other block from its
  x-neighbour and the other half, through its y-neighbour, from that neighbour's x-neighbour: the whole array, on every
  device. No arithmetic is done on the data, so the word-level program and its reading over the extended reals move the
  same elements, the idealization has nothing to restate, and the precondition is not used.

  The two runs (word level and idealized) are the same proof at two float instances: the protocol of semaphore cells
  (one round per cell; the barrier handshake hands each device its neighbours' buffers before it writes into them), one
  device's body stepped chunk by chunk, and the launch over the whole mesh. The claims follow from the runs: the frames
  by forgetting the value, the equivalence because every block of the whole array is found on the device it is read from.
-/
import proofs.«900340_g7700000000000341_dist_ag_v7x_xyz2x2x4_x_m512_n512_f32_1_alg».proof.Defs
import proofs.«900340_g7700000000000341_dist_ag_v7x_xyz2x2x4_x_m512_n512_f32_1_alg».proof.Proof.Claims
import proofs.«900340_g7700000000000341_dist_ag_v7x_xyz2x2x4_x_m512_n512_f32_1_alg».proof.Proof.KernelRun
import proofs.«900340_g7700000000000341_dist_ag_v7x_xyz2x2x4_x_m512_n512_f32_1_alg».proof.Proof.KernelIdealRun

noncomputable section

namespace Cert.Proof

open Idealize.ShloMosaic Idealize.SL.Sem

theorem claim : Cert.Claim :=
  Cert.Proof.Claims.claim_of_runs (Cert.Kernel.AG.run (F := Bits)) (Cert.KernelIdeal.AG.run (F := Ideal))

end Cert.Proof

end
